-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg15 : FVec F S128 .f32) (main_arg16 : FVec F S128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg12 : FVec F S128x128 .f32) (main_arg13 : FVec F S128 .f32) (main_arg14 : FVec F S128x128 .f32) (main_arg15 : FVec F S128 .f32) (main_arg16 : FVec F S128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_v63 main_v67

def fn_part2 {F : FTy → Type} [FloatOps F] (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S2000x128 : Shape := ⟨2, ![2000, 128]⟩
abbrev S2000x1 : Shape := ⟨2, ![2000, 1]⟩
abbrev S1600000x128 : Shape := ⟨2, ![1600000, 128]⟩
abbrev S1x128 : Shape := ⟨2, ![1, 128]⟩
abbrev S2000 : Shape := ⟨1, ![2000]⟩

abbrev nBuf : Space → Nat
  | .hbm => 138
  | .vmem => 76
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128, .f32⟩
  | 17 => ⟨S128, .f32⟩
  | 18 => ⟨S1x1600000, .i32⟩
  | 19 => ⟨S1600000, .i32⟩
  | 20 => ⟨S1x1600000, .i32⟩
  | 21 => ⟨S1600000, .i32⟩
  | 22 => ⟨S_, .f32⟩
  | 23 => ⟨S1600000, .f32⟩
  | 24 => ⟨S_, .f32⟩
  | 25 => ⟨S100000, .f32⟩
  | 26 => ⟨S1600000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S100000x1, .f32⟩
  | 33 => ⟨S100000x128, .f32⟩
  | 34 => ⟨S100000x128, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x128, .f32⟩
  | 44 => ⟨S_, .f32⟩
  | 45 => ⟨S100000x128, .f32⟩
  | 46 => ⟨S1600000x1, .i32⟩
  | 47 => ⟨S100000x128, .f32⟩
  | 48 => ⟨S100000x128, .f32⟩
  | 49 => ⟨S_, .f32⟩
  | 50 => ⟨S128, .f32⟩
  | 51 => ⟨S_, .f32⟩
  | 52 => ⟨S128, .f32⟩
  | 53 => ⟨S128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S100000x128, .f32⟩
  | 62 => ⟨S100000x128, .f32⟩
  | 63 => ⟨S100000x128, .f32⟩
  | 64 => ⟨S_, .f32⟩
  | 65 => ⟨S_, .f32⟩
  | 66 => ⟨S_, .f32⟩
  | 67 => ⟨S_, .f32⟩
  | 68 => ⟨S128, .f32⟩
  | 69 => ⟨S128, .f32⟩
  | 70 => ⟨S128, .f32⟩
  | 71 => ⟨S_, .f32⟩
  | 72 => ⟨S_, .i1⟩
  | 73 => ⟨S_, .f32⟩
  | 74 => ⟨S_, .f32⟩
  | 75 => ⟨S128, .f32⟩
  | 76 => ⟨S128, .f32⟩
  | 77 => ⟨S100000x128, .f32⟩
  | 78 => ⟨S100000x128, .f32⟩
  | 79 => ⟨S100000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S_, .f32⟩
  | 90 => ⟨S100000x128, .f32⟩
  | 91 => ⟨S1600000x1, .i32⟩
  | 92 => ⟨S100000x128, .f32⟩
  | 93 => ⟨S100000x128, .f32⟩
  | 94 => ⟨S_, .f32⟩
  | 95 => ⟨S128, .f32⟩
  | 96 => ⟨S_, .f32⟩
  | 97 => ⟨S128, .f32⟩
  | 98 => ⟨S128, .f32⟩
  | 99 => ⟨S_, .i32⟩
  | 100 => ⟨S_, .f32⟩
  | 101 => ⟨S128, .f32⟩
  | 102 => ⟨S1x128, .f32⟩
  | 103 => ⟨S_, .f32⟩
  | 104 => ⟨S1x128, .f32⟩
  | 105 => ⟨S1x128, .f32⟩
  | 106 => ⟨S100000x128, .f32⟩
  | 107 => ⟨S100000x128, .f32⟩
  | 108 => ⟨S100000x128, .f32⟩
  | 109 => ⟨S_, .f32⟩
  | 110 => ⟨S_, .f32⟩
  | 111 => ⟨S_, .f32⟩
  | 112 => ⟨S_, .f32⟩
  | 113 => ⟨S128, .f32⟩
  | 114 => ⟨S128, .f32⟩
  | 115 => ⟨S128, .f32⟩
  | 116 => ⟨S_, .f32⟩
  | 117 => ⟨S_, .i1⟩
  | 118 => ⟨S_, .f32⟩
  | 119 => ⟨S_, .f32⟩
  | 120 => ⟨S128, .f32⟩
  | 121 => ⟨S128, .f32⟩
  | 122 => ⟨S100000x128, .f32⟩
  | 123 => ⟨S100000x128, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x128, .f32⟩
  | 5 => ⟨S_, .f32⟩
  | 6 => ⟨S100000x128, .f32⟩
  | 7 => ⟨S1600000x1, .i32⟩
  | 8 => ⟨S100000x128, .f32⟩
  | 9 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S2000x1, .f32⟩
  | .local _ .vmem, ⟨32, _⟩ => ⟨S2000x1, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x1, .f32⟩
  | .local _ .vmem, ⟨42, _⟩ => ⟨S2000x1, .f32⟩
  | .local _ .vmem, ⟨43, _⟩ => ⟨S128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S128, .f32⟩
  | .local _ .vmem, ⟨49, _⟩ => ⟨S128, .f32⟩
  | .local _ .vmem, ⟨50, _⟩ => ⟨S128, .f32⟩
  | .local _ .vmem, ⟨51, _⟩ => ⟨S128, .f32⟩
  | .local _ .vmem, ⟨52, _⟩ => ⟨S2000x128, .f32⟩
  | .local _ .vmem, ⟨53, _⟩ => ⟨S2000x128, .f32⟩
  | .local _ .vmem, ⟨54, _⟩ => ⟨S128x128, .f32⟩
  | .local _ .vmem, ⟨55, _⟩ => ⟨S128, .f32⟩
  | .local _ .vmem, ⟨56, _⟩ => ⟨S128x128, .f32⟩
  | .local _ .vmem, ⟨57, _⟩ => ⟨S128, .f32⟩
  | .local _ .vmem, ⟨58, _⟩ => ⟨S128, .f32⟩
  | .local _ .vmem, ⟨59, _⟩ => ⟨S128, .f32⟩
  | .local _ .vmem, ⟨60, _⟩ => ⟨S128x128, .f32⟩
  | .local _ .vmem, ⟨61, _⟩ => ⟨S2000x1, .f32⟩
  | .local _ .vmem, ⟨62, _⟩ => ⟨S2000x1, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S2000x128, .f32⟩
  | .local _ .vmem, ⟨70, _⟩ => ⟨S2000x128, .f32⟩
  | .local _ .vmem, ⟨71, _⟩ => ⟨S2000x1, .f32⟩
  | .local _ .vmem, ⟨72, _⟩ => ⟨S2000x1, .f32⟩
  | .local _ .vmem, ⟨73, _⟩ => ⟨S128, .f32⟩
  | .local _ .vmem, ⟨74, _⟩ => ⟨S2000x128, .f32⟩
  | .local _ .vmem, ⟨75, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12_0 : Ref sig .tc := ⟨.hbm, 33, rfl⟩
abbrev main_v12_1 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_4 : Ref sig .tc := ⟨.hbm, 49, rfl⟩
abbrev main_v24 : Ref sig .tc := ⟨.hbm, 50, rfl⟩
abbrev main_cst_5 : Ref sig .tc := ⟨.hbm, 51, rfl⟩
abbrev main_v25 : Ref sig .tc := ⟨.hbm, 52, rfl⟩
abbrev main_v26 : Ref sig .tc := ⟨.hbm, 53, rfl⟩
abbrev main_c_6 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_cst_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_cst_1 : Ref sig .tc := ⟨.hbm, 65, rfl⟩
abbrev main_call0_v8 : Ref sig .tc := ⟨.hbm, 66, rfl⟩
abbrev main_call0_cst_2 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_cst_3 : Ref sig .tc := ⟨.hbm, 71, rfl⟩
abbrev main_call0_v12 : Ref sig .tc := ⟨.hbm, 72, rfl⟩
abbrev main_call0_cst_4 : Ref sig .tc := ⟨.hbm, 73, rfl⟩
abbrev main_call0_call0_v0 : Ref sig .tc := ⟨.hbm, 74, rfl⟩
abbrev main_call0_call0_v1 : Ref sig .tc := ⟨.hbm, 75, rfl⟩
abbrev main_v27 : Ref sig .tc := ⟨.hbm, 76, rfl⟩
abbrev main_v28 : Ref sig .tc := ⟨.hbm, 77, rfl⟩
abbrev main_v29_0 : Ref sig .tc := ⟨.hbm, 78, rfl⟩
abbrev main_v29_1 : Ref sig .tc := ⟨.hbm, 79, rfl⟩
abbrev main_c_7 : Ref sig .tc := ⟨.hbm, 80, rfl⟩
abbrev main_v30 : Ref sig .tc := ⟨.hbm, 81, rfl⟩
abbrev main_v31 : Ref sig .tc := ⟨.hbm, 82, rfl⟩
abbrev main_c_8 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_cst_9 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_cst_10 : Ref sig .tc := ⟨.hbm, 94, rfl⟩
abbrev main_v41 : Ref sig .tc := ⟨.hbm, 95, rfl⟩
abbrev main_cst_11 : Ref sig .tc := ⟨.hbm, 96, rfl⟩
abbrev main_v42 : Ref sig .tc := ⟨.hbm, 97, rfl⟩
abbrev main_v43 : Ref sig .tc := ⟨.hbm, 98, rfl⟩
abbrev main_c_12 : Ref sig .tc := ⟨.hbm, 99, rfl⟩
abbrev main_call1_cst : Ref sig .tc := ⟨.hbm, 100, rfl⟩
abbrev main_call1_v0 : Ref sig .tc := ⟨.hbm, 101, rfl⟩
abbrev main_call1_v1 : Ref sig .tc := ⟨.hbm, 102, rfl⟩
abbrev main_call1_cst_0 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_v5 : Ref sig .tc := ⟨.hbm, 107, rfl⟩
abbrev main_call1_v6 : Ref sig .tc := ⟨.hbm, 108, rfl⟩
abbrev main_call1_v7 : Ref sig .tc := ⟨.hbm, 109, rfl⟩
abbrev main_call1_cst_1 : Ref sig .tc := ⟨.hbm, 110, rfl⟩
abbrev main_call1_v8 : Ref sig .tc := ⟨.hbm, 111, rfl⟩
abbrev main_call1_cst_2 : Ref sig .tc := ⟨.hbm, 112, rfl⟩
abbrev main_call1_v9 : Ref sig .tc := ⟨.hbm, 113, rfl⟩
abbrev main_call1_v10 : Ref sig .tc := ⟨.hbm, 114, rfl⟩
abbrev main_call1_v11 : Ref sig .tc := ⟨.hbm, 115, rfl⟩
abbrev main_call1_cst_3 : Ref sig .tc := ⟨.hbm, 116, rfl⟩
abbrev main_call1_v12 : Ref sig .tc := ⟨.hbm, 117, rfl⟩
abbrev main_call1_cst_4 : Ref sig .tc := ⟨.hbm, 118, rfl⟩
abbrev main_call1_call0_v0 : Ref sig .tc := ⟨.hbm, 119, rfl⟩
abbrev main_call1_call0_v1 : Ref sig .tc := ⟨.hbm, 120, rfl⟩
abbrev main_v44 : Ref sig .tc := ⟨.hbm, 121, rfl⟩
abbrev main_v45_0 : Ref sig .tc := ⟨.hbm, 122, rfl⟩
abbrev main_v45_1 : Ref sig .tc := ⟨.hbm, 123, rfl⟩
abbrev main_c_13 : Ref sig .tc := ⟨.hbm, 124, rfl⟩
abbrev main_v46 : Ref sig .tc := ⟨.hbm, 125, rfl⟩
abbrev main_v47 : Ref sig .tc := ⟨.hbm, 126, rfl⟩
abbrev main_c_14 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_cst_15 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg4_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg4_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc5_stg6_0 : Ref sig .tc := ⟨.vmem, 54, rfl⟩
abbrev cc5_stg7_0 : Ref sig .tc := ⟨.vmem, 55, rfl⟩
abbrev cc5_stg8_0 : Ref sig .tc := ⟨.vmem, 56, rfl⟩
abbrev cc5_stg9_0 : Ref sig .tc := ⟨.vmem, 57, rfl⟩
abbrev cc5_stg10_0 : Ref sig .tc := ⟨.vmem, 58, rfl⟩
abbrev cc5_stg11_0 : Ref sig .tc := ⟨.vmem, 59, rfl⟩
abbrev cc5_stg12_0 : Ref sig .tc := ⟨.vmem, 60, rfl⟩
abbrev cc5_stg13_0 : Ref sig .tc := ⟨.vmem, 61, rfl⟩
abbrev cc5_stg13_1 : Ref sig .tc := ⟨.vmem, 62, rfl⟩
abbrev cc5_stg14_0 : Ref sig .tc := ⟨.vmem, 63, rfl⟩
abbrev cc5_stg14_1 : Ref sig .tc := ⟨.vmem, 64, rfl⟩
abbrev cc5_stg15_0 : Ref sig .tc := ⟨.vmem, 65, rfl⟩
abbrev cc5_stg15_1 : Ref sig .tc := ⟨.vmem, 66, rfl⟩
abbrev cc6_stg0_0 : Ref sig .tc := ⟨.vmem, 67, rfl⟩
abbrev cc6_stg0_1 : Ref sig .tc := ⟨.vmem, 68, rfl⟩
abbrev cc6_stg1_0 : Ref sig .tc := ⟨.vmem, 69, rfl⟩
abbrev cc6_stg1_1 : Ref sig .tc := ⟨.vmem, 70, rfl⟩
abbrev cc6_stg2_0 : Ref sig .tc := ⟨.vmem, 71, rfl⟩
abbrev cc6_stg2_1 : Ref sig .tc := ⟨.vmem, 72, rfl⟩
abbrev cc6_stg3_0 : Ref sig .tc := ⟨.vmem, 73, rfl⟩
abbrev cc6_stg4_0 : Ref sig .tc := ⟨.vmem, 74, rfl⟩
abbrev cc6_stg4_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem4_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc4_sem3_0 : DmaSem sig := 43
abbrev cc4_sem4_0 : DmaSem sig := 44
abbrev cc4_sem4_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc5_sem6_0 : DmaSem sig := 54
abbrev cc5_sem7_0 : DmaSem sig := 55
abbrev cc5_sem8_0 : DmaSem sig := 56
abbrev cc5_sem9_0 : DmaSem sig := 57
abbrev cc5_sem10_0 : DmaSem sig := 58
abbrev cc5_sem11_0 : DmaSem sig := 59
abbrev cc5_sem12_0 : DmaSem sig := 60
abbrev cc5_sem13_0 : DmaSem sig := 61
abbrev cc5_sem13_1 : DmaSem sig := 62
abbrev cc5_sem14_0 : DmaSem sig := 63
abbrev cc5_sem14_1 : DmaSem sig := 64
abbrev cc5_sem15_0 : DmaSem sig := 65
abbrev cc5_sem15_1 : DmaSem sig := 66
abbrev cc6_sem0_0 : DmaSem sig := 67
abbrev cc6_sem0_1 : DmaSem sig := 68
abbrev cc6_sem1_0 : DmaSem sig := 69
abbrev cc6_sem1_1 : DmaSem sig := 70
abbrev cc6_sem2_0 : DmaSem sig := 71
abbrev cc6_sem2_1 : DmaSem sig := 72
abbrev cc6_sem3_0 : DmaSem sig := 73
abbrev cc6_sem4_0 : DmaSem sig := 74
abbrev cc6_sem4_1 : DmaSem sig := 75

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_10 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_11 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_14 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_15 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S128x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S128x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S128x128 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 2 → Memref sig .tc .vmem S2000x1 .f32 := fun | 0 => Memref.whole cc5_stg13_0 | 1 => Memref.whole cc5_stg13_1 | ⟨_ + 2, h⟩ => absurd h (Nat.not_lt.2 (Nat.le_add_left _ _))
abbrev sem5_13 : Fin 2 → DmaSem sig := fun | 0 => cc5_sem13_0 | 1 => cc5_sem13_1 | ⟨_ + 2, h⟩ => absurd h (Nat.not_lt.2 (Nat.le_add_left _ _))
abbrev reads5_13 : Fin grid5.rank → Bool := ![true]

abbrev stage5_14 : Fin 2 → Memref sig .tc .vmem S2000x128 .f32 := fun | 0 => Memref.whole cc5_stg14_0 | 1 => Memref.whole cc5_stg14_1 | ⟨_ + 2, h⟩ => absurd h (Nat.not_lt.2 (Nat.le_add_left _ _))
abbrev sem5_14 : Fin 2 → DmaSem sig := fun | 0 => cc5_sem14_0 | 1 => cc5_sem14_1 | ⟨_ + 2, h⟩ => absurd h (Nat.not_lt.2 (Nat.le_add_left _ _))
abbrev reads5_14 : Fin grid5.rank → Bool := ![true]

abbrev stage5_15 : Fin 2 → Memref sig .tc .vmem S2000x128 .f32 := fun | 0 => Memref.whole cc5_stg15_0 | 1 => Memref.whole cc5_stg15_1 | ⟨_ + 2, h⟩ => absurd h (Nat.not_lt.2 (Nat.le_add_left _ _))
abbrev sem5_15 : Fin 2 → DmaSem sig := fun | 0 => cc5_sem15_0 | 1 => cc5_sem15_1 | ⟨_ + 2, h⟩ => absurd h (Nat.not_lt.2 (Nat.le_add_left _ _))
abbrev reads5_15 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S100000x128 : S_.BroadcastsInDim S100000x128 (![] : Fin 0 → Fin S100000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  shapeCasts_S128_S128 : S128.ShapeCasts S128
  reduces_S2000x128_S2000 : S2000x128.Reduces [1] S2000
  shapeCasts_S2000_S2000x1 : S2000.ShapeCasts S2000x1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S100000x128.size a
  hwx4_4 : ∀ i : grid4.Coords, EltTy.bits .f32 = 32 ∨ (Rect.block (s := S100000x128) S2000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S100000x128.size a
  hwx5_5 : ∀ i : grid5.Coords, EltTy.bits .f32 = 32 ∨ (Rect.block (s := S100000x128) S2000x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x128.size a ≤ S128x128.size a
  hwx5_6 : ∀ i : grid5.Coords, EltTy.bits .f32 = 32 ∨ (Rect.block (s := S128x128) S128x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128.size a ≤ S128.size a
  hwx5_7 : ∀ i : grid5.Coords, EltTy.bits .f32 = 32 ∨ (Rect.block (s := S128) S128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S128x128.size a ≤ S128x128.size a
  hwx5_8 : ∀ i : grid5.Coords, EltTy.bits .f32 = 32 ∨ (Rect.block (s := S128x128) S128x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S128.size a ≤ S128.size a
  hwx5_9 : ∀ i : grid5.Coords, EltTy.bits .f32 = 32 ∨ (Rect.block (s := S128) S128.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S128.size a ≤ S128.size a
  hwx5_10 : ∀ i : grid5.Coords, EltTy.bits .f32 = 32 ∨ (Rect.block (s := S128) S128.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S128.size a ≤ S128.size a
  hwx5_11 : ∀ i : grid5.Coords, EltTy.bits .f32 = 32 ∨ (Rect.block (s := S128) S128.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S128x128.size a ≤ S128x128.size a
  hwx5_12 : ∀ i : grid5.Coords, EltTy.bits .f32 = 32 ∨ (Rect.block (s := S128x128) S128x128.size (cc5_transform_12 i) (hinb5_12 i)).WholeWords (EltTy.packing .f32)
  hstage5_13 : ∀ j, (stage5_13 j).IsWhole
  nbuf5_13 : grid5.bufCount reads5_13 false = 2
  hreads5_13 : ∀ i i' : grid5.Coords, (∀ a, reads5_13 a = true → i a = i' a) → cc5_transform_13 i = cc5_transform_13 i'
  hinb5_13 : ∀ (i : grid5.Coords) a, (cc5_transform_13 i a + 1) * S2000x1.size a ≤ S100000x1.size a
  hwx5_13 : ∀ i : grid5.Coords, EltTy.bits .f32 = 32 ∨ (Rect.block (s := S100000x1) S2000x1.size (cc5_transform_13 i) (hinb5_13 i)).WholeWords (EltTy.packing .f32)
  hstage5_14 : ∀ j, (stage5_14 j).IsWhole
  nbuf5_14 : grid5.bufCount reads5_14 false = 2
  hreads5_14 : ∀ i i' : grid5.Coords, (∀ a, reads5_14 a = true → i a = i' a) → cc5_transform_14 i = cc5_transform_14 i'
  hinb5_14 : ∀ (i : grid5.Coords) a, (cc5_transform_14 i a + 1) * S2000x128.size a ≤ S100000x128.size a
  hwx5_14 : ∀ i : grid5.Coords, EltTy.bits .f32 = 32 ∨ (Rect.block (s := S100000x128) S2000x128.size (cc5_transform_14 i) (hinb5_14 i)).WholeWords (EltTy.packing .f32)
  hstage5_15 : ∀ j, (stage5_15 j).IsWhole
  nbuf5_15 : grid5.bufCount reads5_15 false = 2
  hreads5_15 : ∀ i i' : grid5.Coords, (∀ a, reads5_15 a = true → i a = i' a) → cc5_transform_15 i = cc5_transform_15 i'
  hinb5_15 : ∀ (i : grid5.Coords) a, (cc5_transform_15 i a + 1) * S2000x128.size a ≤ S100000x128.size a
  hwx5_15 : ∀ i : grid5.Coords, EltTy.bits .f32 = 32 ∨ (Rect.block (s := S100000x128) S2000x128.size (cc5_transform_15 i) (hinb5_15 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S100000x128.size a
  hwx6_1 : ∀ i : grid6.Coords, EltTy.bits .f32 = 32 ∨ (Rect.block (s := S100000x128) S2000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S100000x1.size a
  hwx6_2 : ∀ i : grid6.Coords, EltTy.bits .f32 = 32 ∨ (Rect.block (s := S100000x1) S2000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128.size a ≤ S128.size a
  hwx6_3 : ∀ i : grid6.Coords, EltTy.bits .f32 = 32 ∨ (Rect.block (s := S128) S128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x128.size a ≤ S100000x128.size a
  hwx6_4 : ∀ i : grid6.Coords, EltTy.bits .f32 = 32 ∨ (Rect.block (s := S100000x128) S2000x128.size (cc6_transform_4 i) (hinb6_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v23) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg0) S2000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v28) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v28) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v29_0) S2000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v29_1) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v39) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29_0) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg5) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v40) S2000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v40) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v44) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg10) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg11) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v28) S2000x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_arg12) S128x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg13) S128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg14) S128x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_arg15) S128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_arg16) S128.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_arg17) S128.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_arg6) S128x128.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v11) S2000x1.size cc5_transform_13 reads5_13 false false 2 stage5_13 sem5_13
    hrank5 hreads5_13 hinb5_13 nbuf5_13 (Memref.isWhole_whole _) hwx5_13 hstage5_13

abbrev win5_14 : Pipeline.Window sig grid5 :=
  Pipeline.Window.ofSpec (Memref.whole main_v45_0) S2000x128.size cc5_transform_14 reads5_14 true false 2 stage5_14 sem5_14
    hrank5 hreads5_14 hinb5_14 nbuf5_14 (Memref.isWhole_whole _) hwx5_14 hstage5_14

abbrev win5_15 : Pipeline.Window sig grid5 :=
  Pipeline.Window.ofSpec (Memref.whole main_v45_1) S2000x128.size cc5_transform_15 reads5_15 true false 2 stage5_15 sem5_15
    hrank5 hreads5_15 hinb5_15 nbuf5_15 (Memref.isWhole_whole _) hwx5_15 hstage5_15

abbrev win5 : Fin 16 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | 14 => win5_14 | 15 => win5_15 | ⟨_ + 16, h⟩ => absurd h (Nat.not_lt.2 (Nat.le_add_left _ _))
abbrev spec5 : Fin 16 → Pipeline.WinSpec sig grid5.rank := fun w => (win5 w).toWinSpec

abbrev win6_0 : Pipeline.Window sig grid6 :=
  Pipeline.Window.ofSpec (Memref.whole main_v55) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v45_0) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v11) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg7) S128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v56) S2000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 333
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128, .f32⟩
  | 17 => ⟨S128, .f32⟩
  | 18 => ⟨S1x1600000, .i32⟩
  | 19 => ⟨S1600000, .i32⟩
  | 20 => ⟨S1x1600000, .i32⟩
  | 21 => ⟨S1600000, .i32⟩
  | 22 => ⟨S100000x128, .f32⟩
  | 23 => ⟨S_, .f32⟩
  | 24 => ⟨S1600000, .f32⟩
  | 25 => ⟨S_, .f32⟩
  | 26 => ⟨S100000, .f32⟩
  | 27 => ⟨S1600000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x128, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000, .f32⟩
  | 60 => ⟨S1600000, .f32⟩
  | 61 => ⟨S1600000x1, .f32⟩
  | 62 => ⟨S1600000x128, .f32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S100000, .f32⟩
  | 69 => ⟨S100000x1, .f32⟩
  | 70 => ⟨S100000x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S128, .f32⟩
  | 78 => ⟨S_, .f32⟩
  | 79 => ⟨S128, .f32⟩
  | 80 => ⟨S128, .f32⟩
  | 81 => ⟨S_, .i32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S100000x128, .f32⟩
  | 89 => ⟨S100000x128, .f32⟩
  | 90 => ⟨S100000x128, .f32⟩
  | 91 => ⟨S_, .f32⟩
  | 92 => ⟨S_, .f32⟩
  | 93 => ⟨S_, .f32⟩
  | 94 => ⟨S_, .f32⟩
  | 95 => ⟨S128, .f32⟩
  | 96 => ⟨S128, .f32⟩
  | 97 => ⟨S128, .f32⟩
  | 98 => ⟨S_, .f32⟩
  | 99 => ⟨S_, .i1⟩
  | 100 => ⟨S_, .f32⟩
  | 101 => ⟨S_, .f32⟩
  | 102 => ⟨S128, .f32⟩
  | 103 => ⟨S128, .f32⟩
  | 104 => ⟨S1x128, .f32⟩
  | 105 => ⟨S100000x128, .f32⟩
  | 106 => ⟨S100000x128, .f32⟩
  | 107 => ⟨S_, .f32⟩
  | 108 => ⟨S128, .f32⟩
  | 109 => ⟨S128, .f32⟩
  | 110 => ⟨S128, .f32⟩
  | 111 => ⟨S1x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S100000x128, .f32⟩
  | 124 => ⟨S100000x128, .f32⟩
  | 125 => ⟨S_, .f32⟩
  | 126 => ⟨S1600000, .f32⟩
  | 127 => ⟨S_, .f32⟩
  | _ => ⟨S100000x128, .f32⟩

abbrev hbmTy0_1 (i : Nat) : BufTy := match i % 128 with
  | 0 => ⟨S100000, .f32⟩
  | 1 => ⟨S1600000x1, .i32⟩
  | 2 => ⟨S100000, .f32⟩
  | 3 => ⟨S_, .f32⟩
  | 4 => ⟨S100000, .f32⟩
  | 5 => ⟨S100000, .f32⟩
  | 6 => ⟨S100000, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x128, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S1600000, .f32⟩
  | 35 => ⟨S1600000x1, .f32⟩
  | 36 => ⟨S1600000x128, .f32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S100000, .f32⟩
  | 43 => ⟨S100000x1, .f32⟩
  | 44 => ⟨S100000x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S128, .f32⟩
  | 52 => ⟨S_, .f32⟩
  | 53 => ⟨S128, .f32⟩
  | 54 => ⟨S128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S_, .f32⟩
  | 67 => ⟨S_, .f32⟩
  | 68 => ⟨S_, .f32⟩
  | 69 => ⟨S128, .f32⟩
  | 70 => ⟨S128, .f32⟩
  | 71 => ⟨S128, .f32⟩
  | 72 => ⟨S_, .f32⟩
  | 73 => ⟨S_, .i1⟩
  | 74 => ⟨S_, .f32⟩
  | 75 => ⟨S_, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S_, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S100000x128, .f32⟩
  | 107 => ⟨S_, .f32⟩
  | 108 => ⟨S100000, .f32⟩
  | 109 => ⟨S100000x1, .f32⟩
  | 110 => ⟨S_, .f32⟩
  | 111 => ⟨S100000x1, .f32⟩
  | 112 => ⟨S100000x1, .f32⟩
  | 113 => ⟨S_, .i32⟩
  | 114 => ⟨S_, .f32⟩
  | 115 => ⟨S100000, .f32⟩
  | 116 => ⟨S100000x1, .f32⟩
  | 117 => ⟨S_, .f32⟩
  | 118 => ⟨S100000x1, .f32⟩
  | 119 => ⟨S100000x1, .f32⟩
  | 120 => ⟨S100000x128, .f32⟩
  | 121 => ⟨S100000x128, .f32⟩
  | 122 => ⟨S100000x128, .f32⟩
  | 123 => ⟨S_, .f32⟩
  | 124 => ⟨S_, .f32⟩
  | 125 => ⟨S_, .f32⟩
  | 126 => ⟨S_, .f32⟩
  | 127 => ⟨S100000, .f32⟩
  | _ => ⟨S100000x128, .f32⟩

abbrev hbmTy0_2 (i : Nat) : BufTy := match i % 128 with
  | 0 => ⟨S100000x1, .f32⟩
  | 1 => ⟨S100000x1, .f32⟩
  | 2 => ⟨S100000x1, .f32⟩
  | 3 => ⟨S_, .f32⟩
  | 4 => ⟨S_, .i1⟩
  | 5 => ⟨S_, .f32⟩
  | 6 => ⟨S_, .f32⟩
  | 7 => ⟨S100000x1, .f32⟩
  | 8 => ⟨S100000x1, .f32⟩
  | 9 => ⟨S100000x128, .f32⟩
  | 10 => ⟨S100000x128, .f32⟩
  | 11 => ⟨S_, .f32⟩
  | 12 => ⟨S100000x1, .f32⟩
  | 13 => ⟨S100000x1, .f32⟩
  | 14 => ⟨S100000x1, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S100000x128, .f32⟩
  | 24 => ⟨S_, .f32⟩
  | 25 => ⟨S1600000, .f32⟩
  | 26 => ⟨S_, .f32⟩
  | 27 => ⟨S100000, .f32⟩
  | 28 => ⟨S1600000x1, .i32⟩
  | 29 => ⟨S100000, .f32⟩
  | 30 => ⟨S_, .f32⟩
  | 31 => ⟨S100000, .f32⟩
  | 32 => ⟨S100000, .f32⟩
  | 33 => ⟨S100000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000, .f32⟩
  | 61 => ⟨S1600000, .f32⟩
  | 62 => ⟨S1600000x1, .f32⟩
  | 63 => ⟨S1600000x128, .f32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S100000, .f32⟩
  | 70 => ⟨S100000x1, .f32⟩
  | 71 => ⟨S100000x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_c_10 : Ref sig .tc := ⟨.hbm, 81, rfl⟩
abbrev main_call0_cst : Ref sig .tc := ⟨.hbm, 82, rfl⟩
abbrev main_call0_v0 : Ref sig .tc := ⟨.hbm, 83, rfl⟩
abbrev main_call0_v1 : Ref sig .tc := ⟨.hbm, 84, rfl⟩
abbrev main_call0_cst_0 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_cst_1 : Ref sig .tc := ⟨.hbm, 92, rfl⟩
abbrev main_call0_v8 : Ref sig .tc := ⟨.hbm, 93, rfl⟩
abbrev main_call0_cst_2 : Ref sig .tc := ⟨.hbm, 94, rfl⟩
abbrev main_call0_v9 : Ref sig .tc := ⟨.hbm, 95, rfl⟩
abbrev main_call0_v10 : Ref sig .tc := ⟨.hbm, 96, rfl⟩
abbrev main_call0_v11 : Ref sig .tc := ⟨.hbm, 97, rfl⟩
abbrev main_call0_cst_3 : Ref sig .tc := ⟨.hbm, 98, rfl⟩
abbrev main_call0_v12 : Ref sig .tc := ⟨.hbm, 99, rfl⟩
abbrev main_call0_cst_4 : Ref sig .tc := ⟨.hbm, 100, rfl⟩
abbrev main_call0_call0_v0 : Ref sig .tc := ⟨.hbm, 101, rfl⟩
abbrev main_call0_call0_v1 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_cst_11 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_call1_cst : Ref sig .tc := ⟨.hbm, 120, rfl⟩
abbrev main_call1_v0 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_cst_12 : Ref sig .tc := ⟨.hbm, 125, rfl⟩
abbrev main_v70 : Ref sig .tc := ⟨.hbm, 126, rfl⟩
abbrev main_cst_13 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_cst_14 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_c_15 : Ref sig .tc := ⟨.hbm, 135, rfl⟩
abbrev main_v77 : Ref sig .tc := ⟨.hbm, 136, rfl⟩
abbrev main_v78 : Ref sig .tc := ⟨.hbm, 137, rfl⟩
abbrev main_c_16 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_c_17 : Ref sig .tc := ⟨.hbm, 144, rfl⟩
abbrev main_v84 : Ref sig .tc := ⟨.hbm, 145, rfl⟩
abbrev main_v85 : Ref sig .tc := ⟨.hbm, 146, rfl⟩
abbrev main_c_18 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_c_19 : Ref sig .tc := ⟨.hbm, 153, rfl⟩
abbrev main_v91 : Ref sig .tc := ⟨.hbm, 154, rfl⟩
abbrev main_v92 : Ref sig .tc := ⟨.hbm, 155, rfl⟩
abbrev main_c_20 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_cst_21 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_cst_22 : Ref sig .tc := ⟨.hbm, 178, rfl⟩
abbrev main_v113 : Ref sig .tc := ⟨.hbm, 179, rfl⟩
abbrev main_cst_23 : Ref sig .tc := ⟨.hbm, 180, rfl⟩
abbrev main_v114 : Ref sig .tc := ⟨.hbm, 181, rfl⟩
abbrev main_v115 : Ref sig .tc := ⟨.hbm, 182, rfl⟩
abbrev main_c_24 : Ref sig .tc := ⟨.hbm, 183, rfl⟩
abbrev main_call2_cst : Ref sig .tc := ⟨.hbm, 184, rfl⟩
abbrev main_call2_v0 : Ref sig .tc := ⟨.hbm, 185, rfl⟩
abbrev main_call2_v1 : Ref sig .tc := ⟨.hbm, 186, rfl⟩
abbrev main_call2_cst_0 : Ref sig .tc := ⟨.hbm, 187, rfl⟩
abbrev main_call2_v2 : Ref sig .tc := ⟨.hbm, 188, rfl⟩
abbrev main_call2_v3 : Ref sig .tc := ⟨.hbm, 189, rfl⟩
abbrev main_call2_v4 : Ref sig .tc := ⟨.hbm, 190, rfl⟩
abbrev main_call2_v5 : Ref sig .tc := ⟨.hbm, 191, rfl⟩
abbrev main_call2_v6 : Ref sig .tc := ⟨.hbm, 192, rfl⟩
abbrev main_call2_v7 : Ref sig .tc := ⟨.hbm, 193, rfl⟩
abbrev main_call2_cst_1 : Ref sig .tc := ⟨.hbm, 194, rfl⟩
abbrev main_call2_v8 : Ref sig .tc := ⟨.hbm, 195, rfl⟩
abbrev main_call2_cst_2 : Ref sig .tc := ⟨.hbm, 196, rfl⟩
abbrev main_call2_v9 : Ref sig .tc := ⟨.hbm, 197, rfl⟩
abbrev main_call2_v10 : Ref sig .tc := ⟨.hbm, 198, rfl⟩
abbrev main_call2_v11 : Ref sig .tc := ⟨.hbm, 199, rfl⟩
abbrev main_call2_cst_3 : Ref sig .tc := ⟨.hbm, 200, rfl⟩
abbrev main_call2_v12 : Ref sig .tc := ⟨.hbm, 201, rfl⟩
abbrev main_call2_cst_4 : Ref sig .tc := ⟨.hbm, 202, rfl⟩
abbrev main_call2_call0_v0 : Ref sig .tc := ⟨.hbm, 203, rfl⟩
abbrev main_call2_call0_v1 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_cst_25 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_call3_cst : Ref sig .tc := ⟨.hbm, 222, rfl⟩
abbrev main_call3_v0 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_cst_26 : Ref sig .tc := ⟨.hbm, 235, rfl⟩
abbrev main_v143 : Ref sig .tc := ⟨.hbm, 236, rfl⟩
abbrev main_v144 : Ref sig .tc := ⟨.hbm, 237, rfl⟩
abbrev main_cst_27 : Ref sig .tc := ⟨.hbm, 238, rfl⟩
abbrev main_v145 : Ref sig .tc := ⟨.hbm, 239, rfl⟩
abbrev main_v146 : Ref sig .tc := ⟨.hbm, 240, rfl⟩
abbrev main_c_28 : Ref sig .tc := ⟨.hbm, 241, rfl⟩
abbrev main_call4_cst : Ref sig .tc := ⟨.hbm, 242, rfl⟩
abbrev main_call4_v0 : Ref sig .tc := ⟨.hbm, 243, rfl⟩
abbrev main_call4_v1 : Ref sig .tc := ⟨.hbm, 244, rfl⟩
abbrev main_call4_cst_0 : Ref sig .tc := ⟨.hbm, 245, rfl⟩
abbrev main_call4_v2 : Ref sig .tc := ⟨.hbm, 246, rfl⟩
abbrev main_call4_v3 : Ref sig .tc := ⟨.hbm, 247, rfl⟩
abbrev main_call4_v4 : Ref sig .tc := ⟨.hbm, 248, rfl⟩
abbrev main_call4_v5 : Ref sig .tc := ⟨.hbm, 249, rfl⟩
abbrev main_call4_v6 : Ref sig .tc := ⟨.hbm, 250, rfl⟩
abbrev main_call4_v7 : Ref sig .tc := ⟨.hbm, 251, rfl⟩
abbrev main_call4_cst_1 : Ref sig .tc := ⟨.hbm, 252, rfl⟩
abbrev main_call4_v8 : Ref sig .tc := ⟨.hbm, 253, rfl⟩
abbrev main_call4_cst_2 : Ref sig .tc := ⟨.hbm, 254, rfl⟩
abbrev main_call4_v9 : Ref sig .tc := ⟨.hbm, 255, rfl⟩
abbrev main_call4_v10 : Ref sig .tc := ⟨.hbm, 256, rfl⟩
abbrev main_call4_v11 : Ref sig .tc := ⟨.hbm, 257, rfl⟩
abbrev main_call4_v12 : Ref sig .tc := ⟨.hbm, 258, rfl⟩
abbrev main_call4_cst_3 : Ref sig .tc := ⟨.hbm, 259, rfl⟩
abbrev main_call4_v13 : Ref sig .tc := ⟨.hbm, 260, rfl⟩
abbrev main_call4_cst_4 : Ref sig .tc := ⟨.hbm, 261, rfl⟩
abbrev main_call4_call0_v0 : Ref sig .tc := ⟨.hbm, 262, rfl⟩
abbrev main_call4_call0_v1 : Ref sig .tc := ⟨.hbm, 263, rfl⟩
abbrev main_v147 : Ref sig .tc := ⟨.hbm, 264, rfl⟩
abbrev main_v148 : Ref sig .tc := ⟨.hbm, 265, rfl⟩
abbrev main_v149 : Ref sig .tc := ⟨.hbm, 266, rfl⟩
abbrev main_cst_29 : Ref sig .tc := ⟨.hbm, 267, rfl⟩
abbrev main_v150 : Ref sig .tc := ⟨.hbm, 268, rfl⟩
abbrev main_v151 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_v158 : Ref sig .tc := ⟨.hbm, 276, rfl⟩
abbrev main_v159 : Ref sig .tc := ⟨.hbm, 277, rfl⟩
abbrev main_v160 : Ref sig .tc := ⟨.hbm, 278, rfl⟩
abbrev main_v161 : Ref sig .tc := ⟨.hbm, 279, rfl⟩
abbrev main_cst_30 : Ref sig .tc := ⟨.hbm, 280, rfl⟩
abbrev main_v162 : Ref sig .tc := ⟨.hbm, 281, rfl⟩
abbrev main_cst_31 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_cst_32 : Ref sig .tc := ⟨.hbm, 286, rfl⟩
abbrev main_v166 : Ref sig .tc := ⟨.hbm, 287, rfl⟩
abbrev main_v167 : Ref sig .tc := ⟨.hbm, 288, rfl⟩
abbrev main_v168 : Ref sig .tc := ⟨.hbm, 289, rfl⟩
abbrev main_c_33 : Ref sig .tc := ⟨.hbm, 290, rfl⟩
abbrev main_v169 : Ref sig .tc := ⟨.hbm, 291, rfl⟩
abbrev main_v170 : Ref sig .tc := ⟨.hbm, 292, rfl⟩
abbrev main_c_34 : Ref sig .tc := ⟨.hbm, 293, rfl⟩
abbrev main_v171 : Ref sig .tc := ⟨.hbm, 294, rfl⟩
abbrev main_v172 : Ref sig .tc := ⟨.hbm, 295, rfl⟩
abbrev main_v173 : Ref sig .tc := ⟨.hbm, 296, rfl⟩
abbrev main_v174 : Ref sig .tc := ⟨.hbm, 297, rfl⟩
abbrev main_v175 : Ref sig .tc := ⟨.hbm, 298, rfl⟩
abbrev main_c_35 : Ref sig .tc := ⟨.hbm, 299, rfl⟩
abbrev main_v176 : Ref sig .tc := ⟨.hbm, 300, rfl⟩
abbrev main_v177 : Ref sig .tc := ⟨.hbm, 301, rfl⟩
abbrev main_c_36 : Ref sig .tc := ⟨.hbm, 302, rfl⟩
abbrev main_v178 : Ref sig .tc := ⟨.hbm, 303, rfl⟩
abbrev main_v179 : Ref sig .tc := ⟨.hbm, 304, rfl⟩
abbrev main_v180 : Ref sig .tc := ⟨.hbm, 305, rfl⟩
abbrev main_v181 : Ref sig .tc := ⟨.hbm, 306, rfl⟩
abbrev main_v182 : Ref sig .tc := ⟨.hbm, 307, rfl⟩
abbrev main_c_37 : Ref sig .tc := ⟨.hbm, 308, rfl⟩
abbrev main_v183 : Ref sig .tc := ⟨.hbm, 309, rfl⟩
abbrev main_v184 : Ref sig .tc := ⟨.hbm, 310, rfl⟩
abbrev main_c_38 : Ref sig .tc := ⟨.hbm, 311, rfl⟩
abbrev main_v185 : Ref sig .tc := ⟨.hbm, 312, rfl⟩
abbrev main_v186 : Ref sig .tc := ⟨.hbm, 313, rfl⟩
abbrev main_v187 : Ref sig .tc := ⟨.hbm, 314, rfl⟩
abbrev main_v188 : Ref sig .tc := ⟨.hbm, 315, rfl⟩
abbrev main_v189 : Ref sig .tc := ⟨.hbm, 316, rfl⟩
abbrev main_v190 : Ref sig .tc := ⟨.hbm, 317, rfl⟩
abbrev main_v191 : Ref sig .tc := ⟨.hbm, 318, rfl⟩
abbrev main_v192 : Ref sig .tc := ⟨.hbm, 319, rfl⟩
abbrev main_v193 : Ref sig .tc := ⟨.hbm, 320, rfl⟩
abbrev main_cst_39 : Ref sig .tc := ⟨.hbm, 321, rfl⟩
abbrev main_v194 : Ref sig .tc := ⟨.hbm, 322, rfl⟩
abbrev main_v195 : Ref sig .tc := ⟨.hbm, 323, rfl⟩
abbrev main_v196 : Ref sig .tc := ⟨.hbm, 324, rfl⟩
abbrev main_v197 : Ref sig .tc := ⟨.hbm, 325, rfl⟩
abbrev main_v198 : Ref sig .tc := ⟨.hbm, 326, rfl⟩
abbrev main_v199 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_v203 : Ref sig .tc := ⟨.hbm, 331, rfl⟩
abbrev main_v204 : Ref sig .tc := ⟨.hbm, 332, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  reducesTo_S100000x128_S100000_d1 : S100000x128.ReducesTo [1] S100000
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KRun.lean ====
/-
  The idealized kernel program's run with its RESULT named.

  The program is seven kernel launches among stretches of host operations. The generated frame proof follows the
  contents of every buffer through those fifteen segments as a fold from the launch memory — a host stretch applies
  its operations, a launch replaces its arrays by what its write-backs leave and keeps every other buffer — and
  reads the final state against the last fold. It states only that the eighteen argument arrays end as launched.
  Here the same reading is taken once more at the result buffer: after every weakly fair execution the result
  array holds the last fold's contents there, and the arguments are unchanged.
-/
import proofs.«112374_j17231408792366_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds the
    contents the fold through the fifteen segments gives it, and each argument array is as launched. -/
theorem run : θ_run defs (onTc (τ := τ) (main (F := F))) ⟨m, fun _ => 0, ρ⟩ (fun r => ∀ c : Dev nD,
      r.2.mem ((c.tc : Thread nD τ).loc main_v56) = W15 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v56 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c)⟩)

end Cert.KernelIdeal.KRun

end
-- ==== Proof.KChainKeep.lean ====
/-
  Each buffer's contents carried across a segment of the kernel program that does not write it.

  A stretch of host operations rewrites the result buffer of each of its operations and nothing else; a region
  writes back the arrays of its output windows and nothing else (an input window's array is staged, never written
  back; a buffer that is no window's array is not touched). One lemma per segment of the program's first half:
  the four stretches before region 3 and regions 0 to 3. -/
import proofs.«112374_j17231408792366_2_alg».proof.Proof.Gen.KernelIdeal.Frame
import Idealize.ShloMosaic.PureOps.Ideal

noncomputable section

namespace Cert.KernelIdeal.KChain

open Idealize.ShloMosaic Idealize.ShloMosaic.TcCoe Idealize.SL.Sem Cert.KernelIdeal Cert.KernelIdeal.Gen

/-! ## A buffer a stretch of host operations does not write keeps its contents

One lemma per stretch, for any contents at its start and any buffer other than the ones its operations write. -/

/-- The buffers the operations of this stretch write. -/
abbrev written0 : List (Ref sig .tc) :=
  [main_v0, main_v1, main_v2, main_v3, main_cst, main_v4, main_cst_0, main_v5, main_v6, main_v7, main_cst_1, main_v8, main_v9, main_v10, main_v11]

theorem keep_host0 (W : Valuation τ sig (Elt Ideal)) (b : Ref sig .tc) (hb : ∀ x ∈ written0, b ≠ x) :
    StableHlo.after (hostOps0 (F := Ideal)) W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The buffers the operations of this stretch write. -/
abbrev written1 : List (Ref sig .tc) :=
  [main_c, main_v13, main_v14, main_c_2, main_v15, main_v16, main_v17, main_v18, main_v19, main_cst_3, main_v20, main_v21, main_v22]

theorem keep_host1 (W : Valuation τ sig (Elt Ideal)) (b : Ref sig .tc) (hb : ∀ x ∈ written1, b ≠ x) :
    StableHlo.after (hostOps1 (F := Ideal)) W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The buffers the operations of this stretch write. -/
abbrev written2 : List (Ref sig .tc) :=
  [main_cst_4, main_v24, main_cst_5, main_v25, main_v26, main_c_6]

theorem keep_host2 (W : Valuation τ sig (Elt Ideal)) (b : Ref sig .tc) (hb : ∀ x ∈ written2, b ≠ x) :
    StableHlo.after (hostOps2 (F := Ideal)) W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The buffers the operations of this stretch write. -/
abbrev written2_1 : List (Ref sig .tc) :=
  [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v27]

theorem keep_host2_1 (W : Valuation τ sig (Elt Ideal)) (b : Ref sig .tc) (hb : ∀ x ∈ written2_1, b ≠ x) :
    StableHlo.after (hostOps2_1 (F := Ideal)) W (Proc.devRef .tc b) = W (Proc.devRef .tc b) :=
  StableHlo.after_of_forall_not_mem (b := Proc.devRef .tc b) _ _ (List.forall_iff_forall_mem.mp (by
    simp only [hostOps2_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-! ## A buffer a region does not write back keeps its contents

A region's arrays are its windows'. A buffer that is none of them is untouched; an input window's array is never
written back; so every buffer other than the output windows' arrays is, at the region's exit, as at its entry. -/

variable (m : (ℓ : Loc nD τ sig) → Buf (Elt Ideal) ℓ) (ρ : Dev nD → PrngReg) (c : Dev nD)

theorem keep_reg0 (b : Ref sig .tc) (hb : ∀ x ∈ [main_v12_0, main_v12_1], b ≠ x) :
    Gen.W2 (F := Ideal) m ρ c (Proc.devRef .tc b) = Gen.W1 (F := Ideal) m ρ c (Proc.devRef .tc b) := by
  by_cases h : ∀ w, Pipeline.arrRef spec0 w ≠ b
  · exact Gen.W2_of_ne m ρ c b h
  · obtain ⟨w, hw⟩ := not_forall.mp h
    have hw' : Pipeline.arrRef spec0 w = b := not_not.mp hw
    subst hw'
    match w with
    | ⟨0, _⟩ => exact (Gen.W2_arr m ρ c 0).trans (((Gen.dat0 (Gen.V1 m ρ) c).arrAt_in 0 rfl _).trans (Gen.A_eq0 (Gen.V1 m ρ) c 0))
    | ⟨1, _⟩ => exact (Gen.W2_arr m ρ c 1).trans (((Gen.dat0 (Gen.V1 m ρ) c).arrAt_in 1 rfl _).trans (Gen.A_eq0 (Gen.V1 m ρ) c 1))
    | ⟨2, _⟩ => exact (Gen.W2_arr m ρ c 2).trans (((Gen.dat0 (Gen.V1 m ρ) c).arrAt_in 2 rfl _).trans (Gen.A_eq0 (Gen.V1 m ρ) c 2))
    | ⟨3, _⟩ => exact absurd rfl (hb main_v12_0 (by decide))
    | ⟨4, _⟩ => exact absurd rfl (hb main_v12_1 (by decide))

theorem keep_reg1 (b : Ref sig .tc) (hb : ∀ x ∈ [main_v23], b ≠ x) :
    Gen.W4 (F := Ideal) m ρ c (Proc.devRef .tc b) = Gen.W3 (F := Ideal) m ρ c (Proc.devRef .tc b) := by
  by_cases h : ∀ w, Pipeline.arrRef spec1 w ≠ b
  · exact Gen.W4_of_ne m ρ c b h
  · obtain ⟨w, hw⟩ := not_forall.mp h
    have hw' : Pipeline.arrRef spec1 w = b := not_not.mp hw
    subst hw'
    match w with
    | ⟨0, _⟩ => exact (Gen.W4_arr m ρ c 0).trans (((Gen.dat1 (Gen.V3 m ρ) c).arrAt_in 0 rfl _).trans (Gen.A_eq1 (Gen.V3 m ρ) c 0))
    | ⟨1, _⟩ => exact (Gen.W4_arr m ρ c 1).trans (((Gen.dat1 (Gen.V3 m ρ) c).arrAt_in 1 rfl _).trans (Gen.A_eq1 (Gen.V3 m ρ) c 1))
    | ⟨2, _⟩ => exact (Gen.W4_arr m ρ c 2).trans (((Gen.dat1 (Gen.V3 m ρ) c).arrAt_in 2 rfl _).trans (Gen.A_eq1 (Gen.V3 m ρ) c 2))
    | ⟨3, _⟩ => exact (Gen.W4_arr m ρ c 3).trans (((Gen.dat1 (Gen.V3 m ρ) c).arrAt_in 3 rfl _).trans (Gen.A_eq1 (Gen.V3 m ρ) c 3))
    | ⟨4, _⟩ => exact absurd rfl (hb main_v23 (by decide))

theorem keep_reg2 (b : Ref sig .tc) (hb : ∀ x ∈ [main_v28], b ≠ x) :
    Gen.W7 (F := Ideal) m ρ c (Proc.devRef .tc b) = Gen.W6 (F := Ideal) m ρ c (Proc.devRef .tc b) := by
  by_cases h : ∀ w, Pipeline.arrRef spec2 w ≠ b
  · exact Gen.W7_of_ne m ρ c b h
  · obtain ⟨w, hw⟩ := not_forall.mp h
    have hw' : Pipeline.arrRef spec2 w = b := not_not.mp hw
    subst hw'
    match w with
    | ⟨0, _⟩ => exact (Gen.W7_arr m ρ c 0).trans (((Gen.dat2 (Gen.V6 m ρ) c).arrAt_in 0 rfl _).trans (Gen.A_eq2 (Gen.V6 m ρ) c 0))
    | ⟨1, _⟩ => exact (Gen.W7_arr m ρ c 1).trans (((Gen.dat2 (Gen.V6 m ρ) c).arrAt_in 1 rfl _).trans (Gen.A_eq2 (Gen.V6 m ρ) c 1))
    | ⟨2, _⟩ => exact (Gen.W7_arr m ρ c 2).trans (((Gen.dat2 (Gen.V6 m ρ) c).arrAt_in 2 rfl _).trans (Gen.A_eq2 (Gen.V6 m ρ) c 2))
    | ⟨3, _⟩ => exact (Gen.W7_arr m ρ c 3).trans (((Gen.dat2 (Gen.V6 m ρ) c).arrAt_in 3 rfl _).trans (Gen.A_eq2 (Gen.V6 m ρ) c 3))
    | ⟨4, _⟩ => exact (Gen.W7_arr m ρ c 4).trans (((Gen.dat2 (Gen.V6 m ρ) c).arrAt_in 4 rfl _).trans (Gen.A_eq2 (Gen.V6 m ρ) c 4))
    | ⟨5, _⟩ => exact (Gen.W7_arr m ρ c 5).trans (((Gen.dat2 (Gen.V6 m ρ) c).arrAt_in 5 rfl _).trans (Gen.A_eq2 (Gen.V6 m ρ) c 5))
    | ⟨6, _⟩ => exact absurd rfl (hb main_v28 (by decide))

theorem keep_reg3 (b : Ref sig .tc) (hb : ∀ x ∈ [main_v29_0, main_v29_1], b ≠ x) :
    Gen.W8 (F := Ideal) m ρ c (Proc.devRef .tc b) = Gen.W7 (F := Ideal) m ρ c (Proc.devRef .tc b) := by
  by_cases h : ∀ w, Pipeline.arrRef spec3 w ≠ b
  · exact Gen.W8_of_ne m ρ c b h
  · obtain ⟨w, hw⟩ := not_forall.mp h
    have hw' : Pipeline.arrRef spec3 w = b := not_not.mp hw
    subst hw'
    match w with
    | ⟨0, _⟩ => exact (Gen.W8_arr m ρ c 0).trans (((Gen.dat3 (Gen.V7 m ρ) c).arrAt_in 0 rfl _).trans (Gen.A_eq3 (Gen.V7 m ρ) c 0))
    | ⟨1, _⟩ => exact (Gen.W8_arr m ρ c 1).trans (((Gen.dat3 (Gen.V7 m ρ) c).arrAt_in 1 rfl _).trans (Gen.A_eq3 (Gen.V7 m ρ) c 1))
    | ⟨2, _⟩ => exact (Gen.W8_arr m ρ c 2).trans (((Gen.dat3 (Gen.V7 m ρ) c).arrAt_in 2 rfl _).trans (Gen.A_eq3 (Gen.V7 m ρ) c 2))
    | ⟨3, _⟩ => exact absurd rfl (hb main_v29_0 (by decide))
    | ⟨4, _⟩ => exact absurd rfl (hb main_v29_1 (by decide))

end Cert.KernelIdeal.KChain

end
-- ==== Proof.Spec.lean ====
/-
  The closed forms of this network's stages, index by index, over the extended reals.

  Every array is a function of its index; a node is a row `p` (of 100000), a feature a column `q` (of 128).
  * `proj x w p q` is row `p` of `x` against column `q` of the weight matrix `w` (a dense layer without bias);
    `projScaled` multiplies it by the node's degree factor `d p` (the inverse square root of its degree).
  * `convOut agg hp d b` is the last step of a graph convolution: the aggregated neighbours' messages times the
    node's own degree factor, plus the node's own projection times the factor squared (the self loop), plus the bias.
  * `bnRelu x mu var g be res` normalises column `q` of `x` by that column's mean and variance, scales and shifts,
    clamps below at zero and adds the residual.
  * `rowLin y w b` is a dense layer with bias on rows given as a function of (row, column); `rowMean`, `rowVar`
    are a row's mean and (biased) variance over its 128 columns; `lnorm` normalises each row by them, scales and
    shifts.
  * `attn…` compose these into the fused stage: normalised, clamped, residual-added rows `attnY`; the value and
    output projections of a one-token attention added back, `attnY2`; its row normalisation `attnH3`; and the next
    layer's projection `attnHp2`, with its degree-scaled twin `attnHs2`.
-/
import Idealize.ShloMosaic.PureOps.Ideal
import Idealize.ShloMosaic.Lib.ValueIdx

noncomputable section

namespace Cert.Spec

open Idealize.ShloMosaic Idealize.ShloMosaic.ValueIdx

abbrev SND : Shape := ⟨2, ![100000, 128]⟩
abbrev SN1 : Shape := ⟨2, ![100000, 1]⟩
abbrev SDD : Shape := ⟨2, ![128, 128]⟩
abbrev SD : Shape := ⟨1, ![128]⟩

/-- The small constant added to a variance before the inverse square root (the f32 nearest 1e-5). -/
def epsv : EReal := Ideal.ofBits .f32 0x3727C5AC#32
/-- Zero, as the f32 zero word reads. -/
def zerov : EReal := Ideal.ofBits .f32 0x00000000#32
/-- The row length 128, as its f32 word reads. -/
def c128 : EReal := Ideal.ofBits .f32 0x43000000#32

/-- Row `p` of `x` against column `q` of `w`. -/
def proj (x : SND.Idx → EReal) (w : SDD.Idx → EReal) (p : Fin 100000) (q : Fin 128) : EReal :=
  ∑ k : Fin 128, x (ix2 p k) * w (ix2 k q)

/-- The projection times the node's degree factor. -/
def projScaled (x : SND.Idx → EReal) (w : SDD.Idx → EReal) (d : SN1.Idx → EReal) (p : Fin 100000) (q : Fin 128) : EReal :=
  proj x w p q * d (ix2 p 0)

/-- Aggregated messages times the degree factor, plus the self loop, plus the bias. -/
def convOut (agg hp : SND.Idx → EReal) (d : SN1.Idx → EReal) (b : SD.Idx → EReal) (p : Fin 100000) (q : Fin 128) : EReal :=
  agg (ix2 p q) * d (ix2 p 0) + hp (ix2 p q) * (d (ix2 p 0) * d (ix2 p 0)) + b (ix1 q)

/-- Column normalisation by given statistics, scale and shift, clamp at zero, residual. -/
def bnRelu (x : SND.Idx → EReal) (mu var g be : SD.Idx → EReal) (res : SND.Idx → EReal) (p : Fin 100000) (q : Fin 128) : EReal :=
  max ((x (ix2 p q) - mu (ix1 q)) * Ideal.rsqrt (var (ix1 q) + epsv) * g (ix1 q) + be (ix1 q)) zerov + res (ix2 p q)

/-- A dense layer with bias on rows given by (row, column). -/
def rowLin (y : Fin 100000 → Fin 128 → EReal) (w : SDD.Idx → EReal) (b : SD.Idx → EReal) (p : Fin 100000) (q : Fin 128) : EReal :=
  (∑ k : Fin 128, y p k * w (ix2 k q)) + b (ix1 q)

/-- A row's mean over its 128 columns. -/
def rowMean (y : Fin 100000 → Fin 128 → EReal) (p : Fin 100000) : EReal :=
  Ideal.div (∑ k : Fin 128, y p k) c128

/-- A row's biased variance over its 128 columns. -/
def rowVar (y : Fin 100000 → Fin 128 → EReal) (p : Fin 100000) : EReal :=
  Ideal.div (∑ k : Fin 128, (y p k - rowMean y p) * (y p k - rowMean y p)) c128

/-- Row normalisation, scale and shift. -/
def lnorm (y : Fin 100000 → Fin 128 → EReal) (g b : SD.Idx → EReal) (p : Fin 100000) (q : Fin 128) : EReal :=
  (y p q - rowMean y p) * Ideal.rsqrt (rowVar y p + epsv) * g (ix1 q) + b (ix1 q)

/-- The fused stage's rows after column normalisation, clamp and residual. -/
def attnY (x : SND.Idx → EReal) (mu var g be : SD.Idx → EReal) (res : SND.Idx → EReal) : Fin 100000 → Fin 128 → EReal :=
  fun p q => bnRelu x mu var g be res p q

/-- Those rows plus the output projection of their value projection. -/
def attnY2 (y : Fin 100000 → Fin 128 → EReal) (wv : SDD.Idx → EReal) (bv : SD.Idx → EReal) (wo : SDD.Idx → EReal) (bo : SD.Idx → EReal) :
    Fin 100000 → Fin 128 → EReal :=
  fun p q => y p q + rowLin (rowLin y wv bv) wo bo p q

/-- The fused stage's first output: the next layer's projection of the row-normalised rows. -/
def attnHp2 (x : SND.Idx → EReal) (mu var g be : SD.Idx → EReal) (res : SND.Idx → EReal) (wv : SDD.Idx → EReal) (bv : SD.Idx → EReal)
    (wo : SDD.Idx → EReal) (bo lng lnb : SD.Idx → EReal) (w2 : SDD.Idx → EReal) (p : Fin 100000) (q : Fin 128) : EReal :=
  ∑ k : Fin 128, lnorm (attnY2 (attnY x mu var g be res) wv bv wo bo) lng lnb p k * w2 (ix2 k q)

/-- The fused stage's second output: that projection times the node's degree factor. -/
def attnHs2 (x : SND.Idx → EReal) (mu var g be : SD.Idx → EReal) (res : SND.Idx → EReal) (wv : SDD.Idx → EReal) (bv : SD.Idx → EReal)
    (wo : SDD.Idx → EReal) (bo lng lnb : SD.Idx → EReal) (w2 : SDD.Idx → EReal) (d : SN1.Idx → EReal) (p : Fin 100000) (q : Fin 128) : EReal :=
  attnHp2 x mu var g be res wv bv wo bo lng lnb w2 p q * d (ix2 p 0)

end Cert.Spec

end
-- ==== Proof.Reg0.lean ====
/-
  Region 0 of the kernel program: a dense layer without bias, one block of 2000 rows at a time.

  At each of the 50 grid points the body multiplies the point's 2000 rows of the input by the whole 128 × 128 weight
  matrix into a zero accumulator and stores the product, and stores the product times each row's degree factor as a
  second output. Read at the exact values, entry (p, q) of the first output is row p of the input against column q
  of the weights, and entry (p, q) of the second is that times the factor of row p: the closed forms
  `Cert.Spec.proj` and `Cert.Spec.projScaled` of the region's input arrays.

  The steps: the block product read at an entry as a sum over the contracted axis; the two stored values at an
  entry; each input window's block as rows of its array; what a grid point writes back as a block of the closed
  form; the blocks tile the output, so the output array is the closed form.
-/
import proofs.«112374_j17231408792366_2_alg».proof.Proof.Gen.KernelIdeal.Frame
import proofs.«112374_j17231408792366_2_alg».proof.Proof.Spec
import Idealize.ShloMosaic.Lib.ValueLayout
import Idealize.ShloMosaic.Lib.Pipeline.Value
import Idealize.ShloMosaic.PureOps.Ideal.Laws

noncomputable section

namespace Cert.KernelIdeal.Reg0

open Idealize.ShloMosaic Idealize.ShloMosaic.ValueIdx Idealize.ShloMosaic.TcCoe Idealize.SL.Sem Cert.KernelIdeal

/-! ## The block product at an entry

The kernel multiplies a block of 2000 rows by the whole 128 × 128 weight matrix. The contraction runs over one
axis of extent 128; the left operand's index keeps the output row and takes the contracted coordinate as its
column, the right operand's takes the contracted coordinate as its row and keeps the output column. -/

theorem lhs_row (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhs_col (i : S2000x128.Idx) (k : dot_S2000x128_S128x128_S2000x128_1_0_0_1_n_n.contr.Idx) :
    (dot_S2000x128_S128x128_S2000x128_1_0_0_1_n_n.lhsIdx i k 1).val = (k ⟨0, by decide⟩).val :=
  dot_S2000x128_S128x128_S2000x128_1_0_0_1_n_n.lhsIdx_val_of_single rfl i k

theorem rhs_row (i : S2000x128.Idx) (k : dot_S2000x128_S128x128_S2000x128_1_0_0_1_n_n.contr.Idx) :
    (dot_S2000x128_S128x128_S2000x128_1_0_0_1_n_n.rhsIdx i k 0).val = (k ⟨0, by decide⟩).val :=
  dot_S2000x128_S128x128_S2000x128_1_0_0_1_n_n.rhsIdx_val_of_single rfl i k

theorem rhs_col (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Into a zero accumulator, entry (r, q) of the product is row r of the left block against column q of the right. -/
theorem matmul_at (a : FVec Ideal S2000x128 .bf16) (b : FVec Ideal S128x128 .bf16) (r : Fin 2000) (q : Fin 128) :
    FloatOps.matmul dot_S2000x128_S128x128_S2000x128_1_0_0_1_n_n none a b (constant S2000x128 .f32 0x00000000#32) (ix2 r q)
      = ∑ k : Fin 128, a (ix2 r k) * b (ix2 k q) := by
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r q)
      ((contrEquiv1 dot_S2000x128_S128x128_S2000x128_1_0_0_1_n_n 128 rfl rfl).symm k) = ix2 r k :=
    funext fun ax => Fin.ext (by
      match ax with
      | ⟨0, _⟩ => exact lhs_row _ _
      | ⟨1, _⟩ => exact (lhs_col _ _).trans hk)
  have er : dot_S2000x128_S128x128_S2000x128_1_0_0_1_n_n.rhsIdx (ix2 r q)
      ((contrEquiv1 dot_S2000x128_S128x128_S2000x128_1_0_0_1_n_n 128 rfl rfl).symm k) = ix2 k q :=
    funext fun ax => Fin.ext (by
      match ax with
      | ⟨0, _⟩ => exact (rhs_row _ _).trans hk
      | ⟨1, _⟩ => exact rhs_col _ _)
  rw [el, er]

/-- A column [a, 1] broadcast along the rows' length reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first stored value at an entry: the block product (at the exact values the roundings of the operands to
    the narrower format are the identity). -/
theorem pay1_at (x0 : Vec Ideal S2000x128 .f32) (x1 : Vec Ideal S128x128 .f32) (r : Fin 2000) (q : Fin 128) :
    Gen.k0_pay1 (F := Ideal) x0 x1 (ix2 r q) = ∑ k : Fin 128, x0 (ix2 r k) * x1 (ix2 k q) := by
  unfold Gen.k0_pay1
  exact matmul_at _ _ r q

/-- The second stored value at an entry: the block product times the row's factor, the factors' column being
    broadcast along the row. -/
theorem pay2_at (x0 : Vec Ideal S2000x128 .f32) (x1 : Vec Ideal S128x128 .f32) (x2 : Vec Ideal S2000x1 .f32)
    (r : Fin 2000) (q : Fin 128) :
    Gen.k0_pay2 (F := Ideal) x0 x1 x2 (ix2 r q)
      = (∑ k : Fin 128, x0 (ix2 r k) * x1 (ix2 k q)) * x2 (ix2 r (0 : Fin 1)) := by
  unfold Gen.k0_pay2
  refine (mulf_apply _ _ _).trans ?_
  rw [pay1_at, shapeCast_self, broadcastTo_a1_ab_apply]

/-- If the left block's row r is row p of an array, the right block the whole weight matrix, then entry (r, q) of the
    first stored value is the projection of row p at column q. -/
theorem pay1_block (x0 : Vec Ideal S2000x128 .f32) (x1 : Vec Ideal S128x128 .f32)
    (A0 : Cert.Spec.SND.Idx → EReal) (A1 : Cert.Spec.SDD.Idx → EReal) (r : Fin 2000) (q : Fin 128)
    (p : Fin 100000) (q' : Fin 128) (hq : q = q')
    (h0 : ∀ k : Fin 128, x0 (ix2 r k) = A0 (ix2 p k))
    (h1 : ∀ k : Fin 128, x1 (ix2 k q) = A1 (ix2 k q)) :
    Gen.k0_pay1 (F := Ideal) x0 x1 (ix2 r q) = Cert.Spec.proj A0 A1 p q' := by
  subst hq
  rw [pay1_at]
  unfold Cert.Spec.proj
  exact Finset.sum_congr rfl fun k _ => by rw [h0 k, h1 k]

/-- The same for the second stored value, the factors' block entry r being entry p of the factors' array. -/
theorem pay2_block (x0 : Vec Ideal S2000x128 .f32) (x1 : Vec Ideal S128x128 .f32) (x2 : Vec Ideal S2000x1 .f32)
    (A0 : Cert.Spec.SND.Idx → EReal) (A1 : Cert.Spec.SDD.Idx → EReal) (A2 : Cert.Spec.SN1.Idx → EReal)
    (r : Fin 2000) (q : Fin 128) (p : Fin 100000) (q' : Fin 128) (hq : q = q')
    (h0 : ∀ k : Fin 128, x0 (ix2 r k) = A0 (ix2 p k))
    (h1 : ∀ k : Fin 128, x1 (ix2 k q) = A1 (ix2 k q))
    (h2 : x2 (ix2 r (0 : Fin 1)) = A2 (ix2 p (0 : Fin 1))) :
    Gen.k0_pay2 (F := Ideal) x0 x1 x2 (ix2 r q) = Cert.Spec.projScaled A0 A1 A2 p q' := by
  subst hq
  rw [pay2_at, h2]
  unfold Cert.Spec.projScaled Cert.Spec.proj
  exact congrArg (· * A2 (ix2 p (0 : Fin 1))) (Finset.sum_congr rfl fun k _ => by rw [h0 k, h1 k])

/-! ## From blocks to the arrays

The grid has 50 points on one axis. At point t the row windows (the input rows, the factors, both outputs) hold
rows 2000·t … 2000·t + 1999 of their arrays, and the weight window holds the whole matrix. -/

variable (V : (c : Dev nD) → (b : Ref sig .tc) → Buf (Elt Ideal) ((c : Thread nD τ).loc b))

theorem hz : (![0, 0] : Fin 2 → Nat) = fun _ => 0 := funext fun a => by fin_cases a <;> rfl

/-- The index maps, decided once over the grid: the row windows' block index is (t, 0), the weight window's (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The input rows' block at point t, entry (r, k), is the array's entry (2000·t + r, k). -/
theorem rows_block_at (c : Dev nD) (t : Fin cfg0.N) (r : Fin 2000) (k : Fin 128) (p : Fin 100000)
    (hp : p.val = t.val * 2000 + r.val) :
    (Gen.iblk0 (F := Ideal) V c 0 t : Vec Ideal S2000x128 .f32) (ix2 r k)
      = (V c (Pipeline.arrRef spec0 0) : Cert.Spec.SND.Idx → EReal) (ix2 p k) := by
  obtain ⟨e0, e1, -⟩ := idx_facts t
  unfold Gen.iblk0
  rw [View.read_apply]
  refine congrArg (V c (Pipeline.arrRef spec0 0)) (funext fun a => Fin.ext ?_)
  match a with
  | ⟨0, _⟩ => show win0_0.index t (0 : Fin 2) * 2000 + 1 * r.val = p.val; omega
  | ⟨1, _⟩ => show win0_0.index t (1 : Fin 2) * 128 + 1 * k.val = k.val; omega

/-- The weight window's block at every point is the whole matrix. -/
theorem weight_block_at (c : Dev nD) (t : Fin cfg0.N) (k q : Fin 128) :
    (Gen.iblk0 (F := Ideal) V c 1 t : Vec Ideal S128x128 .f32) (ix2 k q)
      = (V c (Pipeline.arrRef spec0 1) : Cert.Spec.SDD.Idx → EReal) (ix2 k q) := by
  obtain ⟨-, -, e0, e1, -⟩ := idx_facts t
  unfold Gen.iblk0
  rw [View.read_apply]
  refine congrArg (V c (Pipeline.arrRef spec0 1)) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The factors' block at point t, entry (r, 0), is the array's entry (2000·t + r, 0). -/
theorem factor_block_at (c : Dev nD) (t : Fin cfg0.N) (r : Fin 2000) (p : Fin 100000)
    (hp : p.val = t.val * 2000 + r.val) :
    (Gen.iblk0 (F := Ideal) V c 2 t : Vec Ideal S2000x1 .f32) (ix2 r (0 : Fin 1))
      = (V c (Pipeline.arrRef spec0 2) : Cert.Spec.SN1.Idx → EReal) (ix2 p (0 : Fin 1)) := by
  obtain ⟨-, -, -, -, e0, e1, -⟩ := idx_facts t
  unfold Gen.iblk0
  rw [View.read_apply]
  refine congrArg (V c (Pipeline.arrRef spec0 2)) (funext fun a => Fin.ext ?_)
  match a with
  | ⟨0, _⟩ => show win0_2.index t (0 : Fin 2) * 2000 + 1 * r.val = p.val; omega
  | ⟨1, _⟩ => show win0_2.index t (1 : Fin 2) * 1 + 1 * 0 = 0; omega

/-- The first output as one function of the arrays: the projection, index by index. -/
abbrev projArr (A0 : Cert.Spec.SND.Idx → EReal) (A1 : Cert.Spec.SDD.Idx → EReal) : S100000x128.Idx → EReal :=
  fun i => Cert.Spec.proj A0 A1 (i 0) (i 1)

/-- The second output as one function of the arrays: the scaled projection, index by index. -/
abbrev projScaledArr (A0 : Cert.Spec.SND.Idx → EReal) (A1 : Cert.Spec.SDD.Idx → EReal) (A2 : Cert.Spec.SN1.Idx → EReal) :
    S100000x128.Idx → EReal :=
  fun i => Cert.Spec.projScaled A0 A1 A2 (i 0) (i 1)

/-- What point t writes back to the first output is block t of the projection. -/
theorem flushed3_eq (c : Dev nD) (t : Fin cfg0.N) :
    (Gen.dat0 (F := Ideal) V c).flushed 3 t
      = ((cfg0.win 3).blk t).view.read (Elt Ideal)
          (projArr (V c (Pipeline.arrRef spec0 0)) (V c (Pipeline.arrRef spec0 1))) := by
  show (cfg0.win 3).cut (grid0.coords t) ((Gen.dat0 (F := Ideal) V c).after 3 t) = _
  rw [Gen.after0_3]
  unfold Gen.out0_3
  rw [View.canon_unit_zero hz]
  simp only [View.ld_unit_zero (S := S2000x128) hz, View.ld_unit_zero (S := S128x128) hz]
  funext j
  obtain ⟨r, q, rfl⟩ : ∃ (r : Fin 2000) (q : Fin 128), j = ix2 r q := ⟨j 0, j 1, eq_ix2 j⟩
  obtain ⟨-, -, -, -, -, -, e0, e1, -⟩ := idx_facts t
  show Gen.k0_pay1 (F := Ideal) (Gen.iblk0 V c 0 t) (Gen.iblk0 V c 1 t) (ix2 r q)
    = Cert.Spec.proj (V c (Pipeline.arrRef spec0 0)) (V c (Pipeline.arrRef spec0 1))
        ((((cfg0.win 3).blk t).view.emb (ix2 r q)) 0) ((((cfg0.win 3).blk t).view.emb (ix2 r q)) 1)
  refine pay1_block (Gen.iblk0 V c 0 t) (Gen.iblk0 V c 1 t) (V c (Pipeline.arrRef spec0 0))
    (V c (Pipeline.arrRef spec0 1)) r q _ _ (Fin.ext ?_) (fun k => rows_block_at V c t r k _ ?_)
    (fun k => weight_block_at V c t k q)
  · show q.val = win0_3.index t (1 : Fin 2) * 128 + 1 * q.val; omega
  · show win0_3.index t (0 : Fin 2) * 2000 + 1 * r.val = t.val * 2000 + r.val; omega

/-- What point t writes back to the second output is block t of the scaled projection. -/
theorem flushed4_eq (c : Dev nD) (t : Fin cfg0.N) :
    (Gen.dat0 (F := Ideal) V c).flushed 4 t
      = ((cfg0.win 4).blk t).view.read (Elt Ideal)
          (projScaledArr (V c (Pipeline.arrRef spec0 0)) (V c (Pipeline.arrRef spec0 1))
            (V c (Pipeline.arrRef spec0 2))) := by
  show (cfg0.win 4).cut (grid0.coords t) ((Gen.dat0 (F := Ideal) V c).after 4 t) = _
  rw [Gen.after0_4]
  unfold Gen.out0_4
  rw [View.canon_unit_zero hz]
  simp only [View.ld_unit_zero (S := S2000x128) hz, View.ld_unit_zero (S := S128x128) hz,
    View.ld_unit_zero (S := S2000x1) hz]
  funext j
  obtain ⟨r, q, rfl⟩ : ∃ (r : Fin 2000) (q : Fin 128), j = ix2 r q := ⟨j 0, j 1, eq_ix2 j⟩
  obtain ⟨-, -, -, -, -, -, -, -, e0, e1⟩ := idx_facts t
  show Gen.k0_pay2 (F := Ideal) (Gen.iblk0 V c 0 t) (Gen.iblk0 V c 1 t) (Gen.iblk0 V c 2 t) (ix2 r q)
    = Cert.Spec.projScaled (V c (Pipeline.arrRef spec0 0)) (V c (Pipeline.arrRef spec0 1))
        (V c (Pipeline.arrRef spec0 2))
        ((((cfg0.win 4).blk t).view.emb (ix2 r q)) 0) ((((cfg0.win 4).blk t).view.emb (ix2 r q)) 1)
  refine pay2_block (Gen.iblk0 V c 0 t) (Gen.iblk0 V c 1 t) (Gen.iblk0 V c 2 t)
    (V c (Pipeline.arrRef spec0 0)) (V c (Pipeline.arrRef spec0 1)) (V c (Pipeline.arrRef spec0 2))
    r q _ _ (Fin.ext ?_) (fun k => rows_block_at V c t r k _ ?_) (fun k => weight_block_at V c t k q)
    (factor_block_at V c t r _ ?_)
  · show q.val = win0_4.index t (1 : Fin 2) * 128 + 1 * q.val; omega
  · show win0_4.index t (0 : Fin 2) * 2000 + 1 * r.val = t.val * 2000 + r.val; omega
  · show win0_4.index t (0 : Fin 2) * 2000 + 1 * r.val = t.val * 2000 + r.val; omega

/-- An index of the first output is in point t's block iff each coordinate is in the block's range on its axis. -/
theorem mem_blk3 (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v12_0).slice (win0_3.rect t)).set ↔ _
  rw [View.set_slice_whole, Rect.mem_set_unit]
  exact Iff.rfl

/-- The same for the second output. -/
theorem mem_blk4 (t : Fin cfg0.N) (i : S100000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v12_1).slice (win0_4.rect t)).set ↔ _
  rw [View.set_slice_whole, Rect.mem_set_unit]
  exact Iff.rfl

/-- Row p lies in the block of point p / 2000: the blocks tile the first output. -/
theorem cover3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := Gen.N_0
  have ht : (i 0).val / 2000 < cfg0.N := by rw [hN]; omega
  obtain ⟨-, -, -, -, -, -, e0, e1, -⟩ := idx_facts ⟨(i 0).val / 2000, ht⟩
  refine ⟨⟨(i 0).val / 2000, ht⟩, Gen.flush0_3 _, ?_⟩
  rw [mem_blk3]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, ht⟩ (1 : Fin 2) * 128 ≤ (i 1).val
      ∧ (i 1).val < win0_3.index ⟨(i 0).val / 2000, ht⟩ (1 : Fin 2) * 128 + 128
    rw [e1]; omega

/-- The same for the second output. -/
theorem cover4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 50 := Gen.N_0
  have ht : (i 0).val / 2000 < cfg0.N := by rw [hN]; omega
  obtain ⟨-, -, -, -, -, -, -, -, e0, e1⟩ := idx_facts ⟨(i 0).val / 2000, ht⟩
  refine ⟨⟨(i 0).val / 2000, ht⟩, Gen.flush0_4 _, ?_⟩
  rw [mem_blk4]
  intro a
  match a with
  | ⟨0, _⟩ =>
    show win0_4.index ⟨(i 0).val / 2000, ht⟩ (0 : Fin 2) * 2000 ≤ (i 0).val
      ∧ (i 0).val < win0_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_4.index ⟨(i 0).val / 2000, ht⟩ (1 : Fin 2) * 128 ≤ (i 1).val
      ∧ (i 1).val < win0_4.index ⟨(i 0).val / 2000, ht⟩ (1 : Fin 2) * 128 + 128
    rw [e1]; omega

/-- THE FIRST OUTPUT after the region: the projection of the input rows by the weight matrix, entry by entry. -/
theorem final3 (c : Dev nD) (p : Fin 100000) (q : Fin 128) :
    (Gen.dat0 (F := Ideal) V c).arrAt 3 cfg0.N (ix2 p q)
      = Cert.Spec.proj (V c (Pipeline.arrRef spec0 0)) (V c (Pipeline.arrRef spec0 1)) p q :=
  congrFun ((Gen.dat0 (F := Ideal) V c).arrAt_eq_of_cover 3
    (projArr (V c (Pipeline.arrRef spec0 0)) (V c (Pipeline.arrRef spec0 1)))
    (fun t _ => flushed3_eq V c t) cover3) (ix2 p q)

/-- THE SECOND OUTPUT after the region: that projection times the row's factor, entry by entry. -/
theorem final4 (c : Dev nD) (p : Fin 100000) (q : Fin 128) :
    (Gen.dat0 (F := Ideal) V c).arrAt 4 cfg0.N (ix2 p q)
      = Cert.Spec.projScaled (V c (Pipeline.arrRef spec0 0)) (V c (Pipeline.arrRef spec0 1))
          (V c (Pipeline.arrRef spec0 2)) p q :=
  congrFun ((Gen.dat0 (F := Ideal) V c).arrAt_eq_of_cover 4
    (projScaledArr (V c (Pipeline.arrRef spec0 0)) (V c (Pipeline.arrRef spec0 1))
      (V c (Pipeline.arrRef spec0 2)))
    (fun t _ => flushed4_eq V c t) cover4) (ix2 p q)

end Cert.KernelIdeal.Reg0

end
-- ==== Proof.Reg1.lean ====
/-
  The first convolution's last step, as the array its region leaves.

  At row `r`, column `q` of a block the region's body stores the aggregated messages' entry times the row's degree
  factor, plus the row's own projection times the factor squared, plus the bias of column `q`: the factor is a
  column of one entry per row, repeated along the row, and the bias one row repeated down the block.

  The grid has 50 points. At point `t` the aggregate, the projection and the output each have the block of rows
  `2000 t … 2000 t + 1999` with all 128 columns, the factors the same rows of their one column, and the bias is read
  whole. So what point `t` writes back is rows `2000 t … 2000 t + 1999` of one function of the whole input arrays,
  the specification's `Cert.Spec.convOut`; row `p` lies in the block of point `p / 2000`, the 50 blocks tile the
  100000 rows, and the output array after the region is `convOut` of the region's four input arrays at every index.
-/
import proofs.«112374_j17231408792366_2_alg».proof.Proof.Spec
import proofs.«112374_j17231408792366_2_alg».proof.Proof.Gen.KernelIdeal.Frame
import Idealize.ShloMosaic.Lib.Pipeline.Value
import Idealize.ShloMosaic.Lib.ValueLayout

noncomputable section

namespace Cert.KernelIdeal.Reg1

open Idealize.ShloMosaic Idealize.ShloMosaic.TcCoe Idealize.ShloMosaic.ValueIdx Idealize.SL.Sem Cert.KernelIdeal
open Idealize.ShloMosaic.Pipeline (Dat)

variable (V : (c : Dev nD) → (b : Ref sig .tc) → Buf (Elt Ideal) ((c : Thread nD τ).loc b))

/-! ## The body's stored value at an index -/

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at row `r`, column `q` of the block: the aggregate times the row's factor, plus the
    row's own projection times the factor squared, plus the bias of column `q`. -/
theorem pay_apply (x0 x1 : Vec Ideal S2000x128 .f32) (x2 : Vec Ideal S2000x1 .f32) (x3 : Vec Ideal S128 .f32)
    (r : Fin 2000) (q : Fin 128) :
    Gen.k1_pay1 (F := Ideal) x0 x1 x2 x3 (ix2 r q)
      = x0 (ix2 r q) * x2 (ix2 r 0) + x1 (ix2 r q) * (x2 (ix2 r 0) * x2 (ix2 r 0)) + x3 (ix1 q) := by
  unfold Gen.k1_pay1
  simp only [shapeCast_self]
  rw [addf_apply, addf_apply, mulf_apply, mulf_apply, broadcastTo_a1_ab_apply, broadcastTo_a1_ab_apply,
    broadcastTo_1b_ab_apply, shapeCast_a_1a_apply, mulf_apply]

/-! ## The windows' blocks as parts of their arrays -/

theorem hz : (![0, 0] : Fin 2 → Nat) = fun _ => 0 := funext fun a => by fin_cases a <;> rfl
theorem hz1 : (![0] : Fin 1 → Nat) = fun _ => 0 := funext fun a => by fin_cases a <;> rfl

/-- The printed index maps, decided over the grid: each row-blocked window sits at block row `t`, block column 0; the
    bias window is fetched whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_4.index t (0 : Fin 2) = t.val ∧ win1_4.index t (1 : Fin 2) = 0
    ∧ win1_3.index t (0 : Fin 1) = 0 :=
  (by decide +kernel : ∀ t : Fin grid1.N, _)

/-- Window 0's block at point `t` holds rows `2000 t … 2000 t + 1999` of its array. -/
theorem blk0_apply (c : Dev nD) (t : Fin cfg1.N) (r : Fin 2000) (q : Fin 128) (p : Fin 100000)
    (hp : p.val = 2000 * t.val + r.val) :
    (Gen.iblk1 (F := Ideal) V c 0 t : Vec Ideal S2000x128 .f32) (ix2 r q)
      = (V c (Pipeline.arrRef spec1 0) : S100000x128.Idx → EReal) (ix2 p q) := by
  have e0 : win1_0.index t (0 : Fin 2) = t.val := (idx_facts t).1
  have e1 : win1_0.index t (1 : Fin 2) = 0 := (idx_facts t).2.1
  show (V c (Pipeline.arrRef spec1 0) : S100000x128.Idx → EReal) (((cfg1.win 0).blk t).view.emb (ix2 r q)) = _
  refine congrArg (V c (Pipeline.arrRef spec1 0) : S100000x128.Idx → EReal) (funext fun a => Fin.ext ?_)
  match a with
  | ⟨0, _⟩ => show win1_0.index t (0 : Fin 2) * 2000 + 1 * r.val = p.val; rw [e0, hp]; omega
  | ⟨1, _⟩ => show win1_0.index t (1 : Fin 2) * 128 + 1 * q.val = q.val; rw [e1]; omega

/-- Window 1's block at point `t` holds rows `2000 t … 2000 t + 1999` of its array. -/
theorem blk1_apply (c : Dev nD) (t : Fin cfg1.N) (r : Fin 2000) (q : Fin 128) (p : Fin 100000)
    (hp : p.val = 2000 * t.val + r.val) :
    (Gen.iblk1 (F := Ideal) V c 1 t : Vec Ideal S2000x128 .f32) (ix2 r q)
      = (V c (Pipeline.arrRef spec1 1) : S100000x128.Idx → EReal) (ix2 p q) := by
  have e0 : win1_1.index t (0 : Fin 2) = t.val := (idx_facts t).2.2.1
  have e1 : win1_1.index t (1 : Fin 2) = 0 := (idx_facts t).2.2.2.1
  show (V c (Pipeline.arrRef spec1 1) : S100000x128.Idx → EReal) (((cfg1.win 1).blk t).view.emb (ix2 r q)) = _
  refine congrArg (V c (Pipeline.arrRef spec1 1) : S100000x128.Idx → EReal) (funext fun a => Fin.ext ?_)
  match a with
  | ⟨0, _⟩ => show win1_1.index t (0 : Fin 2) * 2000 + 1 * r.val = p.val; rw [e0, hp]; omega
  | ⟨1, _⟩ => show win1_1.index t (1 : Fin 2) * 128 + 1 * q.val = q.val; rw [e1]; omega

/-- Window 2's block at point `t` holds rows `2000 t … 2000 t + 1999` of its array (one column). -/
theorem blk2_apply (c : Dev nD) (t : Fin cfg1.N) (r : Fin 2000) (q : Fin 1) (p : Fin 100000)
    (hp : p.val = 2000 * t.val + r.val) :
    (Gen.iblk1 (F := Ideal) V c 2 t : Vec Ideal S2000x1 .f32) (ix2 r q)
      = (V c (Pipeline.arrRef spec1 2) : S100000x1.Idx → EReal) (ix2 p q) := by
  have e0 : win1_2.index t (0 : Fin 2) = t.val := (idx_facts t).2.2.2.2.1
  have e1 : win1_2.index t (1 : Fin 2) = 0 := (idx_facts t).2.2.2.2.2.1
  show (V c (Pipeline.arrRef spec1 2) : S100000x1.Idx → EReal) (((cfg1.win 2).blk t).view.emb (ix2 r q)) = _
  refine congrArg (V c (Pipeline.arrRef spec1 2) : S100000x1.Idx → EReal) (funext fun a => Fin.ext ?_)
  match a with
  | ⟨0, _⟩ => show win1_2.index t (0 : Fin 2) * 2000 + 1 * r.val = p.val; rw [e0, hp]; omega
  | ⟨1, _⟩ => show win1_2.index t (1 : Fin 2) * 1 + 1 * q.val = q.val; rw [e1]; omega

/-- Window 3's block is its whole array at every point. -/
theorem blk3_apply (c : Dev nD) (t : Fin cfg1.N) (q : Fin 128) :
    (Gen.iblk1 (F := Ideal) V c 3 t : Vec Ideal S128 .f32) (ix1 q)
      = (V c (Pipeline.arrRef spec1 3) : S128.Idx → EReal) (ix1 q) := by
  have e0 : win1_3.index t (0 : Fin 1) = 0 := (idx_facts t).2.2.2.2.2.2.2.2
  show (V c (Pipeline.arrRef spec1 3) : S128.Idx → EReal) (((cfg1.win 3).blk t).view.emb (ix1 q)) = _
  refine congrArg (V c (Pipeline.arrRef spec1 3) : S128.Idx → EReal) (funext fun a => Fin.ext ?_)
  match a with
  | ⟨0, _⟩ => show win1_3.index t (0 : Fin 1) * 128 + 1 * q.val = q.val; rw [e0]; omega

/-- The output window's block at point `t` sits at rows `2000 t … 2000 t + 1999` of its array. -/
theorem emb4 (t : Fin cfg1.N) (r : Fin 2000) (q : Fin 128) (p : Fin 100000) (hp : p.val = 2000 * t.val + r.val) :
    (((cfg1.win 4).blk t).view.emb (ix2 r q : S2000x128.Idx) : S100000x128.Idx) = ix2 p q := by
  have e0 : win1_4.index t (0 : Fin 2) = t.val := (idx_facts t).2.2.2.2.2.2.1
  have e1 : win1_4.index t (1 : Fin 2) = 0 := (idx_facts t).2.2.2.2.2.2.2.1
  refine funext fun a => Fin.ext ?_
  match a with
  | ⟨0, _⟩ => show win1_4.index t (0 : Fin 2) * 2000 + 1 * r.val = p.val; rw [e0, hp]; omega
  | ⟨1, _⟩ => show win1_4.index t (1 : Fin 2) * 128 + 1 * q.val = q.val; rw [e1]; omega

/-! ## What each point writes back, the cover, and the array after the region -/

/-- The array the region leaves: the convolution's last step of the four arrays the region finds, index by index. -/
abbrev G (c : Dev nD) : S100000x128.Idx → EReal := fun i =>
  Cert.Spec.convOut (V c (Pipeline.arrRef spec1 0)) (V c (Pipeline.arrRef spec1 1)) (V c (Pipeline.arrRef spec1 2))
    (V c (Pipeline.arrRef spec1 3)) ⟨(i 0).val, idx2_lt0 i⟩ ⟨(i 1).val, idx2_lt1 i⟩

/-- What point `t` writes back is block `t` of `G`. -/
theorem flushed_eq (c : Dev nD) (t : Fin cfg1.N) :
    (Gen.dat1 (F := Ideal) V c).flushed 4 t = ((cfg1.win 4).blk t).view.read (Elt Ideal) (G V c) := by
  show (cfg1.win 4).cut (grid1.coords t) ((Gen.dat1 (F := Ideal) V c).after 4 t) = _
  rw [Gen.after1_4]
  unfold Gen.out1_4
  rw [View.canon_unit_zero hz]
  simp only [View.ld_unit_zero (S := S2000x128) hz, View.ld_unit_zero (S := S2000x1) hz, View.ld_unit_zero (S := S128) hz1]
  show (Gen.k1_pay1 (F := Ideal) (Gen.iblk1 V c 0 t) (Gen.iblk1 V c 1 t) (Gen.iblk1 V c 2 t) (Gen.iblk1 V c 3 t) : S2000x128.Idx → EReal)
    = fun j : S2000x128.Idx => G V c (((cfg1.win 4).blk t).view.emb j)
  funext j
  obtain ⟨r, q, rfl⟩ : ∃ (r : Fin 2000) (q : Fin 128), j = ix2 r q := ⟨j 0, j 1, eq_ix2 j⟩
  have hN : grid1.N = 50 := Gen.N_1
  have ht : t.val < 50 := Nat.lt_of_lt_of_eq (show t.val < grid1.N from t.isLt) hN
  have hp : 2000 * t.val + r.val < 100000 := by have := r.isLt; omega
  refine (pay_apply _ _ _ _ r q).trans ?_
  rw [blk0_apply V c t r q ⟨_, hp⟩ rfl, blk1_apply V c t r q ⟨_, hp⟩ rfl, blk2_apply V c t r 0 ⟨_, hp⟩ rfl,
    blk3_apply V c t q, emb4 t r q ⟨_, hp⟩ rfl]
  rfl

/-- An index of the array is in point `t`'s block iff each coordinate is in the block's range on its axis. -/
theorem mem_blk (t : Fin cfg1.N) (i : S100000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v23).slice (win1_4.rect t)).set ↔ _
  rw [View.set_slice_whole, Rect.mem_set_unit]
  exact Iff.rfl

/-- Every index of the array is in the block of the point its row's quotient by 2000 names. -/
theorem cover (i : S100000x128.Idx) :
    ∃ t : Fin cfg1.N, (cfg1.win 4).flush t = true ∧ i ∈ ((cfg1.win 4).blk t).view.set := by
  have hi0 : (i 0).val < 100000 := idx2_lt0 i
  have hi1 : (i 1).val < 128 := idx2_lt1 i
  have hN : grid1.N = 50 := Gen.N_1
  have ht : (i 0).val / 2000 < cfg1.N := by show (i 0).val / 2000 < grid1.N; rw [hN]; omega
  have e0 : win1_4.index ⟨(i 0).val / 2000, ht⟩ (0 : Fin 2) = (i 0).val / 2000 := (idx_facts _).2.2.2.2.2.2.1
  have e1 : win1_4.index ⟨(i 0).val / 2000, ht⟩ (1 : Fin 2) = 0 := (idx_facts _).2.2.2.2.2.2.2.1
  refine ⟨⟨(i 0).val / 2000, ht⟩, Gen.flush1_4 _, ?_⟩
  rw [mem_blk]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    rw [e0]; omega
  | ⟨1, _⟩ =>
    show win1_4.index ⟨(i 0).val / 2000, ht⟩ (1 : Fin 2) * 128 ≤ (i 1).val
      ∧ (i 1).val < win1_4.index ⟨(i 0).val / 2000, ht⟩ (1 : Fin 2) * 128 + 128
    rw [e1]; omega

/-- THE ARRAY after the region, index by index: the convolution's last step of the arrays the region finds. -/
theorem final (c : Dev nD) (p : Fin 100000) (q : Fin 128) :
    (Gen.dat1 (F := Ideal) V c).arrAt 4 cfg1.N (ix2 p q)
      = Cert.Spec.convOut (V c (Pipeline.arrRef spec1 0)) (V c (Pipeline.arrRef spec1 1)) (V c (Pipeline.arrRef spec1 2))
          (V c (Pipeline.arrRef spec1 3)) p q := by
  rw [(Gen.dat1 (F := Ideal) V c).arrAt_eq_of_cover 4 (G V c) (fun t _ => flushed_eq V c t) cover]

end Cert.KernelIdeal.Reg1

end
-- ==== Proof.Reg2.lean ====
/-
  The first batch-normalised layer, as the array its region leaves.

  At row `r`, column `q` of a block the region's body stores: the convolution's entry minus the mean of column `q`,
  times the inverse square root of that column's variance plus a small constant, times the column's scale, plus its
  shift; the larger of that and zero; plus the residual's entry. The four per-column vectors are single rows repeated
  down the block.

  The grid has 50 points. At point `t` the convolution's output, the residual and the output each have the block of
  rows `2000 t … 2000 t + 1999` with all 128 columns, and the means, variances, scale and shift are read whole. So
  what point `t` writes back is rows `2000 t … 2000 t + 1999` of one function of the whole input arrays, the
  specification's `Cert.Spec.bnRelu`; row `p` lies in the block of point `p / 2000`, the 50 blocks tile the 100000
  rows, and the output array after the region is `bnRelu` of the region's six input arrays at every index.
-/
import proofs.«112374_j17231408792366_2_alg».proof.Proof.Spec
import proofs.«112374_j17231408792366_2_alg».proof.Proof.Gen.KernelIdeal.Frame
import Idealize.ShloMosaic.Lib.Pipeline.Value
import Idealize.ShloMosaic.Lib.ValueLayout

noncomputable section

namespace Cert.KernelIdeal.Reg2

open Idealize.ShloMosaic Idealize.ShloMosaic.TcCoe Idealize.ShloMosaic.ValueIdx Idealize.SL.Sem Cert.KernelIdeal
open Idealize.ShloMosaic.Pipeline (Dat)

variable (V : (c : Dev nD) → (b : Ref sig .tc) → Buf (Elt Ideal) ((c : Thread nD τ).loc b))

/-! ## The body's stored value at an index -/

/-- The body's stored value at row `r`, column `q` of the block: the entry minus the column's mean, times the inverse
    square root of the column's variance plus the small constant, times the scale, plus the shift; clamped below at
    zero; plus the residual's entry. -/
theorem pay_apply (x0 : Vec Ideal S2000x128 .f32) (x1 x2 x3 x4 : Vec Ideal S128 .f32) (x5 : Vec Ideal S2000x128 .f32)
    (r : Fin 2000) (q : Fin 128) :
    Gen.k2_pay1 (F := Ideal) x0 x1 x2 x3 x4 x5 (ix2 r q)
      = max ((x0 (ix2 r q) - x1 (ix1 q)) * Ideal.rsqrt (x2 (ix1 q) + Cert.Spec.epsv) * x3 (ix1 q) + x4 (ix1 q)) Cert.Spec.zerov
          + x5 (ix2 r q) := by
  unfold Gen.k2_pay1
  simp only [shapeCast_self]
  rw [addf_apply, maximumf_apply, addf_apply, mulf_apply, mulf_apply, subf_apply, broadcast_apply,
    broadcastTo_1b_ab_apply, broadcastTo_1b_ab_apply, broadcastTo_1b_ab_apply, broadcastTo_1b_ab_apply,
    shapeCast_a_1a_apply, shapeCast_a_1a_apply, shapeCast_a_1a_apply]
  show max ((x0 (ix2 r q) - x1 (ix1 q))
      * Ideal.rsqrt (shapeCast S1x128 x2 Gen.shapeCasts_S128_S1x128 (ix2 (0 : Fin 1) q) + Ideal.ofBits .f32 0x3727C5AC#32)
      * x3 (ix1 q) + x4 (ix1 q)) (Ideal.ofBits .f32 0x00000000#32) + x5 (ix2 r q) = _
  rw [shapeCast_a_1a_apply]
  rfl

/-! ## The windows' blocks as parts of their arrays -/

theorem hz : (![0, 0] : Fin 2 → Nat) = fun _ => 0 := funext fun a => by fin_cases a <;> rfl
theorem hz1 : (![0] : Fin 1 → Nat) = fun _ => 0 := funext fun a => by fin_cases a <;> rfl

/-- The printed index maps, decided over the grid: each row-blocked window sits at block row `t`, block column 0; the
    four per-column vectors are fetched whole. -/
theorem idx_facts : ∀ t : Fin cfg2.N, win2_0.index t (0 : Fin 2) = t.val ∧ win2_0.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_1.index t (0 : Fin 1) = 0 ∧ win2_2.index t (0 : Fin 1) = 0
    ∧ win2_3.index t (0 : Fin 1) = 0 ∧ win2_4.index t (0 : Fin 1) = 0 :=
  (by decide +kernel : ∀ t : Fin grid2.N, _)

/-- Window 0's block at point `t` holds rows `2000 t … 2000 t + 1999` of its array. -/
theorem blk0_apply (c : Dev nD) (t : Fin cfg2.N) (r : Fin 2000) (q : Fin 128) (p : Fin 100000)
    (hp : p.val = 2000 * t.val + r.val) :
    (Gen.iblk2 (F := Ideal) V c 0 t : Vec Ideal S2000x128 .f32) (ix2 r q)
      = (V c (Pipeline.arrRef spec2 0) : S100000x128.Idx → EReal) (ix2 p q) := by
  have e0 : win2_0.index t (0 : Fin 2) = t.val := (idx_facts t).1
  have e1 : win2_0.index t (1 : Fin 2) = 0 := (idx_facts t).2.1
  show (V c (Pipeline.arrRef spec2 0) : S100000x128.Idx → EReal) (((cfg2.win 0).blk t).view.emb (ix2 r q)) = _
  refine congrArg (V c (Pipeline.arrRef spec2 0) : S100000x128.Idx → EReal) (funext fun a => Fin.ext ?_)
  match a with
  | ⟨0, _⟩ => show win2_0.index t (0 : Fin 2) * 2000 + 1 * r.val = p.val; rw [e0, hp]; omega
  | ⟨1, _⟩ => show win2_0.index t (1 : Fin 2) * 128 + 1 * q.val = q.val; rw [e1]; omega

/-- Window 5's block at point `t` holds rows `2000 t … 2000 t + 1999` of its array. -/
theorem blk5_apply (c : Dev nD) (t : Fin cfg2.N) (r : Fin 2000) (q : Fin 128) (p : Fin 100000)
    (hp : p.val = 2000 * t.val + r.val) :
    (Gen.iblk2 (F := Ideal) V c 5 t : Vec Ideal S2000x128 .f32) (ix2 r q)
      = (V c (Pipeline.arrRef spec2 5) : S100000x128.Idx → EReal) (ix2 p q) := by
  have e0 : win2_5.index t (0 : Fin 2) = t.val := (idx_facts t).2.2.1
  have e1 : win2_5.index t (1 : Fin 2) = 0 := (idx_facts t).2.2.2.1
  show (V c (Pipeline.arrRef spec2 5) : S100000x128.Idx → EReal) (((cfg2.win 5).blk t).view.emb (ix2 r q)) = _
  refine congrArg (V c (Pipeline.arrRef spec2 5) : S100000x128.Idx → EReal) (funext fun a => Fin.ext ?_)
  match a with
  | ⟨0, _⟩ => show win2_5.index t (0 : Fin 2) * 2000 + 1 * r.val = p.val; rw [e0, hp]; omega
  | ⟨1, _⟩ => show win2_5.index t (1 : Fin 2) * 128 + 1 * q.val = q.val; rw [e1]; omega

/-- Window 1's block (the columns' means) is its whole array at every point. -/
theorem blk1_apply (c : Dev nD) (t : Fin cfg2.N) (q : Fin 128) :
    (Gen.iblk2 (F := Ideal) V c 1 t : Vec Ideal S128 .f32) (ix1 q)
      = (V c (Pipeline.arrRef spec2 1) : S128.Idx → EReal) (ix1 q) := by
  have e0 : win2_1.index t (0 : Fin 1) = 0 := (idx_facts t).2.2.2.2.2.2.1
  show (V c (Pipeline.arrRef spec2 1) : S128.Idx → EReal) (((cfg2.win 1).blk t).view.emb (ix1 q)) = _
  refine congrArg (V c (Pipeline.arrRef spec2 1) : S128.Idx → EReal) (funext fun a => Fin.ext ?_)
  match a with
  | ⟨0, _⟩ => show win2_1.index t (0 : Fin 1) * 128 + 1 * q.val = q.val; rw [e0]; omega

/-- Window 2's block (the columns' variances) is its whole array at every point. -/
theorem blk2_apply (c : Dev nD) (t : Fin cfg2.N) (q : Fin 128) :
    (Gen.iblk2 (F := Ideal) V c 2 t : Vec Ideal S128 .f32) (ix1 q)
      = (V c (Pipeline.arrRef spec2 2) : S128.Idx → EReal) (ix1 q) := by
  have e0 : win2_2.index t (0 : Fin 1) = 0 := (idx_facts t).2.2.2.2.2.2.2.1
  show (V c (Pipeline.arrRef spec2 2) : S128.Idx → EReal) (((cfg2.win 2).blk t).view.emb (ix1 q)) = _
  refine congrArg (V c (Pipeline.arrRef spec2 2) : S128.Idx → EReal) (funext fun a => Fin.ext ?_)
  match a with
  | ⟨0, _⟩ => show win2_2.index t (0 : Fin 1) * 128 + 1 * q.val = q.val; rw [e0]; omega

/-- Window 3's block (the scale) is its whole array at every point. -/
theorem blk3_apply (c : Dev nD) (t : Fin cfg2.N) (q : Fin 128) :
    (Gen.iblk2 (F := Ideal) V c 3 t : Vec Ideal S128 .f32) (ix1 q)
      = (V c (Pipeline.arrRef spec2 3) : S128.Idx → EReal) (ix1 q) := by
  have e0 : win2_3.index t (0 : Fin 1) = 0 := (idx_facts t).2.2.2.2.2.2.2.2.1
  show (V c (Pipeline.arrRef spec2 3) : S128.Idx → EReal) (((cfg2.win 3).blk t).view.emb (ix1 q)) = _
  refine congrArg (V c (Pipeline.arrRef spec2 3) : S128.Idx → EReal) (funext fun a => Fin.ext ?_)
  match a with
  | ⟨0, _⟩ => show win2_3.index t (0 : Fin 1) * 128 + 1 * q.val = q.val; rw [e0]; omega

/-- Window 4's block (the shift) is its whole array at every point. -/
theorem blk4_apply (c : Dev nD) (t : Fin cfg2.N) (q : Fin 128) :
    (Gen.iblk2 (F := Ideal) V c 4 t : Vec Ideal S128 .f32) (ix1 q)
      = (V c (Pipeline.arrRef spec2 4) : S128.Idx → EReal) (ix1 q) := by
  have e0 : win2_4.index t (0 : Fin 1) = 0 := (idx_facts t).2.2.2.2.2.2.2.2.2
  show (V c (Pipeline.arrRef spec2 4) : S128.Idx → EReal) (((cfg2.win 4).blk t).view.emb (ix1 q)) = _
  refine congrArg (V c (Pipeline.arrRef spec2 4) : S128.Idx → EReal) (funext fun a => Fin.ext ?_)
  match a with
  | ⟨0, _⟩ => show win2_4.index t (0 : Fin 1) * 128 + 1 * q.val = q.val; rw [e0]; omega

/-- The output window's block at point `t` sits at rows `2000 t … 2000 t + 1999` of its array. -/
theorem emb6 (t : Fin cfg2.N) (r : Fin 2000) (q : Fin 128) (p : Fin 100000) (hp : p.val = 2000 * t.val + r.val) :
    (((cfg2.win 6).blk t).view.emb (ix2 r q : S2000x128.Idx) : S100000x128.Idx) = ix2 p q := by
  have e0 : win2_6.index t (0 : Fin 2) = t.val := (idx_facts t).2.2.2.2.1
  have e1 : win2_6.index t (1 : Fin 2) = 0 := (idx_facts t).2.2.2.2.2.1
  refine funext fun a => Fin.ext ?_
  match a with
  | ⟨0, _⟩ => show win2_6.index t (0 : Fin 2) * 2000 + 1 * r.val = p.val; rw [e0, hp]; omega
  | ⟨1, _⟩ => show win2_6.index t (1 : Fin 2) * 128 + 1 * q.val = q.val; rw [e1]; omega

/-! ## What each point writes back, the cover, and the array after the region -/

/-- The array the region leaves: the column normalisation, clamp and residual of the six arrays the region finds, index
    by index. -/
abbrev G (c : Dev nD) : S100000x128.Idx → EReal := fun i =>
  Cert.Spec.bnRelu (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    ⟨(i 0).val, idx2_lt0 i⟩ ⟨(i 1).val, idx2_lt1 i⟩

/-- What point `t` writes back is block `t` of `G`. -/
theorem flushed_eq (c : Dev nD) (t : Fin cfg2.N) :
    (Gen.dat2 (F := Ideal) V c).flushed 6 t = ((cfg2.win 6).blk t).view.read (Elt Ideal) (G V c) := by
  show (cfg2.win 6).cut (grid2.coords t) ((Gen.dat2 (F := Ideal) V c).after 6 t) = _
  rw [Gen.after2_6]
  unfold Gen.out2_6
  rw [View.canon_unit_zero hz]
  simp only [View.ld_unit_zero (S := S2000x128) hz, View.ld_unit_zero (S := S128) hz1]
  show (Gen.k2_pay1 (F := Ideal) (Gen.iblk2 V c 0 t) (Gen.iblk2 V c 1 t) (Gen.iblk2 V c 2 t) (Gen.iblk2 V c 3 t)
      (Gen.iblk2 V c 4 t) (Gen.iblk2 V c 5 t) : S2000x128.Idx → EReal)
    = fun j : S2000x128.Idx => G V c (((cfg2.win 6).blk t).view.emb j)
  funext j
  obtain ⟨r, q, rfl⟩ : ∃ (r : Fin 2000) (q : Fin 128), j = ix2 r q := ⟨j 0, j 1, eq_ix2 j⟩
  have hN : grid2.N = 50 := Gen.N_2
  have ht : t.val < 50 := Nat.lt_of_lt_of_eq (show t.val < grid2.N from t.isLt) hN
  have hp : 2000 * t.val + r.val < 100000 := by have := r.isLt; omega
  refine (pay_apply _ _ _ _ _ _ r q).trans ?_
  rw [blk0_apply V c t r q ⟨_, hp⟩ rfl, blk5_apply V c t r q ⟨_, hp⟩ rfl, blk1_apply V c t q, blk2_apply V c t q,
    blk3_apply V c t q, blk4_apply V c t q, emb6 t r q ⟨_, hp⟩ rfl]
  rfl

/-- An index of the array is in point `t`'s block iff each coordinate is in the block's range on its axis. -/
theorem mem_blk (t : Fin cfg2.N) (i : S100000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v28).slice (win2_6.rect t)).set ↔ _
  rw [View.set_slice_whole, Rect.mem_set_unit]
  exact Iff.rfl

/-- Every index of the array is in the block of the point its row's quotient by 2000 names. -/
theorem cover (i : S100000x128.Idx) :
    ∃ t : Fin cfg2.N, (cfg2.win 6).flush t = true ∧ i ∈ ((cfg2.win 6).blk t).view.set := by
  have hi0 : (i 0).val < 100000 := idx2_lt0 i
  have hi1 : (i 1).val < 128 := idx2_lt1 i
  have hN : grid2.N = 50 := Gen.N_2
  have ht : (i 0).val / 2000 < cfg2.N := by show (i 0).val / 2000 < grid2.N; rw [hN]; omega
  have e0 : win2_6.index ⟨(i 0).val / 2000, ht⟩ (0 : Fin 2) = (i 0).val / 2000 := (idx_facts _).2.2.2.2.1
  have e1 : win2_6.index ⟨(i 0).val / 2000, ht⟩ (1 : Fin 2) = 0 := (idx_facts _).2.2.2.2.2.1
  refine ⟨⟨(i 0).val / 2000, ht⟩, Gen.flush2_6 _, ?_⟩
  rw [mem_blk]
  intro a
  match a with
  | ⟨0, _⟩ =>
    show win2_6.index ⟨(i 0).val / 2000, ht⟩ (0 : Fin 2) * 2000 ≤ (i 0).val
      ∧ (i 0).val < win2_6.index ⟨(i 0).val / 2000, ht⟩ (0 : Fin 2) * 2000 + 2000
    rw [e0]; omega
  | ⟨1, _⟩ =>
    show win2_6.index ⟨(i 0).val / 2000, ht⟩ (1 : Fin 2) * 128 ≤ (i 1).val
      ∧ (i 1).val < win2_6.index ⟨(i 0).val / 2000, ht⟩ (1 : Fin 2) * 128 + 128
    rw [e1]; omega

/-- THE ARRAY after the region, index by index: the column normalisation, clamp and residual of the arrays the region
    finds. -/
theorem final (c : Dev nD) (p : Fin 100000) (q : Fin 128) :
    (Gen.dat2 (F := Ideal) V c).arrAt 6 cfg2.N (ix2 p q)
      = Cert.Spec.bnRelu (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) p q := by
  rw [(Gen.dat2 (F := Ideal) V c).arrAt_eq_of_cover 6 (G V c) (fun t _ => flushed_eq V c t) cover]

end Cert.KernelIdeal.Reg2

end
-- ==== Proof.Reg3.lean ====
/-
  Region 3 of the kernel program: a dense layer without bias, one block of 2000 rows at a time.

  At each of the 50 grid points the body multiplies the point's 2000 rows of the input by the whole 128 × 128 weight
  matrix into a zero accumulator and stores the product, and stores the product times each row's degree factor as a
  second output. Read at the exact values, entry (p, q) of the first output is row p of the input against column q
  of the weights, and entry (p, q) of the second is that times the factor of row p: the closed forms
  `Cert.Spec.proj` and `Cert.Spec.projScaled` of the region's input arrays.

  The steps: the block product read at an entry as a sum over the contracted axis; the two stored values at an
  entry; each input window's block as rows of its array; what a grid point writes back as a block of the closed
  form; the blocks tile the output, so the output array is the closed form.
-/
import proofs.«112374_j17231408792366_2_alg».proof.Proof.Gen.KernelIdeal.Frame
import proofs.«112374_j17231408792366_2_alg».proof.Proof.Spec
import Idealize.ShloMosaic.Lib.ValueLayout
import Idealize.ShloMosaic.Lib.Pipeline.Value
import Idealize.ShloMosaic.PureOps.Ideal.Laws

noncomputable section

namespace Cert.KernelIdeal.Reg3

open Idealize.ShloMosaic Idealize.ShloMosaic.ValueIdx Idealize.ShloMosaic.TcCoe Idealize.SL.Sem Cert.KernelIdeal

/-! ## The block product at an entry

The kernel multiplies a block of 2000 rows by the whole 128 × 128 weight matrix. The contraction runs over one
axis of extent 128; the left operand's index keeps the output row and takes the contracted coordinate as its
column, the right operand's takes the contracted coordinate as its row and keeps the output column. -/

theorem lhs_row (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhs_col (i : S2000x128.Idx) (k : dot_S2000x128_S128x128_S2000x128_1_0_0_1_n_n.contr.Idx) :
    (dot_S2000x128_S128x128_S2000x128_1_0_0_1_n_n.lhsIdx i k 1).val = (k ⟨0, by decide⟩).val :=
  dot_S2000x128_S128x128_S2000x128_1_0_0_1_n_n.lhsIdx_val_of_single rfl i k

theorem rhs_row (i : S2000x128.Idx) (k : dot_S2000x128_S128x128_S2000x128_1_0_0_1_n_n.contr.Idx) :
    (dot_S2000x128_S128x128_S2000x128_1_0_0_1_n_n.rhsIdx i k 0).val = (k ⟨0, by decide⟩).val :=
  dot_S2000x128_S128x128_S2000x128_1_0_0_1_n_n.rhsIdx_val_of_single rfl i k

theorem rhs_col (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Into a zero accumulator, entry (r, q) of the product is row r of the left block against column q of the right. -/
theorem matmul_at (a : FVec Ideal S2000x128 .bf16) (b : FVec Ideal S128x128 .bf16) (r : Fin 2000) (q : Fin 128) :
    FloatOps.matmul dot_S2000x128_S128x128_S2000x128_1_0_0_1_n_n none a b (constant S2000x128 .f32 0x00000000#32) (ix2 r q)
      = ∑ k : Fin 128, a (ix2 r k) * b (ix2 k q) := by
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r q)
      ((contrEquiv1 dot_S2000x128_S128x128_S2000x128_1_0_0_1_n_n 128 rfl rfl).symm k) = ix2 r k :=
    funext fun ax => Fin.ext (by
      match ax with
      | ⟨0, _⟩ => exact lhs_row _ _
      | ⟨1, _⟩ => exact (lhs_col _ _).trans hk)
  have er : dot_S2000x128_S128x128_S2000x128_1_0_0_1_n_n.rhsIdx (ix2 r q)
      ((contrEquiv1 dot_S2000x128_S128x128_S2000x128_1_0_0_1_n_n 128 rfl rfl).symm k) = ix2 k q :=
    funext fun ax => Fin.ext (by
      match ax with
      | ⟨0, _⟩ => exact (rhs_row _ _).trans hk
      | ⟨1, _⟩ => exact rhs_col _ _)
  rw [el, er]

/-- A column [a, 1] broadcast along the rows' length reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first stored value at an entry: the block product (at the exact values the roundings of the operands to
    the narrower format are the identity). -/
theorem pay1_at (x0 : Vec Ideal S2000x128 .f32) (x1 : Vec Ideal S128x128 .f32) (r : Fin 2000) (q : Fin 128) :
    Gen.k3_pay1 (F := Ideal) x0 x1 (ix2 r q) = ∑ k : Fin 128, x0 (ix2 r k) * x1 (ix2 k q) := by
  unfold Gen.k3_pay1
  rw [shapeCast_self]
  exact matmul_at _ _ r q

/-- The second stored value at an entry: the block product times the row's factor, the factors' column being
    broadcast along the row. -/
theorem pay2_at (x0 : Vec Ideal S2000x128 .f32) (x1 : Vec Ideal S128x128 .f32) (x2 : Vec Ideal S2000x1 .f32)
    (r : Fin 2000) (q : Fin 128) :
    Gen.k3_pay2 (F := Ideal) x0 x1 x2 (ix2 r q)
      = (∑ k : Fin 128, x0 (ix2 r k) * x1 (ix2 k q)) * x2 (ix2 r (0 : Fin 1)) := by
  unfold Gen.k3_pay2
  refine (mulf_apply _ _ _).trans ?_
  rw [pay1_at, shapeCast_self, broadcastTo_a1_ab_apply]

/-- If the left block's row r is row p of an array, the right block the whole weight matrix, then entry (r, q) of the
    first stored value is the projection of row p at column q. -/
theorem pay1_block (x0 : Vec Ideal S2000x128 .f32) (x1 : Vec Ideal S128x128 .f32)
    (A0 : Cert.Spec.SND.Idx → EReal) (A1 : Cert.Spec.SDD.Idx → EReal) (r : Fin 2000) (q : Fin 128)
    (p : Fin 100000) (q' : Fin 128) (hq : q = q')
    (h0 : ∀ k : Fin 128, x0 (ix2 r k) = A0 (ix2 p k))
    (h1 : ∀ k : Fin 128, x1 (ix2 k q) = A1 (ix2 k q)) :
    Gen.k3_pay1 (F := Ideal) x0 x1 (ix2 r q) = Cert.Spec.proj A0 A1 p q' := by
  subst hq
  rw [pay1_at]
  unfold Cert.Spec.proj
  exact Finset.sum_congr rfl fun k _ => by rw [h0 k, h1 k]

/-- The same for the second stored value, the factors' block entry r being entry p of the factors' array. -/
theorem pay2_block (x0 : Vec Ideal S2000x128 .f32) (x1 : Vec Ideal S128x128 .f32) (x2 : Vec Ideal S2000x1 .f32)
    (A0 : Cert.Spec.SND.Idx → EReal) (A1 : Cert.Spec.SDD.Idx → EReal) (A2 : Cert.Spec.SN1.Idx → EReal)
    (r : Fin 2000) (q : Fin 128) (p : Fin 100000) (q' : Fin 128) (hq : q = q')
    (h0 : ∀ k : Fin 128, x0 (ix2 r k) = A0 (ix2 p k))
    (h1 : ∀ k : Fin 128, x1 (ix2 k q) = A1 (ix2 k q))
    (h2 : x2 (ix2 r (0 : Fin 1)) = A2 (ix2 p (0 : Fin 1))) :
    Gen.k3_pay2 (F := Ideal) x0 x1 x2 (ix2 r q) = Cert.Spec.projScaled A0 A1 A2 p q' := by
  subst hq
  rw [pay2_at, h2]
  unfold Cert.Spec.projScaled Cert.Spec.proj
  exact congrArg (· * A2 (ix2 p (0 : Fin 1))) (Finset.sum_congr rfl fun k _ => by rw [h0 k, h1 k])

/-! ## From blocks to the arrays

The grid has 50 points on one axis. At point t the row windows (the input rows, the factors, both outputs) hold
rows 2000·t … 2000·t + 1999 of their arrays, and the weight window holds the whole matrix. -/

variable (V : (c : Dev nD) → (b : Ref sig .tc) → Buf (Elt Ideal) ((c : Thread nD τ).loc b))

theorem hz : (![0, 0] : Fin 2 → Nat) = fun _ => 0 := funext fun a => by fin_cases a <;> rfl

/-- The index maps, decided once over the grid: the row windows' block index is (t, 0), the weight window's (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The input rows' block at point t, entry (r, k), is the array's entry (2000·t + r, k). -/
theorem rows_block_at (c : Dev nD) (t : Fin cfg3.N) (r : Fin 2000) (k : Fin 128) (p : Fin 100000)
    (hp : p.val = t.val * 2000 + r.val) :
    (Gen.iblk3 (F := Ideal) V c 0 t : Vec Ideal S2000x128 .f32) (ix2 r k)
      = (V c (Pipeline.arrRef spec3 0) : Cert.Spec.SND.Idx → EReal) (ix2 p k) := by
  obtain ⟨e0, e1, -⟩ := idx_facts t
  unfold Gen.iblk3
  rw [View.read_apply]
  refine congrArg (V c (Pipeline.arrRef spec3 0)) (funext fun a => Fin.ext ?_)
  match a with
  | ⟨0, _⟩ => show win3_0.index t (0 : Fin 2) * 2000 + 1 * r.val = p.val; omega
  | ⟨1, _⟩ => show win3_0.index t (1 : Fin 2) * 128 + 1 * k.val = k.val; omega

/-- The weight window's block at every point is the whole matrix. -/
theorem weight_block_at (c : Dev nD) (t : Fin cfg3.N) (k q : Fin 128) :
    (Gen.iblk3 (F := Ideal) V c 1 t : Vec Ideal S128x128 .f32) (ix2 k q)
      = (V c (Pipeline.arrRef spec3 1) : Cert.Spec.SDD.Idx → EReal) (ix2 k q) := by
  obtain ⟨-, -, e0, e1, -⟩ := idx_facts t
  unfold Gen.iblk3
  rw [View.read_apply]
  refine congrArg (V c (Pipeline.arrRef spec3 1)) (funext fun a => Fin.ext ?_)
  match a with
  | ⟨0, _⟩ => show win3_1.index t (0 : Fin 2) * 128 + 1 * k.val = k.val; omega
  | ⟨1, _⟩ => show win3_1.index t (1 : Fin 2) * 128 + 1 * q.val = q.val; omega

/-- The factors' block at point t, entry (r, 0), is the array's entry (2000·t + r, 0). -/
theorem factor_block_at (c : Dev nD) (t : Fin cfg3.N) (r : Fin 2000) (p : Fin 100000)
    (hp : p.val = t.val * 2000 + r.val) :
    (Gen.iblk3 (F := Ideal) V c 2 t : Vec Ideal S2000x1 .f32) (ix2 r (0 : Fin 1))
      = (V c (Pipeline.arrRef spec3 2) : Cert.Spec.SN1.Idx → EReal) (ix2 p (0 : Fin 1)) := by
  obtain ⟨-, -, -, -, e0, e1, -⟩ := idx_facts t
  unfold Gen.iblk3
  rw [View.read_apply]
  refine congrArg (V c (Pipeline.arrRef spec3 2)) (funext fun a => Fin.ext ?_)
  match a with
  | ⟨0, _⟩ => show win3_2.index t (0 : Fin 2) * 2000 + 1 * r.val = p.val; omega
  | ⟨1, _⟩ => show win3_2.index t (1 : Fin 2) * 1 + 1 * 0 = 0; omega

/-- The first output as one function of the arrays: the projection, index by index. -/
abbrev projArr (A0 : Cert.Spec.SND.Idx → EReal) (A1 : Cert.Spec.SDD.Idx → EReal) : S100000x128.Idx → EReal :=
  fun i => Cert.Spec.proj A0 A1 (i 0) (i 1)

/-- The second output as one function of the arrays: the scaled projection, index by index. -/
abbrev projScaledArr (A0 : Cert.Spec.SND.Idx → EReal) (A1 : Cert.Spec.SDD.Idx → EReal) (A2 : Cert.Spec.SN1.Idx → EReal) :
    S100000x128.Idx → EReal :=
  fun i => Cert.Spec.projScaled A0 A1 A2 (i 0) (i 1)

/-- What point t writes back to the first output is block t of the projection. -/
theorem flushed3_eq (c : Dev nD) (t : Fin cfg3.N) :
    (Gen.dat3 (F := Ideal) V c).flushed 3 t
      = ((cfg3.win 3).blk t).view.read (Elt Ideal)
          (projArr (V c (Pipeline.arrRef spec3 0)) (V c (Pipeline.arrRef spec3 1))) := by
  show (cfg3.win 3).cut (grid3.coords t) ((Gen.dat3 (F := Ideal) V c).after 3 t) = _
  rw [Gen.after3_3]
  unfold Gen.out3_3
  rw [View.canon_unit_zero hz]
  simp only [View.ld_unit_zero (S := S2000x128) hz, View.ld_unit_zero (S := S128x128) hz]
  funext j
  obtain ⟨r, q, rfl⟩ : ∃ (r : Fin 2000) (q : Fin 128), j = ix2 r q := ⟨j 0, j 1, eq_ix2 j⟩
  obtain ⟨-, -, -, -, -, -, e0, e1, -⟩ := idx_facts t
  show Gen.k3_pay1 (F := Ideal) (Gen.iblk3 V c 0 t) (Gen.iblk3 V c 1 t) (ix2 r q)
    = Cert.Spec.proj (V c (Pipeline.arrRef spec3 0)) (V c (Pipeline.arrRef spec3 1))
        ((((cfg3.win 3).blk t).view.emb (ix2 r q)) 0) ((((cfg3.win 3).blk t).view.emb (ix2 r q)) 1)
  refine pay1_block (Gen.iblk3 V c 0 t) (Gen.iblk3 V c 1 t) (V c (Pipeline.arrRef spec3 0))
    (V c (Pipeline.arrRef spec3 1)) r q _ _ (Fin.ext ?_) (fun k => rows_block_at V c t r k _ ?_)
    (fun k => weight_block_at V c t k q)
  · show q.val = win3_3.index t (1 : Fin 2) * 128 + 1 * q.val; omega
  · show win3_3.index t (0 : Fin 2) * 2000 + 1 * r.val = t.val * 2000 + r.val; omega

/-- What point t writes back to the second output is block t of the scaled projection. -/
theorem flushed4_eq (c : Dev nD) (t : Fin cfg3.N) :
    (Gen.dat3 (F := Ideal) V c).flushed 4 t
      = ((cfg3.win 4).blk t).view.read (Elt Ideal)
          (projScaledArr (V c (Pipeline.arrRef spec3 0)) (V c (Pipeline.arrRef spec3 1))
            (V c (Pipeline.arrRef spec3 2))) := by
  show (cfg3.win 4).cut (grid3.coords t) ((Gen.dat3 (F := Ideal) V c).after 4 t) = _
  rw [Gen.after3_4]
  unfold Gen.out3_4
  rw [View.canon_unit_zero hz]
  simp only [View.ld_unit_zero (S := S2000x128) hz, View.ld_unit_zero (S := S128x128) hz,
    View.ld_unit_zero (S := S2000x1) hz]
  funext j
  obtain ⟨r, q, rfl⟩ : ∃ (r : Fin 2000) (q : Fin 128), j = ix2 r q := ⟨j 0, j 1, eq_ix2 j⟩
  obtain ⟨-, -, -, -, -, -, -, -, e0, e1⟩ := idx_facts t
  show Gen.k3_pay2 (F := Ideal) (Gen.iblk3 V c 0 t) (Gen.iblk3 V c 1 t) (Gen.iblk3 V c 2 t) (ix2 r q)
    = Cert.Spec.projScaled (V c (Pipeline.arrRef spec3 0)) (V c (Pipeline.arrRef spec3 1))
        (V c (Pipeline.arrRef spec3 2))
        ((((cfg3.win 4).blk t).view.emb (ix2 r q)) 0) ((((cfg3.win 4).blk t).view.emb (ix2 r q)) 1)
  refine pay2_block (Gen.iblk3 V c 0 t) (Gen.iblk3 V c 1 t) (Gen.iblk3 V c 2 t)
    (V c (Pipeline.arrRef spec3 0)) (V c (Pipeline.arrRef spec3 1)) (V c (Pipeline.arrRef spec3 2))
    r q _ _ (Fin.ext ?_) (fun k => rows_block_at V c t r k _ ?_) (fun k => weight_block_at V c t k q)
    (factor_block_at V c t r _ ?_)
  · show q.val = win3_4.index t (1 : Fin 2) * 128 + 1 * q.val; omega
  · show win3_4.index t (0 : Fin 2) * 2000 + 1 * r.val = t.val * 2000 + r.val; omega
  · show win3_4.index t (0 : Fin 2) * 2000 + 1 * r.val = t.val * 2000 + r.val; omega

/-- An index of the first output is in point t's block iff each coordinate is in the block's range on its axis. -/
theorem mem_blk3 (t : Fin cfg3.N) (i : S100000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v29_0).slice (win3_3.rect t)).set ↔ _
  rw [View.set_slice_whole, Rect.mem_set_unit]
  exact Iff.rfl

/-- The same for the second output. -/
theorem mem_blk4 (t : Fin cfg3.N) (i : S100000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v29_1).slice (win3_4.rect t)).set ↔ _
  rw [View.set_slice_whole, Rect.mem_set_unit]
  exact Iff.rfl

/-- Row p lies in the block of point p / 2000: the blocks tile the first output. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 50 := Gen.N_3
  have ht : (i 0).val / 2000 < cfg3.N := by rw [hN]; omega
  obtain ⟨-, -, -, -, -, -, e0, e1, -⟩ := idx_facts ⟨(i 0).val / 2000, ht⟩
  refine ⟨⟨(i 0).val / 2000, ht⟩, Gen.flush3_3 _, ?_⟩
  rw [mem_blk3]
  intro a
  match a with
  | ⟨0, _⟩ =>
    show win3_3.index ⟨(i 0).val / 2000, ht⟩ (0 : Fin 2) * 2000 ≤ (i 0).val
      ∧ (i 0).val < win3_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_3.index ⟨(i 0).val / 2000, ht⟩ (1 : Fin 2) * 128 ≤ (i 1).val
      ∧ (i 1).val < win3_3.index ⟨(i 0).val / 2000, ht⟩ (1 : Fin 2) * 128 + 128
    rw [e1]; omega

/-- The same for the second output. -/
theorem cover4 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 50 := Gen.N_3
  have ht : (i 0).val / 2000 < cfg3.N := by rw [hN]; omega
  obtain ⟨-, -, -, -, -, -, -, -, e0, e1⟩ := idx_facts ⟨(i 0).val / 2000, ht⟩
  refine ⟨⟨(i 0).val / 2000, ht⟩, Gen.flush3_4 _, ?_⟩
  rw [mem_blk4]
  intro a
  match a with
  | ⟨0, _⟩ =>
    show win3_4.index ⟨(i 0).val / 2000, ht⟩ (0 : Fin 2) * 2000 ≤ (i 0).val
      ∧ (i 0).val < win3_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_4.index ⟨(i 0).val / 2000, ht⟩ (1 : Fin 2) * 128 ≤ (i 1).val
      ∧ (i 1).val < win3_4.index ⟨(i 0).val / 2000, ht⟩ (1 : Fin 2) * 128 + 128
    rw [e1]; omega

/-- THE FIRST OUTPUT after the region: the projection of the input rows by the weight matrix, entry by entry. -/
theorem final3 (c : Dev nD) (p : Fin 100000) (q : Fin 128) :
    (Gen.dat3 (F := Ideal) V c).arrAt 3 cfg3.N (ix2 p q)
      = Cert.Spec.proj (V c (Pipeline.arrRef spec3 0)) (V c (Pipeline.arrRef spec3 1)) p q :=
  congrFun ((Gen.dat3 (F := Ideal) V c).arrAt_eq_of_cover 3
    (projArr (V c (Pipeline.arrRef spec3 0)) (V c (Pipeline.arrRef spec3 1)))
    (fun t _ => flushed3_eq V c t) cover3) (ix2 p q)

/-- THE SECOND OUTPUT after the region: that projection times the row's factor, entry by entry. -/
theorem final4 (c : Dev nD) (p : Fin 100000) (q : Fin 128) :
    (Gen.dat3 (F := Ideal) V c).arrAt 4 cfg3.N (ix2 p q)
      = Cert.Spec.projScaled (V c (Pipeline.arrRef spec3 0)) (V c (Pipeline.arrRef spec3 1))
          (V c (Pipeline.arrRef spec3 2)) p q :=
  congrFun ((Gen.dat3 (F := Ideal) V c).arrAt_eq_of_cover 4
    (projScaledArr (V c (Pipeline.arrRef spec3 0)) (V c (Pipeline.arrRef spec3 1))
      (V c (Pipeline.arrRef spec3 2)))
    (fun t _ => flushed4_eq V c t) cover4) (ix2 p q)

end Cert.KernelIdeal.Reg3

end
-- ==== Proof.Net.lean ====
/-
  The reference network's stages as pure functions of whole arrays, at the ideal values: each is the composition of
  the host operations the reference program applies, in its order and with its dimension records.

  * `colIdx`, `wrapIdx`: an index vector as a column of start indices — as it is (what the scatter reads, signed
    and not clamped) and with negative entries shifted up by the row count once (what the gathers read, clamped).
  * `degInv col`: the degree factor of every node — the inverse square root of one plus the number of edges
    whose destination (`col`) is the node.
  * `dense h w`: rows of `h` against columns of `w`.
  * `refConv h w b row col`: a graph convolution — each edge carries its source node's projected row scaled by
    the two endpoints' degree factors to its destination node, where the messages are summed; the node's own
    projected row scaled by its factor squared and the bias are added.
  * `colMean`, `colVar`: a column's mean and biased variance over the 100000 rows.
  * `bnAct x mu var g be res`: column normalisation by given statistics, scale, shift, clamp at zero, residual.
  * `attnRes h …`: `h` plus the output projection of the value projection of `h` (a one-token attention).
  * `rowMeanR`, `rowVarR`, `lnAct`: a row's mean and biased variance over its 128 columns, and the row
    normalisation with scale and shift.
  * `net`: the whole network, three convolutions around two batch-normalised layers and the attention block.
-/
import proofs.«112374_j17231408792366_2_alg».proof.Proof.Gen.ReferenceIdeal
import Idealize.ShloMosaic.PureOps.Ideal

noncomputable section

namespace Cert.Net

open Idealize.ShloMosaic Cert.ReferenceIdeal Cert.ReferenceIdeal.Facts₀

abbrev AND := FVec Ideal S100000x128 .f32
abbrev ADD := FVec Ideal S128x128 .f32
abbrev AD := FVec Ideal S128 .f32
abbrev AN := FVec Ideal S100000 .f32
abbrev AN1 := FVec Ideal S100000x1 .f32
abbrev IE := IVec S1600000 32

/-- The f32 words the reference spells, as scalars of rank 0. -/
def c0 : FVec Ideal S_ .f32 := constant (F := Ideal) S_ .f32 0x00000000#32
def c1 : FVec Ideal S_ .f32 := constant (F := Ideal) S_ .f32 0x3F800000#32
def cN : FVec Ideal S_ .f32 := constant (F := Ideal) S_ .f32 0x47C35000#32
def cD : FVec Ideal S_ .f32 := constant (F := Ideal) S_ .f32 0x43000000#32
def cEps : FVec Ideal S_ .f32 := constant (F := Ideal) S_ .f32 0x3727C5AC#32
def cNan : FVec Ideal S_ .f32 := constant (F := Ideal) S_ .f32 0x7FC00000#32

/-- An index vector as a column of start indices. -/
def colIdx (r : IE) : IVec S1600000x1 32 := broadcastInDim S1600000x1 ![0] bcast_S1600000_S1600000x1_0 r

/-- The same with negative entries shifted up by the row count once. -/
def wrapIdx (r : IE) : IVec S1600000x1 32 :=
  broadcastInDim S1600000x1 ![0] bcast_S1600000_S1600000x1_0
    (select (cmpi .slt r (broadcastInDim S1600000 ![] bcast_S_S1600000 (constantI S_ 32 0#32)))
      (addi r (broadcastInDim S1600000 ![] bcast_S_S1600000 (constantI S_ 32 100000#32))) r)

/-- The degree factor: the inverse square root of one plus the number of edges arriving at the node. -/
def degInv (col : IE) : AN :=
  Host.rsqrt (addf
    (Host.scatterAdd scatter_S100000_S1600000x1_S1600000_n_0_0_1 (broadcastInDim S100000 ![] bcast_S_S100000 c0) (colIdx col)
      (broadcastInDim S1600000 ![] bcast_S_S1600000 c1))
    (broadcastInDim S100000 ![] bcast_S_S100000 c1))

/-- A vector over the columns repeated on every row. -/
def overRows (b : AD) : AND :=
  broadcastInDim S100000x128 ![0, 1] bcast_S1x128_S100000x128_0_1 (broadcastInDim S1x128 ![1] bcast_S128_S1x128_1 b)

/-- A vector over the rows repeated on every column. -/
def overCols (d : AN) : AND :=
  broadcastInDim S100000x128 ![0, 1] bcast_S100000x1_S100000x128_0_1 (broadcastInDim S100000x1 ![0] bcast_S100000_S100000x1_0 d)

/-- A vector over the edges repeated on every column. -/
def overEdgeCols (e : FVec Ideal S1600000 .f32) : FVec Ideal S1600000x128 .f32 :=
  broadcastInDim S1600000x128 ![0, 1] bcast_S1600000x1_S1600000x128_0_1 (broadcastInDim S1600000x1 ![0] bcast_S1600000_S1600000x1_0 e)

/-- Rows against columns. -/
def dense (h : AND) (w : ADD) : AND := Host.dotGeneral dot_S100000x128_S128x128_S100000x128_1_0_0_1_n_n none h w

/-- A graph convolution with symmetric degree normalisation and self loops. -/
def refConv (h : AND) (w : ADD) (b : AD) (row col : IE) : AND :=
  addf (addf
      (Host.scatterAdd scatter_S100000x128_S1600000x1_S1600000x128_1_0_0_1 (broadcastInDim S100000x128 ![] bcast_S_S100000x128 c0) (colIdx col)
        (mulf (Host.gather gather_S100000x128_S1600000x1_S1600000x128_1_0_n_n_0_1_1128 (dense h w) (wrapIdx row))
          (overEdgeCols (mulf (Host.gather gather_S100000_S1600000x1_S1600000_n_0_n_n_0_1_1 (degInv col) (wrapIdx row))
            (Host.gather gather_S100000_S1600000x1_S1600000_n_0_n_n_0_1_1 (degInv col) (wrapIdx col))))))
      (mulf (dense h w) (overCols (mulf (degInv col) (degInv col)))))
    (overRows b)

/-- The column sums. -/
def colSum (x : AND) : AD := Host.reduceAdd x c0 reducesTo_S100000x128_S128_d0 h_S_

/-- The column means. -/
def colMean (x : AND) : AD := Host.divf (colSum x) (broadcastInDim S128 ![] bcast_S_S128 cN)

/-- The number of rows less the degrees of freedom removed (none). -/
def rowsLess : FVec Ideal S_ .f32 := subf cN (sitofp .f32 (constantI S_ 32 0#32))

/-- The columns' biased variances (guarded: where the count is not positive the result is not a number). -/
def colVar (x : AND) : AD :=
  select (broadcastInDim S128 ![] bcast_S_S128 (cmpf .ogt rowsLess c0))
    (Host.divf
      (colSum (mulf
        (subf x (broadcastInDim S100000x128 ![0, 1] bcast_S1x128_S100000x128_0_1
          (Host.divf (broadcastInDim S1x128 ![1] bcast_S128_S1x128_1 (colSum x)) (broadcastInDim S1x128 ![] bcast_S_S1x128 cN))))
        (subf x (broadcastInDim S100000x128 ![0, 1] bcast_S1x128_S100000x128_0_1
          (Host.divf (broadcastInDim S1x128 ![1] bcast_S128_S1x128_1 (colSum x)) (broadcastInDim S1x128 ![] bcast_S_S1x128 cN))))))
      (broadcastInDim S128 ![] bcast_S_S128 rowsLess))
    (broadcastInDim S128 ![] bcast_S_S128 (id cNan))

/-- Column normalisation by given statistics, scale, shift, clamp at zero, residual. -/
def bnAct (x : AND) (mu var g be : AD) (res : AND) : AND :=
  addf
    (maximumf
      (addf (mulf (mulf (subf x (overRows mu)) (overRows (Host.rsqrt (addf var (broadcastInDim S128 ![] bcast_S_S128 cEps))))) (overRows g))
        (overRows be))
      (broadcastInDim S100000x128 ![] bcast_S_S100000x128 c0))
    res

/-- `h` plus the output projection of its value projection. -/
def attnRes (h : AND) (wv : ADD) (bv : AD) (wo : ADD) (bo : AD) : AND :=
  addf h (addf (dense (addf (dense h wv) (overRows bv)) wo) (overRows bo))

/-- The row sums, as a column. -/
def rowSumR (y : AND) : AN1 :=
  broadcastInDim S100000x1 ![0] bcast_S100000_S100000x1_0 (Host.reduceAdd y c0 reducesTo_S100000x128_S100000_d1 h_S_)

/-- The row means, as a column. -/
def rowMeanR (y : AND) : AN1 := Host.divf (rowSumR y) (broadcastInDim S100000x1 ![] bcast_S_S100000x1 cD)

/-- The row length less the degrees of freedom removed (none). -/
def colsLess : FVec Ideal S_ .f32 := subf cD (sitofp .f32 (constantI S_ 32 0#32))

/-- The rows' biased variances, as a column (guarded as `colVar` is). -/
def rowVarR (y : AND) : AN1 :=
  select (broadcastInDim S100000x1 ![] bcast_S_S100000x1 (cmpf .ogt colsLess c0))
    (Host.divf
      (rowSumR (mulf
        (subf y (broadcastInDim S100000x128 ![0, 1] bcast_S100000x1_S100000x128_0_1 (rowMeanR y)))
        (subf y (broadcastInDim S100000x128 ![0, 1] bcast_S100000x1_S100000x128_0_1 (rowMeanR y)))))
      (broadcastInDim S100000x1 ![] bcast_S_S100000x1 colsLess))
    (broadcastInDim S100000x1 ![] bcast_S_S100000x1 (id cNan))

/-- Row normalisation, scale and shift. -/
def lnAct (y : AND) (g b : AD) : AND :=
  addf
    (mulf
      (mulf (subf y (broadcastInDim S100000x128 ![0, 1] bcast_S100000x1_S100000x128_0_1 (rowMeanR y)))
        (broadcastInDim S100000x128 ![0, 1] bcast_S100000x1_S100000x128_0_1
          (Host.rsqrt (addf (rowVarR y) (broadcastInDim S100000x1 ![] bcast_S_S100000x1 cEps)))))
      (overRows g))
    (overRows b)

/-- The source and destination node of every edge. -/
def rowOf (e : IVec S2x1600000 32) : IE :=
  shapeCast S1600000 (extractStridedSlice S1x1600000 ![0, 0] e slices_S2x1600000_S1x1600000_0_0) shapeCasts_S1x1600000_S1600000
def colOf (e : IVec S2x1600000 32) : IE :=
  shapeCast S1600000 (extractStridedSlice S1x1600000 ![1, 0] e slices_S2x1600000_S1x1600000_1_0) shapeCasts_S1x1600000_S1600000

/-- The first layer's output. -/
def layer1 (x : AND) (e : IVec S2x1600000 32) (w0 : ADD) (b0 g0 be0 : AD) : AND :=
  bnAct (refConv x w0 b0 (rowOf e) (colOf e)) (colMean (refConv x w0 b0 (rowOf e) (colOf e))) (colVar (refConv x w0 b0 (rowOf e) (colOf e))) g0 be0 x

/-- The second layer's output. -/
def layer2 (h1 : AND) (e : IVec S2x1600000 32) (w1 : ADD) (b1 g1 be1 : AD) : AND :=
  bnAct (refConv h1 w1 b1 (rowOf e) (colOf e)) (colMean (refConv h1 w1 b1 (rowOf e) (colOf e))) (colVar (refConv h1 w1 b1 (rowOf e) (colOf e))) g1 be1 h1

/-- The whole network. -/
def net (x : AND) (e : IVec S2x1600000 32) (w0 : ADD) (b0 : AD) (w1 : ADD) (b1 : AD) (w2 : ADD) (b2 g0 be0 g1 be1 : AD)
    (wv : ADD) (bv : AD) (wo : ADD) (bo lng lnb : AD) : AND :=
  refConv (lnAct (attnRes (layer2 (layer1 x e w0 b0 g0 be0) e w1 b1 g1 be1) wv bv wo bo) lng lnb) w2 b2 (rowOf e) (colOf e)

end Cert.Net

end
-- ==== Proof.NetK.lean ====
/-
  The kernel program's arrangement of the same network, as pure functions of whole arrays.

  `ofRC f` is the array that reads `f p q` at row `p`, column `q`. `dvOf col` is the degree factors as a column.
  `aggOf hs row col` gathers rows of `hs` by every edge's source and sums them at the edge's destination.
  `kConv h w b row col` is one convolution as the kernel computes it: project, scale each row by its node's degree
  factor, aggregate, scale by the destination's factor, add the self loop and the bias. `kBn` normalises the columns
  of a convolution's output by its own column statistics, clamps and adds a residual. `kNet` composes the three
  convolutions, the two normalised layers and the fused attention stage, whose two outputs are the last layer's
  projection and its degree-scaled twin.
-/
import proofs.«112374_j17231408792366_2_alg».proof.Proof.Net
import proofs.«112374_j17231408792366_2_alg».proof.Proof.Spec
import Idealize.ShloMosaic.Lib.ValueIdx

noncomputable section

namespace Cert.Net

open Idealize.ShloMosaic Idealize.ShloMosaic.ValueIdx Cert.ReferenceIdeal Cert.ReferenceIdeal.Facts₀

/-- An array given by a function of (row, column). -/
def ofRC (f : Fin 100000 → Fin 128 → EReal) : AND := fun i => f ⟨(i 0).val, idx2_lt0 i⟩ ⟨(i 1).val, idx2_lt1 i⟩

theorem ofRC_apply (f : Fin 100000 → Fin 128 → EReal) (p : Fin 100000) (q : Fin 128) : ofRC f (ix2 p q) = f p q := rfl

/-- An array that reads as `f` at every (row, column) is `ofRC f`. -/
theorem eq_ofRC (A : AND) (f : Fin 100000 → Fin 128 → EReal) (h : ∀ p q, A (ix2 p q) = f p q) : A = ofRC f :=
  funext fun i => by
    obtain ⟨p, q, rfl⟩ : ∃ (p : Fin 100000) (q : Fin 128), i = ix2 p q := ⟨i 0, i 1, eq_ix2 i⟩
    exact h p q

/-- The degree factors as a column. -/
def dvOf (col : IE) : AN1 := shapeCast S100000x1 (degInv col) (by decide)

/-- The messages summed at their destinations: rows of `hs` gathered by source, scattered by destination. -/
def aggOf (hs : AND) (row col : IE) : AND :=
  Host.scatterAdd scatter_S100000x128_S1600000x1_S1600000x128_1_0_0_1 (broadcastInDim S100000x128 ![] bcast_S_S100000x128 c0) (colIdx col)
    (Host.gather gather_S100000x128_S1600000x1_S1600000x128_1_0_n_n_0_1_1128 hs (wrapIdx row))

/-- One convolution in the kernel's arrangement. -/
def kConv (h : AND) (w : ADD) (b : AD) (row col : IE) : AND :=
  ofRC (Cert.Spec.convOut (aggOf (ofRC (Cert.Spec.projScaled h w (dvOf col))) row col) (ofRC (Cert.Spec.proj h w)) (dvOf col) b)

/-- Column normalisation of `cv` by its own statistics, scale, shift, clamp, residual. -/
def kBn (cv : AND) (g be : AD) (res : AND) : AND := ofRC (Cert.Spec.bnRelu cv (colMean cv) (colVar cv) g be res)

/-- The first layer's output. -/
def kH1 (x : AND) (e : IVec S2x1600000 32) (w0 : ADD) (b0 g0 be0 : AD) : AND :=
  kBn (kConv x w0 b0 (rowOf e) (colOf e)) g0 be0 x

/-- The second convolution's output. -/
def kC1 (x : AND) (e : IVec S2x1600000 32) (w0 : ADD) (b0 g0 be0 : AD) (w1 : ADD) (b1 : AD) : AND :=
  kConv (kH1 x e w0 b0 g0 be0) w1 b1 (rowOf e) (colOf e)

/-- The fused stage's first output. -/
def kHp2 (x : AND) (e : IVec S2x1600000 32) (w0 : ADD) (b0 g0 be0 : AD) (w1 : ADD) (b1 g1 be1 : AD) (wv : ADD) (bv : AD) (wo : ADD)
    (bo lng lnb : AD) (w2 : ADD) : AND :=
  ofRC (Cert.Spec.attnHp2 (kC1 x e w0 b0 g0 be0 w1 b1) (colMean (kC1 x e w0 b0 g0 be0 w1 b1)) (colVar (kC1 x e w0 b0 g0 be0 w1 b1)) g1 be1
    (kH1 x e w0 b0 g0 be0) wv bv wo bo lng lnb w2)

/-- The fused stage's second output. -/
def kHs2 (x : AND) (e : IVec S2x1600000 32) (w0 : ADD) (b0 g0 be0 : AD) (w1 : ADD) (b1 g1 be1 : AD) (wv : ADD) (bv : AD) (wo : ADD)
    (bo lng lnb : AD) (w2 : ADD) : AND :=
  ofRC (Cert.Spec.attnHs2 (kC1 x e w0 b0 g0 be0 w1 b1) (colMean (kC1 x e w0 b0 g0 be0 w1 b1)) (colVar (kC1 x e w0 b0 g0 be0 w1 b1)) g1 be1
    (kH1 x e w0 b0 g0 be0) wv bv wo bo lng lnb w2 (dvOf (colOf e)))

/-- The whole network in the kernel's arrangement (arguments in the programs' order). -/
def kNet (x : AND) (e : IVec S2x1600000 32) (w0 : ADD) (b0 : AD) (w1 : ADD) (b1 : AD) (w2 : ADD) (b2 g0 be0 g1 be1 : AD)
    (wv : ADD) (bv : AD) (wo : ADD) (bo lng lnb : AD) : AND :=
  ofRC (Cert.Spec.convOut (aggOf (kHs2 x e w0 b0 g0 be0 w1 b1 g1 be1 wv bv wo bo lng lnb w2) (rowOf e) (colOf e))
    (kHp2 x e w0 b0 g0 be0 w1 b1 g1 be1 wv bv wo bo lng lnb w2) (dvOf (colOf e)) b2)

end Cert.Net

end
-- ==== Proof.KHost.lean ====
/-
  The kernel program's stretches of host operations, read as the reference network's terms: between its regions the
  kernel program applies to its buffers the same host operations the reference applies (the edge list's two rows, the
  degree factors, the aggregation of messages by gather and scatter, a convolution's column means and variances), so
  each buffer a stretch writes holds the network's named function of the buffers the stretch reads.
-/
import proofs.«112374_j17231408792366_2_alg».proof.Proof.Gen.KernelIdeal.Launch
import proofs.«112374_j17231408792366_2_alg».proof.Proof.NetK
import Idealize.ShloMosaic.Lib.StableHlo.Run
import Idealize.ShloMosaic.PureOps.Ideal

noncomputable section

namespace Cert.KernelIdeal.KHost

open Idealize.ShloMosaic Idealize.ShloMosaic.StableHlo Cert.KernelIdeal Cert.KernelIdeal.Gen

variable (W : Valuation τ sig (Elt Ideal))

/-! ## The edge list's rows and the degree factors -/

/-- The edges' sources: the first row of the edge list. -/
theorem rowOf_eq : after (hostOps0 (F := Ideal)) W (Proc.devRef .tc main_v1) = Cert.Net.rowOf (W (Proc.devRef .tc main_arg1)) := by
  after_results; rfl

/-- The edges' destinations: the second row of the edge list. -/
theorem colOf_eq : after (hostOps0 (F := Ideal)) W (Proc.devRef .tc main_v3) = Cert.Net.colOf (W (Proc.devRef .tc main_arg1)) := by
  after_results; rfl

/-- The degree factors, as a column. -/
theorem dvOf_eq : after (hostOps0 (F := Ideal)) W (Proc.devRef .tc main_v11)
    = Cert.Net.dvOf (Cert.Net.colOf (W (Proc.devRef .tc main_arg1))) := by
  after_results; rfl

/-! ## The aggregation of messages, once per convolution -/

/-- The first convolution's messages, summed at their destinations. -/
theorem agg1_eq : after (hostOps1 (F := Ideal)) W (Proc.devRef .tc main_v22)
    = Cert.Net.aggOf (W (Proc.devRef .tc main_v12_1)) (W (Proc.devRef .tc main_v1)) (W (Proc.devRef .tc main_v3)) := by
  after_results; rfl

/-- The second convolution's messages, summed at their destinations. -/
theorem agg4_eq : after (hostOps4 (F := Ideal)) W (Proc.devRef .tc main_v39)
    = Cert.Net.aggOf (W (Proc.devRef .tc main_v29_1)) (W (Proc.devRef .tc main_v1)) (W (Proc.devRef .tc main_v3)) := by
  after_results_simp; rfl

/-- The third convolution's messages, summed at their destinations. -/
theorem agg6_eq : after (hostOps6 (F := Ideal)) W (Proc.devRef .tc main_v55)
    = Cert.Net.aggOf (W (Proc.devRef .tc main_v45_1)) (W (Proc.devRef .tc main_v1)) (W (Proc.devRef .tc main_v3)) := by
  after_results_simp; rfl

/-! ## The column statistics, once per normalised layer -/

/-- The column means of the first convolution's output, as the stretch before the normalised layer leaves them. -/
theorem colMean2_eq : after (hostOps2_1 (F := Ideal)) (after (hostOps2 (F := Ideal)) W) (Proc.devRef .tc main_v26)
    = Cert.Net.colMean (W (Proc.devRef .tc main_v23)) := by
  after_results; rfl

/-- The column variances of the first convolution's output, as the stretch before the normalised layer leaves them. -/
theorem colVar2_eq : after (hostOps2_1 (F := Ideal)) (after (hostOps2 (F := Ideal)) W) (Proc.devRef .tc main_v27)
    = Cert.Net.colVar (W (Proc.devRef .tc main_v23)) := by
  after_results_simp; rfl

/-- The column means of the second convolution's output, as the stretch before the normalised layer leaves them. -/
theorem colMean5_eq : after (hostOps5_1 (F := Ideal)) (after (hostOps5 (F := Ideal)) W) (Proc.devRef .tc main_v43)
    = Cert.Net.colMean (W (Proc.devRef .tc main_v40)) := by
  after_results; rfl

/-- The column variances of the second convolution's output, as the stretch before the normalised layer leaves them. -/
theorem colVar5_eq : after (hostOps5_1 (F := Ideal)) (after (hostOps5 (F := Ideal)) W) (Proc.devRef .tc main_v44)
    = Cert.Net.colVar (W (Proc.devRef .tc main_v40)) := by
  after_results_simp; rfl

end Cert.KernelIdeal.KHost

end
-- ==== Proof.KChain.lean ====
/-
  The first half of the kernel program's value: what the buffers the second half reads hold at region 3's exit.

  The program is a chain of segments: stretches of host operations and regions. Each buffer is followed from
  the segment that writes it to the segments that read it: an argument array is never written, so it holds its
  launch contents at every boundary; the edges' sources and destinations and the degree factors are written by the
  first stretch only; each region's output is its closed form of the region's input arrays, which by then are known.
  Composed: region 0 projects the input rows and scales them by the degree factors, the second stretch aggregates
  the scaled rows along the edges, region 1 finishes the first convolution, the next two stretches take its columns'
  means and variances, region 2 normalises, clamps and adds the residual, region 3 projects the result again.
-/
import proofs.«112374_j17231408792366_2_alg».proof.Proof.KChainKeep
import proofs.«112374_j17231408792366_2_alg».proof.Proof.Reg0
import proofs.«112374_j17231408792366_2_alg».proof.Proof.Reg1
import proofs.«112374_j17231408792366_2_alg».proof.Proof.Reg2
import proofs.«112374_j17231408792366_2_alg».proof.Proof.Reg3
import proofs.«112374_j17231408792366_2_alg».proof.Proof.NetK
import proofs.«112374_j17231408792366_2_alg».proof.Proof.KHost

noncomputable section

namespace Cert.KernelIdeal.KChain

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-! ## The argument arrays and the edge list's derived arrays at the boundaries

No segment writes an argument array, so at every boundary it holds its launch contents. The edges' sources and
destinations and the degree factors are written by the first stretch only, so from the first boundary on they hold
what that stretch left. -/

/-- The argument arrays this half of the program reads. -/
abbrev args : List (Ref sig .tc) := [main_arg0, main_arg1, main_arg2, main_arg3, main_arg4, main_arg8, main_arg9]

/-- The arrays derived from the edge list. -/
abbrev edgeArrs : List (Ref sig .tc) := [main_v1, main_v3, main_v11]

theorem arg_at0 (b : Ref sig .tc) : Gen.W0 (F := Ideal) m ρ c (Proc.devRef .tc b) = m ((c : Thread nD τ).loc b) := rfl

theorem arg_at1 (b : Ref sig .tc) (hb : b ∈ args) :
    Gen.W1 (F := Ideal) m ρ c (Proc.devRef .tc b) = m ((c : Thread nD τ).loc b) :=
  (keep_host0 (Gen.W0 m ρ c) b ((by decide : ∀ b ∈ args, ∀ x ∈ written0, b ≠ x) b hb)).trans (arg_at0 m ρ c b)

theorem arg_at2 (b : Ref sig .tc) (hb : b ∈ args) :
    Gen.W2 (F := Ideal) m ρ c (Proc.devRef .tc b) = m ((c : Thread nD τ).loc b) :=
  (keep_reg0 m ρ c b ((by decide : ∀ b ∈ args, ∀ x ∈ [main_v12_0, main_v12_1], b ≠ x) b hb)).trans (arg_at1 m ρ c b hb)

theorem arg_at3 (b : Ref sig .tc) (hb : b ∈ args) :
    Gen.W3 (F := Ideal) m ρ c (Proc.devRef .tc b) = m ((c : Thread nD τ).loc b) :=
  (keep_host1 (Gen.W2 m ρ c) b ((by decide : ∀ b ∈ args, ∀ x ∈ written1, b ≠ x) b hb)).trans (arg_at2 m ρ c b hb)

theorem arg_at4 (b : Ref sig .tc) (hb : b ∈ args) :
    Gen.W4 (F := Ideal) m ρ c (Proc.devRef .tc b) = m ((c : Thread nD τ).loc b) :=
  (keep_reg1 m ρ c b ((by decide : ∀ b ∈ args, ∀ x ∈ [main_v23], b ≠ x) b hb)).trans (arg_at3 m ρ c b hb)

theorem arg_at5 (b : Ref sig .tc) (hb : b ∈ args) :
    Gen.W5 (F := Ideal) m ρ c (Proc.devRef .tc b) = m ((c : Thread nD τ).loc b) :=
  (keep_host2 (Gen.W4 m ρ c) b ((by decide : ∀ b ∈ args, ∀ x ∈ written2, b ≠ x) b hb)).trans (arg_at4 m ρ c b hb)

theorem arg_at6 (b : Ref sig .tc) (hb : b ∈ args) :
    Gen.W6 (F := Ideal) m ρ c (Proc.devRef .tc b) = m ((c : Thread nD τ).loc b) :=
  (keep_host2_1 (Gen.W5 m ρ c) b ((by decide : ∀ b ∈ args, ∀ x ∈ written2_1, b ≠ x) b hb)).trans (arg_at5 m ρ c b hb)

theorem arg_at7 (b : Ref sig .tc) (hb : b ∈ args) :
    Gen.W7 (F := Ideal) m ρ c (Proc.devRef .tc b) = m ((c : Thread nD τ).loc b) :=
  (keep_reg2 m ρ c b ((by decide : ∀ b ∈ args, ∀ x ∈ [main_v28], b ≠ x) b hb)).trans (arg_at6 m ρ c b hb)

theorem edge_at2 (b : Ref sig .tc) (hb : b ∈ edgeArrs) :
    Gen.W2 (F := Ideal) m ρ c (Proc.devRef .tc b) = Gen.W1 (F := Ideal) m ρ c (Proc.devRef .tc b) :=
  keep_reg0 m ρ c b ((by decide : ∀ b ∈ edgeArrs, ∀ x ∈ [main_v12_0, main_v12_1], b ≠ x) b hb)

theorem edge_at3 (b : Ref sig .tc) (hb : b ∈ edgeArrs) :
    Gen.W3 (F := Ideal) m ρ c (Proc.devRef .tc b) = Gen.W1 (F := Ideal) m ρ c (Proc.devRef .tc b) :=
  (keep_host1 (Gen.W2 m ρ c) b ((by decide : ∀ b ∈ edgeArrs, ∀ x ∈ written1, b ≠ x) b hb)).trans (edge_at2 m ρ c b hb)

theorem edge_at4 (b : Ref sig .tc) (hb : b ∈ edgeArrs) :
    Gen.W4 (F := Ideal) m ρ c (Proc.devRef .tc b) = Gen.W1 (F := Ideal) m ρ c (Proc.devRef .tc b) :=
  (keep_reg1 m ρ c b ((by decide : ∀ b ∈ edgeArrs, ∀ x ∈ [main_v23], b ≠ x) b hb)).trans (edge_at3 m ρ c b hb)

theorem edge_at5 (b : Ref sig .tc) (hb : b ∈ edgeArrs) :
    Gen.W5 (F := Ideal) m ρ c (Proc.devRef .tc b) = Gen.W1 (F := Ideal) m ρ c (Proc.devRef .tc b) :=
  (keep_host2 (Gen.W4 m ρ c) b ((by decide : ∀ b ∈ edgeArrs, ∀ x ∈ written2, b ≠ x) b hb)).trans (edge_at4 m ρ c b hb)

theorem edge_at6 (b : Ref sig .tc) (hb : b ∈ edgeArrs) :
    Gen.W6 (F := Ideal) m ρ c (Proc.devRef .tc b) = Gen.W1 (F := Ideal) m ρ c (Proc.devRef .tc b) :=
  (keep_host2_1 (Gen.W5 m ρ c) b ((by decide : ∀ b ∈ edgeArrs, ∀ x ∈ written2_1, b ≠ x) b hb)).trans (edge_at5 m ρ c b hb)

theorem edge_at7 (b : Ref sig .tc) (hb : b ∈ edgeArrs) :
    Gen.W7 (F := Ideal) m ρ c (Proc.devRef .tc b) = Gen.W1 (F := Ideal) m ρ c (Proc.devRef .tc b) :=
  (keep_reg2 m ρ c b ((by decide : ∀ b ∈ edgeArrs, ∀ x ∈ [main_v28], b ≠ x) b hb)).trans (edge_at6 m ρ c b hb)

theorem edge_at8 (b : Ref sig .tc) (hb : b ∈ edgeArrs) :
    Gen.W8 (F := Ideal) m ρ c (Proc.devRef .tc b) = Gen.W1 (F := Ideal) m ρ c (Proc.devRef .tc b) :=
  (keep_reg3 m ρ c b ((by decide : ∀ b ∈ edgeArrs, ∀ x ∈ [main_v29_0, main_v29_1], b ≠ x) b hb)).trans (edge_at7 m ρ c b hb)

/-! ## The values along the first half of the program

With x, e, w0, b0, w1, g0, be0 the launch contents of arguments 0, 1, 2, 3, 4, 8, 9; row and col the edges' sources
and destinations; dv the degree factors as a column. -/

/-- The edges' sources after the first stretch. -/
theorem row_at1 : Gen.W1 (F := Ideal) m ρ c (Proc.devRef .tc main_v1) = (Cert.Net.rowOf (m ((c : Thread nD τ).loc main_arg1))) :=
  KHost.rowOf_eq (Gen.W0 m ρ c)

/-- The edges' destinations after the first stretch. -/
theorem col_at1 : Gen.W1 (F := Ideal) m ρ c (Proc.devRef .tc main_v3) = (Cert.Net.colOf (m ((c : Thread nD τ).loc main_arg1))) :=
  KHost.colOf_eq (Gen.W0 m ρ c)

/-- The degree factors after the first stretch. -/
theorem dv_at1 : Gen.W1 (F := Ideal) m ρ c (Proc.devRef .tc main_v11) = (Cert.Net.dvOf (Cert.Net.colOf (m ((c : Thread nD τ).loc main_arg1)))) :=
  KHost.dvOf_eq (Gen.W0 m ρ c)

/-! ### Region 0: the first layer's projection and its degree-scaled twin -/

/-- The projection of the input rows by the first weights, after region 0. -/
theorem proj_at2 : Gen.W2 (F := Ideal) m ρ c (Proc.devRef .tc main_v12_0) = Cert.Net.ofRC (Cert.Spec.proj (m ((c : Thread nD τ).loc main_arg0)) (m ((c : Thread nD τ).loc main_arg2))) := by
  have h := (Gen.W2_arr (F := Ideal) m ρ c 3).trans
    (Cert.Net.eq_ofRC _ _ (fun p q => Reg0.final3 (Gen.V1 (F := Ideal) m ρ) c p q))
  rw [show Gen.V1 (F := Ideal) m ρ c (Pipeline.arrRef spec0 0) = (m ((c : Thread nD τ).loc main_arg0)) from arg_at1 m ρ c main_arg0 (by decide),
    show Gen.V1 (F := Ideal) m ρ c (Pipeline.arrRef spec0 1) = (m ((c : Thread nD τ).loc main_arg2)) from arg_at1 m ρ c main_arg2 (by decide)] at h
  exact h

/-- The same scaled by the degree factors, after region 0. -/
theorem projScaled_at2 : Gen.W2 (F := Ideal) m ρ c (Proc.devRef .tc main_v12_1)
    = Cert.Net.ofRC (Cert.Spec.projScaled (m ((c : Thread nD τ).loc main_arg0)) (m ((c : Thread nD τ).loc main_arg2)) (Cert.Net.dvOf (Cert.Net.colOf (m ((c : Thread nD τ).loc main_arg1))))) := by
  have h := (Gen.W2_arr (F := Ideal) m ρ c 4).trans
    (Cert.Net.eq_ofRC _ _ (fun p q => Reg0.final4 (Gen.V1 (F := Ideal) m ρ) c p q))
  rw [show Gen.V1 (F := Ideal) m ρ c (Pipeline.arrRef spec0 0) = (m ((c : Thread nD τ).loc main_arg0)) from arg_at1 m ρ c main_arg0 (by decide),
    show Gen.V1 (F := Ideal) m ρ c (Pipeline.arrRef spec0 1) = (m ((c : Thread nD τ).loc main_arg2)) from arg_at1 m ρ c main_arg2 (by decide),
    show Gen.V1 (F := Ideal) m ρ c (Pipeline.arrRef spec0 2) = (Cert.Net.dvOf (Cert.Net.colOf (m ((c : Thread nD τ).loc main_arg1)))) from dv_at1 m ρ c] at h
  exact h

/-! ### The first aggregation and region 1: the first convolution -/

/-- The scaled projections gathered by source and summed at the destinations, after the second stretch. -/
theorem agg_at3 : Gen.W3 (F := Ideal) m ρ c (Proc.devRef .tc main_v22)
    = Cert.Net.aggOf (Cert.Net.ofRC (Cert.Spec.projScaled (m ((c : Thread nD τ).loc main_arg0)) (m ((c : Thread nD τ).loc main_arg2)) (Cert.Net.dvOf (Cert.Net.colOf (m ((c : Thread nD τ).loc main_arg1)))))) (Cert.Net.rowOf (m ((c : Thread nD τ).loc main_arg1))) (Cert.Net.colOf (m ((c : Thread nD τ).loc main_arg1))) := by
  refine (KHost.agg1_eq (Gen.W2 (F := Ideal) m ρ c)).trans ?_
  rw [projScaled_at2 m ρ c, (edge_at2 m ρ c main_v1 (by decide)).trans (row_at1 m ρ c),
    (edge_at2 m ρ c main_v3 (by decide)).trans (col_at1 m ρ c)]

/-- The projection is still there after the second stretch. -/
theorem proj_at3 : Gen.W3 (F := Ideal) m ρ c (Proc.devRef .tc main_v12_0) = Cert.Net.ofRC (Cert.Spec.proj (m ((c : Thread nD τ).loc main_arg0)) (m ((c : Thread nD τ).loc main_arg2))) :=
  (keep_host1 (Gen.W2 m ρ c) main_v12_0 (by decide)).trans (proj_at2 m ρ c)

/-- The first convolution, after region 1. -/
theorem conv_at4 : Gen.W4 (F := Ideal) m ρ c (Proc.devRef .tc main_v23) = Cert.Net.kConv (m ((c : Thread nD τ).loc main_arg0)) (m ((c : Thread nD τ).loc main_arg2)) (m ((c : Thread nD τ).loc main_arg3)) (Cert.Net.rowOf (m ((c : Thread nD τ).loc main_arg1))) (Cert.Net.colOf (m ((c : Thread nD τ).loc main_arg1))) := by
  have h := (Gen.W4_arr (F := Ideal) m ρ c 4).trans
    (Cert.Net.eq_ofRC _ _ (fun p q => Reg1.final (Gen.V3 (F := Ideal) m ρ) c p q))
  rw [show Gen.V3 (F := Ideal) m ρ c (Pipeline.arrRef spec1 0)
        = Cert.Net.aggOf (Cert.Net.ofRC (Cert.Spec.projScaled (m ((c : Thread nD τ).loc main_arg0)) (m ((c : Thread nD τ).loc main_arg2)) (Cert.Net.dvOf (Cert.Net.colOf (m ((c : Thread nD τ).loc main_arg1)))))) (Cert.Net.rowOf (m ((c : Thread nD τ).loc main_arg1))) (Cert.Net.colOf (m ((c : Thread nD τ).loc main_arg1))) from agg_at3 m ρ c,
    show Gen.V3 (F := Ideal) m ρ c (Pipeline.arrRef spec1 1) = Cert.Net.ofRC (Cert.Spec.proj (m ((c : Thread nD τ).loc main_arg0)) (m ((c : Thread nD τ).loc main_arg2))) from proj_at3 m ρ c,
    show Gen.V3 (F := Ideal) m ρ c (Pipeline.arrRef spec1 2) = (Cert.Net.dvOf (Cert.Net.colOf (m ((c : Thread nD τ).loc main_arg1))))
      from (edge_at3 m ρ c main_v11 (by decide)).trans (dv_at1 m ρ c),
    show Gen.V3 (F := Ideal) m ρ c (Pipeline.arrRef spec1 3) = (m ((c : Thread nD τ).loc main_arg3)) from arg_at3 m ρ c main_arg3 (by decide)] at h
  exact h

/-! ### The column statistics and region 2: the first normalised layer -/

/-- The convolution is still there after the two statistics stretches. -/
theorem conv_at6 : Gen.W6 (F := Ideal) m ρ c (Proc.devRef .tc main_v23) = Cert.Net.kConv (m ((c : Thread nD τ).loc main_arg0)) (m ((c : Thread nD τ).loc main_arg2)) (m ((c : Thread nD τ).loc main_arg3)) (Cert.Net.rowOf (m ((c : Thread nD τ).loc main_arg1))) (Cert.Net.colOf (m ((c : Thread nD τ).loc main_arg1))) :=
  (keep_host2_1 (Gen.W5 m ρ c) main_v23 (by decide)).trans
    ((keep_host2 (Gen.W4 m ρ c) main_v23 (by decide)).trans (conv_at4 m ρ c))

/-- Its columns' means. -/
theorem mean_at6 : Gen.W6 (F := Ideal) m ρ c (Proc.devRef .tc main_v26)
    = Cert.Net.colMean (Cert.Net.kConv (m ((c : Thread nD τ).loc main_arg0)) (m ((c : Thread nD τ).loc main_arg2)) (m ((c : Thread nD τ).loc main_arg3)) (Cert.Net.rowOf (m ((c : Thread nD τ).loc main_arg1))) (Cert.Net.colOf (m ((c : Thread nD τ).loc main_arg1)))) :=
  (KHost.colMean2_eq (Gen.W4 (F := Ideal) m ρ c)).trans (congrArg Cert.Net.colMean (conv_at4 m ρ c))

/-- Its columns' variances. -/
theorem var_at6 : Gen.W6 (F := Ideal) m ρ c (Proc.devRef .tc main_v27)
    = Cert.Net.colVar (Cert.Net.kConv (m ((c : Thread nD τ).loc main_arg0)) (m ((c : Thread nD τ).loc main_arg2)) (m ((c : Thread nD τ).loc main_arg3)) (Cert.Net.rowOf (m ((c : Thread nD τ).loc main_arg1))) (Cert.Net.colOf (m ((c : Thread nD τ).loc main_arg1)))) :=
  (KHost.colVar2_eq (Gen.W4 (F := Ideal) m ρ c)).trans (congrArg Cert.Net.colVar (conv_at4 m ρ c))

/-- The first layer's output, after region 2. -/
theorem layer_at7 : Gen.W7 (F := Ideal) m ρ c (Proc.devRef .tc main_v28) = Cert.Net.kH1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) := by
  have h := (Gen.W7_arr (F := Ideal) m ρ c 6).trans
    (Cert.Net.eq_ofRC _ _ (fun p q => Reg2.final (Gen.V6 (F := Ideal) m ρ) c p q))
  rw [show Gen.V6 (F := Ideal) m ρ c (Pipeline.arrRef spec2 0) = Cert.Net.kConv (m ((c : Thread nD τ).loc main_arg0)) (m ((c : Thread nD τ).loc main_arg2)) (m ((c : Thread nD τ).loc main_arg3)) (Cert.Net.rowOf (m ((c : Thread nD τ).loc main_arg1))) (Cert.Net.colOf (m ((c : Thread nD τ).loc main_arg1))) from conv_at6 m ρ c,
    show Gen.V6 (F := Ideal) m ρ c (Pipeline.arrRef spec2 1)
        = Cert.Net.colMean (Cert.Net.kConv (m ((c : Thread nD τ).loc main_arg0)) (m ((c : Thread nD τ).loc main_arg2)) (m ((c : Thread nD τ).loc main_arg3)) (Cert.Net.rowOf (m ((c : Thread nD τ).loc main_arg1))) (Cert.Net.colOf (m ((c : Thread nD τ).loc main_arg1)))) from mean_at6 m ρ c,
    show Gen.V6 (F := Ideal) m ρ c (Pipeline.arrRef spec2 2)
        = Cert.Net.colVar (Cert.Net.kConv (m ((c : Thread nD τ).loc main_arg0)) (m ((c : Thread nD τ).loc main_arg2)) (m ((c : Thread nD τ).loc main_arg3)) (Cert.Net.rowOf (m ((c : Thread nD τ).loc main_arg1))) (Cert.Net.colOf (m ((c : Thread nD τ).loc main_arg1)))) from var_at6 m ρ c,
    show Gen.V6 (F := Ideal) m ρ c (Pipeline.arrRef spec2 3) = (m ((c : Thread nD τ).loc main_arg8)) from arg_at6 m ρ c main_arg8 (by decide),
    show Gen.V6 (F := Ideal) m ρ c (Pipeline.arrRef spec2 4) = (m ((c : Thread nD τ).loc main_arg9)) from arg_at6 m ρ c main_arg9 (by decide),
    show Gen.V6 (F := Ideal) m ρ c (Pipeline.arrRef spec2 5) = (m ((c : Thread nD τ).loc main_arg0)) from arg_at6 m ρ c main_arg0 (by decide)] at h
  exact h

/-! ### Region 3: the second layer's projection and its degree-scaled twin; the six facts at its exit -/

/-- The first layer's output is still there after region 3. -/
theorem w8_v28 : Gen.W8 (F := Ideal) m ρ c (Proc.devRef .tc main_v28) = Cert.Net.kH1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) :=
  (keep_reg3 m ρ c main_v28 (by decide)).trans (layer_at7 m ρ c)

/-- Its projection by the second weights. -/
theorem w8_v29_0 : Gen.W8 (F := Ideal) m ρ c (Proc.devRef .tc main_v29_0)
    = Cert.Net.ofRC (Cert.Spec.proj (Cert.Net.kH1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))) (m ((c : Thread nD τ).loc main_arg4))) := by
  have h := (Gen.W8_arr (F := Ideal) m ρ c 3).trans
    (Cert.Net.eq_ofRC _ _ (fun p q => Reg3.final3 (Gen.V7 (F := Ideal) m ρ) c p q))
  rw [show Gen.V7 (F := Ideal) m ρ c (Pipeline.arrRef spec3 0) = Cert.Net.kH1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) from layer_at7 m ρ c,
    show Gen.V7 (F := Ideal) m ρ c (Pipeline.arrRef spec3 1) = (m ((c : Thread nD τ).loc main_arg4)) from arg_at7 m ρ c main_arg4 (by decide)] at h
  exact h

/-- The same scaled by the degree factors. -/
theorem w8_v29_1 : Gen.W8 (F := Ideal) m ρ c (Proc.devRef .tc main_v29_1)
    = Cert.Net.ofRC (Cert.Spec.projScaled (Cert.Net.kH1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))) (m ((c : Thread nD τ).loc main_arg4)) (Cert.Net.dvOf (Cert.Net.colOf (m ((c : Thread nD τ).loc main_arg1))))) := by
  have h := (Gen.W8_arr (F := Ideal) m ρ c 4).trans
    (Cert.Net.eq_ofRC _ _ (fun p q => Reg3.final4 (Gen.V7 (F := Ideal) m ρ) c p q))
  rw [show Gen.V7 (F := Ideal) m ρ c (Pipeline.arrRef spec3 0) = Cert.Net.kH1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) from layer_at7 m ρ c,
    show Gen.V7 (F := Ideal) m ρ c (Pipeline.arrRef spec3 1) = (m ((c : Thread nD τ).loc main_arg4)) from arg_at7 m ρ c main_arg4 (by decide),
    show Gen.V7 (F := Ideal) m ρ c (Pipeline.arrRef spec3 2) = (Cert.Net.dvOf (Cert.Net.colOf (m ((c : Thread nD τ).loc main_arg1))))
      from (edge_at7 m ρ c main_v11 (by decide)).trans (dv_at1 m ρ c)] at h
  exact h

/-- The degree factors, -/
theorem w8_v11 : Gen.W8 (F := Ideal) m ρ c (Proc.devRef .tc main_v11) = (Cert.Net.dvOf (Cert.Net.colOf (m ((c : Thread nD τ).loc main_arg1)))) :=
  (edge_at8 m ρ c main_v11 (by decide)).trans (dv_at1 m ρ c)

/-- the edges' sources -/
theorem w8_v1 : Gen.W8 (F := Ideal) m ρ c (Proc.devRef .tc main_v1) = (Cert.Net.rowOf (m ((c : Thread nD τ).loc main_arg1))) :=
  (edge_at8 m ρ c main_v1 (by decide)).trans (row_at1 m ρ c)

/-- and the edges' destinations are as the first stretch left them. -/
theorem w8_v3 : Gen.W8 (F := Ideal) m ρ c (Proc.devRef .tc main_v3) = (Cert.Net.colOf (m ((c : Thread nD τ).loc main_arg1))) :=
  (edge_at8 m ρ c main_v3 (by decide)).trans (col_at1 m ρ c)

end Cert.KernelIdeal.KChain

end
-- ==== Proof.Reg4.lean ====
/-
  The second convolution's last step, as the array its region leaves.

  At row `r`, column `q` of a block the region's body stores the aggregated messages' entry times the row's degree
  factor, plus the row's own projection times the factor squared, plus the bias of column `q`: the factor is a
  column of one entry per row, repeated along the row, and the bias one row repeated down the block.

  The grid has 50 points. At point `t` the aggregate, the projection and the output each have the block of rows
  `2000 t … 2000 t + 1999` with all 128 columns, the factors the same rows of their one column, and the bias is read
  whole. So what point `t` writes back is rows `2000 t … 2000 t + 1999` of one function of the whole input arrays,
  the specification's `Cert.Spec.convOut`; row `p` lies in the block of point `p / 2000`, the 50 blocks tile the
  100000 rows, and the output array after the region is `convOut` of the region's four input arrays at every index.
-/
import proofs.«112374_j17231408792366_2_alg».proof.Proof.Spec
import proofs.«112374_j17231408792366_2_alg».proof.Proof.Gen.KernelIdeal.Frame
import Idealize.ShloMosaic.Lib.Pipeline.Value
import Idealize.ShloMosaic.Lib.ValueLayout

noncomputable section

namespace Cert.KernelIdeal.Reg4

open Idealize.ShloMosaic Idealize.ShloMosaic.TcCoe Idealize.ShloMosaic.ValueIdx Idealize.SL.Sem Cert.KernelIdeal
open Idealize.ShloMosaic.Pipeline (Dat)

variable (V : (c : Dev nD) → (b : Ref sig .tc) → Buf (Elt Ideal) ((c : Thread nD τ).loc b))

/-! ## The body's stored value at an index -/

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at row `r`, column `q` of the block: the aggregate times the row's factor, plus the
    row's own projection times the factor squared, plus the bias of column `q`. -/
theorem pay_apply (x0 x1 : Vec Ideal S2000x128 .f32) (x2 : Vec Ideal S2000x1 .f32) (x3 : Vec Ideal S128 .f32)
    (r : Fin 2000) (q : Fin 128) :
    Gen.k4_pay1 (F := Ideal) x0 x1 x2 x3 (ix2 r q)
      = x0 (ix2 r q) * x2 (ix2 r 0) + x1 (ix2 r q) * (x2 (ix2 r 0) * x2 (ix2 r 0)) + x3 (ix1 q) := by
  unfold Gen.k4_pay1
  simp only [shapeCast_self]
  rw [addf_apply, addf_apply, mulf_apply, mulf_apply, broadcastTo_a1_ab_apply, broadcastTo_a1_ab_apply,
    broadcastTo_1b_ab_apply, shapeCast_a_1a_apply, mulf_apply]

/-! ## The windows' blocks as parts of their arrays -/

theorem hz : (![0, 0] : Fin 2 → Nat) = fun _ => 0 := funext fun a => by fin_cases a <;> rfl
theorem hz1 : (![0] : Fin 1 → Nat) = fun _ => 0 := funext fun a => by fin_cases a <;> rfl

/-- The printed index maps, decided over the grid: each row-blocked window sits at block row `t`, block column 0; the
    bias window is fetched whole. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_4.index t (0 : Fin 2) = t.val ∧ win4_4.index t (1 : Fin 2) = 0
    ∧ win4_3.index t (0 : Fin 1) = 0 :=
  (by decide +kernel : ∀ t : Fin grid4.N, _)

/-- Window 0's block at point `t` holds rows `2000 t … 2000 t + 1999` of its array. -/
theorem blk0_apply (c : Dev nD) (t : Fin cfg4.N) (r : Fin 2000) (q : Fin 128) (p : Fin 100000)
    (hp : p.val = 2000 * t.val + r.val) :
    (Gen.iblk4 (F := Ideal) V c 0 t : Vec Ideal S2000x128 .f32) (ix2 r q)
      = (V c (Pipeline.arrRef spec4 0) : S100000x128.Idx → EReal) (ix2 p q) := by
  have e0 : win4_0.index t (0 : Fin 2) = t.val := (idx_facts t).1
  have e1 : win4_0.index t (1 : Fin 2) = 0 := (idx_facts t).2.1
  show (V c (Pipeline.arrRef spec4 0) : S100000x128.Idx → EReal) (((cfg4.win 0).blk t).view.emb (ix2 r q)) = _
  refine congrArg (V c (Pipeline.arrRef spec4 0) : S100000x128.Idx → EReal) (funext fun a => Fin.ext ?_)
  match a with
  | ⟨0, _⟩ => show win4_0.index t (0 : Fin 2) * 2000 + 1 * r.val = p.val; rw [e0, hp]; omega
  | ⟨1, _⟩ => show win4_0.index t (1 : Fin 2) * 128 + 1 * q.val = q.val; rw [e1]; omega

/-- Window 1's block at point `t` holds rows `2000 t … 2000 t + 1999` of its array. -/
theorem blk1_apply (c : Dev nD) (t : Fin cfg4.N) (r : Fin 2000) (q : Fin 128) (p : Fin 100000)
    (hp : p.val = 2000 * t.val + r.val) :
    (Gen.iblk4 (F := Ideal) V c 1 t : Vec Ideal S2000x128 .f32) (ix2 r q)
      = (V c (Pipeline.arrRef spec4 1) : S100000x128.Idx → EReal) (ix2 p q) := by
  have e0 : win4_1.index t (0 : Fin 2) = t.val := (idx_facts t).2.2.1
  have e1 : win4_1.index t (1 : Fin 2) = 0 := (idx_facts t).2.2.2.1
  show (V c (Pipeline.arrRef spec4 1) : S100000x128.Idx → EReal) (((cfg4.win 1).blk t).view.emb (ix2 r q)) = _
  refine congrArg (V c (Pipeline.arrRef spec4 1) : S100000x128.Idx → EReal) (funext fun a => Fin.ext ?_)
  match a with
  | ⟨0, _⟩ => show win4_1.index t (0 : Fin 2) * 2000 + 1 * r.val = p.val; rw [e0, hp]; omega
  | ⟨1, _⟩ => show win4_1.index t (1 : Fin 2) * 128 + 1 * q.val = q.val; rw [e1]; omega

/-- Window 2's block at point `t` holds rows `2000 t … 2000 t + 1999` of its array (one column). -/
theorem blk2_apply (c : Dev nD) (t : Fin cfg4.N) (r : Fin 2000) (q : Fin 1) (p : Fin 100000)
    (hp : p.val = 2000 * t.val + r.val) :
    (Gen.iblk4 (F := Ideal) V c 2 t : Vec Ideal S2000x1 .f32) (ix2 r q)
      = (V c (Pipeline.arrRef spec4 2) : S100000x1.Idx → EReal) (ix2 p q) := by
  have e0 : win4_2.index t (0 : Fin 2) = t.val := (idx_facts t).2.2.2.2.1
  have e1 : win4_2.index t (1 : Fin 2) = 0 := (idx_facts t).2.2.2.2.2.1
  show (V c (Pipeline.arrRef spec4 2) : S100000x1.Idx → EReal) (((cfg4.win 2).blk t).view.emb (ix2 r q)) = _
  refine congrArg (V c (Pipeline.arrRef spec4 2) : S100000x1.Idx → EReal) (funext fun a => Fin.ext ?_)
  match a with
  | ⟨0, _⟩ => show win4_2.index t (0 : Fin 2) * 2000 + 1 * r.val = p.val; rw [e0, hp]; omega
  | ⟨1, _⟩ => show win4_2.index t (1 : Fin 2) * 1 + 1 * q.val = q.val; rw [e1]; omega

/-- Window 3's block is its whole array at every point. -/
theorem blk3_apply (c : Dev nD) (t : Fin cfg4.N) (q : Fin 128) :
    (Gen.iblk4 (F := Ideal) V c 3 t : Vec Ideal S128 .f32) (ix1 q)
      = (V c (Pipeline.arrRef spec4 3) : S128.Idx → EReal) (ix1 q) := by
  have e0 : win4_3.index t (0 : Fin 1) = 0 := (idx_facts t).2.2.2.2.2.2.2.2
  show (V c (Pipeline.arrRef spec4 3) : S128.Idx → EReal) (((cfg4.win 3).blk t).view.emb (ix1 q)) = _
  refine congrArg (V c (Pipeline.arrRef spec4 3) : S128.Idx → EReal) (funext fun a => Fin.ext ?_)
  match a with
  | ⟨0, _⟩ => show win4_3.index t (0 : Fin 1) * 128 + 1 * q.val = q.val; rw [e0]; omega

/-- The output window's block at point `t` sits at rows `2000 t … 2000 t + 1999` of its array. -/
theorem emb4 (t : Fin cfg4.N) (r : Fin 2000) (q : Fin 128) (p : Fin 100000) (hp : p.val = 2000 * t.val + r.val) :
    (((cfg4.win 4).blk t).view.emb (ix2 r q : S2000x128.Idx) : S100000x128.Idx) = ix2 p q := by
  have e0 : win4_4.index t (0 : Fin 2) = t.val := (idx_facts t).2.2.2.2.2.2.1
  have e1 : win4_4.index t (1 : Fin 2) = 0 := (idx_facts t).2.2.2.2.2.2.2.1
  refine funext fun a => Fin.ext ?_
  match a with
  | ⟨0, _⟩ => show win4_4.index t (0 : Fin 2) * 2000 + 1 * r.val = p.val; rw [e0, hp]; omega
  | ⟨1, _⟩ => show win4_4.index t (1 : Fin 2) * 128 + 1 * q.val = q.val; rw [e1]; omega

/-! ## What each point writes back, the cover, and the array after the region -/

/-- The array the region leaves: the convolution's last step of the four arrays the region finds, index by index. -/
abbrev G (c : Dev nD) : S100000x128.Idx → EReal := fun i =>
  Cert.Spec.convOut (V c (Pipeline.arrRef spec4 0)) (V c (Pipeline.arrRef spec4 1)) (V c (Pipeline.arrRef spec4 2))
    (V c (Pipeline.arrRef spec4 3)) ⟨(i 0).val, idx2_lt0 i⟩ ⟨(i 1).val, idx2_lt1 i⟩

/-- What point `t` writes back is block `t` of `G`. -/
theorem flushed_eq (c : Dev nD) (t : Fin cfg4.N) :
    (Gen.dat4 (F := Ideal) V c).flushed 4 t = ((cfg4.win 4).blk t).view.read (Elt Ideal) (G V c) := by
  show (cfg4.win 4).cut (grid4.coords t) ((Gen.dat4 (F := Ideal) V c).after 4 t) = _
  rw [Gen.after4_4]
  unfold Gen.out4_4
  rw [View.canon_unit_zero hz]
  simp only [View.ld_unit_zero (S := S2000x128) hz, View.ld_unit_zero (S := S2000x1) hz, View.ld_unit_zero (S := S128) hz1]
  show (Gen.k4_pay1 (F := Ideal) (Gen.iblk4 V c 0 t) (Gen.iblk4 V c 1 t) (Gen.iblk4 V c 2 t) (Gen.iblk4 V c 3 t) : S2000x128.Idx → EReal)
    = fun j : S2000x128.Idx => G V c (((cfg4.win 4).blk t).view.emb j)
  funext j
  obtain ⟨r, q, rfl⟩ : ∃ (r : Fin 2000) (q : Fin 128), j = ix2 r q := ⟨j 0, j 1, eq_ix2 j⟩
  have hN : grid4.N = 50 := Gen.N_4
  have ht : t.val < 50 := Nat.lt_of_lt_of_eq (show t.val < grid4.N from t.isLt) hN
  have hp : 2000 * t.val + r.val < 100000 := by have := r.isLt; omega
  refine (pay_apply _ _ _ _ r q).trans ?_
  rw [blk0_apply V c t r q ⟨_, hp⟩ rfl, blk1_apply V c t r q ⟨_, hp⟩ rfl, blk2_apply V c t r 0 ⟨_, hp⟩ rfl,
    blk3_apply V c t q, emb4 t r q ⟨_, hp⟩ rfl]
  rfl

/-- An index of the array is in point `t`'s block iff each coordinate is in the block's range on its axis. -/
theorem mem_blk (t : Fin cfg4.N) (i : S100000x128.Idx) :
    i ∈ ((cfg4.win 4).blk t).view.set ↔ ∀ a : Fin 2, win4_4.index t a * S2000x128.size a ≤ (i a).val
      ∧ (i a).val < win4_4.index t a * S2000x128.size a + S2000x128.size a := by
  show i ∈ ((View.whole main_v40).slice (win4_4.rect t)).set ↔ _
  rw [View.set_slice_whole, Rect.mem_set_unit]
  exact Iff.rfl

/-- Every index of the array is in the block of the point its row's quotient by 2000 names. -/
theorem cover (i : S100000x128.Idx) :
    ∃ t : Fin cfg4.N, (cfg4.win 4).flush t = true ∧ i ∈ ((cfg4.win 4).blk t).view.set := by
  have hi0 : (i 0).val < 100000 := idx2_lt0 i
  have hi1 : (i 1).val < 128 := idx2_lt1 i
  have hN : grid4.N = 50 := Gen.N_4
  have ht : (i 0).val / 2000 < cfg4.N := by show (i 0).val / 2000 < grid4.N; rw [hN]; omega
  have e0 : win4_4.index ⟨(i 0).val / 2000, ht⟩ (0 : Fin 2) = (i 0).val / 2000 := (idx_facts _).2.2.2.2.2.2.1
  have e1 : win4_4.index ⟨(i 0).val / 2000, ht⟩ (1 : Fin 2) = 0 := (idx_facts _).2.2.2.2.2.2.2.1
  refine ⟨⟨(i 0).val / 2000, ht⟩, Gen.flush4_4 _, ?_⟩
  rw [mem_blk]
  intro a
  match a with
  | ⟨0, _⟩ =>
    show win4_4.index ⟨(i 0).val / 2000, ht⟩ (0 : Fin 2) * 2000 ≤ (i 0).val
      ∧ (i 0).val < win4_4.index ⟨(i 0).val / 2000, ht⟩ (0 : Fin 2) * 2000 + 2000
    rw [e0]; omega
  | ⟨1, _⟩ =>
    show win4_4.index ⟨(i 0).val / 2000, ht⟩ (1 : Fin 2) * 128 ≤ (i 1).val
      ∧ (i 1).val < win4_4.index ⟨(i 0).val / 2000, ht⟩ (1 : Fin 2) * 128 + 128
    rw [e1]; omega

/-- THE ARRAY after the region, index by index: the convolution's last step of the arrays the region finds. -/
theorem final (c : Dev nD) (p : Fin 100000) (q : Fin 128) :
    (Gen.dat4 (F := Ideal) V c).arrAt 4 cfg4.N (ix2 p q)
      = Cert.Spec.convOut (V c (Pipeline.arrRef spec4 0)) (V c (Pipeline.arrRef spec4 1)) (V c (Pipeline.arrRef spec4 2))
          (V c (Pipeline.arrRef spec4 3)) p q := by
  rw [(Gen.dat4 (F := Ideal) V c).arrAt_eq_of_cover 4 (G V c) (fun t _ => flushed_eq V c t) cover]

end Cert.KernelIdeal.Reg4

end
-- ==== Proof.Reg5Pay.lean ====
/-
  The fused normalise / attention / projection stage, one block of 2000 rows: what the body computes, entry by entry.

  The body works on a block of 2000 rows and all 128 columns. Its first value normalises each column by given statistics,
  scales and shifts, clamps below at zero and adds the residual; two matrix products with a bias (the value and output
  projections of a one-token attention) are added back; each row is then normalised by its own mean and (biased)
  variance — two sums along the 128 lanes, each divided by 128 —, scaled, shifted, and projected by a third matrix;
  the second output multiplies that by the row's degree factor.

  Every step acts within a row: entry (r, q) of each value depends on row r of the two row-blocked inputs and on the
  whole of the small inputs only. So row r of the block's outputs is row p of the closed forms `Cert.Spec.attnHp2`,
  `Cert.Spec.attnHs2` as soon as rows r of the row-blocked inputs are rows p of their arrays (`hp2_at`, `hs2_at`).
  On the way: the layout operations of the body read at an index (a vector laid along the rows, a column laid along the
  lanes), the matrix product into a zero accumulator as a sum over the 128 contracted positions, the lane sum as a sum
  over the row's 128 entries, and each payload at an index.
-/
import proofs.«112374_j17231408792366_2_alg».proof.Proof.Spec
import proofs.«112374_j17231408792366_2_alg».proof.Proof.Gen.KernelIdeal.Skeleton
import Idealize.ShloMosaic.Lib.ValueLayout
import Idealize.ShloMosaic.PureOps.Ideal.Laws

noncomputable section

namespace Cert.KernelIdeal.Reg5

open Idealize.ShloMosaic Idealize.ShloMosaic.ValueIdx Idealize.SL.Sem Cert.KernelIdeal

/-! ## Layout operations of this kernel read at an index -/

/-- A vector of 128 entries laid along each of 2000 rows reads, at (r, q), its entry q. -/
theorem rowb_apply (v : FVec Ideal S128 .f32) (r : Fin 2000) (q : Fin 128) :
    broadcastTo S2000x128 (shapeCast S1x128 v Gen.shapeCasts_S128_S1x128) Gen.broadcasts_S1x128_S2000x128 (ix2 r q) = v (ix1 q) :=
  (broadcastTo_1b_ab_apply _ _ r q).trans (shapeCast_a_1a_apply v _ 0 q)

/-- The inverse square root is taken entry by entry. -/
theorem rsqrt_apply {s : Shape} {φ : FTy} (a : FVec Ideal s φ) (i : s.Idx) : rsqrt a i = Ideal.rsqrt (a i) := rfl

/-- An `[a]` array cast to a column `[a, 1]` reads, at (i, u), the operand at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at (i, j), the column's entry i. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The matrix product and the lane sum read at an index -/

theorem lhs_0 (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhs_1 (i : S2000x128.Idx) (k : dot_S2000x128_S128x128_S2000x128_1_0_0_1_n_n.contr.Idx) :
    (dot_S2000x128_S128x128_S2000x128_1_0_0_1_n_n.lhsIdx i k 1).val = (k ⟨0, by decide⟩).val :=
  dot_S2000x128_S128x128_S2000x128_1_0_0_1_n_n.lhsIdx_val_of_single rfl i k

theorem rhs_0 (i : S2000x128.Idx) (k : dot_S2000x128_S128x128_S2000x128_1_0_0_1_n_n.contr.Idx) :
    (dot_S2000x128_S128x128_S2000x128_1_0_0_1_n_n.rhsIdx i k 0).val = (k ⟨0, by decide⟩).val :=
  dot_S2000x128_S128x128_S2000x128_1_0_0_1_n_n.rhsIdx_val_of_single rfl i k

theorem rhs_1 (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The kernel's matrix product into a zero accumulator, at (r, q): row r of the left operand against column q of the
    right one, summed over the 128 contracted positions. -/
theorem mm_apply {φ₁ φ₂ : FTy} (L : FVec Ideal S2000x128 φ₁) (R : FVec Ideal S128x128 φ₂) (r : Fin 2000) (q : Fin 128) :
    matmul dot_S2000x128_S128x128_S2000x128_1_0_0_1_n_n none L R (constant S2000x128 .f32 0x00000000#32) (ix2 r q)
      = ∑ k : Fin 128, L (ix2 r k) * R (ix2 k q) := by
  show FloatOps.matmul dot_S2000x128_S128x128_S2000x128_1_0_0_1_n_n none L R (constant (F := Ideal) S2000x128 .f32 0x00000000#32) (ix2 r q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r q)
      ((contrEquiv1 dot_S2000x128_S128x128_S2000x128_1_0_0_1_n_n 128 rfl rfl).symm k) = ix2 r k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 r q)
      ((contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The kernel's sum along the lanes, at row r: the sum of the row's 128 entries. -/
theorem lane_sum (src : FVec Ideal S2000x128 .f32) (hφ : FTy.f32 = FTy.f32 ∨ FTy.f32 = FTy.bf16)
    (hacc : (0x00000000#32 : BitVec 32) = 0x00000000#32) (r : Fin 2000) :
    multiReduction .add [1] S2000 src 0x00000000#32 Gen.reduces_S2000x128_S2000 hφ hacc (ix1 r)
      = ∑ k : Fin 128, src (ix2 r k) := by
  refine (Ideal.multiReduction_add_single src _ Gen.reduces_S2000x128_S2000 hφ hacc (ix1 r)).trans ?_
  refine Finset.sum_congr rfl fun k _ => ?_
  exact congrArg src (funext fun a => Fin.ext (by match a with | ⟨0, _⟩ => rfl | ⟨1, _⟩ => rfl))

/-! ## The body's payloads read at an index -/

/-- The column-normalised, clamped, residual-added block at (r, q). -/
theorem pay1_at (x0 : Vec Ideal S2000x128 .f32) (x1 x2 x3 x4 : Vec Ideal S128 .f32) (x5 : Vec Ideal S2000x128 .f32)
    (r : Fin 2000) (q : Fin 128) :
    Gen.k5_pay1 x0 x1 x2 x3 x4 x5 (ix2 r q)
      = max ((x0 (ix2 r q) - x1 (ix1 q)) * Ideal.rsqrt (x2 (ix1 q) + Cert.Spec.epsv) * x3 (ix1 q) + x4 (ix1 q)) Cert.Spec.zerov + x5 (ix2 r q) := by
  unfold Gen.k5_pay1
  simp only [addf_apply, maximumf_apply, mulf_apply, subf_apply, broadcast_apply, shapeCast_self, rowb_apply,
    broadcastTo_1b_ab_apply, rsqrt_apply, shapeCast_a_1a_apply]
  rfl

/-- The output projection (without its bias) of the value projection of the first payload's rows, at (r, q). -/
theorem pay2_at (x0 : Vec Ideal S2000x128 .f32) (x1 x2 x3 x4 : Vec Ideal S128 .f32) (x5 : Vec Ideal S2000x128 .f32)
    (x6 : Vec Ideal S128x128 .f32) (x7 : Vec Ideal S128 .f32) (x8 : Vec Ideal S128x128 .f32) (r : Fin 2000) (q : Fin 128) :
    Gen.k5_pay2 x0 x1 x2 x3 x4 x5 x6 x7 x8 (ix2 r q)
      = ∑ k : Fin 128, ((∑ j : Fin 128, Gen.k5_pay1 x0 x1 x2 x3 x4 x5 (ix2 r j) * x6 (ix2 j k)) + x7 (ix1 k)) * x8 (ix2 k q) := by
  unfold Gen.k5_pay2
  simp only [mm_apply, truncf_apply, addf_apply, rowb_apply]

/-- The row normalisation of `v27 + (v39 + bias)` projected by the last weight matrix, at (r, q): the row's mean and
    variance are the lane sums over 128, each divided by 128. The row index `p` of the closed form is a dummy here: the
    rows are given as a function that ignores it. -/
theorem pay3_at (v27 v39 : FVec Ideal S2000x128 .f32) (x9 x10 x11 : Vec Ideal S128 .f32) (x12 : Vec Ideal S128x128 .f32)
    (r : Fin 2000) (q : Fin 128) (p : Fin 100000) :
    Gen.k5_pay3 v27 v39 x9 x10 x11 x12 (ix2 r q)
      = ∑ k : Fin 128, Cert.Spec.lnorm (fun _ j => v27 (ix2 r j) + (v39 (ix2 r j) + x9 (ix1 j))) x10 x11 p k * x12 (ix2 k q) := by
  unfold Gen.k5_pay3 Cert.Spec.lnorm Cert.Spec.rowVar Cert.Spec.rowMean
  simp only [mm_apply, truncf_apply, addf_apply, mulf_apply, subf_apply, divf_apply, broadcast_apply, rsqrt_apply, rowb_apply,
    broadcastTo_a1_ab_apply, shapeCast_a_a1_apply]
  rw [lane_sum, lane_sum]
  simp only [addf_apply, mulf_apply, subf_apply, divf_apply, broadcast_apply, rowb_apply,
    broadcastTo_a1_ab_apply, shapeCast_a_a1_apply]
  rw [lane_sum]
  simp only [addf_apply, rowb_apply]
  rfl

/-- The second output's payload is the first one's times the block's degree factor of the row. -/
theorem pay4_at (v27 v39 : FVec Ideal S2000x128 .f32) (x9 x10 x11 : Vec Ideal S128 .f32) (x12 : Vec Ideal S128x128 .f32)
    (x13 : Vec Ideal S2000x1 .f32) (r : Fin 2000) (q : Fin 128) :
    Gen.k5_pay4 v27 v39 x9 x10 x11 x12 x13 (ix2 r q) = Gen.k5_pay3 v27 v39 x9 x10 x11 x12 (ix2 r q) * x13 (ix2 r (0 : Fin 1)) := by
  unfold Gen.k5_pay4
  simp only [mulf_apply, broadcastTo_a1_ab_apply, shapeCast_self]

/-! ## The payloads against the closed forms, row by row -/

/-- The row normalisation of a row depends on that row only. -/
theorem lnorm_congr (y y' : Fin 100000 → Fin 128 → EReal) (g b : Cert.Spec.SD.Idx → EReal) (p p' : Fin 100000) (q : Fin 128)
    (h : ∀ k, y p k = y' p' k) : Cert.Spec.lnorm y g b p q = Cert.Spec.lnorm y' g b p' q := by
  unfold Cert.Spec.lnorm Cert.Spec.rowVar Cert.Spec.rowMean
  simp only [h]

/-- Row r of the block's first output is row p of the closed form, when rows r of the two row-blocked inputs are rows p of
    their arrays (the other inputs are whole arrays). -/
theorem hp2_at (x0 : Vec Ideal S2000x128 .f32) (x1 x2 x3 x4 : Vec Ideal S128 .f32) (x5 : Vec Ideal S2000x128 .f32)
    (x6 : Vec Ideal S128x128 .f32) (x7 : Vec Ideal S128 .f32) (x8 : Vec Ideal S128x128 .f32) (x9 x10 x11 : Vec Ideal S128 .f32)
    (x12 : Vec Ideal S128x128 .f32) (A0 A5 : Cert.Spec.SND.Idx → EReal) (r : Fin 2000) (p : Fin 100000)
    (h0 : ∀ k : Fin 128, x0 (ix2 r k) = A0 (ix2 p k)) (h5 : ∀ k : Fin 128, x5 (ix2 r k) = A5 (ix2 p k)) (q : Fin 128) :
    Gen.k5_pay3 (Gen.k5_pay1 x0 x1 x2 x3 x4 x5) (Gen.k5_pay2 x0 x1 x2 x3 x4 x5 x6 x7 x8) x9 x10 x11 x12 (ix2 r q)
      = Cert.Spec.attnHp2 A0 x1 x2 x3 x4 A5 x6 x7 x8 x9 x10 x11 x12 p q := by
  have hy : ∀ k : Fin 128, Gen.k5_pay1 x0 x1 x2 x3 x4 x5 (ix2 r k) = Cert.Spec.attnY A0 x1 x2 x3 x4 A5 p k := fun k => by
    rw [pay1_at, h0 k, h5 k]; rfl
  rw [pay3_at _ _ _ _ _ _ r q p]
  unfold Cert.Spec.attnHp2
  refine Finset.sum_congr rfl fun k _ => congrArg (· * x12 (ix2 k q)) ?_
  refine lnorm_congr _ _ _ _ p p k fun j => ?_
  show Gen.k5_pay1 x0 x1 x2 x3 x4 x5 (ix2 r j) + (Gen.k5_pay2 x0 x1 x2 x3 x4 x5 x6 x7 x8 (ix2 r j) + x9 (ix1 j)) = _
  rw [pay2_at]
  simp only [hy]
  rfl

/-- The second output likewise, with the row's degree factor. -/
theorem hs2_at (x0 : Vec Ideal S2000x128 .f32) (x1 x2 x3 x4 : Vec Ideal S128 .f32) (x5 : Vec Ideal S2000x128 .f32)
    (x6 : Vec Ideal S128x128 .f32) (x7 : Vec Ideal S128 .f32) (x8 : Vec Ideal S128x128 .f32) (x9 x10 x11 : Vec Ideal S128 .f32)
    (x12 : Vec Ideal S128x128 .f32) (x13 : Vec Ideal S2000x1 .f32) (A0 A5 : Cert.Spec.SND.Idx → EReal) (A13 : Cert.Spec.SN1.Idx → EReal)
    (r : Fin 2000) (p : Fin 100000)
    (h0 : ∀ k : Fin 128, x0 (ix2 r k) = A0 (ix2 p k)) (h5 : ∀ k : Fin 128, x5 (ix2 r k) = A5 (ix2 p k))
    (h13 : x13 (ix2 r (0 : Fin 1)) = A13 (ix2 p (0 : Fin 1))) (q : Fin 128) :
    Gen.k5_pay4 (Gen.k5_pay1 x0 x1 x2 x3 x4 x5) (Gen.k5_pay2 x0 x1 x2 x3 x4 x5 x6 x7 x8) x9 x10 x11 x12 x13 (ix2 r q)
      = Cert.Spec.attnHs2 A0 x1 x2 x3 x4 A5 x6 x7 x8 x9 x10 x11 x12 A13 p q := by
  rw [pay4_at, hp2_at x0 x1 x2 x3 x4 x5 x6 x7 x8 x9 x10 x11 x12 A0 A5 r p h0 h5 q, h13]
  rfl

/-- The same with every small input named: the form the blocks of a grid point are put in (a window fetched whole has its
    array as its block at every point). -/
theorem hp2_blk (x0 : Vec Ideal S2000x128 .f32) (x1 x2 x3 x4 : Vec Ideal S128 .f32) (x5 : Vec Ideal S2000x128 .f32)
    (x6 : Vec Ideal S128x128 .f32) (x7 : Vec Ideal S128 .f32) (x8 : Vec Ideal S128x128 .f32) (x9 x10 x11 : Vec Ideal S128 .f32)
    (x12 : Vec Ideal S128x128 .f32) (A0 : Cert.Spec.SND.Idx → EReal) (A1 A2 A3 A4 : Cert.Spec.SD.Idx → EReal)
    (A5 : Cert.Spec.SND.Idx → EReal) (A6 : Cert.Spec.SDD.Idx → EReal) (A7 : Cert.Spec.SD.Idx → EReal) (A8 : Cert.Spec.SDD.Idx → EReal)
    (A9 A10 A11 : Cert.Spec.SD.Idx → EReal) (A12 : Cert.Spec.SDD.Idx → EReal) (r : Fin 2000) (p : Fin 100000)
    (h0 : ∀ k : Fin 128, x0 (ix2 r k) = A0 (ix2 p k)) (e1 : x1 = A1) (e2 : x2 = A2) (e3 : x3 = A3) (e4 : x4 = A4)
    (h5 : ∀ k : Fin 128, x5 (ix2 r k) = A5 (ix2 p k)) (e6 : x6 = A6) (e7 : x7 = A7) (e8 : x8 = A8) (e9 : x9 = A9)
    (e10 : x10 = A10) (e11 : x11 = A11) (e12 : x12 = A12) (q : Fin 128) :
    Gen.k5_pay3 (Gen.k5_pay1 x0 x1 x2 x3 x4 x5) (Gen.k5_pay2 x0 x1 x2 x3 x4 x5 x6 x7 x8) x9 x10 x11 x12 (ix2 r q)
      = Cert.Spec.attnHp2 A0 A1 A2 A3 A4 A5 A6 A7 A8 A9 A10 A11 A12 p q := by
  subst e1 e2 e3 e4 e6 e7 e8 e9 e10 e11 e12
  exact hp2_at x0 x1 x2 x3 x4 x5 x6 x7 x8 x9 x10 x11 x12 A0 A5 r p h0 h5 q

theorem hs2_blk (x0 : Vec Ideal S2000x128 .f32) (x1 x2 x3 x4 : Vec Ideal S128 .f32) (x5 : Vec Ideal S2000x128 .f32)
    (x6 : Vec Ideal S128x128 .f32) (x7 : Vec Ideal S128 .f32) (x8 : Vec Ideal S128x128 .f32) (x9 x10 x11 : Vec Ideal S128 .f32)
    (x12 : Vec Ideal S128x128 .f32) (x13 : Vec Ideal S2000x1 .f32) (A0 : Cert.Spec.SND.Idx → EReal) (A1 A2 A3 A4 : Cert.Spec.SD.Idx → EReal)
    (A5 : Cert.Spec.SND.Idx → EReal) (A6 : Cert.Spec.SDD.Idx → EReal) (A7 : Cert.Spec.SD.Idx → EReal) (A8 : Cert.Spec.SDD.Idx → EReal)
    (A9 A10 A11 : Cert.Spec.SD.Idx → EReal) (A12 : Cert.Spec.SDD.Idx → EReal) (A13 : Cert.Spec.SN1.Idx → EReal) (r : Fin 2000) (p : Fin 100000)
    (h0 : ∀ k : Fin 128, x0 (ix2 r k) = A0 (ix2 p k)) (e1 : x1 = A1) (e2 : x2 = A2) (e3 : x3 = A3) (e4 : x4 = A4)
    (h5 : ∀ k : Fin 128, x5 (ix2 r k) = A5 (ix2 p k)) (e6 : x6 = A6) (e7 : x7 = A7) (e8 : x8 = A8) (e9 : x9 = A9)
    (e10 : x10 = A10) (e11 : x11 = A11) (e12 : x12 = A12) (h13 : x13 (ix2 r (0 : Fin 1)) = A13 (ix2 p (0 : Fin 1))) (q : Fin 128) :
    Gen.k5_pay4 (Gen.k5_pay1 x0 x1 x2 x3 x4 x5) (Gen.k5_pay2 x0 x1 x2 x3 x4 x5 x6 x7 x8) x9 x10 x11 x12 x13 (ix2 r q)
      = Cert.Spec.attnHs2 A0 A1 A2 A3 A4 A5 A6 A7 A8 A9 A10 A11 A12 A13 p q := by
  subst e1 e2 e3 e4 e6 e7 e8 e9 e10 e11 e12
  exact hs2_at x0 x1 x2 x3 x4 x5 x6 x7 x8 x9 x10 x11 x12 x13 A0 A5 A13 r p h0 h5 h13 q

end Cert.KernelIdeal.Reg5

end
-- ==== Proof.Reg5.lean ====
/-
  The fused normalise / attention / projection stage over the whole arrays: from the blocks to the arrays.

  The region's grid has one axis of 50 points. At point t the three row-blocked inputs (the convolution's output, the
  residual, the degree factors) and the two outputs have rows 2000·t … 2000·t + 1999 as their block, all columns;
  every other input — eight vectors of 128 entries and three 128 × 128 matrices — is fetched whole at every point.
  The body's outputs act row by row (the row-level closed forms of the payload module), so what point t writes back
  to an output window is block t of ONE function of the whole arrays: `Cert.Spec.attnHp2` for window 14,
  `Cert.Spec.attnHs2` for window 15, of the arrays as the region finds them. The 50 blocks cover the 100000 rows
  (row p lies in the block of point p / 2000), so each output array ends holding that function at every index.
-/
import proofs.«112374_j17231408792366_2_alg».proof.Proof.Spec
import proofs.«112374_j17231408792366_2_alg».proof.Proof.Reg5Pay
import proofs.«112374_j17231408792366_2_alg».proof.Proof.Gen.KernelIdeal.Frame
import Idealize.ShloMosaic.Lib.Pipeline.Value
import Idealize.ShloMosaic.Lib.ValueLayout

set_option maxRecDepth 16384

noncomputable section

namespace Cert.KernelIdeal.Reg5

open Idealize.ShloMosaic Idealize.ShloMosaic.TcCoe Idealize.ShloMosaic.ValueIdx Idealize.SL.Sem Cert.KernelIdeal
open Idealize.ShloMosaic.Pipeline (Dat Cfg Window)

variable (V : (c : Dev nD) → (b : Ref sig .tc) → Buf (Elt Ideal) ((c : Thread nD τ).loc b))

/-! ## From the blocks to the arrays -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the three row-blocked inputs and the two outputs sit at block row `t`,
    block column 0; -/
theorem idx_rows : ∀ t : Fin cfg5.N,
    win5_0.index t (0 : Fin 2) = t.val ∧ win5_0.index t (1 : Fin 2) = 0
    ∧ win5_5.index t (0 : Fin 2) = t.val ∧ win5_5.index t (1 : Fin 2) = 0
    ∧ win5_13.index t (0 : Fin 2) = t.val ∧ win5_13.index t (1 : Fin 2) = 0
    ∧ win5_14.index t (0 : Fin 2) = t.val ∧ win5_14.index t (1 : Fin 2) = 0
    ∧ win5_15.index t (0 : Fin 2) = t.val ∧ win5_15.index t (1 : Fin 2) = 0 :=
  (by decide +kernel : ∀ t : Fin grid5.N, _)

/-- every vector of 128 entries is fetched whole (block index 0); -/
theorem idx_vecs : ∀ t : Fin cfg5.N,
    win5_1.index t (0 : Fin 1) = 0
    ∧ win5_2.index t (0 : Fin 1) = 0
    ∧ win5_3.index t (0 : Fin 1) = 0
    ∧ win5_4.index t (0 : Fin 1) = 0
    ∧ win5_7.index t (0 : Fin 1) = 0
    ∧ win5_9.index t (0 : Fin 1) = 0
    ∧ win5_10.index t (0 : Fin 1) = 0
    ∧ win5_11.index t (0 : Fin 1) = 0 :=
  (by decide +kernel : ∀ t : Fin grid5.N, _)

/-- and so is every 128 × 128 matrix. -/
theorem idx_mats : ∀ t : Fin cfg5.N,
    win5_6.index t (0 : Fin 2) = 0 ∧ win5_6.index t (1 : Fin 2) = 0
    ∧ win5_8.index t (0 : Fin 2) = 0 ∧ win5_8.index t (1 : Fin 2) = 0
    ∧ win5_12.index t (0 : Fin 2) = 0 ∧ win5_12.index t (1 : Fin 2) = 0 :=
  (by decide +kernel : ∀ t : Fin grid5.N, _)

/-- Row r of the first input's block at point t is row 2000·t + r of its array. -/
theorem iblk0_at (c : Dev nD) (t : Fin cfg5.N) (r : Fin 2000) (k : Fin 128) (p : Fin 100000) (hp : p.val = t.val * 2000 + r.val) :
    Gen.iblk5 V c 0 t (ix2 r k) = V c (Pipeline.arrRef spec5 0) (ix2 p k) := by
  show V c (Pipeline.arrRef spec5 0) (((cfg5.win 0).blk t).view.emb (ix2 r k)) = V c (Pipeline.arrRef spec5 0) (ix2 p k)
  obtain ⟨e0, e1, -⟩ := idx_rows t
  refine congrArg _ (funext fun a => Fin.ext ?_)
  match a with
  | ⟨0, _⟩ => show win5_0.index t (0 : Fin 2) * 2000 + 1 * r.val = p.val; omega
  | ⟨1, _⟩ => show win5_0.index t (1 : Fin 2) * 128 + 1 * k.val = k.val; omega

/-- Row r of the residual's block at point t is row 2000·t + r of its array. -/
theorem iblk5_at (c : Dev nD) (t : Fin cfg5.N) (r : Fin 2000) (k : Fin 128) (p : Fin 100000) (hp : p.val = t.val * 2000 + r.val) :
    Gen.iblk5 V c 5 t (ix2 r k) = V c (Pipeline.arrRef spec5 5) (ix2 p k) := by
  show V c (Pipeline.arrRef spec5 5) (((cfg5.win 5).blk t).view.emb (ix2 r k)) = V c (Pipeline.arrRef spec5 5) (ix2 p k)
  obtain ⟨-, -, e0, e1, -⟩ := idx_rows t
  refine congrArg _ (funext fun a => Fin.ext ?_)
  match a with
  | ⟨0, _⟩ => show win5_5.index t (0 : Fin 2) * 2000 + 1 * r.val = p.val; omega
  | ⟨1, _⟩ => show win5_5.index t (1 : Fin 2) * 128 + 1 * k.val = k.val; omega

/-- Entry r of the degree factors' block at point t is entry 2000·t + r of their column. -/
theorem iblk13_at (c : Dev nD) (t : Fin cfg5.N) (r : Fin 2000) (p : Fin 100000) (hp : p.val = t.val * 2000 + r.val) :
    Gen.iblk5 V c 13 t (ix2 r (0 : Fin 1)) = V c (Pipeline.arrRef spec5 13) (ix2 p (0 : Fin 1)) := by
  show V c (Pipeline.arrRef spec5 13) (((cfg5.win 13).blk t).view.emb (ix2 r (0 : Fin 1))) = V c (Pipeline.arrRef spec5 13) (ix2 p (0 : Fin 1))
  obtain ⟨-, -, -, -, e0, e1, -⟩ := idx_rows t
  refine congrArg _ (funext fun a => Fin.ext ?_)
  match a with
  | ⟨0, _⟩ => show win5_13.index t (0 : Fin 2) * 2000 + 1 * r.val = p.val; omega
  | ⟨1, _⟩ => show win5_13.index t (1 : Fin 2) * 1 + 1 * 0 = 0; omega

/-! A window fetched whole: its block at every point is its array. -/

theorem iblk1_eq (c : Dev nD) (t : Fin cfg5.N) : (Gen.iblk5 V c 1 t : Vec Ideal S128 .f32) = V c (Pipeline.arrRef spec5 1) := by
  funext y
  show V c (Pipeline.arrRef spec5 1) (((cfg5.win 1).blk t).view.emb y) = V c (Pipeline.arrRef spec5 1) y
  obtain ⟨e, -⟩ := idx_vecs t
  refine congrArg _ (funext fun a => Fin.ext ?_)
  match a with
  | ⟨0, _⟩ => show win5_1.index t (0 : Fin 1) * 128 + 1 * (y 0).val = (y 0).val; omega

theorem iblk2_eq (c : Dev nD) (t : Fin cfg5.N) : (Gen.iblk5 V c 2 t : Vec Ideal S128 .f32) = V c (Pipeline.arrRef spec5 2) := by
  funext y
  show V c (Pipeline.arrRef spec5 2) (((cfg5.win 2).blk t).view.emb y) = V c (Pipeline.arrRef spec5 2) y
  obtain ⟨-, e, -⟩ := idx_vecs t
  refine congrArg _ (funext fun a => Fin.ext ?_)
  match a with
  | ⟨0, _⟩ => show win5_2.index t (0 : Fin 1) * 128 + 1 * (y 0).val = (y 0).val; omega

theorem iblk3_eq (c : Dev nD) (t : Fin cfg5.N) : (Gen.iblk5 V c 3 t : Vec Ideal S128 .f32) = V c (Pipeline.arrRef spec5 3) := by
  funext y
  show V c (Pipeline.arrRef spec5 3) (((cfg5.win 3).blk t).view.emb y) = V c (Pipeline.arrRef spec5 3) y
  obtain ⟨-, -, e, -⟩ := idx_vecs t
  refine congrArg _ (funext fun a => Fin.ext ?_)
  match a with
  | ⟨0, _⟩ => show win5_3.index t (0 : Fin 1) * 128 + 1 * (y 0).val = (y 0).val; omega

theorem iblk4_eq (c : Dev nD) (t : Fin cfg5.N) : (Gen.iblk5 V c 4 t : Vec Ideal S128 .f32) = V c (Pipeline.arrRef spec5 4) := by
  funext y
  show V c (Pipeline.arrRef spec5 4) (((cfg5.win 4).blk t).view.emb y) = V c (Pipeline.arrRef spec5 4) y
  obtain ⟨-, -, -, e, -⟩ := idx_vecs t
  refine congrArg _ (funext fun a => Fin.ext ?_)
  match a with
  | ⟨0, _⟩ => show win5_4.index t (0 : Fin 1) * 128 + 1 * (y 0).val = (y 0).val; omega

theorem iblk7_eq (c : Dev nD) (t : Fin cfg5.N) : (Gen.iblk5 V c 7 t : Vec Ideal S128 .f32) = V c (Pipeline.arrRef spec5 7) := by
  funext y
  show V c (Pipeline.arrRef spec5 7) (((cfg5.win 7).blk t).view.emb y) = V c (Pipeline.arrRef spec5 7) y
  obtain ⟨-, -, -, -, e, -⟩ := idx_vecs t
  refine congrArg _ (funext fun a => Fin.ext ?_)
  match a with
  | ⟨0, _⟩ => show win5_7.index t (0 : Fin 1) * 128 + 1 * (y 0).val = (y 0).val; omega

theorem iblk9_eq (c : Dev nD) (t : Fin cfg5.N) : (Gen.iblk5 V c 9 t : Vec Ideal S128 .f32) = V c (Pipeline.arrRef spec5 9) := by
  funext y
  show V c (Pipeline.arrRef spec5 9) (((cfg5.win 9).blk t).view.emb y) = V c (Pipeline.arrRef spec5 9) y
  obtain ⟨-, -, -, -, -, e, -⟩ := idx_vecs t
  refine congrArg _ (funext fun a => Fin.ext ?_)
  match a with
  | ⟨0, _⟩ => show win5_9.index t (0 : Fin 1) * 128 + 1 * (y 0).val = (y 0).val; omega

theorem iblk10_eq (c : Dev nD) (t : Fin cfg5.N) : (Gen.iblk5 V c 10 t : Vec Ideal S128 .f32) = V c (Pipeline.arrRef spec5 10) := by
  funext y
  show V c (Pipeline.arrRef spec5 10) (((cfg5.win 10).blk t).view.emb y) = V c (Pipeline.arrRef spec5 10) y
  obtain ⟨-, -, -, -, -, -, e, -⟩ := idx_vecs t
  refine congrArg _ (funext fun a => Fin.ext ?_)
  match a with
  | ⟨0, _⟩ => show win5_10.index t (0 : Fin 1) * 128 + 1 * (y 0).val = (y 0).val; omega

theorem iblk11_eq (c : Dev nD) (t : Fin cfg5.N) : (Gen.iblk5 V c 11 t : Vec Ideal S128 .f32) = V c (Pipeline.arrRef spec5 11) := by
  funext y
  show V c (Pipeline.arrRef spec5 11) (((cfg5.win 11).blk t).view.emb y) = V c (Pipeline.arrRef spec5 11) y
  obtain ⟨-, -, -, -, -, -, -, e⟩ := idx_vecs t
  refine congrArg _ (funext fun a => Fin.ext ?_)
  match a with
  | ⟨0, _⟩ => show win5_11.index t (0 : Fin 1) * 128 + 1 * (y 0).val = (y 0).val; omega

theorem iblk6_eq (c : Dev nD) (t : Fin cfg5.N) : (Gen.iblk5 V c 6 t : Vec Ideal S128x128 .f32) = V c (Pipeline.arrRef spec5 6) := by
  funext y
  show V c (Pipeline.arrRef spec5 6) (((cfg5.win 6).blk t).view.emb y) = V c (Pipeline.arrRef spec5 6) y
  obtain ⟨e0, e1, -⟩ := idx_mats t
  refine congrArg _ (funext fun a => Fin.ext ?_)
  match a with
  | ⟨0, _⟩ => show win5_6.index t (0 : Fin 2) * 128 + 1 * (y 0).val = (y 0).val; omega
  | ⟨1, _⟩ => show win5_6.index t (1 : Fin 2) * 128 + 1 * (y 1).val = (y 1).val; omega

theorem iblk8_eq (c : Dev nD) (t : Fin cfg5.N) : (Gen.iblk5 V c 8 t : Vec Ideal S128x128 .f32) = V c (Pipeline.arrRef spec5 8) := by
  funext y
  show V c (Pipeline.arrRef spec5 8) (((cfg5.win 8).blk t).view.emb y) = V c (Pipeline.arrRef spec5 8) y
  obtain ⟨-, -, e0, e1, -⟩ := idx_mats t
  refine congrArg _ (funext fun a => Fin.ext ?_)
  match a with
  | ⟨0, _⟩ => show win5_8.index t (0 : Fin 2) * 128 + 1 * (y 0).val = (y 0).val; omega
  | ⟨1, _⟩ => show win5_8.index t (1 : Fin 2) * 128 + 1 * (y 1).val = (y 1).val; omega

theorem iblk12_eq (c : Dev nD) (t : Fin cfg5.N) : (Gen.iblk5 V c 12 t : Vec Ideal S128x128 .f32) = V c (Pipeline.arrRef spec5 12) := by
  funext y
  show V c (Pipeline.arrRef spec5 12) (((cfg5.win 12).blk t).view.emb y) = V c (Pipeline.arrRef spec5 12) y
  obtain ⟨-, -, -, -, e0, e1⟩ := idx_mats t
  refine congrArg _ (funext fun a => Fin.ext ?_)
  match a with
  | ⟨0, _⟩ => show win5_12.index t (0 : Fin 2) * 128 + 1 * (y 0).val = (y 0).val; omega
  | ⟨1, _⟩ => show win5_12.index t (1 : Fin 2) * 128 + 1 * (y 1).val = (y 1).val; omega

/-- What output window 14's array ends holding: the closed form of the first output, of the arrays as the region finds them. -/
def G14 (c : Dev nD) : S100000x128.Idx → EReal := fun i =>
  Cert.Spec.attnHp2 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12)) (i 0) (i 1)

/-- What output window 15's array ends holding: the closed form of the second output. -/
def G15 (c : Dev nD) : S100000x128.Idx → EReal := fun i =>
  Cert.Spec.attnHs2 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12)) (V c (Pipeline.arrRef spec5 13)) (i 0) (i 1)

/-- The array row of row r of point t's block. -/
def rowOf (t : Fin cfg5.N) (r : Fin 2000) : Fin 100000 :=
  ⟨t.val * 2000 + r.val, by have ht : t.val < 50 := Gen.N_5 ▸ t.isLt; have := r.isLt; omega⟩

/-- WHAT POINT `t` WRITES BACK to window 14 is block `t` of `G14`. -/
theorem flushed14_eq (c : Dev nD) (t : Fin cfg5.N) :
    (Gen.dat5 V c).flushed 14 t = ((cfg5.win 14).blk t).view.read (Elt Ideal) (G14 V c) := by
  show (cfg5.win 14).cut (grid5.coords t) ((Gen.dat5 V c).after 14 t) = _
  rw [Gen.after5_14]
  unfold Gen.out5_14
  rw [View.canon_unit_zero hz2]
  simp only [View.ld_unit_zero (S := S2000x128) hz2, View.ld_unit_zero (S := S128) hz1, View.ld_unit_zero (S := S128x128) hz2,
    View.ld_unit_zero (S := S2000x1) hz2]
  funext y
  obtain ⟨r, q, rfl⟩ : ∃ (r : Fin 2000) (q : Fin 128), y = ix2 r q := ⟨y 0, y 1, eq_ix2 y⟩
  have he : ((cfg5.win 14).blk t).view.emb (ix2 r q) = ix2 (rowOf t r) q := by
    obtain ⟨-, -, -, -, -, -, e0, e1, -⟩ := idx_rows t
    refine funext fun a => Fin.ext ?_
    match a with
    | ⟨0, _⟩ => show win5_14.index t (0 : Fin 2) * 2000 + 1 * r.val = t.val * 2000 + r.val; omega
    | ⟨1, _⟩ => show win5_14.index t (1 : Fin 2) * 128 + 1 * q.val = q.val; omega
  show _ = G14 V c (((cfg5.win 14).blk t).view.emb (ix2 r q))
  rw [he]
  exact hp2_blk (Gen.iblk5 V c 0 t) (Gen.iblk5 V c 1 t) (Gen.iblk5 V c 2 t) (Gen.iblk5 V c 3 t) (Gen.iblk5 V c 4 t) (Gen.iblk5 V c 5 t) (Gen.iblk5 V c 6 t) (Gen.iblk5 V c 7 t) (Gen.iblk5 V c 8 t) (Gen.iblk5 V c 9 t) (Gen.iblk5 V c 10 t) (Gen.iblk5 V c 11 t) (Gen.iblk5 V c 12 t)
    (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12)) r (rowOf t r)
    (fun k => iblk0_at V c t r k (rowOf t r) rfl) (iblk1_eq V c t) (iblk2_eq V c t) (iblk3_eq V c t) (iblk4_eq V c t) (fun k => iblk5_at V c t r k (rowOf t r) rfl) (iblk6_eq V c t) (iblk7_eq V c t) (iblk8_eq V c t) (iblk9_eq V c t) (iblk10_eq V c t) (iblk11_eq V c t) (iblk12_eq V c t) q

/-- WHAT POINT `t` WRITES BACK to window 15 is block `t` of `G15`. -/
theorem flushed15_eq (c : Dev nD) (t : Fin cfg5.N) :
    (Gen.dat5 V c).flushed 15 t = ((cfg5.win 15).blk t).view.read (Elt Ideal) (G15 V c) := by
  show (cfg5.win 15).cut (grid5.coords t) ((Gen.dat5 V c).after 15 t) = _
  rw [Gen.after5_15]
  unfold Gen.out5_15
  rw [View.canon_unit_zero hz2]
  simp only [View.ld_unit_zero (S := S2000x128) hz2, View.ld_unit_zero (S := S128) hz1, View.ld_unit_zero (S := S128x128) hz2,
    View.ld_unit_zero (S := S2000x1) hz2]
  funext y
  obtain ⟨r, q, rfl⟩ : ∃ (r : Fin 2000) (q : Fin 128), y = ix2 r q := ⟨y 0, y 1, eq_ix2 y⟩
  have he : ((cfg5.win 15).blk t).view.emb (ix2 r q) = ix2 (rowOf t r) q := by
    obtain ⟨-, -, -, -, -, -, -, -, e0, e1⟩ := idx_rows t
    refine funext fun a => Fin.ext ?_
    match a with
    | ⟨0, _⟩ => show win5_15.index t (0 : Fin 2) * 2000 + 1 * r.val = t.val * 2000 + r.val; omega
    | ⟨1, _⟩ => show win5_15.index t (1 : Fin 2) * 128 + 1 * q.val = q.val; omega
  show _ = G15 V c (((cfg5.win 15).blk t).view.emb (ix2 r q))
  rw [he]
  exact hs2_blk (Gen.iblk5 V c 0 t) (Gen.iblk5 V c 1 t) (Gen.iblk5 V c 2 t) (Gen.iblk5 V c 3 t) (Gen.iblk5 V c 4 t) (Gen.iblk5 V c 5 t) (Gen.iblk5 V c 6 t) (Gen.iblk5 V c 7 t) (Gen.iblk5 V c 8 t) (Gen.iblk5 V c 9 t) (Gen.iblk5 V c 10 t) (Gen.iblk5 V c 11 t) (Gen.iblk5 V c 12 t) (Gen.iblk5 V c 13 t)
    (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12)) (V c (Pipeline.arrRef spec5 13)) r (rowOf t r)
    (fun k => iblk0_at V c t r k (rowOf t r) rfl) (iblk1_eq V c t) (iblk2_eq V c t) (iblk3_eq V c t) (iblk4_eq V c t) (fun k => iblk5_at V c t r k (rowOf t r) rfl) (iblk6_eq V c t) (iblk7_eq V c t) (iblk8_eq V c t) (iblk9_eq V c t) (iblk10_eq V c t) (iblk11_eq V c t) (iblk12_eq V c t) (iblk13_at V c t r (rowOf t r) rfl) q

/-- An index of the array is in point `t`'s block iff each coordinate is in the block's range on its axis. -/
theorem mem_blk14 (t : Fin cfg5.N) (i : S100000x128.Idx) :
    i ∈ ((cfg5.win 14).blk t).view.set ↔ ∀ a : Fin 2, win5_14.index t a * S2000x128.size a ≤ (i a).val ∧ (i a).val < win5_14.index t a * S2000x128.size a + S2000x128.size a := by
  show i ∈ ((View.whole main_v45_0).slice (win5_14.rect t)).set ↔ _
  rw [View.set_slice_whole, Rect.mem_set_unit]
  exact Iff.rfl

/-- Every row lies in the block of the point numbered by the row over 2000. -/
theorem cover14 (i : S100000x128.Idx) : ∃ t : Fin cfg5.N, (cfg5.win 14).flush t = true ∧ i ∈ ((cfg5.win 14).blk t).view.set := by
  have hi0 : (i 0).val < 100000 := (i 0).isLt
  have hi1 : (i 1).val < 128 := (i 1).isLt
  have hN : grid5.N = 50 := Gen.N_5
  let t : Fin cfg5.N := ⟨(i 0).val / 2000, by show _ < grid5.N; omega⟩
  refine ⟨t, Gen.flush5_14 t, ?_⟩
  rw [mem_blk14]
  obtain ⟨-, -, -, -, -, -, e0, e1, -⟩ := idx_rows t
  have ht : t.val = (i 0).val / 2000 := rfl
  intro a
  match a with
  | ⟨0, _⟩ => show win5_14.index t (0 : Fin 2) * 2000 ≤ (i 0).val ∧ (i 0).val < win5_14.index t (0 : Fin 2) * 2000 + 2000; omega
  | ⟨1, _⟩ => show win5_14.index t (1 : Fin 2) * 128 ≤ (i 1).val ∧ (i 1).val < win5_14.index t (1 : Fin 2) * 128 + 128; omega

/-- An index of the array is in point `t`'s block iff each coordinate is in the block's range on its axis. -/
theorem mem_blk15 (t : Fin cfg5.N) (i : S100000x128.Idx) :
    i ∈ ((cfg5.win 15).blk t).view.set ↔ ∀ a : Fin 2, win5_15.index t a * S2000x128.size a ≤ (i a).val ∧ (i a).val < win5_15.index t a * S2000x128.size a + S2000x128.size a := by
  show i ∈ ((View.whole main_v45_1).slice (win5_15.rect t)).set ↔ _
  rw [View.set_slice_whole, Rect.mem_set_unit]
  exact Iff.rfl

/-- Every row lies in the block of the point numbered by the row over 2000. -/
theorem cover15 (i : S100000x128.Idx) : ∃ t : Fin cfg5.N, (cfg5.win 15).flush t = true ∧ i ∈ ((cfg5.win 15).blk t).view.set := by
  have hi0 : (i 0).val < 100000 := (i 0).isLt
  have hi1 : (i 1).val < 128 := (i 1).isLt
  have hN : grid5.N = 50 := Gen.N_5
  let t : Fin cfg5.N := ⟨(i 0).val / 2000, by show _ < grid5.N; omega⟩
  refine ⟨t, Gen.flush5_15 t, ?_⟩
  rw [mem_blk15]
  obtain ⟨-, -, -, -, -, -, -, -, e0, e1⟩ := idx_rows t
  have ht : t.val = (i 0).val / 2000 := rfl
  intro a
  match a with
  | ⟨0, _⟩ => show win5_15.index t (0 : Fin 2) * 2000 ≤ (i 0).val ∧ (i 0).val < win5_15.index t (0 : Fin 2) * 2000 + 2000; omega
  | ⟨1, _⟩ => show win5_15.index t (1 : Fin 2) * 128 ≤ (i 1).val ∧ (i 1).val < win5_15.index t (1 : Fin 2) * 128 + 128; omega

/-- THE FIRST OUTPUT ARRAY after the region, entry by entry: the closed form of the arrays as the region finds them. -/
theorem final14 (c : Dev nD) (p : Fin 100000) (q : Fin 128) :
    (Gen.dat5 (F := Ideal) V c).arrAt 14 cfg5.N (ix2 p q)
      = Cert.Spec.attnHp2 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12)) p q :=
  congrFun ((Gen.dat5 (F := Ideal) V c).arrAt_eq_of_cover 14 (G14 V c) (fun t _ => flushed14_eq V c t) cover14) (ix2 p q)

/-- THE SECOND OUTPUT ARRAY after the region, entry by entry. -/
theorem final15 (c : Dev nD) (p : Fin 100000) (q : Fin 128) :
    (Gen.dat5 (F := Ideal) V c).arrAt 15 cfg5.N (ix2 p q)
      = Cert.Spec.attnHs2 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12)) (V c (Pipeline.arrRef spec5 13)) p q :=
  congrFun ((Gen.dat5 (F := Ideal) V c).arrAt_eq_of_cover 15 (G15 V c) (fun t _ => flushed15_eq V c t) cover15) (ix2 p q)

end Cert.KernelIdeal.Reg5

end
-- ==== Proof.Reg6.lean ====
/-
  The third convolution's last step, as the array its region leaves.

  At row `r`, column `q` of a block the region's body stores the aggregated messages' entry times the row's degree
  factor, plus the row's own projection times the factor squared, plus the bias of column `q`: the factor is a
  column of one entry per row, repeated along the row, and the bias one row repeated down the block.

  The grid has 50 points. At point `t` the aggregate, the projection and the output each have the block of rows
  `2000 t … 2000 t + 1999` with all 128 columns, the factors the same rows of their one column, and the bias is read
  whole. So what point `t` writes back is rows `2000 t … 2000 t + 1999` of one function of the whole input arrays,
  the specification's `Cert.Spec.convOut`; row `p` lies in the block of point `p / 2000`, the 50 blocks tile the
  100000 rows, and the output array after the region is `convOut` of the region's four input arrays at every index.
-/
import proofs.«112374_j17231408792366_2_alg».proof.Proof.Spec
import proofs.«112374_j17231408792366_2_alg».proof.Proof.Gen.KernelIdeal.Frame
import Idealize.ShloMosaic.Lib.Pipeline.Value
import Idealize.ShloMosaic.Lib.ValueLayout

noncomputable section

namespace Cert.KernelIdeal.Reg6

open Idealize.ShloMosaic Idealize.ShloMosaic.TcCoe Idealize.ShloMosaic.ValueIdx Idealize.SL.Sem Cert.KernelIdeal
open Idealize.ShloMosaic.Pipeline (Dat)

variable (V : (c : Dev nD) → (b : Ref sig .tc) → Buf (Elt Ideal) ((c : Thread nD τ).loc b))

/-! ## The body's stored value at an index -/

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at row `r`, column `q` of the block: the aggregate times the row's factor, plus the
    row's own projection times the factor squared, plus the bias of column `q`. -/
theorem pay_apply (x0 x1 : Vec Ideal S2000x128 .f32) (x2 : Vec Ideal S2000x1 .f32) (x3 : Vec Ideal S128 .f32)
    (r : Fin 2000) (q : Fin 128) :
    Gen.k6_pay1 (F := Ideal) x0 x1 x2 x3 (ix2 r q)
      = x0 (ix2 r q) * x2 (ix2 r 0) + x1 (ix2 r q) * (x2 (ix2 r 0) * x2 (ix2 r 0)) + x3 (ix1 q) := by
  unfold Gen.k6_pay1
  simp only [shapeCast_self]
  rw [addf_apply, addf_apply, mulf_apply, mulf_apply, broadcastTo_a1_ab_apply, broadcastTo_a1_ab_apply,
    broadcastTo_1b_ab_apply, shapeCast_a_1a_apply, mulf_apply]

/-! ## The windows' blocks as parts of their arrays -/

theorem hz : (![0, 0] : Fin 2 → Nat) = fun _ => 0 := funext fun a => by fin_cases a <;> rfl
theorem hz1 : (![0] : Fin 1 → Nat) = fun _ => 0 := funext fun a => by fin_cases a <;> rfl

/-- The printed index maps, decided over the grid: each row-blocked window sits at block row `t`, block column 0; the
    bias window is fetched whole. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_4.index t (0 : Fin 2) = t.val ∧ win6_4.index t (1 : Fin 2) = 0
    ∧ win6_3.index t (0 : Fin 1) = 0 :=
  (by decide +kernel : ∀ t : Fin grid6.N, _)

/-- Window 0's block at point `t` holds rows `2000 t … 2000 t + 1999` of its array. -/
theorem blk0_apply (c : Dev nD) (t : Fin cfg6.N) (r : Fin 2000) (q : Fin 128) (p : Fin 100000)
    (hp : p.val = 2000 * t.val + r.val) :
    (Gen.iblk6 (F := Ideal) V c 0 t : Vec Ideal S2000x128 .f32) (ix2 r q)
      = (V c (Pipeline.arrRef spec6 0) : S100000x128.Idx → EReal) (ix2 p q) := by
  have e0 : win6_0.index t (0 : Fin 2) = t.val := (idx_facts t).1
  have e1 : win6_0.index t (1 : Fin 2) = 0 := (idx_facts t).2.1
  show (V c (Pipeline.arrRef spec6 0) : S100000x128.Idx → EReal) (((cfg6.win 0).blk t).view.emb (ix2 r q)) = _
  refine congrArg (V c (Pipeline.arrRef spec6 0) : S100000x128.Idx → EReal) (funext fun a => Fin.ext ?_)
  match a with
  | ⟨0, _⟩ => show win6_0.index t (0 : Fin 2) * 2000 + 1 * r.val = p.val; rw [e0, hp]; omega
  | ⟨1, _⟩ => show win6_0.index t (1 : Fin 2) * 128 + 1 * q.val = q.val; rw [e1]; omega

/-- Window 1's block at point `t` holds rows `2000 t … 2000 t + 1999` of its array. -/
theorem blk1_apply (c : Dev nD) (t : Fin cfg6.N) (r : Fin 2000) (q : Fin 128) (p : Fin 100000)
    (hp : p.val = 2000 * t.val + r.val) :
    (Gen.iblk6 (F := Ideal) V c 1 t : Vec Ideal S2000x128 .f32) (ix2 r q)
      = (V c (Pipeline.arrRef spec6 1) : S100000x128.Idx → EReal) (ix2 p q) := by
  have e0 : win6_1.index t (0 : Fin 2) = t.val := (idx_facts t).2.2.1
  have e1 : win6_1.index t (1 : Fin 2) = 0 := (idx_facts t).2.2.2.1
  show (V c (Pipeline.arrRef spec6 1) : S100000x128.Idx → EReal) (((cfg6.win 1).blk t).view.emb (ix2 r q)) = _
  refine congrArg (V c (Pipeline.arrRef spec6 1) : S100000x128.Idx → EReal) (funext fun a => Fin.ext ?_)
  match a with
  | ⟨0, _⟩ => show win6_1.index t (0 : Fin 2) * 2000 + 1 * r.val = p.val; rw [e0, hp]; omega
  | ⟨1, _⟩ => show win6_1.index t (1 : Fin 2) * 128 + 1 * q.val = q.val; rw [e1]; omega

/-- Window 2's block at point `t` holds rows `2000 t … 2000 t + 1999` of its array (one column). -/
theorem blk2_apply (c : Dev nD) (t : Fin cfg6.N) (r : Fin 2000) (q : Fin 1) (p : Fin 100000)
    (hp : p.val = 2000 * t.val + r.val) :
    (Gen.iblk6 (F := Ideal) V c 2 t : Vec Ideal S2000x1 .f32) (ix2 r q)
      = (V c (Pipeline.arrRef spec6 2) : S100000x1.Idx → EReal) (ix2 p q) := by
  have e0 : win6_2.index t (0 : Fin 2) = t.val := (idx_facts t).2.2.2.2.1
  have e1 : win6_2.index t (1 : Fin 2) = 0 := (idx_facts t).2.2.2.2.2.1
  show (V c (Pipeline.arrRef spec6 2) : S100000x1.Idx → EReal) (((cfg6.win 2).blk t).view.emb (ix2 r q)) = _
  refine congrArg (V c (Pipeline.arrRef spec6 2) : S100000x1.Idx → EReal) (funext fun a => Fin.ext ?_)
  match a with
  | ⟨0, _⟩ => show win6_2.index t (0 : Fin 2) * 2000 + 1 * r.val = p.val; rw [e0, hp]; omega
  | ⟨1, _⟩ => show win6_2.index t (1 : Fin 2) * 1 + 1 * q.val = q.val; rw [e1]; omega

/-- Window 3's block is its whole array at every point. -/
theorem blk3_apply (c : Dev nD) (t : Fin cfg6.N) (q : Fin 128) :
    (Gen.iblk6 (F := Ideal) V c 3 t : Vec Ideal S128 .f32) (ix1 q)
      = (V c (Pipeline.arrRef spec6 3) : S128.Idx → EReal) (ix1 q) := by
  have e0 : win6_3.index t (0 : Fin 1) = 0 := (idx_facts t).2.2.2.2.2.2.2.2
  show (V c (Pipeline.arrRef spec6 3) : S128.Idx → EReal) (((cfg6.win 3).blk t).view.emb (ix1 q)) = _
  refine congrArg (V c (Pipeline.arrRef spec6 3) : S128.Idx → EReal) (funext fun a => Fin.ext ?_)
  match a with
  | ⟨0, _⟩ => show win6_3.index t (0 : Fin 1) * 128 + 1 * q.val = q.val; rw [e0]; omega

/-- The output window's block at point `t` sits at rows `2000 t … 2000 t + 1999` of its array. -/
theorem emb4 (t : Fin cfg6.N) (r : Fin 2000) (q : Fin 128) (p : Fin 100000) (hp : p.val = 2000 * t.val + r.val) :
    (((cfg6.win 4).blk t).view.emb (ix2 r q : S2000x128.Idx) : S100000x128.Idx) = ix2 p q := by
  have e0 : win6_4.index t (0 : Fin 2) = t.val := (idx_facts t).2.2.2.2.2.2.1
  have e1 : win6_4.index t (1 : Fin 2) = 0 := (idx_facts t).2.2.2.2.2.2.2.1
  refine funext fun a => Fin.ext ?_
  match a with
  | ⟨0, _⟩ => show win6_4.index t (0 : Fin 2) * 2000 + 1 * r.val = p.val; rw [e0, hp]; omega
  | ⟨1, _⟩ => show win6_4.index t (1 : Fin 2) * 128 + 1 * q.val = q.val; rw [e1]; omega

/-! ## What each point writes back, the cover, and the array after the region -/

/-- The array the region leaves: the convolution's last step of the four arrays the region finds, index by index. -/
abbrev G (c : Dev nD) : S100000x128.Idx → EReal := fun i =>
  Cert.Spec.convOut (V c (Pipeline.arrRef spec6 0)) (V c (Pipeline.arrRef spec6 1)) (V c (Pipeline.arrRef spec6 2))
    (V c (Pipeline.arrRef spec6 3)) ⟨(i 0).val, idx2_lt0 i⟩ ⟨(i 1).val, idx2_lt1 i⟩

/-- What point `t` writes back is block `t` of `G`. -/
theorem flushed_eq (c : Dev nD) (t : Fin cfg6.N) :
    (Gen.dat6 (F := Ideal) V c).flushed 4 t = ((cfg6.win 4).blk t).view.read (Elt Ideal) (G V c) := by
  show (cfg6.win 4).cut (grid6.coords t) ((Gen.dat6 (F := Ideal) V c).after 4 t) = _
  rw [Gen.after6_4]
  unfold Gen.out6_4
  rw [View.canon_unit_zero hz]
  simp only [View.ld_unit_zero (S := S2000x128) hz, View.ld_unit_zero (S := S2000x1) hz, View.ld_unit_zero (S := S128) hz1]
  show (Gen.k6_pay1 (F := Ideal) (Gen.iblk6 V c 0 t) (Gen.iblk6 V c 1 t) (Gen.iblk6 V c 2 t) (Gen.iblk6 V c 3 t) : S2000x128.Idx → EReal)
    = fun j : S2000x128.Idx => G V c (((cfg6.win 4).blk t).view.emb j)
  funext j
  obtain ⟨r, q, rfl⟩ : ∃ (r : Fin 2000) (q : Fin 128), j = ix2 r q := ⟨j 0, j 1, eq_ix2 j⟩
  have hN : grid6.N = 50 := Gen.N_6
  have ht : t.val < 50 := Nat.lt_of_lt_of_eq (show t.val < grid6.N from t.isLt) hN
  have hp : 2000 * t.val + r.val < 100000 := by have := r.isLt; omega
  refine (pay_apply _ _ _ _ r q).trans ?_
  rw [blk0_apply V c t r q ⟨_, hp⟩ rfl, blk1_apply V c t r q ⟨_, hp⟩ rfl, blk2_apply V c t r 0 ⟨_, hp⟩ rfl,
    blk3_apply V c t q, emb4 t r q ⟨_, hp⟩ rfl]
  rfl

/-- An index of the array is in point `t`'s block iff each coordinate is in the block's range on its axis. -/
theorem mem_blk (t : Fin cfg6.N) (i : S100000x128.Idx) :
    i ∈ ((cfg6.win 4).blk t).view.set ↔ ∀ a : Fin 2, win6_4.index t a * S2000x128.size a ≤ (i a).val
      ∧ (i a).val < win6_4.index t a * S2000x128.size a + S2000x128.size a := by
  show i ∈ ((View.whole main_v56).slice (win6_4.rect t)).set ↔ _
  rw [View.set_slice_whole, Rect.mem_set_unit]
  exact Iff.rfl

/-- Every index of the array is in the block of the point its row's quotient by 2000 names. -/
theorem cover (i : S100000x128.Idx) :
    ∃ t : Fin cfg6.N, (cfg6.win 4).flush t = true ∧ i ∈ ((cfg6.win 4).blk t).view.set := by
  have hi0 : (i 0).val < 100000 := idx2_lt0 i
  have hi1 : (i 1).val < 128 := idx2_lt1 i
  have hN : grid6.N = 50 := Gen.N_6
  have ht : (i 0).val / 2000 < cfg6.N := by show (i 0).val / 2000 < grid6.N; rw [hN]; omega
  have e0 : win6_4.index ⟨(i 0).val / 2000, ht⟩ (0 : Fin 2) = (i 0).val / 2000 := (idx_facts _).2.2.2.2.2.2.1
  have e1 : win6_4.index ⟨(i 0).val / 2000, ht⟩ (1 : Fin 2) = 0 := (idx_facts _).2.2.2.2.2.2.2.1
  refine ⟨⟨(i 0).val / 2000, ht⟩, Gen.flush6_4 _, ?_⟩
  rw [mem_blk]
  intro a
  match a with
  | ⟨0, _⟩ =>
    show win6_4.index ⟨(i 0).val / 2000, ht⟩ (0 : Fin 2) * 2000 ≤ (i 0).val
      ∧ (i 0).val < win6_4.index ⟨(i 0).val / 2000, ht⟩ (0 : Fin 2) * 2000 + 2000
    rw [e0]; omega
  | ⟨1, _⟩ =>
    show win6_4.index ⟨(i 0).val / 2000, ht⟩ (1 : Fin 2) * 128 ≤ (i 1).val
      ∧ (i 1).val < win6_4.index ⟨(i 0).val / 2000, ht⟩ (1 : Fin 2) * 128 + 128
    rw [e1]; omega

/-- THE ARRAY after the region, index by index: the convolution's last step of the arrays the region finds. -/
theorem final (c : Dev nD) (p : Fin 100000) (q : Fin 128) :
    (Gen.dat6 (F := Ideal) V c).arrAt 4 cfg6.N (ix2 p q)
      = Cert.Spec.convOut (V c (Pipeline.arrRef spec6 0)) (V c (Pipeline.arrRef spec6 1)) (V c (Pipeline.arrRef spec6 2))
          (V c (Pipeline.arrRef spec6 3)) p q := by
  rw [(Gen.dat6 (F := Ideal) V c).arrAt_eq_of_cover 4 (G V c) (fun t _ => flushed_eq V c t) cover]

end Cert.KernelIdeal.Reg6

end
-- ==== Proof.KChainB.lean ====
/-
  The kernel program's value chain, second half: from the second projection to the result.

  The kernel program alternates stretches of array operations with pipelined regions. Between two boundaries a
  buffer either is computed (a stretch's aggregation or column statistics; a region's output array, read entry by
  entry as a closed form of the arrays the region finds) or is carried: a stretch leaves every buffer it does not
  write, a region leaves every buffer that is not one of its arrays, and an input array as it found it. Starting
  from what the buffers hold after the second projection — the first layer's output, its projection and the
  degree-scaled twin, the degree factors and the edges' ends — the chain reads, in turn, the aggregated messages,
  the second convolution, its column statistics, the fused stage's two outputs, the aggregated messages again and
  the third convolution: the result. The arguments are carried from the launch, where they hold the memory's
  contents.
-/
import proofs.«112374_j17231408792366_2_alg».proof.Proof.Gen.KernelIdeal.Frame
import proofs.«112374_j17231408792366_2_alg».proof.Proof.Reg4
import proofs.«112374_j17231408792366_2_alg».proof.Proof.Reg5
import proofs.«112374_j17231408792366_2_alg».proof.Proof.Reg6
import proofs.«112374_j17231408792366_2_alg».proof.Proof.NetK
import proofs.«112374_j17231408792366_2_alg».proof.Proof.KHost
import Idealize.ShloMosaic.Lib.StableHlo.Run

noncomputable section

namespace Cert.KernelIdeal.KChainB

open Idealize.ShloMosaic Idealize.ShloMosaic.TcCoe Idealize.ShloMosaic.ValueIdx Idealize.SL.Sem Idealize.ShloMosaic.StableHlo
open Cert.KernelIdeal Cert.KernelIdeal.Gen

/-! ## What each stretch of array operations writes -/

/-- One operation's result buffer is in the list beside its stretch. -/
local macro "writes_one" : tactic =>
  `(tactic| (simp only [nullary_writes, unary_writes, binary_writes, ternary_writes, quaternary_writes, reshape_writes,
      Finset.singleton_subset_iff, List.mem_toFinset]; exact List.mem_map_of_mem (by decide)))

/-- The buffers the stretch `hostOps0` writes. -/
abbrev host0_W : List (Ref sig .tc) := [main_v0, main_v1, main_v2, main_v3, main_cst, main_v4, main_cst_0, main_v5, main_v6, main_v7, main_cst_1, main_v8, main_v9, main_v10, main_v11]
set_option maxRecDepth 8192 in
theorem host0_writes : (hostOps0 (F := Ideal)).Forall fun op => op.writes ⊆ (host0_W.map (Proc.devRef (τ := τ) .tc)).toFinset := by
  simp only [hostOps0, List.Forall]
  repeat' apply And.intro
  all_goals writes_one

/-- The buffers the stretch `hostOps1` writes. -/
abbrev host1_W : List (Ref sig .tc) := [main_c, main_v13, main_v14, main_c_2, main_v15, main_v16, main_v17, main_v18, main_v19, main_cst_3, main_v20, main_v21, main_v22]
set_option maxRecDepth 8192 in
theorem host1_writes : (hostOps1 (F := Ideal)).Forall fun op => op.writes ⊆ (host1_W.map (Proc.devRef (τ := τ) .tc)).toFinset := by
  simp only [hostOps1, List.Forall]
  repeat' apply And.intro
  all_goals writes_one

/-- The buffers the stretch `hostOps2` writes. -/
abbrev host2_W : List (Ref sig .tc) := [main_cst_4, main_v24, main_cst_5, main_v25, main_v26, main_c_6]
set_option maxRecDepth 8192 in
theorem host2_writes : (hostOps2 (F := Ideal)).Forall fun op => op.writes ⊆ (host2_W.map (Proc.devRef (τ := τ) .tc)).toFinset := by
  simp only [hostOps2, List.Forall]
  repeat' apply And.intro
  all_goals writes_one

/-- The buffers the stretch `hostOps2_1` writes. -/
abbrev host21_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v27]
set_option maxRecDepth 8192 in
theorem host21_writes : (hostOps2_1 (F := Ideal)).Forall fun op => op.writes ⊆ (host21_W.map (Proc.devRef (τ := τ) .tc)).toFinset := by
  simp only [hostOps2_1, List.Forall]
  repeat' apply And.intro
  all_goals writes_one

/-- The buffers the stretch `hostOps4` writes. -/
abbrev host4_W : List (Ref sig .tc) := [main_c_7, main_v30, main_v31, main_c_8, main_v32, main_v33, main_v34, main_v35, main_v36, main_cst_9, main_v37, main_v38, main_v39]
set_option maxRecDepth 8192 in
theorem host4_writes : (hostOps4 (F := Ideal)).Forall fun op => op.writes ⊆ (host4_W.map (Proc.devRef (τ := τ) .tc)).toFinset := by
  simp only [hostOps4, List.Forall]
  repeat' apply And.intro
  all_goals writes_one

/-- The buffers the stretch `hostOps5` writes. -/
abbrev host5_W : List (Ref sig .tc) := [main_cst_10, main_v41, main_cst_11, main_v42, main_v43, main_c_12]
set_option maxRecDepth 8192 in
theorem host5_writes : (hostOps5 (F := Ideal)).Forall fun op => op.writes ⊆ (host5_W.map (Proc.devRef (τ := τ) .tc)).toFinset := by
  simp only [hostOps5, List.Forall]
  repeat' apply And.intro
  all_goals writes_one

/-- The buffers the stretch `hostOps5_1` writes. -/
abbrev host51_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v44]
set_option maxRecDepth 8192 in
theorem host51_writes : (hostOps5_1 (F := Ideal)).Forall fun op => op.writes ⊆ (host51_W.map (Proc.devRef (τ := τ) .tc)).toFinset := by
  simp only [hostOps5_1, List.Forall]
  repeat' apply And.intro
  all_goals writes_one

/-- The buffers the stretch `hostOps6` writes. -/
abbrev host6_W : List (Ref sig .tc) := [main_c_13, main_v46, main_v47, main_c_14, main_v48, main_v49, main_v50, main_v51, main_v52, main_cst_15, main_v53, main_v54, main_v55]
set_option maxRecDepth 8192 in
theorem host6_writes : (hostOps6 (F := Ideal)).Forall fun op => op.writes ⊆ (host6_W.map (Proc.devRef (τ := τ) .tc)).toFinset := by
  simp only [hostOps6, List.Forall]
  repeat' apply And.intro
  all_goals writes_one

/-! ## The arguments, carried from the launch

A buffer that none of the stretches writes and that is no array of the regions in between holds what the launch
memory holds. -/

variable (m : (ℓ : Loc nD τ sig) → Buf (Elt Ideal) ℓ) (ρ : Dev nD → PrngReg) (c : Dev nD)

/-- Neither written nor a region's array up to the second projection's exit. -/
abbrev Clean8 (b : Ref sig .tc) : Prop :=
  b ∉ host0_W ∧ (∀ w, Pipeline.arrRef spec0 w ≠ b) ∧ b ∉ host1_W ∧ (∀ w, Pipeline.arrRef spec1 w ≠ b) ∧ b ∉ host2_W ∧ b ∉ host21_W
    ∧ (∀ w, Pipeline.arrRef spec2 w ≠ b) ∧ (∀ w, Pipeline.arrRef spec3 w ≠ b)
/-- … up to the second convolution's entry. -/
abbrev Clean9 (b : Ref sig .tc) : Prop := Clean8 b ∧ b ∉ host4_W
/-- … up to the fused stage's entry. -/
abbrev Clean12 (b : Ref sig .tc) : Prop := Clean9 b ∧ (∀ w, Pipeline.arrRef spec4 w ≠ b) ∧ b ∉ host5_W ∧ b ∉ host51_W
/-- … up to the third convolution's entry. -/
abbrev Clean14 (b : Ref sig .tc) : Prop := Clean12 b ∧ (∀ w, Pipeline.arrRef spec5 w ≠ b) ∧ b ∉ host6_W

theorem W8_clean {b : Ref sig .tc} (h : Clean8 b) : W8 m ρ c (Proc.devRef .tc b) = m ((c : Thread nD τ).loc b) := by
  obtain ⟨h0, r0, h1, r1, h2, h21, r2, r3⟩ := h
  calc W8 m ρ c (Proc.devRef .tc b)
    _ = W7 m ρ c (Proc.devRef .tc b) := W8_of_ne m ρ c b r3
    _ = W6 m ρ c (Proc.devRef .tc b) := W7_of_ne m ρ c b r2
    _ = W5 m ρ c (Proc.devRef .tc b) := after_of_writes_sub hostOps2_1 _ host21_writes h21
    _ = W4 m ρ c (Proc.devRef .tc b) := after_of_writes_sub hostOps2 _ host2_writes h2
    _ = W3 m ρ c (Proc.devRef .tc b) := W4_of_ne m ρ c b r1
    _ = W2 m ρ c (Proc.devRef .tc b) := after_of_writes_sub hostOps1 _ host1_writes h1
    _ = W1 m ρ c (Proc.devRef .tc b) := W2_of_ne m ρ c b r0
    _ = W0 m ρ c (Proc.devRef .tc b) := after_of_writes_sub hostOps0 _ host0_writes h0
    _ = m ((c : Thread nD τ).loc b) := rfl

theorem W9_clean {b : Ref sig .tc} (h : Clean9 b) : W9 m ρ c (Proc.devRef .tc b) = m ((c : Thread nD τ).loc b) :=
  (after_of_writes_sub hostOps4 _ host4_writes h.2).trans (W8_clean m ρ c h.1)

theorem W12_clean {b : Ref sig .tc} (h : Clean12 b) : W12 m ρ c (Proc.devRef .tc b) = m ((c : Thread nD τ).loc b) := by
  obtain ⟨h9, r4, h5, h51⟩ := h
  calc W12 m ρ c (Proc.devRef .tc b)
    _ = W11 m ρ c (Proc.devRef .tc b) := after_of_writes_sub hostOps5_1 _ host51_writes h51
    _ = W10 m ρ c (Proc.devRef .tc b) := after_of_writes_sub hostOps5 _ host5_writes h5
    _ = W9 m ρ c (Proc.devRef .tc b) := W10_of_ne m ρ c b r4
    _ = m ((c : Thread nD τ).loc b) := W9_clean m ρ c h9

theorem W14_clean {b : Ref sig .tc} (h : Clean14 b) : W14 m ρ c (Proc.devRef .tc b) = m ((c : Thread nD τ).loc b) := by
  obtain ⟨h12, r5, h6⟩ := h
  calc W14 m ρ c (Proc.devRef .tc b)
    _ = W13 m ρ c (Proc.devRef .tc b) := after_of_writes_sub hostOps6 _ host6_writes h6
    _ = W12 m ρ c (Proc.devRef .tc b) := W13_of_ne m ρ c b r5
    _ = m ((c : Thread nD τ).loc b) := W12_clean m ρ c h12

/-! ## What the stretches compute, of what their inputs hold -/

/-- The aggregation stretch before the second convolution's last step. -/
theorem w9_v39 {hs : Net.AND} {row col : Net.IE} (hhs : W8 m ρ c (Proc.devRef .tc main_v29_1) = hs)
    (hr : W8 m ρ c (Proc.devRef .tc main_v1) = row) (hc : W8 m ρ c (Proc.devRef .tc main_v3) = col) :
    W9 m ρ c (Proc.devRef .tc main_v39) = Net.aggOf hs row col := by
  subst hhs hr hc
  exact KHost.agg4_eq (W8 m ρ c)

/-- The column statistics of the second convolution's output. -/
theorem w12_v43 {x : Net.AND} (hx : W10 m ρ c (Proc.devRef .tc main_v40) = x) : W12 m ρ c (Proc.devRef .tc main_v43) = Net.colMean x := by
  subst hx
  exact KHost.colMean5_eq (W10 m ρ c)
theorem w12_v44 {x : Net.AND} (hx : W10 m ρ c (Proc.devRef .tc main_v40) = x) : W12 m ρ c (Proc.devRef .tc main_v44) = Net.colVar x := by
  subst hx
  exact KHost.colVar5_eq (W10 m ρ c)

/-- The aggregation stretch before the third convolution's last step. -/
theorem w14_v55 {hs : Net.AND} {row col : Net.IE} (hhs : W13 m ρ c (Proc.devRef .tc main_v45_1) = hs)
    (hr : W13 m ρ c (Proc.devRef .tc main_v1) = row) (hc : W13 m ρ c (Proc.devRef .tc main_v3) = col) :
    W14 m ρ c (Proc.devRef .tc main_v55) = Net.aggOf hs row col := by
  subst hhs hr hc
  exact KHost.agg6_eq (W13 m ρ c)

/-! ## The regions' output arrays, and an input array carried through its region -/

/-- The second convolution's last step leaves its closed form of the four arrays it finds. -/
theorem w10_v40 {agg hp : Net.AND} {d : Net.AN1} {b : Net.AD}
    (ha : W9 m ρ c (Proc.devRef .tc main_v39) = agg) (hhp : W9 m ρ c (Proc.devRef .tc main_v29_0) = hp)
    (hd : W9 m ρ c (Proc.devRef .tc main_v11) = d) (hb : W9 m ρ c (Proc.devRef .tc main_arg5) = b) :
    W10 m ρ c (Proc.devRef .tc main_v40) = Net.ofRC (Cert.Spec.convOut agg hp d b) := by
  subst ha hhp hd hb
  exact (W10_arr m ρ c 4).trans (Net.eq_ofRC _ _ (fun p q => Reg4.final (V9 m ρ) c p q))

/-- The third convolution's last step likewise: the result array. -/
theorem w15_v56 {agg hp : Net.AND} {d : Net.AN1} {b : Net.AD}
    (ha : W14 m ρ c (Proc.devRef .tc main_v55) = agg) (hhp : W14 m ρ c (Proc.devRef .tc main_v45_0) = hp)
    (hd : W14 m ρ c (Proc.devRef .tc main_v11) = d) (hb : W14 m ρ c (Proc.devRef .tc main_arg7) = b) :
    W15 m ρ c (Proc.devRef .tc main_v56) = Net.ofRC (Cert.Spec.convOut agg hp d b) := by
  subst ha hhp hd hb
  exact (W15_arr m ρ c 4).trans (Net.eq_ofRC _ _ (fun p q => Reg6.final (V14 m ρ) c p q))

/-- The fused stage's first output array is the closed form of the arrays the region finds. -/
theorem w13_v45_0 {A0 : Net.AND} {A1 : Net.AD} {A2 : Net.AD} {A3 : Net.AD} {A4 : Net.AD} {A5 : Net.AND} {A6 : Net.ADD} {A7 : Net.AD} {A8 : Net.ADD} {A9 : Net.AD} {A10 : Net.AD} {A11 : Net.AD} {A12 : Net.ADD}
    (h0 : W12 m ρ c (Proc.devRef .tc main_v40) = A0)
    (h1 : W12 m ρ c (Proc.devRef .tc main_v43) = A1)
    (h2 : W12 m ρ c (Proc.devRef .tc main_v44) = A2)
    (h3 : W12 m ρ c (Proc.devRef .tc main_arg10) = A3)
    (h4 : W12 m ρ c (Proc.devRef .tc main_arg11) = A4)
    (h5 : W12 m ρ c (Proc.devRef .tc main_v28) = A5)
    (h6 : W12 m ρ c (Proc.devRef .tc main_arg12) = A6)
    (h7 : W12 m ρ c (Proc.devRef .tc main_arg13) = A7)
    (h8 : W12 m ρ c (Proc.devRef .tc main_arg14) = A8)
    (h9 : W12 m ρ c (Proc.devRef .tc main_arg15) = A9)
    (h10 : W12 m ρ c (Proc.devRef .tc main_arg16) = A10)
    (h11 : W12 m ρ c (Proc.devRef .tc main_arg17) = A11)
    (h12 : W12 m ρ c (Proc.devRef .tc main_arg6) = A12) :
    W13 m ρ c (Proc.devRef .tc main_v45_0) = Net.ofRC (Cert.Spec.attnHp2 A0 A1 A2 A3 A4 A5 A6 A7 A8 A9 A10 A11 A12) := by
  subst h0 h1 h2 h3 h4 h5 h6 h7 h8 h9 h10 h11 h12
  exact (W13_arr m ρ c 14).trans (Net.eq_ofRC _ _ (fun p q => Reg5.final14 (V12 m ρ) c p q))

/-- The fused stage's second output array is the closed form of the arrays the region finds. -/
theorem w13_v45_1 {A0 : Net.AND} {A1 : Net.AD} {A2 : Net.AD} {A3 : Net.AD} {A4 : Net.AD} {A5 : Net.AND} {A6 : Net.ADD} {A7 : Net.AD} {A8 : Net.ADD} {A9 : Net.AD} {A10 : Net.AD} {A11 : Net.AD} {A12 : Net.ADD} {A13 : Net.AN1}
    (h0 : W12 m ρ c (Proc.devRef .tc main_v40) = A0)
    (h1 : W12 m ρ c (Proc.devRef .tc main_v43) = A1)
    (h2 : W12 m ρ c (Proc.devRef .tc main_v44) = A2)
    (h3 : W12 m ρ c (Proc.devRef .tc main_arg10) = A3)
    (h4 : W12 m ρ c (Proc.devRef .tc main_arg11) = A4)
    (h5 : W12 m ρ c (Proc.devRef .tc main_v28) = A5)
    (h6 : W12 m ρ c (Proc.devRef .tc main_arg12) = A6)
    (h7 : W12 m ρ c (Proc.devRef .tc main_arg13) = A7)
    (h8 : W12 m ρ c (Proc.devRef .tc main_arg14) = A8)
    (h9 : W12 m ρ c (Proc.devRef .tc main_arg15) = A9)
    (h10 : W12 m ρ c (Proc.devRef .tc main_arg16) = A10)
    (h11 : W12 m ρ c (Proc.devRef .tc main_arg17) = A11)
    (h12 : W12 m ρ c (Proc.devRef .tc main_arg6) = A12)
    (h13 : W12 m ρ c (Proc.devRef .tc main_v11) = A13) :
    W13 m ρ c (Proc.devRef .tc main_v45_1) = Net.ofRC (Cert.Spec.attnHs2 A0 A1 A2 A3 A4 A5 A6 A7 A8 A9 A10 A11 A12 A13) := by
  subst h0 h1 h2 h3 h4 h5 h6 h7 h8 h9 h10 h11 h12 h13
  exact (W13_arr m ρ c 15).trans (Net.eq_ofRC _ _ (fun p q => Reg5.final15 (V12 m ρ) c p q))

/-- The degree factors are an input array of the second convolution's last step: left as found. -/
theorem w10_v11 {d : Net.AN1} (hd : W9 m ρ c (Proc.devRef .tc main_v11) = d) : W10 m ρ c (Proc.devRef .tc main_v11) = d :=
  ((W10_arr m ρ c 2).trans (((dat4 (V9 m ρ) c).arrAt_in 2 rfl _).trans (A_eq4 (V9 m ρ) c 2))).trans hd

/-- And of the fused stage. -/
theorem w13_v11 {d : Net.AN1} (hd : W12 m ρ c (Proc.devRef .tc main_v11) = d) : W13 m ρ c (Proc.devRef .tc main_v11) = d :=
  ((W13_arr m ρ c 13).trans (((dat5 (V12 m ρ) c).arrAt_in 13 rfl _).trans (A_eq5 (V12 m ρ) c 13))).trans hd

/-! ## The chain -/

/-- The second convolution of the first layer's output `h1v`, in the kernel's arrangement. -/
abbrev conv2 (h1v : Net.AND) (row col : Net.IE) : Net.AND :=
  Net.kConv h1v (m ((c : Thread nD τ).loc main_arg4)) (m ((c : Thread nD τ).loc main_arg5)) row col

/-- From the second projection's exit to the result: the result array is the third convolution's last step of the
    aggregated degree-scaled output of the fused stage, the fused stage's plain output, the degree factors and the
    third bias, the fused stage reading the second convolution and its column statistics. -/
theorem kval_tail (h1v : Net.AND) (row col : Net.IE)
    (h28 : W8 m ρ c (Proc.devRef .tc main_v28) = h1v)
    (h290 : W8 m ρ c (Proc.devRef .tc main_v29_0) = Net.ofRC (Cert.Spec.proj h1v (m ((c : Thread nD τ).loc main_arg4))))
    (h291 : W8 m ρ c (Proc.devRef .tc main_v29_1) = Net.ofRC (Cert.Spec.projScaled h1v (m ((c : Thread nD τ).loc main_arg4)) (Net.dvOf col)))
    (h11 : W8 m ρ c (Proc.devRef .tc main_v11) = Net.dvOf col) (h1 : W8 m ρ c (Proc.devRef .tc main_v1) = row) (h3 : W8 m ρ c (Proc.devRef .tc main_v3) = col) :
    W15 m ρ c (Proc.devRef .tc main_v56)
      = Net.ofRC (Cert.Spec.convOut
          (Net.aggOf (Net.ofRC (Cert.Spec.attnHs2 (conv2 m c h1v row col) (Net.colMean (conv2 m c h1v row col)) (Net.colVar (conv2 m c h1v row col)) (m ((c : Thread nD τ).loc main_arg10)) (m ((c : Thread nD τ).loc main_arg11)) h1v
            (m ((c : Thread nD τ).loc main_arg12)) (m ((c : Thread nD τ).loc main_arg13)) (m ((c : Thread nD τ).loc main_arg14)) (m ((c : Thread nD τ).loc main_arg15))
            (m ((c : Thread nD τ).loc main_arg16)) (m ((c : Thread nD τ).loc main_arg17)) (m ((c : Thread nD τ).loc main_arg6)) (Net.dvOf col))) row col)
          (Net.ofRC (Cert.Spec.attnHp2 (conv2 m c h1v row col) (Net.colMean (conv2 m c h1v row col)) (Net.colVar (conv2 m c h1v row col)) (m ((c : Thread nD τ).loc main_arg10)) (m ((c : Thread nD τ).loc main_arg11)) h1v
            (m ((c : Thread nD τ).loc main_arg12)) (m ((c : Thread nD τ).loc main_arg13)) (m ((c : Thread nD τ).loc main_arg14)) (m ((c : Thread nD τ).loc main_arg15))
            (m ((c : Thread nD τ).loc main_arg16)) (m ((c : Thread nD τ).loc main_arg17)) (m ((c : Thread nD τ).loc main_arg6))))
          (Net.dvOf col) (m ((c : Thread nD τ).loc main_arg7))) := by
  -- after the aggregation stretch
  have a39 := w9_v39 m ρ c h291 h1 h3
  have a290 := (after_of_writes_sub hostOps4 _ host4_writes (by decide)).trans h290
  have a11 := (after_of_writes_sub hostOps4 _ host4_writes (by decide)).trans h11
  have a28 := (after_of_writes_sub hostOps4 _ host4_writes (by decide)).trans h28
  have a1 := (after_of_writes_sub hostOps4 _ host4_writes (by decide)).trans h1
  have a3 := (after_of_writes_sub hostOps4 _ host4_writes (by decide)).trans h3
  have a5 := W9_clean m ρ c (b := main_arg5) (by decide)
  -- after the second convolution's last step
  have b40 : W10 m ρ c (Proc.devRef .tc main_v40) = conv2 m c h1v row col := w10_v40 m ρ c a39 a290 a11 a5
  have b28 := (W10_of_ne m ρ c main_v28 (by decide)).trans a28
  have b1 := (W10_of_ne m ρ c main_v1 (by decide)).trans a1
  have b3 := (W10_of_ne m ρ c main_v3 (by decide)).trans a3
  have b11 := w10_v11 m ρ c a11
  -- after the column statistics
  have c40 := (after_of_writes_sub hostOps5_1 _ host51_writes (by decide)).trans ((after_of_writes_sub hostOps5 _ host5_writes (by decide)).trans b40)
  have c28 := (after_of_writes_sub hostOps5_1 _ host51_writes (by decide)).trans ((after_of_writes_sub hostOps5 _ host5_writes (by decide)).trans b28)
  have c11 := (after_of_writes_sub hostOps5_1 _ host51_writes (by decide)).trans ((after_of_writes_sub hostOps5 _ host5_writes (by decide)).trans b11)
  have c1 := (after_of_writes_sub hostOps5_1 _ host51_writes (by decide)).trans ((after_of_writes_sub hostOps5 _ host5_writes (by decide)).trans b1)
  have c3 := (after_of_writes_sub hostOps5_1 _ host51_writes (by decide)).trans ((after_of_writes_sub hostOps5 _ host5_writes (by decide)).trans b3)
  have c43 := w12_v43 m ρ c b40
  have c44 := w12_v44 m ρ c b40
  -- after the fused stage
  have d450 := w13_v45_0 m ρ c c40 c43 c44 (W12_clean m ρ c (b := main_arg10) (by decide)) (W12_clean m ρ c (b := main_arg11) (by decide)) c28
    (W12_clean m ρ c (b := main_arg12) (by decide)) (W12_clean m ρ c (b := main_arg13) (by decide)) (W12_clean m ρ c (b := main_arg14) (by decide)) (W12_clean m ρ c (b := main_arg15) (by decide))
    (W12_clean m ρ c (b := main_arg16) (by decide)) (W12_clean m ρ c (b := main_arg17) (by decide)) (W12_clean m ρ c (b := main_arg6) (by decide))
  have d451 := w13_v45_1 m ρ c c40 c43 c44 (W12_clean m ρ c (b := main_arg10) (by decide)) (W12_clean m ρ c (b := main_arg11) (by decide)) c28
    (W12_clean m ρ c (b := main_arg12) (by decide)) (W12_clean m ρ c (b := main_arg13) (by decide)) (W12_clean m ρ c (b := main_arg14) (by decide)) (W12_clean m ρ c (b := main_arg15) (by decide))
    (W12_clean m ρ c (b := main_arg16) (by decide)) (W12_clean m ρ c (b := main_arg17) (by decide)) (W12_clean m ρ c (b := main_arg6) (by decide)) c11
  have d1 := (W13_of_ne m ρ c main_v1 (by decide)).trans c1
  have d3 := (W13_of_ne m ρ c main_v3 (by decide)).trans c3
  have d11 := w13_v11 m ρ c c11
  -- after the second aggregation stretch
  have e55 := w14_v55 m ρ c d451 d1 d3
  have e450 := (after_of_writes_sub hostOps6 _ host6_writes (by decide)).trans d450
  have e11 := (after_of_writes_sub hostOps6 _ host6_writes (by decide)).trans d11
  have e7 := W14_clean m ρ c (b := main_arg7) (by decide)
  -- the third convolution's last step
  exact w15_v56 m ρ c e55 e450 e11 e7

end Cert.KernelIdeal.KChainB

end
-- ==== Proof.KVal.lean ====
/-
  The idealized kernel program's result, as one term of its argument arrays.

  The first half of the program's segments leaves the first layer's output, its projection for the second
  convolution and that projection's degree-scaled twin, the degree factors and the edges' endpoints in their buffers;
  the second half takes those to the result. Put together, the result buffer's final contents are the network in the
  kernel's arrangement, `kNet`, of the eighteen argument arrays as launched.
-/
import proofs.«112374_j17231408792366_2_alg».proof.Proof.KChain
import proofs.«112374_j17231408792366_2_alg».proof.Proof.KChainB

noncomputable section

namespace Cert.KernelIdeal.KVal

open Idealize.ShloMosaic Idealize.ShloMosaic.TcCoe Idealize.SL.Sem Cert.KernelIdeal

theorem kval (m : (ℓ : Loc nD τ sig) → Buf (Elt Ideal) ℓ) (ρ : Dev nD → PrngReg) (c : Dev nD) :
    Gen.W15 (F := Ideal) m ρ c (Proc.devRef .tc main_v56)
      = Cert.Net.kNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  Cert.KernelIdeal.KChainB.kval_tail m ρ c _ _ _ (Cert.KernelIdeal.KChain.w8_v28 m ρ c) (Cert.KernelIdeal.KChain.w8_v29_0 m ρ c)
    (Cert.KernelIdeal.KChain.w8_v29_1 m ρ c) (Cert.KernelIdeal.KChain.w8_v11 m ρ c) (Cert.KernelIdeal.KChain.w8_v1 m ρ c)
    (Cert.KernelIdeal.KChain.w8_v3 m ρ c)

end Cert.KernelIdeal.KVal

end
-- ==== Proof.RefRunOps.lean ====
/-
  The reference network as one straight line of operations.

  The printed reference program is a sequence of 315 array operations: those of its top level and, at each
  call of an outlined function (the column variance, the clamp at zero, the row variance, each with the
  selection inside it), the callee's operations over that call's own buffers. Here the line is written out as
  12 consecutive lists, cut after the stages a reader wants to name: the degree factors, each convolution's
  output, each normalisation's statistics and output, the dense pair, the row normalisation, the result.
  Each list touches only the device's own buffers, determines its results, and writes exactly the buffers
  listed beside it; so a buffer outside all the lists keeps its contents through the whole line.
-/
import proofs.«112374_j17231408792366_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The two rows of the edge table as vectors, the first dense projection, and the degree factor: one plus the number of edges arriving at a node, under the inverse square root. (15 operations, ending at the buffer `main_v11`.) -/
abbrev opsA : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst (constant S_ .f32 0x3F800000#32),
    StableHlo.unary main_cst main_v5 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v6 (broadcastInDim S100000 ![] bcast_S_S100000 : (⟨S_, .f32⟩ : BufTy).Contents (Elt F) → (⟨S100000, .f32⟩ : BufTy).Contents (Elt F)),
    StableHlo.unary main_v3 main_v7 (broadcastInDim S1600000x1 ![0] bcast_S1600000_S1600000x1_0 : (⟨S1600000, .i32⟩ : BufTy).Contents (Elt F) → (⟨S1600000x1, .i32⟩ : BufTy).Contents (Elt F)),
    StableHlo.ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v8 main_v9 main_v10 (addf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)) ]

/-- The first graph convolution: each edge gathers its source's projected row and scales it by the two ends' degree factors, the rows are summed at the targets, and the node's own row times its squared factor and the bias are added. (43 operations, ending at the buffer `main_v47`.) -/
abbrev opsB : List (HloOp τ sig (Elt F)) :=
  [ StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v4 main_v17 main_v18 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_c_3 (constantI S_ 32 0#32),
    StableHlo.unary main_c_3 main_v19 (broadcastInDim S1600000 ![] bcast_S_S1600000 : (⟨S_, .i32⟩ : BufTy).Contents (Elt F) → (⟨S1600000, .i32⟩ : BufTy).Contents (Elt F)),
    StableHlo.binary main_v1 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_v1 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v1 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_5 (constantI S_ 32 0#32),
    StableHlo.unary main_c_5 main_v26 (broadcastInDim S1600000 ![] bcast_S_S1600000 : (⟨S_, .i32⟩ : BufTy).Contents (Elt F) → (⟨S1600000, .i32⟩ : BufTy).Contents (Elt F)),
    StableHlo.binary main_v3 main_v26 main_v27 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v28 (broadcastInDim S1600000 ![] bcast_S_S1600000 : (⟨S_, .i32⟩ : BufTy).Contents (Elt F) → (⟨S1600000, .i32⟩ : BufTy).Contents (Elt F)),
    StableHlo.binary main_v3 main_v28 main_v29 (addi : (⟨S1600000, .i32⟩ : BufTy).Contents (Elt F) → (⟨S1600000, .i32⟩ : BufTy).Contents (Elt F) → (⟨S1600000, .i32⟩ : BufTy).Contents (Elt F)),
    StableHlo.ternary main_v27 main_v29 main_v3 main_v30 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v30 main_v31 (broadcastInDim S1600000x1 ![0] bcast_S1600000_S1600000x1_0 : (⟨S1600000, .i32⟩ : BufTy).Contents (Elt F) → (⟨S1600000x1, .i32⟩ : BufTy).Contents (Elt F)),
    StableHlo.binary main_v11 main_v31 main_v32 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v25 main_v32 main_v33 (mulf : (⟨S1600000, .f32⟩ : BufTy).Contents (Elt F) → (⟨S1600000, .f32⟩ : BufTy).Contents (Elt F) → (⟨S1600000, .f32⟩ : BufTy).Contents (Elt F)),
    StableHlo.unary main_v33 main_v34 (broadcastInDim S1600000x1 ![0] bcast_S1600000_S1600000x1_0 : (⟨S1600000, .f32⟩ : BufTy).Contents (Elt F) → (⟨S1600000x1, .f32⟩ : BufTy).Contents (Elt F)),
    StableHlo.unary main_v34 main_v35 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v18 main_v35 main_v36 (mulf : (⟨S1600000x128, .f32⟩ : BufTy).Contents (Elt F) → (⟨S1600000x128, .f32⟩ : BufTy).Contents (Elt F) → (⟨S1600000x128, .f32⟩ : BufTy).Contents (Elt F)),
    StableHlo.nullary main_cst_7 (constant S_ .f32 0x00000000#32),
    StableHlo.unary main_cst_7 main_v37 (broadcastInDim S100000x128 ![] bcast_S_S100000x128 : (⟨S_, .f32⟩ : BufTy).Contents (Elt F) → (⟨S100000x128, .f32⟩ : BufTy).Contents (Elt F)),
    StableHlo.unary main_v3 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v11 main_v11 main_v40 (mulf : (⟨S100000, .f32⟩ : BufTy).Contents (Elt F) → (⟨S100000, .f32⟩ : BufTy).Contents (Elt F) → (⟨S100000, .f32⟩ : BufTy).Contents (Elt F)),
    StableHlo.unary main_v40 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x128 ![0, 1] bcast_S100000x1_S100000x128_0_1 : (⟨S100000x1, .f32⟩ : BufTy).Contents (Elt F) → (⟨S100000x128, .f32⟩ : BufTy).Contents (Elt F)),
    StableHlo.binary main_v4 main_v42 main_v43 (mulf : (⟨S100000x128, .f32⟩ : BufTy).Contents (Elt F) → (⟨S100000x128, .f32⟩ : BufTy).Contents (Elt F) → (⟨S100000x128, .f32⟩ : BufTy).Contents (Elt F)),
    StableHlo.binary main_v39 main_v43 main_v44 (addf : (⟨S100000x128, .f32⟩ : BufTy).Contents (Elt F) → (⟨S100000x128, .f32⟩ : BufTy).Contents (Elt F) → (⟨S100000x128, .f32⟩ : BufTy).Contents (Elt F)),
    StableHlo.unary main_arg3 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v46 main_v47 (addf : (⟨S100000x128, .f32⟩ : BufTy).Contents (Elt F) → (⟨S100000x128, .f32⟩ : BufTy).Contents (Elt F) → (⟨S100000x128, .f32⟩ : BufTy).Contents (Elt F)) ]

/-- The column mean of the first convolution's output, and its column variance: the mean of the squared deviations, kept where the divisor is positive. (28 operations, ending at the buffer `main_v51`.) -/
abbrev opsC : List (HloOp τ sig (Elt F)) :=
  [ StableHlo.nullary main_cst_8 (constant S_ .f32 0x00000000#32),
    StableHlo.binary main_v47 main_cst_8 main_v48 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v49 (broadcastInDim S128 ![] bcast_S_S128 : (⟨S_, .f32⟩ : BufTy).Contents (Elt F) → (⟨S128, .f32⟩ : BufTy).Contents (Elt F)),
    StableHlo.binary main_v48 main_v49 main_v50 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary (.of main_call0_cst : StableHlo.TRef sig ⟨S_, .f32⟩) (constant S_ .f32 0x00000000#32),
    StableHlo.TRef.binary (.of main_v47 : StableHlo.TRef sig ⟨S100000x128, .f32⟩) (.of main_call0_cst : StableHlo.TRef sig ⟨S_, .f32⟩) (.of main_call0_v0 : StableHlo.TRef sig ⟨S128, .f32⟩) (fun x v => Host.reduceAdd x v reducesTo_S100000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S100000x128, .f32⟩) (broadcastInDim S100000x128 ![0, 1] bcast_S1x128_S100000x128_0_1),
    StableHlo.TRef.binary (.of main_v47 : StableHlo.TRef sig ⟨S100000x128, .f32⟩) (.of main_call0_v4 : StableHlo.TRef sig ⟨S100000x128, .f32⟩) (.of main_call0_v5 : StableHlo.TRef sig ⟨S100000x128, .f32⟩) subf,
    StableHlo.TRef.binary (.of main_call0_v5 : StableHlo.TRef sig ⟨S100000x128, .f32⟩) (.of main_call0_v5 : StableHlo.TRef sig ⟨S100000x128, .f32⟩) (.of main_call0_v6 : StableHlo.TRef sig ⟨S100000x128, .f32⟩) mulf,
    StableHlo.TRef.unary (.of main_c_10 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x128, .f32⟩) (.of main_call0_cst_2 : StableHlo.TRef sig ⟨S_, .f32⟩) (.of main_call0_v9 : StableHlo.TRef sig ⟨S128, .f32⟩) (fun x v => Host.reduceAdd x v reducesTo_S100000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v51 : StableHlo.TRef sig ⟨S128, .f32⟩) (fun p a b => select (broadcastInDim S128 ![] bcast_S_S128 p) a b) ]

/-- The first layer's output: columns normalised by mean and variance, scaled and shifted, clamped below at zero, the input added back. (20 operations, ending at the buffer `main_v68`.) -/
abbrev opsD : List (HloOp τ sig (Elt F)) :=
  [ StableHlo.unary main_v50 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v53 main_v54 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v55 (broadcastInDim S128 ![] bcast_S_S128 : (⟨S_, .f32⟩ : BufTy).Contents (Elt F) → (⟨S128, .f32⟩ : BufTy).Contents (Elt F)),
    StableHlo.binary main_v51 main_v55 main_v56 (addf : (⟨S128, .f32⟩ : BufTy).Contents (Elt F) → (⟨S128, .f32⟩ : BufTy).Contents (Elt F) → (⟨S128, .f32⟩ : BufTy).Contents (Elt F)),
    StableHlo.unary main_v56 main_v57 (Host.rsqrt : (⟨S128, .f32⟩ : BufTy).Contents (Elt F) → (⟨S128, .f32⟩ : BufTy).Contents (Elt F)),
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v59 main_v60 (mulf : (⟨S100000x128, .f32⟩ : BufTy).Contents (Elt F) → (⟨S100000x128, .f32⟩ : BufTy).Contents (Elt F) → (⟨S100000x128, .f32⟩ : BufTy).Contents (Elt F)),
    StableHlo.unary main_arg8 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (mulf : (⟨S100000x128, .f32⟩ : BufTy).Contents (Elt F) → (⟨S100000x128, .f32⟩ : BufTy).Contents (Elt F) → (⟨S100000x128, .f32⟩ : BufTy).Contents (Elt F)),
    StableHlo.unary main_arg9 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v65 main_v66 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x128, .f32⟩) (broadcastInDim S100000x128 ![] bcast_S_S100000x128),
    StableHlo.TRef.binary (.of main_v66 : StableHlo.TRef sig ⟨S100000x128, .f32⟩) (.of main_call1_v0 : StableHlo.TRef sig ⟨S100000x128, .f32⟩) (.of main_v67 : StableHlo.TRef sig ⟨S100000x128, .f32⟩) maximumf,
    StableHlo.binary main_v67 main_arg0 main_v68 (addf : (⟨S100000x128, .f32⟩ : BufTy).Contents (Elt F) → (⟨S100000x128, .f32⟩ : BufTy).Contents (Elt F) → (⟨S100000x128, .f32⟩ : BufTy).Contents (Elt F)) ]

/-- The second dense projection, and the degree factor again. (11 operations, ending at the buffer `main_v76`.) -/
abbrev opsE1 : List (HloOp τ sig (Elt F)) :=
  [ StableHlo.binary main_v68 main_arg4 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_12 (constant S_ .f32 0x3F800000#32),
    StableHlo.unary main_cst_12 main_v70 (broadcastInDim S1600000 ![] bcast_S_S1600000 : (⟨S_, .f32⟩ : BufTy).Contents (Elt F) → (⟨S1600000, .f32⟩ : BufTy).Contents (Elt F)),
    StableHlo.nullary main_cst_13 (constant S_ .f32 0x00000000#32),
    StableHlo.unary main_cst_13 main_v71 (broadcastInDim S100000 ![] bcast_S_S100000 : (⟨S_, .f32⟩ : BufTy).Contents (Elt F) → (⟨S100000, .f32⟩ : BufTy).Contents (Elt F)),
    StableHlo.unary main_v3 main_v72 (broadcastInDim S1600000x1 ![0] bcast_S1600000_S1600000x1_0 : (⟨S1600000, .i32⟩ : BufTy).Contents (Elt F) → (⟨S1600000x1, .i32⟩ : BufTy).Contents (Elt F)),
    StableHlo.ternary main_v71 main_v72 main_v70 main_v73 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_14 (constant S_ .f32 0x3F800000#32),
    StableHlo.unary main_cst_14 main_v74 (broadcastInDim S100000 ![] bcast_S_S100000 : (⟨S_, .f32⟩ : BufTy).Contents (Elt F) → (⟨S100000, .f32⟩ : BufTy).Contents (Elt F)),
    StableHlo.binary main_v73 main_v74 main_v75 (addf : (⟨S100000, .f32⟩ : BufTy).Contents (Elt F) → (⟨S100000, .f32⟩ : BufTy).Contents (Elt F) → (⟨S100000, .f32⟩ : BufTy).Contents (Elt F)),
    StableHlo.unary main_v75 main_v76 (Host.rsqrt : (⟨S100000, .f32⟩ : BufTy).Contents (Elt F) → (⟨S100000, .f32⟩ : BufTy).Contents (Elt F)) ]

/-- The second graph convolution. (43 operations, ending at the buffer `main_v112`.) -/
abbrev opsE2 : List (HloOp τ sig (Elt F)) :=
  [ StableHlo.nullary main_c_15 (constantI S_ 32 0#32),
    StableHlo.unary main_c_15 main_v77 (broadcastInDim S1600000 ![] bcast_S_S1600000 : (⟨S_, .i32⟩ : BufTy).Contents (Elt F) → (⟨S1600000, .i32⟩ : BufTy).Contents (Elt F)),
    StableHlo.binary main_v1 main_v77 main_v78 (cmpi .slt : (⟨S1600000, .i32⟩ : BufTy).Contents (Elt F) → (⟨S1600000, .i32⟩ : BufTy).Contents (Elt F) → (⟨S1600000, .i1⟩ : BufTy).Contents (Elt F)),
    StableHlo.nullary main_c_16 (constantI S_ 32 100000#32),
    StableHlo.unary main_c_16 main_v79 (broadcastInDim S1600000 ![] bcast_S_S1600000 : (⟨S_, .i32⟩ : BufTy).Contents (Elt F) → (⟨S1600000, .i32⟩ : BufTy).Contents (Elt F)),
    StableHlo.binary main_v1 main_v79 main_v80 (addi : (⟨S1600000, .i32⟩ : BufTy).Contents (Elt F) → (⟨S1600000, .i32⟩ : BufTy).Contents (Elt F) → (⟨S1600000, .i32⟩ : BufTy).Contents (Elt F)),
    StableHlo.ternary main_v78 main_v80 main_v1 main_v81 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v81 main_v82 (broadcastInDim S1600000x1 ![0] bcast_S1600000_S1600000x1_0 : (⟨S1600000, .i32⟩ : BufTy).Contents (Elt F) → (⟨S1600000x1, .i32⟩ : BufTy).Contents (Elt F)),
    StableHlo.binary main_v69 main_v82 main_v83 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_c_17 (constantI S_ 32 0#32),
    StableHlo.unary main_c_17 main_v84 (broadcastInDim S1600000 ![] bcast_S_S1600000 : (⟨S_, .i32⟩ : BufTy).Contents (Elt F) → (⟨S1600000, .i32⟩ : BufTy).Contents (Elt F)),
    StableHlo.binary main_v1 main_v84 main_v85 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 100000#32),
    StableHlo.unary main_c_18 main_v86 (broadcastInDim S1600000 ![] bcast_S_S1600000 : (⟨S_, .i32⟩ : BufTy).Contents (Elt F) → (⟨S1600000, .i32⟩ : BufTy).Contents (Elt F)),
    StableHlo.binary main_v1 main_v86 main_v87 (addi : (⟨S1600000, .i32⟩ : BufTy).Contents (Elt F) → (⟨S1600000, .i32⟩ : BufTy).Contents (Elt F) → (⟨S1600000, .i32⟩ : BufTy).Contents (Elt F)),
    StableHlo.ternary main_v85 main_v87 main_v1 main_v88 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v88 main_v89 (broadcastInDim S1600000x1 ![0] bcast_S1600000_S1600000x1_0 : (⟨S1600000, .i32⟩ : BufTy).Contents (Elt F) → (⟨S1600000x1, .i32⟩ : BufTy).Contents (Elt F)),
    StableHlo.binary main_v76 main_v89 main_v90 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_19 (constantI S_ 32 0#32),
    StableHlo.unary main_c_19 main_v91 (broadcastInDim S1600000 ![] bcast_S_S1600000 : (⟨S_, .i32⟩ : BufTy).Contents (Elt F) → (⟨S1600000, .i32⟩ : BufTy).Contents (Elt F)),
    StableHlo.binary main_v3 main_v91 main_v92 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v93 (broadcastInDim S1600000 ![] bcast_S_S1600000 : (⟨S_, .i32⟩ : BufTy).Contents (Elt F) → (⟨S1600000, .i32⟩ : BufTy).Contents (Elt F)),
    StableHlo.binary main_v3 main_v93 main_v94 (addi : (⟨S1600000, .i32⟩ : BufTy).Contents (Elt F) → (⟨S1600000, .i32⟩ : BufTy).Contents (Elt F) → (⟨S1600000, .i32⟩ : BufTy).Contents (Elt F)),
    StableHlo.ternary main_v92 main_v94 main_v3 main_v95 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v95 main_v96 (broadcastInDim S1600000x1 ![0] bcast_S1600000_S1600000x1_0 : (⟨S1600000, .i32⟩ : BufTy).Contents (Elt F) → (⟨S1600000x1, .i32⟩ : BufTy).Contents (Elt F)),
    StableHlo.binary main_v76 main_v96 main_v97 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v90 main_v97 main_v98 (mulf : (⟨S1600000, .f32⟩ : BufTy).Contents (Elt F) → (⟨S1600000, .f32⟩ : BufTy).Contents (Elt F) → (⟨S1600000, .f32⟩ : BufTy).Contents (Elt F)),
    StableHlo.unary main_v98 main_v99 (broadcastInDim S1600000x1 ![0] bcast_S1600000_S1600000x1_0 : (⟨S1600000, .f32⟩ : BufTy).Contents (Elt F) → (⟨S1600000x1, .f32⟩ : BufTy).Contents (Elt F)),
    StableHlo.unary main_v99 main_v100 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v83 main_v100 main_v101 (mulf : (⟨S1600000x128, .f32⟩ : BufTy).Contents (Elt F) → (⟨S1600000x128, .f32⟩ : BufTy).Contents (Elt F) → (⟨S1600000x128, .f32⟩ : BufTy).Contents (Elt F)),
    StableHlo.nullary main_cst_21 (constant S_ .f32 0x00000000#32),
    StableHlo.unary main_cst_21 main_v102 (broadcastInDim S100000x128 ![] bcast_S_S100000x128 : (⟨S_, .f32⟩ : BufTy).Contents (Elt F) → (⟨S100000x128, .f32⟩ : BufTy).Contents (Elt F)),
    StableHlo.unary main_v3 main_v103 (broadcastInDim S1600000x1 ![0] bcast_S1600000_S1600000x1_0 : (⟨S1600000, .i32⟩ : BufTy).Contents (Elt F) → (⟨S1600000x1, .i32⟩ : BufTy).Contents (Elt F)),
    StableHlo.ternary main_v102 main_v103 main_v101 main_v104 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v76 main_v76 main_v105 (mulf : (⟨S100000, .f32⟩ : BufTy).Contents (Elt F) → (⟨S100000, .f32⟩ : BufTy).Contents (Elt F) → (⟨S100000, .f32⟩ : BufTy).Contents (Elt F)),
    StableHlo.unary main_v105 main_v106 (broadcastInDim S100000x1 ![0] bcast_S100000_S100000x1_0 : (⟨S100000, .f32⟩ : BufTy).Contents (Elt F) → (⟨S100000x1, .f32⟩ : BufTy).Contents (Elt F)),
    StableHlo.unary main_v106 main_v107 (broadcastInDim S100000x128 ![0, 1] bcast_S100000x1_S100000x128_0_1 : (⟨S100000x1, .f32⟩ : BufTy).Contents (Elt F) → (⟨S100000x128, .f32⟩ : BufTy).Contents (Elt F)),
    StableHlo.binary main_v69 main_v107 main_v108 (mulf : (⟨S100000x128, .f32⟩ : BufTy).Contents (Elt F) → (⟨S100000x128, .f32⟩ : BufTy).Contents (Elt F) → (⟨S100000x128, .f32⟩ : BufTy).Contents (Elt F)),
    StableHlo.binary main_v104 main_v108 main_v109 (addf : (⟨S100000x128, .f32⟩ : BufTy).Contents (Elt F) → (⟨S100000x128, .f32⟩ : BufTy).Contents (Elt F) → (⟨S100000x128, .f32⟩ : BufTy).Contents (Elt F)),
    StableHlo.unary main_arg5 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S100000x128 ![0, 1] bcast_S1x128_S100000x128_0_1 : (⟨S1x128, .f32⟩ : BufTy).Contents (Elt F) → (⟨S100000x128, .f32⟩ : BufTy).Contents (Elt F)),
    StableHlo.binary main_v109 main_v111 main_v112 (addf : (⟨S100000x128, .f32⟩ : BufTy).Contents (Elt F) → (⟨S100000x128, .f32⟩ : BufTy).Contents (Elt F) → (⟨S100000x128, .f32⟩ : BufTy).Contents (Elt F)) ]

/-- The column mean and the column variance of the second convolution's output. (28 operations, ending at the buffer `main_v116`.) -/
abbrev opsF : List (HloOp τ sig (Elt F)) :=
  [ StableHlo.nullary main_cst_22 (constant S_ .f32 0x00000000#32),
    StableHlo.binary main_v112 main_cst_22 main_v113 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_23 (constant S_ .f32 0x47C35000#32),
    StableHlo.unary main_cst_23 main_v114 (broadcastInDim S128 ![] bcast_S_S128 : (⟨S_, .f32⟩ : BufTy).Contents (Elt F) → (⟨S128, .f32⟩ : BufTy).Contents (Elt F)),
    StableHlo.binary main_v113 main_v114 main_v115 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary (.of main_call2_cst : StableHlo.TRef sig ⟨S_, .f32⟩) (constant S_ .f32 0x00000000#32),
    StableHlo.TRef.binary (.of main_v112 : StableHlo.TRef sig ⟨S100000x128, .f32⟩) (.of main_call2_cst : StableHlo.TRef sig ⟨S_, .f32⟩) (.of main_call2_v0 : StableHlo.TRef sig ⟨S128, .f32⟩) (fun x v => Host.reduceAdd x v reducesTo_S100000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S100000x128, .f32⟩) (broadcastInDim S100000x128 ![0, 1] bcast_S1x128_S100000x128_0_1),
    StableHlo.TRef.binary (.of main_v112 : StableHlo.TRef sig ⟨S100000x128, .f32⟩) (.of main_call2_v4 : StableHlo.TRef sig ⟨S100000x128, .f32⟩) (.of main_call2_v5 : StableHlo.TRef sig ⟨S100000x128, .f32⟩) subf,
    StableHlo.TRef.binary (.of main_call2_v5 : StableHlo.TRef sig ⟨S100000x128, .f32⟩) (.of main_call2_v5 : StableHlo.TRef sig ⟨S100000x128, .f32⟩) (.of main_call2_v6 : StableHlo.TRef sig ⟨S100000x128, .f32⟩) mulf,
    StableHlo.TRef.unary (.of main_c_24 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x128, .f32⟩) (.of main_call2_cst_2 : StableHlo.TRef sig ⟨S_, .f32⟩) (.of main_call2_v9 : StableHlo.TRef sig ⟨S128, .f32⟩) (fun x v => Host.reduceAdd x v reducesTo_S100000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v116 : StableHlo.TRef sig ⟨S128, .f32⟩) (fun p a b => select (broadcastInDim S128 ![] bcast_S_S128 p) a b) ]

/-- The second layer's output: normalised, scaled and shifted, clamped, the first layer's output added back. (20 operations, ending at the buffer `main_v133`.) -/
abbrev opsG : List (HloOp τ sig (Elt F)) :=
  [ StableHlo.unary main_v115 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S100000x128 ![0, 1] bcast_S1x128_S100000x128_0_1 : (⟨S1x128, .f32⟩ : BufTy).Contents (Elt F) → (⟨S100000x128, .f32⟩ : BufTy).Contents (Elt F)),
    StableHlo.binary main_v112 main_v118 main_v119 (subf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x3727C5AC#32),
    StableHlo.unary main_cst_25 main_v120 (broadcastInDim S128 ![] bcast_S_S128 : (⟨S_, .f32⟩ : BufTy).Contents (Elt F) → (⟨S128, .f32⟩ : BufTy).Contents (Elt F)),
    StableHlo.binary main_v116 main_v120 main_v121 (addf : (⟨S128, .f32⟩ : BufTy).Contents (Elt F) → (⟨S128, .f32⟩ : BufTy).Contents (Elt F) → (⟨S128, .f32⟩ : BufTy).Contents (Elt F)),
    StableHlo.unary main_v121 main_v122 (Host.rsqrt : (⟨S128, .f32⟩ : BufTy).Contents (Elt F) → (⟨S128, .f32⟩ : BufTy).Contents (Elt F)),
    StableHlo.unary main_v122 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v124 main_v125 (mulf : (⟨S100000x128, .f32⟩ : BufTy).Contents (Elt F) → (⟨S100000x128, .f32⟩ : BufTy).Contents (Elt F) → (⟨S100000x128, .f32⟩ : BufTy).Contents (Elt F)),
    StableHlo.unary main_arg10 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S100000x128 ![0, 1] bcast_S1x128_S100000x128_0_1 : (⟨S1x128, .f32⟩ : BufTy).Contents (Elt F) → (⟨S100000x128, .f32⟩ : BufTy).Contents (Elt F)),
    StableHlo.binary main_v125 main_v127 main_v128 (mulf : (⟨S100000x128, .f32⟩ : BufTy).Contents (Elt F) → (⟨S100000x128, .f32⟩ : BufTy).Contents (Elt F) → (⟨S100000x128, .f32⟩ : BufTy).Contents (Elt F)),
    StableHlo.unary main_arg11 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S100000x128 ![0, 1] bcast_S1x128_S100000x128_0_1 : (⟨S1x128, .f32⟩ : BufTy).Contents (Elt F) → (⟨S100000x128, .f32⟩ : BufTy).Contents (Elt F)),
    StableHlo.binary main_v128 main_v130 main_v131 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x128, .f32⟩) (broadcastInDim S100000x128 ![] bcast_S_S100000x128),
    StableHlo.TRef.binary (.of main_v131 : StableHlo.TRef sig ⟨S100000x128, .f32⟩) (.of main_call3_v0 : StableHlo.TRef sig ⟨S100000x128, .f32⟩) (.of main_v132 : StableHlo.TRef sig ⟨S100000x128, .f32⟩) maximumf,
    StableHlo.binary main_v132 main_v68 main_v133 (addf : (⟨S100000x128, .f32⟩ : BufTy).Contents (Elt F) → (⟨S100000x128, .f32⟩ : BufTy).Contents (Elt F) → (⟨S100000x128, .f32⟩ : BufTy).Contents (Elt F)) ]

/-- The two dense layers with bias applied in turn to the second layer's output, and that output added back. (9 operations, ending at the buffer `main_v142`.) -/
abbrev opsH : List (HloOp τ sig (Elt F)) :=
  [ StableHlo.binary main_v133 main_arg12 main_v134 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg13 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S100000x128 ![0, 1] bcast_S1x128_S100000x128_0_1 : (⟨S1x128, .f32⟩ : BufTy).Contents (Elt F) → (⟨S100000x128, .f32⟩ : BufTy).Contents (Elt F)),
    StableHlo.binary main_v134 main_v136 main_v137 (addf : (⟨S100000x128, .f32⟩ : BufTy).Contents (Elt F) → (⟨S100000x128, .f32⟩ : BufTy).Contents (Elt F) → (⟨S100000x128, .f32⟩ : BufTy).Contents (Elt F)),
    StableHlo.binary main_v137 main_arg14 main_v138 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg15 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S100000x128 ![0, 1] bcast_S1x128_S100000x128_0_1 : (⟨S1x128, .f32⟩ : BufTy).Contents (Elt F) → (⟨S100000x128, .f32⟩ : BufTy).Contents (Elt F)),
    StableHlo.binary main_v138 main_v140 main_v141 (addf : (⟨S100000x128, .f32⟩ : BufTy).Contents (Elt F) → (⟨S100000x128, .f32⟩ : BufTy).Contents (Elt F) → (⟨S100000x128, .f32⟩ : BufTy).Contents (Elt F)),
    StableHlo.binary main_v133 main_v141 main_v142 (addf : (⟨S100000x128, .f32⟩ : BufTy).Contents (Elt F) → (⟨S100000x128, .f32⟩ : BufTy).Contents (Elt F) → (⟨S100000x128, .f32⟩ : BufTy).Contents (Elt F)) ]

/-- The row mean and row variance over the 128 columns, and the row normalisation, scaled and shifted. (44 operations, ending at the buffer `main_v160`.) -/
abbrev opsI : List (HloOp τ sig (Elt F)) :=
  [ StableHlo.nullary main_cst_26 (constant S_ .f32 0x00000000#32),
    StableHlo.binary main_v142 main_cst_26 main_v143 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v143 main_v144 (broadcastInDim S100000x1 ![0] bcast_S100000_S100000x1_0 : (⟨S100000, .f32⟩ : BufTy).Contents (Elt F) → (⟨S100000x1, .f32⟩ : BufTy).Contents (Elt F)),
    StableHlo.nullary main_cst_27 (constant S_ .f32 0x43000000#32),
    StableHlo.unary main_cst_27 main_v145 (broadcastInDim S100000x1 ![] bcast_S_S100000x1 : (⟨S_, .f32⟩ : BufTy).Contents (Elt F) → (⟨S100000x1, .f32⟩ : BufTy).Contents (Elt F)),
    StableHlo.binary main_v144 main_v145 main_v146 (Host.divf : (⟨S100000x1, .f32⟩ : BufTy).Contents (Elt F) → (⟨S100000x1, .f32⟩ : BufTy).Contents (Elt F) → (⟨S100000x1, .f32⟩ : BufTy).Contents (Elt F)),
    StableHlo.nullary main_c_28 (constantI S_ 32 0#32),
    StableHlo.TRef.nullary (.of main_call4_cst : StableHlo.TRef sig ⟨S_, .f32⟩) (constant S_ .f32 0x00000000#32),
    StableHlo.TRef.binary (.of main_v142 : StableHlo.TRef sig ⟨S100000x128, .f32⟩) (.of main_call4_cst : StableHlo.TRef sig ⟨S_, .f32⟩) (.of main_call4_v0 : StableHlo.TRef sig ⟨S100000, .f32⟩) (fun x v => Host.reduceAdd x v reducesTo_S100000x128_S100000_d1 h_S_),
    StableHlo.TRef.unary (.of main_call4_v0 : StableHlo.TRef sig ⟨S100000, .f32⟩) (.of main_call4_v1 : StableHlo.TRef sig ⟨S100000x1, .f32⟩) (broadcastInDim S100000x1 ![0] bcast_S100000_S100000x1_0),
    StableHlo.TRef.nullary (.of main_call4_cst_0 : StableHlo.TRef sig ⟨S_, .f32⟩) (constant S_ .f32 0x43000000#32),
    StableHlo.TRef.unary (.of main_call4_cst_0 : StableHlo.TRef sig ⟨S_, .f32⟩) (.of main_call4_v2 : StableHlo.TRef sig ⟨S100000x1, .f32⟩) (broadcastInDim S100000x1 ![] bcast_S_S100000x1),
    StableHlo.TRef.binary (.of main_call4_v1 : StableHlo.TRef sig ⟨S100000x1, .f32⟩) (.of main_call4_v2 : StableHlo.TRef sig ⟨S100000x1, .f32⟩) (.of main_call4_v3 : StableHlo.TRef sig ⟨S100000x1, .f32⟩) Host.divf,
    StableHlo.TRef.unary (.of main_call4_v3 : StableHlo.TRef sig ⟨S100000x1, .f32⟩) (.of main_call4_v4 : StableHlo.TRef sig ⟨S100000x128, .f32⟩) (broadcastInDim S100000x128 ![0, 1] bcast_S100000x1_S100000x128_0_1),
    StableHlo.TRef.binary (.of main_v142 : StableHlo.TRef sig ⟨S100000x128, .f32⟩) (.of main_call4_v4 : StableHlo.TRef sig ⟨S100000x128, .f32⟩) (.of main_call4_v5 : StableHlo.TRef sig ⟨S100000x128, .f32⟩) subf,
    StableHlo.TRef.binary (.of main_call4_v5 : StableHlo.TRef sig ⟨S100000x128, .f32⟩) (.of main_call4_v5 : StableHlo.TRef sig ⟨S100000x128, .f32⟩) (.of main_call4_v6 : StableHlo.TRef sig ⟨S100000x128, .f32⟩) mulf,
    StableHlo.TRef.unary (.of main_c_28 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x43000000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x128, .f32⟩) (.of main_call4_cst_2 : StableHlo.TRef sig ⟨S_, .f32⟩) (.of main_call4_v9 : StableHlo.TRef sig ⟨S100000, .f32⟩) (fun x v => Host.reduceAdd x v reducesTo_S100000x128_S100000_d1 h_S_),
    StableHlo.TRef.unary (.of main_call4_v9 : StableHlo.TRef sig ⟨S100000, .f32⟩) (.of main_call4_v10 : StableHlo.TRef sig ⟨S100000x1, .f32⟩) (broadcastInDim S100000x1 ![0] bcast_S100000_S100000x1_0),
    StableHlo.TRef.unary (.of main_call4_v8 : StableHlo.TRef sig ⟨S_, .f32⟩) (.of main_call4_v11 : StableHlo.TRef sig ⟨S100000x1, .f32⟩) (broadcastInDim S100000x1 ![] bcast_S_S100000x1),
    StableHlo.TRef.binary (.of main_call4_v10 : StableHlo.TRef sig ⟨S100000x1, .f32⟩) (.of main_call4_v11 : StableHlo.TRef sig ⟨S100000x1, .f32⟩) (.of main_call4_v12 : StableHlo.TRef sig ⟨S100000x1, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v13 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S100000x1, .f32⟩) (broadcastInDim S100000x1 ![] bcast_S_S100000x1),
    StableHlo.TRef.ternary (.of main_call4_v13 : StableHlo.TRef sig ⟨S_, .i1⟩) (.of main_call4_v12 : StableHlo.TRef sig ⟨S100000x1, .f32⟩) (.of main_call4_call0_v1 : StableHlo.TRef sig ⟨S100000x1, .f32⟩) (.of main_v147 : StableHlo.TRef sig ⟨S100000x1, .f32⟩) (fun p a b => select (broadcastInDim S100000x1 ![] bcast_S_S100000x1 p) a b),
    StableHlo.unary main_v146 main_v148 (broadcastInDim S100000x128 ![0, 1] bcast_S100000x1_S100000x128_0_1 : (⟨S100000x1, .f32⟩ : BufTy).Contents (Elt F) → (⟨S100000x128, .f32⟩ : BufTy).Contents (Elt F)),
    StableHlo.binary main_v142 main_v148 main_v149 (subf : (⟨S100000x128, .f32⟩ : BufTy).Contents (Elt F) → (⟨S100000x128, .f32⟩ : BufTy).Contents (Elt F) → (⟨S100000x128, .f32⟩ : BufTy).Contents (Elt F)),
    StableHlo.nullary main_cst_29 (constant S_ .f32 0x3727C5AC#32),
    StableHlo.unary main_cst_29 main_v150 (broadcastInDim S100000x1 ![] bcast_S_S100000x1 : (⟨S_, .f32⟩ : BufTy).Contents (Elt F) → (⟨S100000x1, .f32⟩ : BufTy).Contents (Elt F)),
    StableHlo.binary main_v147 main_v150 main_v151 (addf : (⟨S100000x1, .f32⟩ : BufTy).Contents (Elt F) → (⟨S100000x1, .f32⟩ : BufTy).Contents (Elt F) → (⟨S100000x1, .f32⟩ : BufTy).Contents (Elt F)),
    StableHlo.unary main_v151 main_v152 (Host.rsqrt : (⟨S100000x1, .f32⟩ : BufTy).Contents (Elt F) → (⟨S100000x1, .f32⟩ : BufTy).Contents (Elt F)),
    StableHlo.unary main_v152 main_v153 (broadcastInDim S100000x128 ![0, 1] bcast_S100000x1_S100000x128_0_1 : (⟨S100000x1, .f32⟩ : BufTy).Contents (Elt F) → (⟨S100000x128, .f32⟩ : BufTy).Contents (Elt F)),
    StableHlo.binary main_v149 main_v153 main_v154 (mulf : (⟨S100000x128, .f32⟩ : BufTy).Contents (Elt F) → (⟨S100000x128, .f32⟩ : BufTy).Contents (Elt F) → (⟨S100000x128, .f32⟩ : BufTy).Contents (Elt F)),
    StableHlo.unary main_arg16 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S100000x128 ![0, 1] bcast_S1x128_S100000x128_0_1 : (⟨S1x128, .f32⟩ : BufTy).Contents (Elt F) → (⟨S100000x128, .f32⟩ : BufTy).Contents (Elt F)),
    StableHlo.binary main_v154 main_v156 main_v157 (mulf : (⟨S100000x128, .f32⟩ : BufTy).Contents (Elt F) → (⟨S100000x128, .f32⟩ : BufTy).Contents (Elt F) → (⟨S100000x128, .f32⟩ : BufTy).Contents (Elt F)),
    StableHlo.unary main_arg17 main_v158 (broadcastInDim S1x128 ![1] bcast_S128_S1x128_1 : (⟨S128, .f32⟩ : BufTy).Contents (Elt F) → (⟨S1x128, .f32⟩ : BufTy).Contents (Elt F)),
    StableHlo.unary main_v158 main_v159 (broadcastInDim S100000x128 ![0, 1] bcast_S1x128_S100000x128_0_1 : (⟨S1x128, .f32⟩ : BufTy).Contents (Elt F) → (⟨S100000x128, .f32⟩ : BufTy).Contents (Elt F)),
    StableHlo.binary main_v157 main_v159 main_v160 (addf : (⟨S100000x128, .f32⟩ : BufTy).Contents (Elt F) → (⟨S100000x128, .f32⟩ : BufTy).Contents (Elt F) → (⟨S100000x128, .f32⟩ : BufTy).Contents (Elt F)) ]

/-- The third dense projection, and the degree factor once more. (11 operations, ending at the buffer `main_v168`.) -/
abbrev opsJ1 : List (HloOp τ sig (Elt F)) :=
  [ StableHlo.binary main_v160 main_arg6 main_v161 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_30 (constant S_ .f32 0x3F800000#32),
    StableHlo.unary main_cst_30 main_v162 (broadcastInDim S1600000 ![] bcast_S_S1600000 : (⟨S_, .f32⟩ : BufTy).Contents (Elt F) → (⟨S1600000, .f32⟩ : BufTy).Contents (Elt F)),
    StableHlo.nullary main_cst_31 (constant S_ .f32 0x00000000#32),
    StableHlo.unary main_cst_31 main_v163 (broadcastInDim S100000 ![] bcast_S_S100000 : (⟨S_, .f32⟩ : BufTy).Contents (Elt F) → (⟨S100000, .f32⟩ : BufTy).Contents (Elt F)),
    StableHlo.unary main_v3 main_v164 (broadcastInDim S1600000x1 ![0] bcast_S1600000_S1600000x1_0 : (⟨S1600000, .i32⟩ : BufTy).Contents (Elt F) → (⟨S1600000x1, .i32⟩ : BufTy).Contents (Elt F)),
    StableHlo.ternary main_v163 main_v164 main_v162 main_v165 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_32 (constant S_ .f32 0x3F800000#32),
    StableHlo.unary main_cst_32 main_v166 (broadcastInDim S100000 ![] bcast_S_S100000 : (⟨S_, .f32⟩ : BufTy).Contents (Elt F) → (⟨S100000, .f32⟩ : BufTy).Contents (Elt F)),
    StableHlo.binary main_v165 main_v166 main_v167 (addf : (⟨S100000, .f32⟩ : BufTy).Contents (Elt F) → (⟨S100000, .f32⟩ : BufTy).Contents (Elt F) → (⟨S100000, .f32⟩ : BufTy).Contents (Elt F)),
    StableHlo.unary main_v167 main_v168 (Host.rsqrt : (⟨S100000, .f32⟩ : BufTy).Contents (Elt F) → (⟨S100000, .f32⟩ : BufTy).Contents (Elt F)) ]

/-- The third graph convolution: the result. (43 operations, ending at the buffer `main_v204`.) -/
abbrev opsJ2 : List (HloOp τ sig (Elt F)) :=
  [ StableHlo.nullary main_c_33 (constantI S_ 32 0#32),
    StableHlo.unary main_c_33 main_v169 (broadcastInDim S1600000 ![] bcast_S_S1600000 : (⟨S_, .i32⟩ : BufTy).Contents (Elt F) → (⟨S1600000, .i32⟩ : BufTy).Contents (Elt F)),
    StableHlo.binary main_v1 main_v169 main_v170 (cmpi .slt : (⟨S1600000, .i32⟩ : BufTy).Contents (Elt F) → (⟨S1600000, .i32⟩ : BufTy).Contents (Elt F) → (⟨S1600000, .i1⟩ : BufTy).Contents (Elt F)),
    StableHlo.nullary main_c_34 (constantI S_ 32 100000#32),
    StableHlo.unary main_c_34 main_v171 (broadcastInDim S1600000 ![] bcast_S_S1600000 : (⟨S_, .i32⟩ : BufTy).Contents (Elt F) → (⟨S1600000, .i32⟩ : BufTy).Contents (Elt F)),
    StableHlo.binary main_v1 main_v171 main_v172 (addi : (⟨S1600000, .i32⟩ : BufTy).Contents (Elt F) → (⟨S1600000, .i32⟩ : BufTy).Contents (Elt F) → (⟨S1600000, .i32⟩ : BufTy).Contents (Elt F)),
    StableHlo.ternary main_v170 main_v172 main_v1 main_v173 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v173 main_v174 (broadcastInDim S1600000x1 ![0] bcast_S1600000_S1600000x1_0 : (⟨S1600000, .i32⟩ : BufTy).Contents (Elt F) → (⟨S1600000x1, .i32⟩ : BufTy).Contents (Elt F)),
    StableHlo.binary main_v161 main_v174 main_v175 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_c_35 (constantI S_ 32 0#32),
    StableHlo.unary main_c_35 main_v176 (broadcastInDim S1600000 ![] bcast_S_S1600000 : (⟨S_, .i32⟩ : BufTy).Contents (Elt F) → (⟨S1600000, .i32⟩ : BufTy).Contents (Elt F)),
    StableHlo.binary main_v1 main_v176 main_v177 (cmpi .slt : (⟨S1600000, .i32⟩ : BufTy).Contents (Elt F) → (⟨S1600000, .i32⟩ : BufTy).Contents (Elt F) → (⟨S1600000, .i1⟩ : BufTy).Contents (Elt F)),
    StableHlo.nullary main_c_36 (constantI S_ 32 100000#32),
    StableHlo.unary main_c_36 main_v178 (broadcastInDim S1600000 ![] bcast_S_S1600000 : (⟨S_, .i32⟩ : BufTy).Contents (Elt F) → (⟨S1600000, .i32⟩ : BufTy).Contents (Elt F)),
    StableHlo.binary main_v1 main_v178 main_v179 (addi : (⟨S1600000, .i32⟩ : BufTy).Contents (Elt F) → (⟨S1600000, .i32⟩ : BufTy).Contents (Elt F) → (⟨S1600000, .i32⟩ : BufTy).Contents (Elt F)),
    StableHlo.ternary main_v177 main_v179 main_v1 main_v180 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v180 main_v181 (broadcastInDim S1600000x1 ![0] bcast_S1600000_S1600000x1_0 : (⟨S1600000, .i32⟩ : BufTy).Contents (Elt F) → (⟨S1600000x1, .i32⟩ : BufTy).Contents (Elt F)),
    StableHlo.binary main_v168 main_v181 main_v182 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_37 (constantI S_ 32 0#32),
    StableHlo.unary main_c_37 main_v183 (broadcastInDim S1600000 ![] bcast_S_S1600000 : (⟨S_, .i32⟩ : BufTy).Contents (Elt F) → (⟨S1600000, .i32⟩ : BufTy).Contents (Elt F)),
    StableHlo.binary main_v3 main_v183 main_v184 (cmpi .slt : (⟨S1600000, .i32⟩ : BufTy).Contents (Elt F) → (⟨S1600000, .i32⟩ : BufTy).Contents (Elt F) → (⟨S1600000, .i1⟩ : BufTy).Contents (Elt F)),
    StableHlo.nullary main_c_38 (constantI S_ 32 100000#32),
    StableHlo.unary main_c_38 main_v185 (broadcastInDim S1600000 ![] bcast_S_S1600000 : (⟨S_, .i32⟩ : BufTy).Contents (Elt F) → (⟨S1600000, .i32⟩ : BufTy).Contents (Elt F)),
    StableHlo.binary main_v3 main_v185 main_v186 (addi : (⟨S1600000, .i32⟩ : BufTy).Contents (Elt F) → (⟨S1600000, .i32⟩ : BufTy).Contents (Elt F) → (⟨S1600000, .i32⟩ : BufTy).Contents (Elt F)),
    StableHlo.ternary main_v184 main_v186 main_v3 main_v187 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v187 main_v188 (broadcastInDim S1600000x1 ![0] bcast_S1600000_S1600000x1_0 : (⟨S1600000, .i32⟩ : BufTy).Contents (Elt F) → (⟨S1600000x1, .i32⟩ : BufTy).Contents (Elt F)),
    StableHlo.binary main_v168 main_v188 main_v189 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v182 main_v189 main_v190 (mulf : (⟨S1600000, .f32⟩ : BufTy).Contents (Elt F) → (⟨S1600000, .f32⟩ : BufTy).Contents (Elt F) → (⟨S1600000, .f32⟩ : BufTy).Contents (Elt F)),
    StableHlo.unary main_v190 main_v191 (broadcastInDim S1600000x1 ![0] bcast_S1600000_S1600000x1_0 : (⟨S1600000, .f32⟩ : BufTy).Contents (Elt F) → (⟨S1600000x1, .f32⟩ : BufTy).Contents (Elt F)),
    StableHlo.unary main_v191 main_v192 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v175 main_v192 main_v193 (mulf : (⟨S1600000x128, .f32⟩ : BufTy).Contents (Elt F) → (⟨S1600000x128, .f32⟩ : BufTy).Contents (Elt F) → (⟨S1600000x128, .f32⟩ : BufTy).Contents (Elt F)),
    StableHlo.nullary main_cst_39 (constant S_ .f32 0x00000000#32),
    StableHlo.unary main_cst_39 main_v194 (broadcastInDim S100000x128 ![] bcast_S_S100000x128 : (⟨S_, .f32⟩ : BufTy).Contents (Elt F) → (⟨S100000x128, .f32⟩ : BufTy).Contents (Elt F)),
    StableHlo.unary main_v3 main_v195 (broadcastInDim S1600000x1 ![0] bcast_S1600000_S1600000x1_0 : (⟨S1600000, .i32⟩ : BufTy).Contents (Elt F) → (⟨S1600000x1, .i32⟩ : BufTy).Contents (Elt F)),
    StableHlo.ternary main_v194 main_v195 main_v193 main_v196 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v168 main_v168 main_v197 (mulf : (⟨S100000, .f32⟩ : BufTy).Contents (Elt F) → (⟨S100000, .f32⟩ : BufTy).Contents (Elt F) → (⟨S100000, .f32⟩ : BufTy).Contents (Elt F)),
    StableHlo.unary main_v197 main_v198 (broadcastInDim S100000x1 ![0] bcast_S100000_S100000x1_0 : (⟨S100000, .f32⟩ : BufTy).Contents (Elt F) → (⟨S100000x1, .f32⟩ : BufTy).Contents (Elt F)),
    StableHlo.unary main_v198 main_v199 (broadcastInDim S100000x128 ![0, 1] bcast_S100000x1_S100000x128_0_1 : (⟨S100000x1, .f32⟩ : BufTy).Contents (Elt F) → (⟨S100000x128, .f32⟩ : BufTy).Contents (Elt F)),
    StableHlo.binary main_v161 main_v199 main_v200 (mulf : (⟨S100000x128, .f32⟩ : BufTy).Contents (Elt F) → (⟨S100000x128, .f32⟩ : BufTy).Contents (Elt F) → (⟨S100000x128, .f32⟩ : BufTy).Contents (Elt F)),
    StableHlo.binary main_v196 main_v200 main_v201 (addf : (⟨S100000x128, .f32⟩ : BufTy).Contents (Elt F) → (⟨S100000x128, .f32⟩ : BufTy).Contents (Elt F) → (⟨S100000x128, .f32⟩ : BufTy).Contents (Elt F)),
    StableHlo.unary main_arg7 main_v202 (broadcastInDim S1x128 ![1] bcast_S128_S1x128_1 : (⟨S128, .f32⟩ : BufTy).Contents (Elt F) → (⟨S1x128, .f32⟩ : BufTy).Contents (Elt F)),
    StableHlo.unary main_v202 main_v203 (broadcastInDim S100000x128 ![0, 1] bcast_S1x128_S100000x128_0_1 : (⟨S1x128, .f32⟩ : BufTy).Contents (Elt F) → (⟨S100000x128, .f32⟩ : BufTy).Contents (Elt F)),
    StableHlo.binary main_v201 main_v203 main_v204 (addf : (⟨S100000x128, .f32⟩ : BufTy).Contents (Elt F) → (⟨S100000x128, .f32⟩ : BufTy).Contents (Elt F) → (⟨S100000x128, .f32⟩ : BufTy).Contents (Elt F)) ]

/-- The whole line: the lists in order. -/
abbrev ops : List (HloOp τ sig (Elt F)) :=
  opsA ++ (opsB ++ (opsC ++ (opsD ++ (opsE1 ++ (opsE2 ++ (opsF ++ (opsG ++ (opsH ++ (opsI ++ (opsJ1 ++ (opsJ2)))))))))))

theorem opsA_sub : (opsA : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub ..⟩

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩

theorem opsC_sub : (opsC : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsD_sub : (opsD : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

theorem opsE1_sub : (opsE1 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., unary_bufs_sub ..⟩

theorem opsE2_sub : (opsE2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩

theorem opsF_sub : (opsF : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsG_sub : (opsG : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

theorem opsH_sub : (opsH : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub ..⟩

theorem opsI_sub : (opsI : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem opsJ1_sub : (opsJ1 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., unary_bufs_sub ..⟩

theorem opsJ2_sub : (opsJ2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩

/-- Every operation of the line touches the device's own buffers only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h
    exacts [List.forall_iff_forall_mem.mp opsA_sub op h, List.forall_iff_forall_mem.mp opsB_sub op h, List.forall_iff_forall_mem.mp opsC_sub op h, List.forall_iff_forall_mem.mp opsD_sub op h, List.forall_iff_forall_mem.mp opsE1_sub op h, List.forall_iff_forall_mem.mp opsE2_sub op h, List.forall_iff_forall_mem.mp opsF_sub op h, List.forall_iff_forall_mem.mp opsG_sub op h, List.forall_iff_forall_mem.mp opsH_sub op h, List.forall_iff_forall_mem.mp opsI_sub op h, List.forall_iff_forall_mem.mp opsJ1_sub op h, List.forall_iff_forall_mem.mp opsJ2_sub op h]

/-- The program's signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-! ## No operation leaves a result undetermined -/

theorem opsA_fresh : ∀ op ∈ (opsA : List (HloOp τ sig (Elt F))), op.fresh = ∅ := by
  intro _ h; (repeat (cases h with | head => rfl | tail _ h => ?_)); exact nomatch h

theorem opsB_fresh : ∀ op ∈ (opsB : List (HloOp τ sig (Elt F))), op.fresh = ∅ := by
  intro _ h; (repeat (cases h with | head => rfl | tail _ h => ?_)); exact nomatch h

theorem opsC_fresh : ∀ op ∈ (opsC : List (HloOp τ sig (Elt F))), op.fresh = ∅ := by
  intro _ h; (repeat (cases h with | head => rfl | tail _ h => ?_)); exact nomatch h

theorem opsD_fresh : ∀ op ∈ (opsD : List (HloOp τ sig (Elt F))), op.fresh = ∅ := by
  intro _ h; (repeat (cases h with | head => rfl | tail _ h => ?_)); exact nomatch h

theorem opsE1_fresh : ∀ op ∈ (opsE1 : List (HloOp τ sig (Elt F))), op.fresh = ∅ := by
  intro _ h; (repeat (cases h with | head => rfl | tail _ h => ?_)); exact nomatch h

theorem opsE2_fresh : ∀ op ∈ (opsE2 : List (HloOp τ sig (Elt F))), op.fresh = ∅ := by
  intro _ h; (repeat (cases h with | head => rfl | tail _ h => ?_)); exact nomatch h

theorem opsF_fresh : ∀ op ∈ (opsF : List (HloOp τ sig (Elt F))), op.fresh = ∅ := by
  intro _ h; (repeat (cases h with | head => rfl | tail _ h => ?_)); exact nomatch h

theorem opsG_fresh : ∀ op ∈ (opsG : List (HloOp τ sig (Elt F))), op.fresh = ∅ := by
  intro _ h; (repeat (cases h with | head => rfl | tail _ h => ?_)); exact nomatch h

theorem opsH_fresh : ∀ op ∈ (opsH : List (HloOp τ sig (Elt F))), op.fresh = ∅ := by
  intro _ h; (repeat (cases h with | head => rfl | tail _ h => ?_)); exact nomatch h

theorem opsI_fresh : ∀ op ∈ (opsI : List (HloOp τ sig (Elt F))), op.fresh = ∅ := by
  intro _ h; (repeat (cases h with | head => rfl | tail _ h => ?_)); exact nomatch h

theorem opsJ1_fresh : ∀ op ∈ (opsJ1 : List (HloOp τ sig (Elt F))), op.fresh = ∅ := by
  intro _ h; (repeat (cases h with | head => rfl | tail _ h => ?_)); exact nomatch h

theorem opsJ2_fresh : ∀ op ∈ (opsJ2 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  simp only [ops, List.mem_append] at h
  rcases h with h | h | h | h | h | h | h | h | h | h | h | h
  exacts [opsA_fresh op h, opsB_fresh op h, opsC_fresh op h, opsD_fresh op h, opsE1_fresh op h, opsE2_fresh op h, opsF_fresh op h, opsG_fresh op h, opsH_fresh op h, opsI_fresh op h, opsJ1_fresh op h, opsJ2_fresh op h]

/-! ## What each list writes

Each operation writes its one result buffer; a buffer outside a list's results keeps its contents through the list,
and a buffer outside all of them keeps them through the whole line. -/

/-- The contents after two lists run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The buffers the list `opsA` writes. -/
abbrev opsA_W : List (Ref sig .tc) := [main_v0, main_v1, main_v2, main_v3, main_v4, main_cst, main_v5, main_cst_0, main_v6, main_v7, main_v8, main_cst_1, main_v9, main_v10, main_v11]
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers the list `opsB` writes. -/
abbrev opsB_W : List (Ref sig .tc) := [main_c, main_v12, main_v13, main_c_2, main_v14, main_v15, main_v16, main_v17, main_v18, main_c_3, main_v19, main_v20, main_c_4, main_v21, main_v22, main_v23, main_v24, main_v25, main_c_5, main_v26, main_v27, main_c_6, main_v28, main_v29, main_v30, main_v31, main_v32, main_v33, main_v34, main_v35, main_v36, main_cst_7, main_v37, main_v38, main_v39, main_v40, main_v41, main_v42, main_v43, main_v44, main_v45, main_v46, main_v47]
theorem opsB_writes : (opsB : List (HloOp τ sig (Elt F))).Forall fun op => op.writes ⊆ (opsB_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers the list `opsC` writes. -/
abbrev opsC_W : List (Ref sig .tc) := [main_cst_8, main_v48, main_cst_9, main_v49, main_v50, main_c_10, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v51]
theorem opsC_writes : (opsC : List (HloOp τ sig (Elt F))).Forall fun op => op.writes ⊆ (opsC_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers the list `opsD` writes. -/
abbrev opsD_W : List (Ref sig .tc) := [main_v52, main_v53, main_v54, main_cst_11, main_v55, main_v56, main_v57, main_v58, main_v59, main_v60, main_v61, main_v62, main_v63, main_v64, main_v65, main_v66, main_call1_cst, main_call1_v0, main_v67, main_v68]
theorem opsD_writes : (opsD : List (HloOp τ sig (Elt F))).Forall fun op => op.writes ⊆ (opsD_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers the list `opsE1` writes. -/
abbrev opsE1_W : List (Ref sig .tc) := [main_v69, main_cst_12, main_v70, main_cst_13, main_v71, main_v72, main_v73, main_cst_14, main_v74, main_v75, main_v76]
theorem opsE1_writes : (opsE1 : List (HloOp τ sig (Elt F))).Forall fun op => op.writes ⊆ (opsE1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers the list `opsE2` writes. -/
abbrev opsE2_W : List (Ref sig .tc) := [main_c_15, main_v77, main_v78, main_c_16, main_v79, main_v80, main_v81, main_v82, main_v83, main_c_17, main_v84, main_v85, main_c_18, main_v86, main_v87, main_v88, main_v89, main_v90, main_c_19, main_v91, main_v92, main_c_20, main_v93, main_v94, main_v95, main_v96, main_v97, main_v98, main_v99, main_v100, main_v101, main_cst_21, main_v102, main_v103, main_v104, main_v105, main_v106, main_v107, main_v108, main_v109, main_v110, main_v111, main_v112]
theorem opsE2_writes : (opsE2 : List (HloOp τ sig (Elt F))).Forall fun op => op.writes ⊆ (opsE2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers the list `opsF` writes. -/
abbrev opsF_W : List (Ref sig .tc) := [main_cst_22, main_v113, main_cst_23, main_v114, main_v115, main_c_24, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v116]
theorem opsF_writes : (opsF : List (HloOp τ sig (Elt F))).Forall fun op => op.writes ⊆ (opsF_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers the list `opsG` writes. -/
abbrev opsG_W : List (Ref sig .tc) := [main_v117, main_v118, main_v119, main_cst_25, main_v120, main_v121, main_v122, main_v123, main_v124, main_v125, main_v126, main_v127, main_v128, main_v129, main_v130, main_v131, main_call3_cst, main_call3_v0, main_v132, main_v133]
theorem opsG_writes : (opsG : List (HloOp τ sig (Elt F))).Forall fun op => op.writes ⊆ (opsG_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers the list `opsH` writes. -/
abbrev opsH_W : List (Ref sig .tc) := [main_v134, main_v135, main_v136, main_v137, main_v138, main_v139, main_v140, main_v141, main_v142]
theorem opsH_writes : (opsH : List (HloOp τ sig (Elt F))).Forall fun op => op.writes ⊆ (opsH_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers the list `opsI` writes. -/
abbrev opsI_W : List (Ref sig .tc) := [main_cst_26, main_v143, main_v144, main_cst_27, main_v145, main_v146, main_c_28, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v147, main_v148, main_v149, main_cst_29, main_v150, main_v151, main_v152, main_v153, main_v154, main_v155, main_v156, main_v157, main_v158, main_v159, main_v160]
theorem opsI_writes : (opsI : List (HloOp τ sig (Elt F))).Forall fun op => op.writes ⊆ (opsI_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers the list `opsJ1` writes. -/
abbrev opsJ1_W : List (Ref sig .tc) := [main_v161, main_cst_30, main_v162, main_cst_31, main_v163, main_v164, main_v165, main_cst_32, main_v166, main_v167, main_v168]
theorem opsJ1_writes : (opsJ1 : List (HloOp τ sig (Elt F))).Forall fun op => op.writes ⊆ (opsJ1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers the list `opsJ2` writes. -/
abbrev opsJ2_W : List (Ref sig .tc) := [main_c_33, main_v169, main_v170, main_c_34, main_v171, main_v172, main_v173, main_v174, main_v175, main_c_35, main_v176, main_v177, main_c_36, main_v178, main_v179, main_v180, main_v181, main_v182, main_c_37, main_v183, main_v184, main_c_38, main_v185, main_v186, main_v187, main_v188, main_v189, main_v190, main_v191, main_v192, main_v193, main_cst_39, main_v194, main_v195, main_v196, main_v197, main_v198, main_v199, main_v200, main_v201, main_v202, main_v203, main_v204]
theorem opsJ2_writes : (opsJ2 : List (HloOp τ sig (Elt F))).Forall fun op => op.writes ⊆ (opsJ2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer none of the lists writes holds at the end what it held at the start. -/
theorem keep (V : Valuation τ sig (Elt F)) (r : Ref sig .tc)
    (hA : r ∉ opsA_W) (hB : r ∉ opsB_W) (hC : r ∉ opsC_W) (hD : r ∉ opsD_W) (hE1 : r ∉ opsE1_W) (hE2 : r ∉ opsE2_W) (hF : r ∉ opsF_W) (hG : r ∉ opsG_W) (hH : r ∉ opsH_W) (hI : r ∉ opsI_W) (hJ1 : r ∉ opsJ1_W) (hJ2 : r ∉ opsJ2_W) :
    after ops V (Proc.devRef .tc r) = V (Proc.devRef .tc r) := by
  simp only [ops, after_app]
  rw [after_of_writes_sub opsJ2 _ opsJ2_writes hJ2,
    after_of_writes_sub opsJ1 _ opsJ1_writes hJ1,
    after_of_writes_sub opsI _ opsI_writes hI,
    after_of_writes_sub opsH _ opsH_writes hH,
    after_of_writes_sub opsG _ opsG_writes hG,
    after_of_writes_sub opsF _ opsF_writes hF,
    after_of_writes_sub opsE2 _ opsE2_writes hE2,
    after_of_writes_sub opsE1 _ opsE1_writes hE1,
    after_of_writes_sub opsD _ opsD_writes hD,
    after_of_writes_sub opsC _ opsC_writes hC,
    after_of_writes_sub opsB _ opsB_writes hB,
    after_of_writes_sub opsA _ opsA_writes hA]

end Cert.ReferenceIdeal.RefRun

end
-- ==== Proof.RefRunWin.lean ====
/-
  The printed reference program, window by window, is a straight line of operations.

  The program is printed in 5 consecutive windows. Each window, with the outlined functions it calls
  unfolded at their calls over the calls' own buffers, is the sequence of the operations listed here: both
  sides are the same chain of steps, so each equation holds by unfolding the definitions.
-/
import proofs.«112374_j17231408792366_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0 of the printed program, calls unfolded (60 operations, from the buffer `main_v0` to `main_v48`). -/
abbrev win0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst (constant S_ .f32 0x3F800000#32),
    StableHlo.unary main_cst main_v5 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v6 (broadcastInDim S100000 ![] bcast_S_S100000 : (⟨S_, .f32⟩ : BufTy).Contents (Elt F) → (⟨S100000, .f32⟩ : BufTy).Contents (Elt F)),
    StableHlo.unary main_v3 main_v7 (broadcastInDim S1600000x1 ![0] bcast_S1600000_S1600000x1_0 : (⟨S1600000, .i32⟩ : BufTy).Contents (Elt F) → (⟨S1600000x1, .i32⟩ : BufTy).Contents (Elt F)),
    StableHlo.ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v8 main_v9 main_v10 (addf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v4 main_v17 main_v18 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_c_3 (constantI S_ 32 0#32),
    StableHlo.unary main_c_3 main_v19 (broadcastInDim S1600000 ![] bcast_S_S1600000 : (⟨S_, .i32⟩ : BufTy).Contents (Elt F) → (⟨S1600000, .i32⟩ : BufTy).Contents (Elt F)),
    StableHlo.binary main_v1 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_v1 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v1 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_5 (constantI S_ 32 0#32),
    StableHlo.unary main_c_5 main_v26 (broadcastInDim S1600000 ![] bcast_S_S1600000 : (⟨S_, .i32⟩ : BufTy).Contents (Elt F) → (⟨S1600000, .i32⟩ : BufTy).Contents (Elt F)),
    StableHlo.binary main_v3 main_v26 main_v27 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v28 (broadcastInDim S1600000 ![] bcast_S_S1600000 : (⟨S_, .i32⟩ : BufTy).Contents (Elt F) → (⟨S1600000, .i32⟩ : BufTy).Contents (Elt F)),
    StableHlo.binary main_v3 main_v28 main_v29 (addi : (⟨S1600000, .i32⟩ : BufTy).Contents (Elt F) → (⟨S1600000, .i32⟩ : BufTy).Contents (Elt F) → (⟨S1600000, .i32⟩ : BufTy).Contents (Elt F)),
    StableHlo.ternary main_v27 main_v29 main_v3 main_v30 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v30 main_v31 (broadcastInDim S1600000x1 ![0] bcast_S1600000_S1600000x1_0 : (⟨S1600000, .i32⟩ : BufTy).Contents (Elt F) → (⟨S1600000x1, .i32⟩ : BufTy).Contents (Elt F)),
    StableHlo.binary main_v11 main_v31 main_v32 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v25 main_v32 main_v33 (mulf : (⟨S1600000, .f32⟩ : BufTy).Contents (Elt F) → (⟨S1600000, .f32⟩ : BufTy).Contents (Elt F) → (⟨S1600000, .f32⟩ : BufTy).Contents (Elt F)),
    StableHlo.unary main_v33 main_v34 (broadcastInDim S1600000x1 ![0] bcast_S1600000_S1600000x1_0 : (⟨S1600000, .f32⟩ : BufTy).Contents (Elt F) → (⟨S1600000x1, .f32⟩ : BufTy).Contents (Elt F)),
    StableHlo.unary main_v34 main_v35 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v18 main_v35 main_v36 (mulf : (⟨S1600000x128, .f32⟩ : BufTy).Contents (Elt F) → (⟨S1600000x128, .f32⟩ : BufTy).Contents (Elt F) → (⟨S1600000x128, .f32⟩ : BufTy).Contents (Elt F)),
    StableHlo.nullary main_cst_7 (constant S_ .f32 0x00000000#32),
    StableHlo.unary main_cst_7 main_v37 (broadcastInDim S100000x128 ![] bcast_S_S100000x128 : (⟨S_, .f32⟩ : BufTy).Contents (Elt F) → (⟨S100000x128, .f32⟩ : BufTy).Contents (Elt F)),
    StableHlo.unary main_v3 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v11 main_v11 main_v40 (mulf : (⟨S100000, .f32⟩ : BufTy).Contents (Elt F) → (⟨S100000, .f32⟩ : BufTy).Contents (Elt F) → (⟨S100000, .f32⟩ : BufTy).Contents (Elt F)),
    StableHlo.unary main_v40 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x128 ![0, 1] bcast_S100000x1_S100000x128_0_1 : (⟨S100000x1, .f32⟩ : BufTy).Contents (Elt F) → (⟨S100000x128, .f32⟩ : BufTy).Contents (Elt F)),
    StableHlo.binary main_v4 main_v42 main_v43 (mulf : (⟨S100000x128, .f32⟩ : BufTy).Contents (Elt F) → (⟨S100000x128, .f32⟩ : BufTy).Contents (Elt F) → (⟨S100000x128, .f32⟩ : BufTy).Contents (Elt F)),
    StableHlo.binary main_v39 main_v43 main_v44 (addf : (⟨S100000x128, .f32⟩ : BufTy).Contents (Elt F) → (⟨S100000x128, .f32⟩ : BufTy).Contents (Elt F) → (⟨S100000x128, .f32⟩ : BufTy).Contents (Elt F)),
    StableHlo.unary main_arg3 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v46 main_v47 (addf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x00000000#32),
    StableHlo.binary main_v47 main_cst_8 main_v48 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ]

/-- The operations of window 1 of the printed program, calls unfolded (83 operations, from the buffer `main_cst_9` to `main_v96`). -/
abbrev win1 : List (HloOp τ sig (Elt F)) :=
  [ StableHlo.nullary main_cst_9 (constant S_ .f32 0x47C35000#32),
    StableHlo.unary main_cst_9 main_v49 (broadcastInDim S128 ![] bcast_S_S128 : (⟨S_, .f32⟩ : BufTy).Contents (Elt F) → (⟨S128, .f32⟩ : BufTy).Contents (Elt F)),
    StableHlo.binary main_v48 main_v49 main_v50 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary (.of main_call0_cst : StableHlo.TRef sig ⟨S_, .f32⟩) (constant S_ .f32 0x00000000#32),
    StableHlo.TRef.binary (.of main_v47 : StableHlo.TRef sig ⟨S100000x128, .f32⟩) (.of main_call0_cst : StableHlo.TRef sig ⟨S_, .f32⟩) (.of main_call0_v0 : StableHlo.TRef sig ⟨S128, .f32⟩) (fun x v => Host.reduceAdd x v reducesTo_S100000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S100000x128, .f32⟩) (broadcastInDim S100000x128 ![0, 1] bcast_S1x128_S100000x128_0_1),
    StableHlo.TRef.binary (.of main_v47 : StableHlo.TRef sig ⟨S100000x128, .f32⟩) (.of main_call0_v4 : StableHlo.TRef sig ⟨S100000x128, .f32⟩) (.of main_call0_v5 : StableHlo.TRef sig ⟨S100000x128, .f32⟩) subf,
    StableHlo.TRef.binary (.of main_call0_v5 : StableHlo.TRef sig ⟨S100000x128, .f32⟩) (.of main_call0_v5 : StableHlo.TRef sig ⟨S100000x128, .f32⟩) (.of main_call0_v6 : StableHlo.TRef sig ⟨S100000x128, .f32⟩) mulf,
    StableHlo.TRef.unary (.of main_c_10 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x128, .f32⟩) (.of main_call0_cst_2 : StableHlo.TRef sig ⟨S_, .f32⟩) (.of main_call0_v9 : StableHlo.TRef sig ⟨S128, .f32⟩) (fun x v => Host.reduceAdd x v reducesTo_S100000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v51 : StableHlo.TRef sig ⟨S128, .f32⟩) (fun p a b => select (broadcastInDim S128 ![] bcast_S_S128 p) a b),
    StableHlo.unary main_v50 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v53 main_v54 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v55 (broadcastInDim S128 ![] bcast_S_S128 : (⟨S_, .f32⟩ : BufTy).Contents (Elt F) → (⟨S128, .f32⟩ : BufTy).Contents (Elt F)),
    StableHlo.binary main_v51 main_v55 main_v56 (addf : (⟨S128, .f32⟩ : BufTy).Contents (Elt F) → (⟨S128, .f32⟩ : BufTy).Contents (Elt F) → (⟨S128, .f32⟩ : BufTy).Contents (Elt F)),
    StableHlo.unary main_v56 main_v57 (Host.rsqrt : (⟨S128, .f32⟩ : BufTy).Contents (Elt F) → (⟨S128, .f32⟩ : BufTy).Contents (Elt F)),
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v59 main_v60 (mulf : (⟨S100000x128, .f32⟩ : BufTy).Contents (Elt F) → (⟨S100000x128, .f32⟩ : BufTy).Contents (Elt F) → (⟨S100000x128, .f32⟩ : BufTy).Contents (Elt F)),
    StableHlo.unary main_arg8 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (mulf : (⟨S100000x128, .f32⟩ : BufTy).Contents (Elt F) → (⟨S100000x128, .f32⟩ : BufTy).Contents (Elt F) → (⟨S100000x128, .f32⟩ : BufTy).Contents (Elt F)),
    StableHlo.unary main_arg9 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v65 main_v66 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x128, .f32⟩) (broadcastInDim S100000x128 ![] bcast_S_S100000x128),
    StableHlo.TRef.binary (.of main_v66 : StableHlo.TRef sig ⟨S100000x128, .f32⟩) (.of main_call1_v0 : StableHlo.TRef sig ⟨S100000x128, .f32⟩) (.of main_v67 : StableHlo.TRef sig ⟨S100000x128, .f32⟩) maximumf,
    StableHlo.binary main_v67 main_arg0 main_v68 (addf : (⟨S100000x128, .f32⟩ : BufTy).Contents (Elt F) → (⟨S100000x128, .f32⟩ : BufTy).Contents (Elt F) → (⟨S100000x128, .f32⟩ : BufTy).Contents (Elt F)),
    StableHlo.binary main_v68 main_arg4 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_12 (constant S_ .f32 0x3F800000#32),
    StableHlo.unary main_cst_12 main_v70 (broadcastInDim S1600000 ![] bcast_S_S1600000 : (⟨S_, .f32⟩ : BufTy).Contents (Elt F) → (⟨S1600000, .f32⟩ : BufTy).Contents (Elt F)),
    StableHlo.nullary main_cst_13 (constant S_ .f32 0x00000000#32),
    StableHlo.unary main_cst_13 main_v71 (broadcastInDim S100000 ![] bcast_S_S100000 : (⟨S_, .f32⟩ : BufTy).Contents (Elt F) → (⟨S100000, .f32⟩ : BufTy).Contents (Elt F)),
    StableHlo.unary main_v3 main_v72 (broadcastInDim S1600000x1 ![0] bcast_S1600000_S1600000x1_0 : (⟨S1600000, .i32⟩ : BufTy).Contents (Elt F) → (⟨S1600000x1, .i32⟩ : BufTy).Contents (Elt F)),
    StableHlo.ternary main_v71 main_v72 main_v70 main_v73 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_14 (constant S_ .f32 0x3F800000#32),
    StableHlo.unary main_cst_14 main_v74 (broadcastInDim S100000 ![] bcast_S_S100000 : (⟨S_, .f32⟩ : BufTy).Contents (Elt F) → (⟨S100000, .f32⟩ : BufTy).Contents (Elt F)),
    StableHlo.binary main_v73 main_v74 main_v75 (addf : (⟨S100000, .f32⟩ : BufTy).Contents (Elt F) → (⟨S100000, .f32⟩ : BufTy).Contents (Elt F) → (⟨S100000, .f32⟩ : BufTy).Contents (Elt F)),
    StableHlo.unary main_v75 main_v76 (Host.rsqrt : (⟨S100000, .f32⟩ : BufTy).Contents (Elt F) → (⟨S100000, .f32⟩ : BufTy).Contents (Elt F)),
    StableHlo.nullary main_c_15 (constantI S_ 32 0#32),
    StableHlo.unary main_c_15 main_v77 (broadcastInDim S1600000 ![] bcast_S_S1600000 : (⟨S_, .i32⟩ : BufTy).Contents (Elt F) → (⟨S1600000, .i32⟩ : BufTy).Contents (Elt F)),
    StableHlo.binary main_v1 main_v77 main_v78 (cmpi .slt : (⟨S1600000, .i32⟩ : BufTy).Contents (Elt F) → (⟨S1600000, .i32⟩ : BufTy).Contents (Elt F) → (⟨S1600000, .i1⟩ : BufTy).Contents (Elt F)),
    StableHlo.nullary main_c_16 (constantI S_ 32 100000#32),
    StableHlo.unary main_c_16 main_v79 (broadcastInDim S1600000 ![] bcast_S_S1600000 : (⟨S_, .i32⟩ : BufTy).Contents (Elt F) → (⟨S1600000, .i32⟩ : BufTy).Contents (Elt F)),
    StableHlo.binary main_v1 main_v79 main_v80 (addi : (⟨S1600000, .i32⟩ : BufTy).Contents (Elt F) → (⟨S1600000, .i32⟩ : BufTy).Contents (Elt F) → (⟨S1600000, .i32⟩ : BufTy).Contents (Elt F)),
    StableHlo.ternary main_v78 main_v80 main_v1 main_v81 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v81 main_v82 (broadcastInDim S1600000x1 ![0] bcast_S1600000_S1600000x1_0 : (⟨S1600000, .i32⟩ : BufTy).Contents (Elt F) → (⟨S1600000x1, .i32⟩ : BufTy).Contents (Elt F)),
    StableHlo.binary main_v69 main_v82 main_v83 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_c_17 (constantI S_ 32 0#32),
    StableHlo.unary main_c_17 main_v84 (broadcastInDim S1600000 ![] bcast_S_S1600000 : (⟨S_, .i32⟩ : BufTy).Contents (Elt F) → (⟨S1600000, .i32⟩ : BufTy).Contents (Elt F)),
    StableHlo.binary main_v1 main_v84 main_v85 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 100000#32),
    StableHlo.unary main_c_18 main_v86 (broadcastInDim S1600000 ![] bcast_S_S1600000 : (⟨S_, .i32⟩ : BufTy).Contents (Elt F) → (⟨S1600000, .i32⟩ : BufTy).Contents (Elt F)),
    StableHlo.binary main_v1 main_v86 main_v87 (addi : (⟨S1600000, .i32⟩ : BufTy).Contents (Elt F) → (⟨S1600000, .i32⟩ : BufTy).Contents (Elt F) → (⟨S1600000, .i32⟩ : BufTy).Contents (Elt F)),
    StableHlo.ternary main_v85 main_v87 main_v1 main_v88 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v88 main_v89 (broadcastInDim S1600000x1 ![0] bcast_S1600000_S1600000x1_0 : (⟨S1600000, .i32⟩ : BufTy).Contents (Elt F) → (⟨S1600000x1, .i32⟩ : BufTy).Contents (Elt F)),
    StableHlo.binary main_v76 main_v89 main_v90 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_19 (constantI S_ 32 0#32),
    StableHlo.unary main_c_19 main_v91 (broadcastInDim S1600000 ![] bcast_S_S1600000 : (⟨S_, .i32⟩ : BufTy).Contents (Elt F) → (⟨S1600000, .i32⟩ : BufTy).Contents (Elt F)),
    StableHlo.binary main_v3 main_v91 main_v92 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v93 (broadcastInDim S1600000 ![] bcast_S_S1600000 : (⟨S_, .i32⟩ : BufTy).Contents (Elt F) → (⟨S1600000, .i32⟩ : BufTy).Contents (Elt F)),
    StableHlo.binary main_v3 main_v93 main_v94 (addi : (⟨S1600000, .i32⟩ : BufTy).Contents (Elt F) → (⟨S1600000, .i32⟩ : BufTy).Contents (Elt F) → (⟨S1600000, .i32⟩ : BufTy).Contents (Elt F)),
    StableHlo.ternary main_v92 main_v94 main_v3 main_v95 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v95 main_v96 (broadcastInDim S1600000x1 ![0] bcast_S1600000_S1600000x1_0 : (⟨S1600000, .i32⟩ : BufTy).Contents (Elt F) → (⟨S1600000x1, .i32⟩ : BufTy).Contents (Elt F)) ]

/-- The operations of window 2 of the printed program, calls unfolded (105 operations, from the buffer `main_v97` to `main_v148`). -/
abbrev win2 : List (HloOp τ sig (Elt F)) :=
  [ StableHlo.binary main_v76 main_v96 main_v97 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v90 main_v97 main_v98 (mulf : (⟨S1600000, .f32⟩ : BufTy).Contents (Elt F) → (⟨S1600000, .f32⟩ : BufTy).Contents (Elt F) → (⟨S1600000, .f32⟩ : BufTy).Contents (Elt F)),
    StableHlo.unary main_v98 main_v99 (broadcastInDim S1600000x1 ![0] bcast_S1600000_S1600000x1_0 : (⟨S1600000, .f32⟩ : BufTy).Contents (Elt F) → (⟨S1600000x1, .f32⟩ : BufTy).Contents (Elt F)),
    StableHlo.unary main_v99 main_v100 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v83 main_v100 main_v101 (mulf : (⟨S1600000x128, .f32⟩ : BufTy).Contents (Elt F) → (⟨S1600000x128, .f32⟩ : BufTy).Contents (Elt F) → (⟨S1600000x128, .f32⟩ : BufTy).Contents (Elt F)),
    StableHlo.nullary main_cst_21 (constant S_ .f32 0x00000000#32),
    StableHlo.unary main_cst_21 main_v102 (broadcastInDim S100000x128 ![] bcast_S_S100000x128 : (⟨S_, .f32⟩ : BufTy).Contents (Elt F) → (⟨S100000x128, .f32⟩ : BufTy).Contents (Elt F)),
    StableHlo.unary main_v3 main_v103 (broadcastInDim S1600000x1 ![0] bcast_S1600000_S1600000x1_0 : (⟨S1600000, .i32⟩ : BufTy).Contents (Elt F) → (⟨S1600000x1, .i32⟩ : BufTy).Contents (Elt F)),
    StableHlo.ternary main_v102 main_v103 main_v101 main_v104 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v76 main_v76 main_v105 (mulf : (⟨S100000, .f32⟩ : BufTy).Contents (Elt F) → (⟨S100000, .f32⟩ : BufTy).Contents (Elt F) → (⟨S100000, .f32⟩ : BufTy).Contents (Elt F)),
    StableHlo.unary main_v105 main_v106 (broadcastInDim S100000x1 ![0] bcast_S100000_S100000x1_0 : (⟨S100000, .f32⟩ : BufTy).Contents (Elt F) → (⟨S100000x1, .f32⟩ : BufTy).Contents (Elt F)),
    StableHlo.unary main_v106 main_v107 (broadcastInDim S100000x128 ![0, 1] bcast_S100000x1_S100000x128_0_1 : (⟨S100000x1, .f32⟩ : BufTy).Contents (Elt F) → (⟨S100000x128, .f32⟩ : BufTy).Contents (Elt F)),
    StableHlo.binary main_v69 main_v107 main_v108 (mulf : (⟨S100000x128, .f32⟩ : BufTy).Contents (Elt F) → (⟨S100000x128, .f32⟩ : BufTy).Contents (Elt F) → (⟨S100000x128, .f32⟩ : BufTy).Contents (Elt F)),
    StableHlo.binary main_v104 main_v108 main_v109 (addf : (⟨S100000x128, .f32⟩ : BufTy).Contents (Elt F) → (⟨S100000x128, .f32⟩ : BufTy).Contents (Elt F) → (⟨S100000x128, .f32⟩ : BufTy).Contents (Elt F)),
    StableHlo.unary main_arg5 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S100000x128 ![0, 1] bcast_S1x128_S100000x128_0_1 : (⟨S1x128, .f32⟩ : BufTy).Contents (Elt F) → (⟨S100000x128, .f32⟩ : BufTy).Contents (Elt F)),
    StableHlo.binary main_v109 main_v111 main_v112 (addf : (⟨S100000x128, .f32⟩ : BufTy).Contents (Elt F) → (⟨S100000x128, .f32⟩ : BufTy).Contents (Elt F) → (⟨S100000x128, .f32⟩ : BufTy).Contents (Elt F)),
    StableHlo.nullary main_cst_22 (constant S_ .f32 0x00000000#32),
    StableHlo.binary main_v112 main_cst_22 main_v113 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_23 (constant S_ .f32 0x47C35000#32),
    StableHlo.unary main_cst_23 main_v114 (broadcastInDim S128 ![] bcast_S_S128 : (⟨S_, .f32⟩ : BufTy).Contents (Elt F) → (⟨S128, .f32⟩ : BufTy).Contents (Elt F)),
    StableHlo.binary main_v113 main_v114 main_v115 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary (.of main_call2_cst : StableHlo.TRef sig ⟨S_, .f32⟩) (constant S_ .f32 0x00000000#32),
    StableHlo.TRef.binary (.of main_v112 : StableHlo.TRef sig ⟨S100000x128, .f32⟩) (.of main_call2_cst : StableHlo.TRef sig ⟨S_, .f32⟩) (.of main_call2_v0 : StableHlo.TRef sig ⟨S128, .f32⟩) (fun x v => Host.reduceAdd x v reducesTo_S100000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S100000x128, .f32⟩) (broadcastInDim S100000x128 ![0, 1] bcast_S1x128_S100000x128_0_1),
    StableHlo.TRef.binary (.of main_v112 : StableHlo.TRef sig ⟨S100000x128, .f32⟩) (.of main_call2_v4 : StableHlo.TRef sig ⟨S100000x128, .f32⟩) (.of main_call2_v5 : StableHlo.TRef sig ⟨S100000x128, .f32⟩) subf,
    StableHlo.TRef.binary (.of main_call2_v5 : StableHlo.TRef sig ⟨S100000x128, .f32⟩) (.of main_call2_v5 : StableHlo.TRef sig ⟨S100000x128, .f32⟩) (.of main_call2_v6 : StableHlo.TRef sig ⟨S100000x128, .f32⟩) mulf,
    StableHlo.TRef.unary (.of main_c_24 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x128, .f32⟩) (.of main_call2_cst_2 : StableHlo.TRef sig ⟨S_, .f32⟩) (.of main_call2_v9 : StableHlo.TRef sig ⟨S128, .f32⟩) (fun x v => Host.reduceAdd x v reducesTo_S100000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v116 : StableHlo.TRef sig ⟨S128, .f32⟩) (fun p a b => select (broadcastInDim S128 ![] bcast_S_S128 p) a b),
    StableHlo.unary main_v115 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S100000x128 ![0, 1] bcast_S1x128_S100000x128_0_1 : (⟨S1x128, .f32⟩ : BufTy).Contents (Elt F) → (⟨S100000x128, .f32⟩ : BufTy).Contents (Elt F)),
    StableHlo.binary main_v112 main_v118 main_v119 (subf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x3727C5AC#32),
    StableHlo.unary main_cst_25 main_v120 (broadcastInDim S128 ![] bcast_S_S128 : (⟨S_, .f32⟩ : BufTy).Contents (Elt F) → (⟨S128, .f32⟩ : BufTy).Contents (Elt F)),
    StableHlo.binary main_v116 main_v120 main_v121 (addf : (⟨S128, .f32⟩ : BufTy).Contents (Elt F) → (⟨S128, .f32⟩ : BufTy).Contents (Elt F) → (⟨S128, .f32⟩ : BufTy).Contents (Elt F)),
    StableHlo.unary main_v121 main_v122 (Host.rsqrt : (⟨S128, .f32⟩ : BufTy).Contents (Elt F) → (⟨S128, .f32⟩ : BufTy).Contents (Elt F)),
    StableHlo.unary main_v122 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v124 main_v125 (mulf : (⟨S100000x128, .f32⟩ : BufTy).Contents (Elt F) → (⟨S100000x128, .f32⟩ : BufTy).Contents (Elt F) → (⟨S100000x128, .f32⟩ : BufTy).Contents (Elt F)),
    StableHlo.unary main_arg10 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S100000x128 ![0, 1] bcast_S1x128_S100000x128_0_1 : (⟨S1x128, .f32⟩ : BufTy).Contents (Elt F) → (⟨S100000x128, .f32⟩ : BufTy).Contents (Elt F)),
    StableHlo.binary main_v125 main_v127 main_v128 (mulf : (⟨S100000x128, .f32⟩ : BufTy).Contents (Elt F) → (⟨S100000x128, .f32⟩ : BufTy).Contents (Elt F) → (⟨S100000x128, .f32⟩ : BufTy).Contents (Elt F)),
    StableHlo.unary main_arg11 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S100000x128 ![0, 1] bcast_S1x128_S100000x128_0_1 : (⟨S1x128, .f32⟩ : BufTy).Contents (Elt F) → (⟨S100000x128, .f32⟩ : BufTy).Contents (Elt F)),
    StableHlo.binary main_v128 main_v130 main_v131 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x128, .f32⟩) (broadcastInDim S100000x128 ![] bcast_S_S100000x128),
    StableHlo.TRef.binary (.of main_v131 : StableHlo.TRef sig ⟨S100000x128, .f32⟩) (.of main_call3_v0 : StableHlo.TRef sig ⟨S100000x128, .f32⟩) (.of main_v132 : StableHlo.TRef sig ⟨S100000x128, .f32⟩) maximumf,
    StableHlo.binary main_v132 main_v68 main_v133 (addf : (⟨S100000x128, .f32⟩ : BufTy).Contents (Elt F) → (⟨S100000x128, .f32⟩ : BufTy).Contents (Elt F) → (⟨S100000x128, .f32⟩ : BufTy).Contents (Elt F)),
    StableHlo.binary main_v133 main_arg12 main_v134 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg13 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S100000x128 ![0, 1] bcast_S1x128_S100000x128_0_1 : (⟨S1x128, .f32⟩ : BufTy).Contents (Elt F) → (⟨S100000x128, .f32⟩ : BufTy).Contents (Elt F)),
    StableHlo.binary main_v134 main_v136 main_v137 (addf : (⟨S100000x128, .f32⟩ : BufTy).Contents (Elt F) → (⟨S100000x128, .f32⟩ : BufTy).Contents (Elt F) → (⟨S100000x128, .f32⟩ : BufTy).Contents (Elt F)),
    StableHlo.binary main_v137 main_arg14 main_v138 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg15 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S100000x128 ![0, 1] bcast_S1x128_S100000x128_0_1 : (⟨S1x128, .f32⟩ : BufTy).Contents (Elt F) → (⟨S100000x128, .f32⟩ : BufTy).Contents (Elt F)),
    StableHlo.binary main_v138 main_v140 main_v141 (addf : (⟨S100000x128, .f32⟩ : BufTy).Contents (Elt F) → (⟨S100000x128, .f32⟩ : BufTy).Contents (Elt F) → (⟨S100000x128, .f32⟩ : BufTy).Contents (Elt F)),
    StableHlo.binary main_v133 main_v141 main_v142 (addf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x00000000#32),
    StableHlo.binary main_v142 main_cst_26 main_v143 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v143 main_v144 (broadcastInDim S100000x1 ![0] bcast_S100000_S100000x1_0 : (⟨S100000, .f32⟩ : BufTy).Contents (Elt F) → (⟨S100000x1, .f32⟩ : BufTy).Contents (Elt F)),
    StableHlo.nullary main_cst_27 (constant S_ .f32 0x43000000#32),
    StableHlo.unary main_cst_27 main_v145 (broadcastInDim S100000x1 ![] bcast_S_S100000x1 : (⟨S_, .f32⟩ : BufTy).Contents (Elt F) → (⟨S100000x1, .f32⟩ : BufTy).Contents (Elt F)),
    StableHlo.binary main_v144 main_v145 main_v146 (Host.divf : (⟨S100000x1, .f32⟩ : BufTy).Contents (Elt F) → (⟨S100000x1, .f32⟩ : BufTy).Contents (Elt F) → (⟨S100000x1, .f32⟩ : BufTy).Contents (Elt F)),
    StableHlo.nullary main_c_28 (constantI S_ 32 0#32),
    StableHlo.TRef.nullary (.of main_call4_cst : StableHlo.TRef sig ⟨S_, .f32⟩) (constant S_ .f32 0x00000000#32),
    StableHlo.TRef.binary (.of main_v142 : StableHlo.TRef sig ⟨S100000x128, .f32⟩) (.of main_call4_cst : StableHlo.TRef sig ⟨S_, .f32⟩) (.of main_call4_v0 : StableHlo.TRef sig ⟨S100000, .f32⟩) (fun x v => Host.reduceAdd x v reducesTo_S100000x128_S100000_d1 h_S_),
    StableHlo.TRef.unary (.of main_call4_v0 : StableHlo.TRef sig ⟨S100000, .f32⟩) (.of main_call4_v1 : StableHlo.TRef sig ⟨S100000x1, .f32⟩) (broadcastInDim S100000x1 ![0] bcast_S100000_S100000x1_0),
    StableHlo.TRef.nullary (.of main_call4_cst_0 : StableHlo.TRef sig ⟨S_, .f32⟩) (constant S_ .f32 0x43000000#32),
    StableHlo.TRef.unary (.of main_call4_cst_0 : StableHlo.TRef sig ⟨S_, .f32⟩) (.of main_call4_v2 : StableHlo.TRef sig ⟨S100000x1, .f32⟩) (broadcastInDim S100000x1 ![] bcast_S_S100000x1),
    StableHlo.TRef.binary (.of main_call4_v1 : StableHlo.TRef sig ⟨S100000x1, .f32⟩) (.of main_call4_v2 : StableHlo.TRef sig ⟨S100000x1, .f32⟩) (.of main_call4_v3 : StableHlo.TRef sig ⟨S100000x1, .f32⟩) Host.divf,
    StableHlo.TRef.unary (.of main_call4_v3 : StableHlo.TRef sig ⟨S100000x1, .f32⟩) (.of main_call4_v4 : StableHlo.TRef sig ⟨S100000x128, .f32⟩) (broadcastInDim S100000x128 ![0, 1] bcast_S100000x1_S100000x128_0_1),
    StableHlo.TRef.binary (.of main_v142 : StableHlo.TRef sig ⟨S100000x128, .f32⟩) (.of main_call4_v4 : StableHlo.TRef sig ⟨S100000x128, .f32⟩) (.of main_call4_v5 : StableHlo.TRef sig ⟨S100000x128, .f32⟩) subf,
    StableHlo.TRef.binary (.of main_call4_v5 : StableHlo.TRef sig ⟨S100000x128, .f32⟩) (.of main_call4_v5 : StableHlo.TRef sig ⟨S100000x128, .f32⟩) (.of main_call4_v6 : StableHlo.TRef sig ⟨S100000x128, .f32⟩) mulf,
    StableHlo.TRef.unary (.of main_c_28 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x43000000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x128, .f32⟩) (.of main_call4_cst_2 : StableHlo.TRef sig ⟨S_, .f32⟩) (.of main_call4_v9 : StableHlo.TRef sig ⟨S100000, .f32⟩) (fun x v => Host.reduceAdd x v reducesTo_S100000x128_S100000_d1 h_S_),
    StableHlo.TRef.unary (.of main_call4_v9 : StableHlo.TRef sig ⟨S100000, .f32⟩) (.of main_call4_v10 : StableHlo.TRef sig ⟨S100000x1, .f32⟩) (broadcastInDim S100000x1 ![0] bcast_S100000_S100000x1_0),
    StableHlo.TRef.unary (.of main_call4_v8 : StableHlo.TRef sig ⟨S_, .f32⟩) (.of main_call4_v11 : StableHlo.TRef sig ⟨S100000x1, .f32⟩) (broadcastInDim S100000x1 ![] bcast_S_S100000x1),
    StableHlo.TRef.binary (.of main_call4_v10 : StableHlo.TRef sig ⟨S100000x1, .f32⟩) (.of main_call4_v11 : StableHlo.TRef sig ⟨S100000x1, .f32⟩) (.of main_call4_v12 : StableHlo.TRef sig ⟨S100000x1, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v13 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S100000x1, .f32⟩) (broadcastInDim S100000x1 ![] bcast_S_S100000x1),
    StableHlo.TRef.ternary (.of main_call4_v13 : StableHlo.TRef sig ⟨S_, .i1⟩) (.of main_call4_v12 : StableHlo.TRef sig ⟨S100000x1, .f32⟩) (.of main_call4_call0_v1 : StableHlo.TRef sig ⟨S100000x1, .f32⟩) (.of main_v147 : StableHlo.TRef sig ⟨S100000x1, .f32⟩) (fun p a b => select (broadcastInDim S100000x1 ![] bcast_S_S100000x1 p) a b),
    StableHlo.unary main_v146 main_v148 (broadcastInDim S100000x128 ![0, 1] bcast_S100000x1_S100000x128_0_1 : (⟨S100000x1, .f32⟩ : BufTy).Contents (Elt F) → (⟨S100000x128, .f32⟩ : BufTy).Contents (Elt F)) ]

/-- The operations of window 3 of the printed program, calls unfolded (60 operations, from the buffer `main_v149` to `main_v197`). -/
abbrev win3 : List (HloOp τ sig (Elt F)) :=
  [ StableHlo.binary main_v142 main_v148 main_v149 (subf : (⟨S100000x128, .f32⟩ : BufTy).Contents (Elt F) → (⟨S100000x128, .f32⟩ : BufTy).Contents (Elt F) → (⟨S100000x128, .f32⟩ : BufTy).Contents (Elt F)),
    StableHlo.nullary main_cst_29 (constant S_ .f32 0x3727C5AC#32),
    StableHlo.unary main_cst_29 main_v150 (broadcastInDim S100000x1 ![] bcast_S_S100000x1 : (⟨S_, .f32⟩ : BufTy).Contents (Elt F) → (⟨S100000x1, .f32⟩ : BufTy).Contents (Elt F)),
    StableHlo.binary main_v147 main_v150 main_v151 (addf : (⟨S100000x1, .f32⟩ : BufTy).Contents (Elt F) → (⟨S100000x1, .f32⟩ : BufTy).Contents (Elt F) → (⟨S100000x1, .f32⟩ : BufTy).Contents (Elt F)),
    StableHlo.unary main_v151 main_v152 (Host.rsqrt : (⟨S100000x1, .f32⟩ : BufTy).Contents (Elt F) → (⟨S100000x1, .f32⟩ : BufTy).Contents (Elt F)),
    StableHlo.unary main_v152 main_v153 (broadcastInDim S100000x128 ![0, 1] bcast_S100000x1_S100000x128_0_1 : (⟨S100000x1, .f32⟩ : BufTy).Contents (Elt F) → (⟨S100000x128, .f32⟩ : BufTy).Contents (Elt F)),
    StableHlo.binary main_v149 main_v153 main_v154 (mulf : (⟨S100000x128, .f32⟩ : BufTy).Contents (Elt F) → (⟨S100000x128, .f32⟩ : BufTy).Contents (Elt F) → (⟨S100000x128, .f32⟩ : BufTy).Contents (Elt F)),
    StableHlo.unary main_arg16 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S100000x128 ![0, 1] bcast_S1x128_S100000x128_0_1 : (⟨S1x128, .f32⟩ : BufTy).Contents (Elt F) → (⟨S100000x128, .f32⟩ : BufTy).Contents (Elt F)),
    StableHlo.binary main_v154 main_v156 main_v157 (mulf : (⟨S100000x128, .f32⟩ : BufTy).Contents (Elt F) → (⟨S100000x128, .f32⟩ : BufTy).Contents (Elt F) → (⟨S100000x128, .f32⟩ : BufTy).Contents (Elt F)),
    StableHlo.unary main_arg17 main_v158 (broadcastInDim S1x128 ![1] bcast_S128_S1x128_1 : (⟨S128, .f32⟩ : BufTy).Contents (Elt F) → (⟨S1x128, .f32⟩ : BufTy).Contents (Elt F)),
    StableHlo.unary main_v158 main_v159 (broadcastInDim S100000x128 ![0, 1] bcast_S1x128_S100000x128_0_1 : (⟨S1x128, .f32⟩ : BufTy).Contents (Elt F) → (⟨S100000x128, .f32⟩ : BufTy).Contents (Elt F)),
    StableHlo.binary main_v157 main_v159 main_v160 (addf : (⟨S100000x128, .f32⟩ : BufTy).Contents (Elt F) → (⟨S100000x128, .f32⟩ : BufTy).Contents (Elt F) → (⟨S100000x128, .f32⟩ : BufTy).Contents (Elt F)),
    StableHlo.binary main_v160 main_arg6 main_v161 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_30 (constant S_ .f32 0x3F800000#32),
    StableHlo.unary main_cst_30 main_v162 (broadcastInDim S1600000 ![] bcast_S_S1600000 : (⟨S_, .f32⟩ : BufTy).Contents (Elt F) → (⟨S1600000, .f32⟩ : BufTy).Contents (Elt F)),
    StableHlo.nullary main_cst_31 (constant S_ .f32 0x00000000#32),
    StableHlo.unary main_cst_31 main_v163 (broadcastInDim S100000 ![] bcast_S_S100000 : (⟨S_, .f32⟩ : BufTy).Contents (Elt F) → (⟨S100000, .f32⟩ : BufTy).Contents (Elt F)),
    StableHlo.unary main_v3 main_v164 (broadcastInDim S1600000x1 ![0] bcast_S1600000_S1600000x1_0 : (⟨S1600000, .i32⟩ : BufTy).Contents (Elt F) → (⟨S1600000x1, .i32⟩ : BufTy).Contents (Elt F)),
    StableHlo.ternary main_v163 main_v164 main_v162 main_v165 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_32 (constant S_ .f32 0x3F800000#32),
    StableHlo.unary main_cst_32 main_v166 (broadcastInDim S100000 ![] bcast_S_S100000 : (⟨S_, .f32⟩ : BufTy).Contents (Elt F) → (⟨S100000, .f32⟩ : BufTy).Contents (Elt F)),
    StableHlo.binary main_v165 main_v166 main_v167 (addf : (⟨S100000, .f32⟩ : BufTy).Contents (Elt F) → (⟨S100000, .f32⟩ : BufTy).Contents (Elt F) → (⟨S100000, .f32⟩ : BufTy).Contents (Elt F)),
    StableHlo.unary main_v167 main_v168 (Host.rsqrt : (⟨S100000, .f32⟩ : BufTy).Contents (Elt F) → (⟨S100000, .f32⟩ : BufTy).Contents (Elt F)),
    StableHlo.nullary main_c_33 (constantI S_ 32 0#32),
    StableHlo.unary main_c_33 main_v169 (broadcastInDim S1600000 ![] bcast_S_S1600000 : (⟨S_, .i32⟩ : BufTy).Contents (Elt F) → (⟨S1600000, .i32⟩ : BufTy).Contents (Elt F)),
    StableHlo.binary main_v1 main_v169 main_v170 (cmpi .slt : (⟨S1600000, .i32⟩ : BufTy).Contents (Elt F) → (⟨S1600000, .i32⟩ : BufTy).Contents (Elt F) → (⟨S1600000, .i1⟩ : BufTy).Contents (Elt F)),
    StableHlo.nullary main_c_34 (constantI S_ 32 100000#32),
    StableHlo.unary main_c_34 main_v171 (broadcastInDim S1600000 ![] bcast_S_S1600000 : (⟨S_, .i32⟩ : BufTy).Contents (Elt F) → (⟨S1600000, .i32⟩ : BufTy).Contents (Elt F)),
    StableHlo.binary main_v1 main_v171 main_v172 (addi : (⟨S1600000, .i32⟩ : BufTy).Contents (Elt F) → (⟨S1600000, .i32⟩ : BufTy).Contents (Elt F) → (⟨S1600000, .i32⟩ : BufTy).Contents (Elt F)),
    StableHlo.ternary main_v170 main_v172 main_v1 main_v173 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v173 main_v174 (broadcastInDim S1600000x1 ![0] bcast_S1600000_S1600000x1_0 : (⟨S1600000, .i32⟩ : BufTy).Contents (Elt F) → (⟨S1600000x1, .i32⟩ : BufTy).Contents (Elt F)),
    StableHlo.binary main_v161 main_v174 main_v175 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_c_35 (constantI S_ 32 0#32),
    StableHlo.unary main_c_35 main_v176 (broadcastInDim S1600000 ![] bcast_S_S1600000 : (⟨S_, .i32⟩ : BufTy).Contents (Elt F) → (⟨S1600000, .i32⟩ : BufTy).Contents (Elt F)),
    StableHlo.binary main_v1 main_v176 main_v177 (cmpi .slt : (⟨S1600000, .i32⟩ : BufTy).Contents (Elt F) → (⟨S1600000, .i32⟩ : BufTy).Contents (Elt F) → (⟨S1600000, .i1⟩ : BufTy).Contents (Elt F)),
    StableHlo.nullary main_c_36 (constantI S_ 32 100000#32),
    StableHlo.unary main_c_36 main_v178 (broadcastInDim S1600000 ![] bcast_S_S1600000 : (⟨S_, .i32⟩ : BufTy).Contents (Elt F) → (⟨S1600000, .i32⟩ : BufTy).Contents (Elt F)),
    StableHlo.binary main_v1 main_v178 main_v179 (addi : (⟨S1600000, .i32⟩ : BufTy).Contents (Elt F) → (⟨S1600000, .i32⟩ : BufTy).Contents (Elt F) → (⟨S1600000, .i32⟩ : BufTy).Contents (Elt F)),
    StableHlo.ternary main_v177 main_v179 main_v1 main_v180 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v180 main_v181 (broadcastInDim S1600000x1 ![0] bcast_S1600000_S1600000x1_0 : (⟨S1600000, .i32⟩ : BufTy).Contents (Elt F) → (⟨S1600000x1, .i32⟩ : BufTy).Contents (Elt F)),
    StableHlo.binary main_v168 main_v181 main_v182 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_37 (constantI S_ 32 0#32),
    StableHlo.unary main_c_37 main_v183 (broadcastInDim S1600000 ![] bcast_S_S1600000 : (⟨S_, .i32⟩ : BufTy).Contents (Elt F) → (⟨S1600000, .i32⟩ : BufTy).Contents (Elt F)),
    StableHlo.binary main_v3 main_v183 main_v184 (cmpi .slt : (⟨S1600000, .i32⟩ : BufTy).Contents (Elt F) → (⟨S1600000, .i32⟩ : BufTy).Contents (Elt F) → (⟨S1600000, .i1⟩ : BufTy).Contents (Elt F)),
    StableHlo.nullary main_c_38 (constantI S_ 32 100000#32),
    StableHlo.unary main_c_38 main_v185 (broadcastInDim S1600000 ![] bcast_S_S1600000 : (⟨S_, .i32⟩ : BufTy).Contents (Elt F) → (⟨S1600000, .i32⟩ : BufTy).Contents (Elt F)),
    StableHlo.binary main_v3 main_v185 main_v186 (addi : (⟨S1600000, .i32⟩ : BufTy).Contents (Elt F) → (⟨S1600000, .i32⟩ : BufTy).Contents (Elt F) → (⟨S1600000, .i32⟩ : BufTy).Contents (Elt F)),
    StableHlo.ternary main_v184 main_v186 main_v3 main_v187 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v187 main_v188 (broadcastInDim S1600000x1 ![0] bcast_S1600000_S1600000x1_0 : (⟨S1600000, .i32⟩ : BufTy).Contents (Elt F) → (⟨S1600000x1, .i32⟩ : BufTy).Contents (Elt F)),
    StableHlo.binary main_v168 main_v188 main_v189 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v182 main_v189 main_v190 (mulf : (⟨S1600000, .f32⟩ : BufTy).Contents (Elt F) → (⟨S1600000, .f32⟩ : BufTy).Contents (Elt F) → (⟨S1600000, .f32⟩ : BufTy).Contents (Elt F)),
    StableHlo.unary main_v190 main_v191 (broadcastInDim S1600000x1 ![0] bcast_S1600000_S1600000x1_0 : (⟨S1600000, .f32⟩ : BufTy).Contents (Elt F) → (⟨S1600000x1, .f32⟩ : BufTy).Contents (Elt F)),
    StableHlo.unary main_v191 main_v192 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v175 main_v192 main_v193 (mulf : (⟨S1600000x128, .f32⟩ : BufTy).Contents (Elt F) → (⟨S1600000x128, .f32⟩ : BufTy).Contents (Elt F) → (⟨S1600000x128, .f32⟩ : BufTy).Contents (Elt F)),
    StableHlo.nullary main_cst_39 (constant S_ .f32 0x00000000#32),
    StableHlo.unary main_cst_39 main_v194 (broadcastInDim S100000x128 ![] bcast_S_S100000x128 : (⟨S_, .f32⟩ : BufTy).Contents (Elt F) → (⟨S100000x128, .f32⟩ : BufTy).Contents (Elt F)),
    StableHlo.unary main_v3 main_v195 (broadcastInDim S1600000x1 ![0] bcast_S1600000_S1600000x1_0 : (⟨S1600000, .i32⟩ : BufTy).Contents (Elt F) → (⟨S1600000x1, .i32⟩ : BufTy).Contents (Elt F)),
    StableHlo.ternary main_v194 main_v195 main_v193 main_v196 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v168 main_v168 main_v197 (mulf : (⟨S100000, .f32⟩ : BufTy).Contents (Elt F) → (⟨S100000, .f32⟩ : BufTy).Contents (Elt F) → (⟨S100000, .f32⟩ : BufTy).Contents (Elt F)) ]

/-- The operations of window 4 of the printed program, calls unfolded (7 operations, from the buffer `main_v198` to `main_v204`). -/
abbrev win4 : List (HloOp τ sig (Elt F)) :=
  [ StableHlo.unary main_v197 main_v198 (broadcastInDim S100000x1 ![0] bcast_S100000_S100000x1_0 : (⟨S100000, .f32⟩ : BufTy).Contents (Elt F) → (⟨S100000x1, .f32⟩ : BufTy).Contents (Elt F)),
    StableHlo.unary main_v198 main_v199 (broadcastInDim S100000x128 ![0, 1] bcast_S100000x1_S100000x128_0_1 : (⟨S100000x1, .f32⟩ : BufTy).Contents (Elt F) → (⟨S100000x128, .f32⟩ : BufTy).Contents (Elt F)),
    StableHlo.binary main_v161 main_v199 main_v200 (mulf : (⟨S100000x128, .f32⟩ : BufTy).Contents (Elt F) → (⟨S100000x128, .f32⟩ : BufTy).Contents (Elt F) → (⟨S100000x128, .f32⟩ : BufTy).Contents (Elt F)),
    StableHlo.binary main_v196 main_v200 main_v201 (addf : (⟨S100000x128, .f32⟩ : BufTy).Contents (Elt F) → (⟨S100000x128, .f32⟩ : BufTy).Contents (Elt F) → (⟨S100000x128, .f32⟩ : BufTy).Contents (Elt F)),
    StableHlo.unary main_arg7 main_v202 (broadcastInDim S1x128 ![1] bcast_S128_S1x128_1 : (⟨S128, .f32⟩ : BufTy).Contents (Elt F) → (⟨S1x128, .f32⟩ : BufTy).Contents (Elt F)),
    StableHlo.unary main_v202 main_v203 (broadcastInDim S100000x128 ![0, 1] bcast_S1x128_S100000x128_0_1 : (⟨S1x128, .f32⟩ : BufTy).Contents (Elt F) → (⟨S100000x128, .f32⟩ : BufTy).Contents (Elt F)),
    StableHlo.binary main_v201 main_v203 main_v204 (addf : (⟨S100000x128, .f32⟩ : BufTy).Contents (Elt F) → (⟨S100000x128, .f32⟩ : BufTy).Contents (Elt F) → (⟨S100000x128, .f32⟩ : BufTy).Contents (Elt F)) ]

set_option maxRecDepth 8192 in
/-- Window 0 runs its operations in order. -/
theorem main_part0_eq (c : Dev nD) : main_part0 (F := F) c = seq win0 := rfl

set_option maxRecDepth 8192 in
/-- Window 1 runs its operations in order. -/
theorem main_part1_eq (c : Dev nD) : main_part1 (F := F) c = seq win1 := rfl

set_option maxRecDepth 8192 in
/-- Window 2 runs its operations in order. -/
theorem main_part2_eq (c : Dev nD) : main_part2 (F := F) c = seq win2 := rfl

set_option maxRecDepth 8192 in
/-- Window 3 runs its operations in order. -/
theorem main_part3_eq (c : Dev nD) : main_part3 (F := F) c = seq win3 := rfl

set_option maxRecDepth 8192 in
/-- Window 4 runs its operations in order. -/
theorem main_part4_eq (c : Dev nD) : main_part4 (F := F) c = seq win4 := rfl

end Cert.ReferenceIdeal.RefRun

end
-- ==== Proof.RefRun.lean ====
/-
  The run of the reference program.

  The printed program is its five windows in order; each window is a straight line of operations; the windows'
  operations, one after the other, are the named lists' operations, one after the other. So the program is the
  straight line `ops`, and from any memory every weakly fair execution of it terminates with each buffer at the
  fold of the operations' results over the launch contents. No operation writes an argument, so the arguments end
  as they began: the reference's frame.
-/
import proofs.«112374_j17231408792366_2_alg».proof.Proof.RefRunOps
import proofs.«112374_j17231408792366_2_alg».proof.Proof.RefRunWin
import proofs.«112374_j17231408792366_2_alg».proof.Defs
import proofs.«112374_j17231408792366_2_alg».proof.Proof.Gen.Pre_finite_inputs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The windows' operations in order are the lists' operations in order: the same operations, cut at other places. -/
theorem windows_eq : (win0 ++ (win1 ++ (win2 ++ (win3 ++ win4))) : List (HloOp τ sig (Elt F))) = ops := rfl

set_option maxRecDepth 8192 in
/-- The program is the straight line `ops`: window by window, then the lines joined. -/
theorem main_eq (c : Dev nD) : main (F := F) c = seq ops := by
  rw [← windows_eq]
  simp only [seq_append, ← main_part0_eq c, ← main_part1_eq c, ← main_part2_eq c, ← main_part3_eq c, ← main_part4_eq c]
  rfl

/-- On every device, for any float values, from any memory with zero counters: every weakly fair execution of the
    program terminates, and every buffer ends at the fold of the operations' results over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The arguments are not written -/

theorem kept_main_arg0 (m : (ℓ : Loc nD τ sig) → Buf (Elt F) ℓ) (c : Dev nD) :
    after ops (launchContents m c) (Proc.devRef .tc main_arg0) = m ((c.tc : Thread nD τ).loc main_arg0) :=
  keep (launchContents m c) main_arg0 (by decide) (by decide) (by decide) (by decide) (by decide) (by decide) (by decide) (by decide) (by decide) (by decide) (by decide) (by decide)

theorem kept_main_arg1 (m : (ℓ : Loc nD τ sig) → Buf (Elt F) ℓ) (c : Dev nD) :
    after ops (launchContents m c) (Proc.devRef .tc main_arg1) = m ((c.tc : Thread nD τ).loc main_arg1) :=
  keep (launchContents m c) main_arg1 (by decide) (by decide) (by decide) (by decide) (by decide) (by decide) (by decide) (by decide) (by decide) (by decide) (by decide) (by decide)

theorem kept_main_arg2 (m : (ℓ : Loc nD τ sig) → Buf (Elt F) ℓ) (c : Dev nD) :
    after ops (launchContents m c) (Proc.devRef .tc main_arg2) = m ((c.tc : Thread nD τ).loc main_arg2) :=
  keep (launchContents m c) main_arg2 (by decide) (by decide) (by decide) (by decide) (by decide) (by decide) (by decide) (by decide) (by decide) (by decide) (by decide) (by decide)

theorem kept_main_arg3 (m : (ℓ : Loc nD τ sig) → Buf (Elt F) ℓ) (c : Dev nD) :
    after ops (launchContents m c) (Proc.devRef .tc main_arg3) = m ((c.tc : Thread nD τ).loc main_arg3) :=
  keep (launchContents m c) main_arg3 (by decide) (by decide) (by decide) (by decide) (by decide) (by decide) (by decide) (by decide) (by decide) (by decide) (by decide) (by decide)

theorem kept_main_arg4 (m : (ℓ : Loc nD τ sig) → Buf (Elt F) ℓ) (c : Dev nD) :
    after ops (launchContents m c) (Proc.devRef .tc main_arg4) = m ((c.tc : Thread nD τ).loc main_arg4) :=
  keep (launchContents m c) main_arg4 (by decide) (by decide) (by decide) (by decide) (by decide) (by decide) (by decide) (by decide) (by decide) (by decide) (by decide) (by decide)

theorem kept_main_arg5 (m : (ℓ : Loc nD τ sig) → Buf (Elt F) ℓ) (c : Dev nD) :
    after ops (launchContents m c) (Proc.devRef .tc main_arg5) = m ((c.tc : Thread nD τ).loc main_arg5) :=
  keep (launchContents m c) main_arg5 (by decide) (by decide) (by decide) (by decide) (by decide) (by decide) (by decide) (by decide) (by decide) (by decide) (by decide) (by decide)

theorem kept_main_arg6 (m : (ℓ : Loc nD τ sig) → Buf (Elt F) ℓ) (c : Dev nD) :
    after ops (launchContents m c) (Proc.devRef .tc main_arg6) = m ((c.tc : Thread nD τ).loc main_arg6) :=
  keep (launchContents m c) main_arg6 (by decide) (by decide) (by decide) (by decide) (by decide) (by decide) (by decide) (by decide) (by decide) (by decide) (by decide) (by decide)

theorem kept_main_arg7 (m : (ℓ : Loc nD τ sig) → Buf (Elt F) ℓ) (c : Dev nD) :
    after ops (launchContents m c) (Proc.devRef .tc main_arg7) = m ((c.tc : Thread nD τ).loc main_arg7) :=
  keep (launchContents m c) main_arg7 (by decide) (by decide) (by decide) (by decide) (by decide) (by decide) (by decide) (by decide) (by decide) (by decide) (by decide) (by decide)

theorem kept_main_arg8 (m : (ℓ : Loc nD τ sig) → Buf (Elt F) ℓ) (c : Dev nD) :
    after ops (launchContents m c) (Proc.devRef .tc main_arg8) = m ((c.tc : Thread nD τ).loc main_arg8) :=
  keep (launchContents m c) main_arg8 (by decide) (by decide) (by decide) (by decide) (by decide) (by decide) (by decide) (by decide) (by decide) (by decide) (by decide) (by decide)

theorem kept_main_arg9 (m : (ℓ : Loc nD τ sig) → Buf (Elt F) ℓ) (c : Dev nD) :
    after ops (launchContents m c) (Proc.devRef .tc main_arg9) = m ((c.tc : Thread nD τ).loc main_arg9) :=
  keep (launchContents m c) main_arg9 (by decide) (by decide) (by decide) (by decide) (by decide) (by decide) (by decide) (by decide) (by decide) (by decide) (by decide) (by decide)

theorem kept_main_arg10 (m : (ℓ : Loc nD τ sig) → Buf (Elt F) ℓ) (c : Dev nD) :
    after ops (launchContents m c) (Proc.devRef .tc main_arg10) = m ((c.tc : Thread nD τ).loc main_arg10) :=
  keep (launchContents m c) main_arg10 (by decide) (by decide) (by decide) (by decide) (by decide) (by decide) (by decide) (by decide) (by decide) (by decide) (by decide) (by decide)

theorem kept_main_arg11 (m : (ℓ : Loc nD τ sig) → Buf (Elt F) ℓ) (c : Dev nD) :
    after ops (launchContents m c) (Proc.devRef .tc main_arg11) = m ((c.tc : Thread nD τ).loc main_arg11) :=
  keep (launchContents m c) main_arg11 (by decide) (by decide) (by decide) (by decide) (by decide) (by decide) (by decide) (by decide) (by decide) (by decide) (by decide) (by decide)

theorem kept_main_arg12 (m : (ℓ : Loc nD τ sig) → Buf (Elt F) ℓ) (c : Dev nD) :
    after ops (launchContents m c) (Proc.devRef .tc main_arg12) = m ((c.tc : Thread nD τ).loc main_arg12) :=
  keep (launchContents m c) main_arg12 (by decide) (by decide) (by decide) (by decide) (by decide) (by decide) (by decide) (by decide) (by decide) (by decide) (by decide) (by decide)

theorem kept_main_arg13 (m : (ℓ : Loc nD τ sig) → Buf (Elt F) ℓ) (c : Dev nD) :
    after ops (launchContents m c) (Proc.devRef .tc main_arg13) = m ((c.tc : Thread nD τ).loc main_arg13) :=
  keep (launchContents m c) main_arg13 (by decide) (by decide) (by decide) (by decide) (by decide) (by decide) (by decide) (by decide) (by decide) (by decide) (by decide) (by decide)

theorem kept_main_arg14 (m : (ℓ : Loc nD τ sig) → Buf (Elt F) ℓ) (c : Dev nD) :
    after ops (launchContents m c) (Proc.devRef .tc main_arg14) = m ((c.tc : Thread nD τ).loc main_arg14) :=
  keep (launchContents m c) main_arg14 (by decide) (by decide) (by decide) (by decide) (by decide) (by decide) (by decide) (by decide) (by decide) (by decide) (by decide) (by decide)

theorem kept_main_arg15 (m : (ℓ : Loc nD τ sig) → Buf (Elt F) ℓ) (c : Dev nD) :
    after ops (launchContents m c) (Proc.devRef .tc main_arg15) = m ((c.tc : Thread nD τ).loc main_arg15) :=
  keep (launchContents m c) main_arg15 (by decide) (by decide) (by decide) (by decide) (by decide) (by decide) (by decide) (by decide) (by decide) (by decide) (by decide) (by decide)

theorem kept_main_arg16 (m : (ℓ : Loc nD τ sig) → Buf (Elt F) ℓ) (c : Dev nD) :
    after ops (launchContents m c) (Proc.devRef .tc main_arg16) = m ((c.tc : Thread nD τ).loc main_arg16) :=
  keep (launchContents m c) main_arg16 (by decide) (by decide) (by decide) (by decide) (by decide) (by decide) (by decide) (by decide) (by decide) (by decide) (by decide) (by decide)

theorem kept_main_arg17 (m : (ℓ : Loc nD τ sig) → Buf (Elt F) ℓ) (c : Dev nD) :
    after ops (launchContents m c) (Proc.devRef .tc main_arg17) = m ((c.tc : Thread nD τ).loc main_arg17) :=
  keep (launchContents m c) main_arg17 (by decide) (by decide) (by decide) (by decide) (by decide) (by decide) (by decide) (by decide) (by decide) (by decide) (by decide) (by decide)

/-- The reference's frame: under the precondition (not used: the run needs none) every weakly fair execution
    terminates without a fault and leaves the eighteen arguments as they were. -/
theorem frame_ri : Cert.frame_ReferenceIdeal := fun m ρ _ =>
  (θ_run Cert.ReferenceIdeal.defs _ _).mono
    (fun _ h c => ⟨(h c main_arg0).trans (kept_main_arg0 m c),
      (h c main_arg1).trans (kept_main_arg1 m c),
      (h c main_arg2).trans (kept_main_arg2 m c),
      (h c main_arg3).trans (kept_main_arg3 m c),
      (h c main_arg4).trans (kept_main_arg4 m c),
      (h c main_arg5).trans (kept_main_arg5 m c),
      (h c main_arg6).trans (kept_main_arg6 m c),
      (h c main_arg7).trans (kept_main_arg7 m c),
      (h c main_arg8).trans (kept_main_arg8 m c),
      (h c main_arg9).trans (kept_main_arg9 m c),
      (h c main_arg10).trans (kept_main_arg10 m c),
      (h c main_arg11).trans (kept_main_arg11 m c),
      (h c main_arg12).trans (kept_main_arg12 m c),
      (h c main_arg13).trans (kept_main_arg13 m c),
      (h c main_arg14).trans (kept_main_arg14 m c),
      (h c main_arg15).trans (kept_main_arg15 m c),
      (h c main_arg16).trans (kept_main_arg16 m c),
      (h c main_arg17).trans (kept_main_arg17 m c)⟩)
    (run_raw (F := Ideal) m ρ)

end Cert.ReferenceIdeal.RefRun

end
-- ==== Proof.RefRunRead.lean ====
/-
  What each list of the reference's line computes, read as the network's stages.

  At the ideal values each of the twelve lists computes one stage of the network from the buffers it finds: the
  edge table's two rows, a dense projection and the degree factor; a graph convolution of a projected array
  with given degree factors; the column mean and variance; the normalised, clamped layer with its residual; the
  dense pair added back; the row normalisation. A stage that reads earlier results is stated under equations
  saying what those buffers hold, so the stages chain: read in order from the launch contents, the last buffer
  holds the whole network of the eighteen arguments.
-/
import proofs.«112374_j17231408792366_2_alg».proof.Proof.RefRunOps
import proofs.«112374_j17231408792366_2_alg».proof.Proof.Net

noncomputable section

namespace Cert.ReferenceIdeal.RefRun

open Cert.ReferenceIdeal Cert.ReferenceIdeal.Gen Idealize.ShloMosaic Idealize.ShloMosaic.TcCoe Idealize.SL.Sem Idealize.ShloMosaic.StableHlo

/-- A buffer's contents in a valuation. -/
local notation:max W "⟪" r "⟫" => W (Proc.devRef (τ := τ) Proc.tc r)

variable (W : Valuation τ sig (Elt Ideal))

/-! ## The lists one by one -/

set_option maxRecDepth 8192 in
/-- The first list leaves the edges' source nodes, -/
theorem after_opsA_v1 : after (opsA (F := Ideal)) W (Proc.devRef .tc main_v1) = Net.rowOf W⟪main_arg1⟫ := by
  after_results_simp <;> rfl

set_option maxRecDepth 8192 in
/-- their destination nodes, -/
theorem after_opsA_v3 : after (opsA (F := Ideal)) W (Proc.devRef .tc main_v3) = Net.colOf W⟪main_arg1⟫ := by
  after_results_simp <;> rfl

set_option maxRecDepth 8192 in
/-- the input's rows against the first weight matrix, -/
theorem after_opsA_v4 : after (opsA (F := Ideal)) W (Proc.devRef .tc main_v4) = Net.dense W⟪main_arg0⟫ W⟪main_arg2⟫ := by
  after_results_simp <;> rfl

set_option maxRecDepth 8192 in
/-- and the degree factor of the destination nodes. -/
theorem after_opsA_v11 : after (opsA (F := Ideal)) W (Proc.devRef .tc main_v11) = Net.degInv (Net.colOf W⟪main_arg1⟫) := by
  after_results_simp <;> rfl

set_option maxRecDepth 8192 in
set_option maxHeartbeats 1600000 in
/-- The second list: when the buffers it reads hold a projection, the degree factor, the source and the destination nodes, it leaves the graph convolution of them with the first bias. -/
theorem after_opsB_v47 (h : Net.AND) (w : Net.ADD) (row col : Net.IE)
    (hp : W⟪main_v4⟫ = Net.dense h w) (hd : W⟪main_v11⟫ = Net.degInv col)
    (hr : W⟪main_v1⟫ = row) (hc : W⟪main_v3⟫ = col) :
    after (opsB (F := Ideal)) W (Proc.devRef .tc main_v47) = Net.refConv h w W⟪main_arg3⟫ row col := by
  after_results_simp
  rw [hp, hd, hr, hc]
  rfl

set_option maxRecDepth 8192 in
set_option maxHeartbeats 400000 in
/-- The third list leaves the column means of the array it reads, -/
theorem after_opsC_v50 : after (opsC (F := Ideal)) W (Proc.devRef .tc main_v50) = Net.colMean W⟪main_v47⟫ := by
  after_results_simp <;> rfl

set_option maxRecDepth 8192 in
set_option maxHeartbeats 1600000 in
/-- and its column variances. -/
theorem after_opsC_v51 : after (opsC (F := Ideal)) W (Proc.devRef .tc main_v51) = Net.colVar W⟪main_v47⟫ := by
  after_results_simp <;> rfl

set_option maxRecDepth 8192 in
set_option maxHeartbeats 1600000 in
/-- The fourth list: the array normalised by the statistics it finds, scaled, shifted, clamped at zero, the input added back. -/
theorem after_opsD_v68 : after (opsD (F := Ideal)) W (Proc.devRef .tc main_v68) = Net.bnAct W⟪main_v47⟫ W⟪main_v50⟫ W⟪main_v51⟫ W⟪main_arg8⟫ W⟪main_arg9⟫ W⟪main_arg0⟫ := by
  after_results_simp <;> rfl

set_option maxRecDepth 8192 in
set_option maxHeartbeats 400000 in
/-- The fifth list leaves the rows it reads against the second weight matrix, -/
theorem after_opsE1_v69 : after (opsE1 (F := Ideal)) W (Proc.devRef .tc main_v69) = Net.dense W⟪main_v68⟫ W⟪main_arg4⟫ := by
  after_results_simp <;> rfl

set_option maxRecDepth 8192 in
set_option maxHeartbeats 400000 in
/-- and the degree factor of the destination nodes again. -/
theorem after_opsE1_v76 : after (opsE1 (F := Ideal)) W (Proc.devRef .tc main_v76) = Net.degInv W⟪main_v3⟫ := by
  after_results_simp <;> rfl

set_option maxRecDepth 8192 in
set_option maxHeartbeats 1600000 in
/-- The sixth list: the graph convolution with the second bias. -/
theorem after_opsE2_v112 (h : Net.AND) (w : Net.ADD) (row col : Net.IE)
    (hp : W⟪main_v69⟫ = Net.dense h w) (hd : W⟪main_v76⟫ = Net.degInv col)
    (hr : W⟪main_v1⟫ = row) (hc : W⟪main_v3⟫ = col) :
    after (opsE2 (F := Ideal)) W (Proc.devRef .tc main_v112) = Net.refConv h w W⟪main_arg5⟫ row col := by
  after_results_simp
  rw [hp, hd, hr, hc]
  rfl

set_option maxRecDepth 8192 in
set_option maxHeartbeats 400000 in
/-- The seventh list leaves the column means, -/
theorem after_opsF_v115 : after (opsF (F := Ideal)) W (Proc.devRef .tc main_v115) = Net.colMean W⟪main_v112⟫ := by
  after_results_simp <;> rfl

set_option maxRecDepth 8192 in
set_option maxHeartbeats 1600000 in
/-- and the column variances. -/
theorem after_opsF_v116 : after (opsF (F := Ideal)) W (Proc.devRef .tc main_v116) = Net.colVar W⟪main_v112⟫ := by
  after_results_simp <;> rfl

set_option maxRecDepth 8192 in
set_option maxHeartbeats 1600000 in
/-- The eighth list: the second normalised, clamped layer, the first layer's output added back. -/
theorem after_opsG_v133 : after (opsG (F := Ideal)) W (Proc.devRef .tc main_v133) = Net.bnAct W⟪main_v112⟫ W⟪main_v115⟫ W⟪main_v116⟫ W⟪main_arg10⟫ W⟪main_arg11⟫ W⟪main_v68⟫ := by
  after_results_simp <;> rfl

set_option maxRecDepth 8192 in
set_option maxHeartbeats 400000 in
/-- The ninth list: the two dense layers with bias in turn, added back to what they were applied to. -/
theorem after_opsH_v142 : after (opsH (F := Ideal)) W (Proc.devRef .tc main_v142) = Net.attnRes W⟪main_v133⟫ W⟪main_arg12⟫ W⟪main_arg13⟫ W⟪main_arg14⟫ W⟪main_arg15⟫ := by
  after_results_simp <;> rfl

set_option maxRecDepth 8192 in
set_option maxHeartbeats 3200000 in
/-- The tenth list: the row normalisation, scaled and shifted. -/
theorem after_opsI_v160 : after (opsI (F := Ideal)) W (Proc.devRef .tc main_v160) = Net.lnAct W⟪main_v142⟫ W⟪main_arg16⟫ W⟪main_arg17⟫ := by
  after_results_simp <;> rfl

set_option maxRecDepth 8192 in
set_option maxHeartbeats 400000 in
/-- The eleventh list leaves the rows it reads against the third weight matrix, -/
theorem after_opsJ1_v161 : after (opsJ1 (F := Ideal)) W (Proc.devRef .tc main_v161) = Net.dense W⟪main_v160⟫ W⟪main_arg6⟫ := by
  after_results_simp <;> rfl

set_option maxRecDepth 8192 in
set_option maxHeartbeats 400000 in
/-- and the degree factor once more. -/
theorem after_opsJ1_v168 : after (opsJ1 (F := Ideal)) W (Proc.devRef .tc main_v168) = Net.degInv W⟪main_v3⟫ := by
  after_results_simp <;> rfl

set_option maxRecDepth 8192 in
set_option maxHeartbeats 1600000 in
/-- The twelfth list: the graph convolution with the third bias. -/
theorem after_opsJ2_v204 (h : Net.AND) (w : Net.ADD) (row col : Net.IE)
    (hp : W⟪main_v161⟫ = Net.dense h w) (hd : W⟪main_v168⟫ = Net.degInv col)
    (hr : W⟪main_v1⟫ = row) (hc : W⟪main_v3⟫ = col) :
    after (opsJ2 (F := Ideal)) W (Proc.devRef .tc main_v204) = Net.refConv h w W⟪main_arg7⟫ row col := by
  after_results_simp
  rw [hp, hd, hr, hc]
  rfl

/-! ## The lists in order -/

variable (V : Valuation τ sig (Elt Ideal))

/-- A buffer a list does not write holds after it what it held before it. -/
theorem thru {l : List (HloOp τ sig (Elt Ideal))} {Wl : List (Ref sig .tc)}
    (hw : l.Forall fun op => op.writes ⊆ (Wl.map (Proc.devRef (τ := τ) .tc)).toFinset)
    {r : Ref sig .tc} (h : r ∉ Wl) {t : (Proc.devRef (τ := τ) .tc r).ty.Contents (Elt Ideal)} (ht : W (Proc.devRef .tc r) = t) :
    after l W (Proc.devRef .tc r) = t :=
  (after_of_writes_sub l W hw h).trans ht

/-- The contents after the first list, the first two, and so on. -/
def atA : Valuation τ sig (Elt Ideal) := after (opsA (F := Ideal)) V
def atB : Valuation τ sig (Elt Ideal) := after (opsB (F := Ideal)) (atA V)
def atC : Valuation τ sig (Elt Ideal) := after (opsC (F := Ideal)) (atB V)
def atD : Valuation τ sig (Elt Ideal) := after (opsD (F := Ideal)) (atC V)
def atE1 : Valuation τ sig (Elt Ideal) := after (opsE1 (F := Ideal)) (atD V)
def atE2 : Valuation τ sig (Elt Ideal) := after (opsE2 (F := Ideal)) (atE1 V)
def atF : Valuation τ sig (Elt Ideal) := after (opsF (F := Ideal)) (atE2 V)
def atG : Valuation τ sig (Elt Ideal) := after (opsG (F := Ideal)) (atF V)
def atH : Valuation τ sig (Elt Ideal) := after (opsH (F := Ideal)) (atG V)
def atI : Valuation τ sig (Elt Ideal) := after (opsI (F := Ideal)) (atH V)
def atJ1 : Valuation τ sig (Elt Ideal) := after (opsJ1 (F := Ideal)) (atI V)
def atJ2 : Valuation τ sig (Elt Ideal) := after (opsJ2 (F := Ideal)) (atJ1 V)

/-- The whole line leaves what the twelve lists leave in turn. -/
theorem after_ops_eq : after (ops (F := Ideal)) V = atJ2 V := by
  simp only [ops, after_app]
  rfl

/-- A buffer no list writes: an argument. -/
abbrev Untouched (r : Ref sig .tc) : Prop :=
  r ∉ opsA_W ∧ r ∉ opsB_W ∧ r ∉ opsC_W ∧ r ∉ opsD_W ∧ r ∉ opsE1_W ∧ r ∉ opsE2_W ∧ r ∉ opsF_W ∧ r ∉ opsG_W ∧ r ∉ opsH_W ∧ r ∉ opsI_W ∧ r ∉ opsJ1_W ∧ r ∉ opsJ2_W

/-! The arguments hold throughout what they held at the start. -/
theorem atA_arg {r : Ref sig .tc} (h : Untouched r) : atA V (Proc.devRef .tc r) = V (Proc.devRef .tc r) :=
  after_of_writes_sub opsA V opsA_writes h.1
theorem atB_arg {r : Ref sig .tc} (h : Untouched r) : atB V (Proc.devRef .tc r) = V (Proc.devRef .tc r) :=
  thru (atA V) opsB_writes (by obtain ⟨hA, hB, _, _, _, _, _, _, _, _, _, _⟩ := h; exact hB) (atA_arg V h)
theorem atC_arg {r : Ref sig .tc} (h : Untouched r) : atC V (Proc.devRef .tc r) = V (Proc.devRef .tc r) :=
  thru (atB V) opsC_writes (by obtain ⟨hA, hB, hC, _, _, _, _, _, _, _, _, _⟩ := h; exact hC) (atB_arg V h)
theorem atD_arg {r : Ref sig .tc} (h : Untouched r) : atD V (Proc.devRef .tc r) = V (Proc.devRef .tc r) :=
  thru (atC V) opsD_writes (by obtain ⟨hA, hB, hC, hD, _, _, _, _, _, _, _, _⟩ := h; exact hD) (atC_arg V h)
theorem atE1_arg {r : Ref sig .tc} (h : Untouched r) : atE1 V (Proc.devRef .tc r) = V (Proc.devRef .tc r) :=
  thru (atD V) opsE1_writes (by obtain ⟨hA, hB, hC, hD, hE1, _, _, _, _, _, _, _⟩ := h; exact hE1) (atD_arg V h)
theorem atE2_arg {r : Ref sig .tc} (h : Untouched r) : atE2 V (Proc.devRef .tc r) = V (Proc.devRef .tc r) :=
  thru (atE1 V) opsE2_writes (by obtain ⟨hA, hB, hC, hD, hE1, hE2, _, _, _, _, _, _⟩ := h; exact hE2) (atE1_arg V h)
theorem atF_arg {r : Ref sig .tc} (h : Untouched r) : atF V (Proc.devRef .tc r) = V (Proc.devRef .tc r) :=
  thru (atE2 V) opsF_writes (by obtain ⟨hA, hB, hC, hD, hE1, hE2, hF, _, _, _, _, _⟩ := h; exact hF) (atE2_arg V h)
theorem atG_arg {r : Ref sig .tc} (h : Untouched r) : atG V (Proc.devRef .tc r) = V (Proc.devRef .tc r) :=
  thru (atF V) opsG_writes (by obtain ⟨hA, hB, hC, hD, hE1, hE2, hF, hG, _, _, _, _⟩ := h; exact hG) (atF_arg V h)
theorem atH_arg {r : Ref sig .tc} (h : Untouched r) : atH V (Proc.devRef .tc r) = V (Proc.devRef .tc r) :=
  thru (atG V) opsH_writes (by obtain ⟨hA, hB, hC, hD, hE1, hE2, hF, hG, hH, _, _, _⟩ := h; exact hH) (atG_arg V h)
theorem atI_arg {r : Ref sig .tc} (h : Untouched r) : atI V (Proc.devRef .tc r) = V (Proc.devRef .tc r) :=
  thru (atH V) opsI_writes (by obtain ⟨hA, hB, hC, hD, hE1, hE2, hF, hG, hH, hI, _, _⟩ := h; exact hI) (atH_arg V h)
theorem atJ1_arg {r : Ref sig .tc} (h : Untouched r) : atJ1 V (Proc.devRef .tc r) = V (Proc.devRef .tc r) :=
  thru (atI V) opsJ1_writes (by obtain ⟨hA, hB, hC, hD, hE1, hE2, hF, hG, hH, hI, hJ1, _⟩ := h; exact hJ1) (atI_arg V h)

/-- What the stages are of the launch contents: the edges' ends, the three convolutions' inputs and outputs. -/
abbrev sRow := Net.rowOf V⟪main_arg1⟫
abbrev sCol := Net.colOf V⟪main_arg1⟫
abbrev sConv1 := Net.refConv V⟪main_arg0⟫ V⟪main_arg2⟫ V⟪main_arg3⟫ (sRow V) (sCol V)
abbrev sLayer1 := Net.layer1 V⟪main_arg0⟫ V⟪main_arg1⟫ V⟪main_arg2⟫ V⟪main_arg3⟫ V⟪main_arg8⟫ V⟪main_arg9⟫
abbrev sConv2 := Net.refConv (sLayer1 V) V⟪main_arg4⟫ V⟪main_arg5⟫ (sRow V) (sCol V)
abbrev sLayer2 := Net.layer2 (sLayer1 V) V⟪main_arg1⟫ V⟪main_arg4⟫ V⟪main_arg5⟫ V⟪main_arg10⟫ V⟪main_arg11⟫
abbrev sAttn := Net.attnRes (sLayer2 V) V⟪main_arg12⟫ V⟪main_arg13⟫ V⟪main_arg14⟫ V⟪main_arg15⟫
abbrev sNorm := Net.lnAct (sAttn V) V⟪main_arg16⟫ V⟪main_arg17⟫

/-! After the first list: the edges' ends, the first projection, the degree factor. The ends stay through
    every later list, none of which writes them. -/
theorem atA_v1 : atA V (Proc.devRef .tc main_v1) = sRow V := after_opsA_v1 V
theorem atA_v3 : atA V (Proc.devRef .tc main_v3) = sCol V := after_opsA_v3 V
theorem atA_v4 : atA V (Proc.devRef .tc main_v4) = Net.dense V⟪main_arg0⟫ V⟪main_arg2⟫ := after_opsA_v4 V
theorem atA_v11 : atA V (Proc.devRef .tc main_v11) = Net.degInv (sCol V) := after_opsA_v11 V
theorem atB_v1 : atB V (Proc.devRef .tc main_v1) = sRow V := thru (atA V) opsB_writes (by decide) (atA_v1 V)
theorem atB_v3 : atB V (Proc.devRef .tc main_v3) = sCol V := thru (atA V) opsB_writes (by decide) (atA_v3 V)
theorem atC_v1 : atC V (Proc.devRef .tc main_v1) = sRow V := thru (atB V) opsC_writes (by decide) (atB_v1 V)
theorem atC_v3 : atC V (Proc.devRef .tc main_v3) = sCol V := thru (atB V) opsC_writes (by decide) (atB_v3 V)
theorem atD_v1 : atD V (Proc.devRef .tc main_v1) = sRow V := thru (atC V) opsD_writes (by decide) (atC_v1 V)
theorem atD_v3 : atD V (Proc.devRef .tc main_v3) = sCol V := thru (atC V) opsD_writes (by decide) (atC_v3 V)
theorem atE1_v1 : atE1 V (Proc.devRef .tc main_v1) = sRow V := thru (atD V) opsE1_writes (by decide) (atD_v1 V)
theorem atE1_v3 : atE1 V (Proc.devRef .tc main_v3) = sCol V := thru (atD V) opsE1_writes (by decide) (atD_v3 V)
theorem atE2_v1 : atE2 V (Proc.devRef .tc main_v1) = sRow V := thru (atE1 V) opsE2_writes (by decide) (atE1_v1 V)
theorem atE2_v3 : atE2 V (Proc.devRef .tc main_v3) = sCol V := thru (atE1 V) opsE2_writes (by decide) (atE1_v3 V)
theorem atF_v1 : atF V (Proc.devRef .tc main_v1) = sRow V := thru (atE2 V) opsF_writes (by decide) (atE2_v1 V)
theorem atF_v3 : atF V (Proc.devRef .tc main_v3) = sCol V := thru (atE2 V) opsF_writes (by decide) (atE2_v3 V)
theorem atG_v1 : atG V (Proc.devRef .tc main_v1) = sRow V := thru (atF V) opsG_writes (by decide) (atF_v1 V)
theorem atG_v3 : atG V (Proc.devRef .tc main_v3) = sCol V := thru (atF V) opsG_writes (by decide) (atF_v3 V)
theorem atH_v1 : atH V (Proc.devRef .tc main_v1) = sRow V := thru (atG V) opsH_writes (by decide) (atG_v1 V)
theorem atH_v3 : atH V (Proc.devRef .tc main_v3) = sCol V := thru (atG V) opsH_writes (by decide) (atG_v3 V)
theorem atI_v1 : atI V (Proc.devRef .tc main_v1) = sRow V := thru (atH V) opsI_writes (by decide) (atH_v1 V)
theorem atI_v3 : atI V (Proc.devRef .tc main_v3) = sCol V := thru (atH V) opsI_writes (by decide) (atH_v3 V)
theorem atJ1_v1 : atJ1 V (Proc.devRef .tc main_v1) = sRow V := thru (atI V) opsJ1_writes (by decide) (atI_v1 V)
theorem atJ1_v3 : atJ1 V (Proc.devRef .tc main_v3) = sCol V := thru (atI V) opsJ1_writes (by decide) (atI_v3 V)

/-- After the second list: the first convolution. -/
theorem atB_v47 : atB V (Proc.devRef .tc main_v47) = sConv1 V := by
  have h := after_opsB_v47 (atA V) _ _ _ _ (atA_v4 V) (atA_v11 V) (atA_v1 V) (atA_v3 V)
  rw [atA_arg V (r := main_arg3) (by decide)] at h
  exact h

/-- After the third: its column statistics beside it. -/
theorem atC_v47 : atC V (Proc.devRef .tc main_v47) = sConv1 V := thru (atB V) opsC_writes (by decide) (atB_v47 V)
theorem atC_v50 : atC V (Proc.devRef .tc main_v50) = Net.colMean (sConv1 V) := by
  have h := after_opsC_v50 (atB V)
  rw [atB_v47] at h
  exact h
theorem atC_v51 : atC V (Proc.devRef .tc main_v51) = Net.colVar (sConv1 V) := by
  have h := after_opsC_v51 (atB V)
  rw [atB_v47] at h
  exact h

/-- After the fourth: the first layer's output, which stays until the second layer has used it as its residual. -/
theorem atD_v68 : atD V (Proc.devRef .tc main_v68) = sLayer1 V := by
  have h := after_opsD_v68 (atC V)
  rw [atC_v47, atC_v50, atC_v51, atC_arg V (r := main_arg8) (by decide), atC_arg V (r := main_arg9) (by decide), atC_arg V (r := main_arg0) (by decide)] at h
  exact h
theorem atE1_v68 : atE1 V (Proc.devRef .tc main_v68) = sLayer1 V := thru (atD V) opsE1_writes (by decide) (atD_v68 V)
theorem atE2_v68 : atE2 V (Proc.devRef .tc main_v68) = sLayer1 V := thru (atE1 V) opsE2_writes (by decide) (atE1_v68 V)
theorem atF_v68 : atF V (Proc.devRef .tc main_v68) = sLayer1 V := thru (atE2 V) opsF_writes (by decide) (atE2_v68 V)

/-- After the fifth: the second projection and the degree factor. -/
theorem atE1_v69 : atE1 V (Proc.devRef .tc main_v69) = Net.dense (sLayer1 V) V⟪main_arg4⟫ := by
  have h := after_opsE1_v69 (atD V)
  rw [atD_v68, atD_arg V (r := main_arg4) (by decide)] at h
  exact h
theorem atE1_v76 : atE1 V (Proc.devRef .tc main_v76) = Net.degInv (sCol V) := by
  have h := after_opsE1_v76 (atD V)
  rw [atD_v3] at h
  exact h

/-- After the sixth: the second convolution; after the seventh: its column statistics beside it. -/
theorem atE2_v112 : atE2 V (Proc.devRef .tc main_v112) = sConv2 V := by
  have h := after_opsE2_v112 (atE1 V) _ _ _ _ (atE1_v69 V) (atE1_v76 V) (atE1_v1 V) (atE1_v3 V)
  rw [atE1_arg V (r := main_arg5) (by decide)] at h
  exact h
theorem atF_v112 : atF V (Proc.devRef .tc main_v112) = sConv2 V := thru (atE2 V) opsF_writes (by decide) (atE2_v112 V)
theorem atF_v115 : atF V (Proc.devRef .tc main_v115) = Net.colMean (sConv2 V) := by
  have h := after_opsF_v115 (atE2 V)
  rw [atE2_v112] at h
  exact h
theorem atF_v116 : atF V (Proc.devRef .tc main_v116) = Net.colVar (sConv2 V) := by
  have h := after_opsF_v116 (atE2 V)
  rw [atE2_v112] at h
  exact h

/-- After the eighth: the second layer's output. -/
theorem atG_v133 : atG V (Proc.devRef .tc main_v133) = sLayer2 V := by
  have h := after_opsG_v133 (atF V)
  rw [atF_v112, atF_v115, atF_v116, atF_arg V (r := main_arg10) (by decide), atF_arg V (r := main_arg11) (by decide), atF_v68] at h
  exact h

/-- After the ninth: the dense pair added back. -/
theorem atH_v142 : atH V (Proc.devRef .tc main_v142) = sAttn V := by
  have h := after_opsH_v142 (atG V)
  rw [atG_v133, atG_arg V (r := main_arg12) (by decide), atG_arg V (r := main_arg13) (by decide), atG_arg V (r := main_arg14) (by decide), atG_arg V (r := main_arg15) (by decide)] at h
  exact h

/-- After the tenth: the row normalisation. -/
theorem atI_v160 : atI V (Proc.devRef .tc main_v160) = sNorm V := by
  have h := after_opsI_v160 (atH V)
  rw [atH_v142, atH_arg V (r := main_arg16) (by decide), atH_arg V (r := main_arg17) (by decide)] at h
  exact h

/-- After the eleventh: the third projection and the degree factor. -/
theorem atJ1_v161 : atJ1 V (Proc.devRef .tc main_v161) = Net.dense (sNorm V) V⟪main_arg6⟫ := by
  have h := after_opsJ1_v161 (atI V)
  rw [atI_v160, atI_arg V (r := main_arg6) (by decide)] at h
  exact h
theorem atJ1_v168 : atJ1 V (Proc.devRef .tc main_v168) = Net.degInv (sCol V) := by
  have h := after_opsJ1_v168 (atI V)
  rw [atI_v3] at h
  exact h

/-- The line's last buffer holds the network of the eighteen arguments. -/
theorem after_ops_v204 :
    after (ops (F := Ideal)) V (Proc.devRef .tc main_v204)
      = Net.net V⟪main_arg0⟫ V⟪main_arg1⟫ V⟪main_arg2⟫ V⟪main_arg3⟫ V⟪main_arg4⟫ V⟪main_arg5⟫ V⟪main_arg6⟫ V⟪main_arg7⟫ V⟪main_arg8⟫ V⟪main_arg9⟫ V⟪main_arg10⟫ V⟪main_arg11⟫ V⟪main_arg12⟫ V⟪main_arg13⟫ V⟪main_arg14⟫ V⟪main_arg15⟫ V⟪main_arg16⟫ V⟪main_arg17⟫ := by
  have h := after_opsJ2_v204 (atJ1 V) _ _ _ _ (atJ1_v161 V) (atJ1_v168 V) (atJ1_v1 V) (atJ1_v3 V)
  rw [atJ1_arg V (r := main_arg7) (by decide)] at h
  rw [after_ops_eq]
  exact h

end Cert.ReferenceIdeal.RefRun

end
-- ==== Proof.RefRunValue.lean ====
/-
  The reference program's run, with its result named.

  From any memory with zero counters, at the ideal values, every weakly fair execution of the reference program
  terminates; the result buffer then holds the network of the eighteen arguments' launch contents, and the
  arguments hold what they held at the launch. The run is the straight line's; the result is the line's last
  buffer read stage by stage; no operation of the line writes an argument.
-/
import proofs.«112374_j17231408792366_2_alg».proof.Proof.RefRun
import proofs.«112374_j17231408792366_2_alg».proof.Proof.RefRunRead

noncomputable section

namespace Cert.ReferenceIdeal.RefRun

open Cert.ReferenceIdeal Cert.ReferenceIdeal.Gen Idealize.ShloMosaic Idealize.ShloMosaic.TcCoe Idealize.SL.Sem Idealize.ShloMosaic.StableHlo

/-- Every weakly fair execution of the reference terminates with the result buffer at the network of the arguments
    and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v204)
          = Net.net (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
              (m ((c.tc : Thread nD τ).loc main_arg13))
              (m ((c.tc : Thread nD τ).loc main_arg14))
              (m ((c.tc : Thread nD τ).loc main_arg15))
              (m ((c.tc : Thread nD τ).loc main_arg16))
              (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono
    (fun _ h c => ⟨(h c main_v204).trans (after_ops_v204 (launchContents m c)),
      (h c main_arg0).trans (kept_main_arg0 m c),
      (h c main_arg1).trans (kept_main_arg1 m c),
      (h c main_arg2).trans (kept_main_arg2 m c),
      (h c main_arg3).trans (kept_main_arg3 m c),
      (h c main_arg4).trans (kept_main_arg4 m c),
      (h c main_arg5).trans (kept_main_arg5 m c),
      (h c main_arg6).trans (kept_main_arg6 m c),
      (h c main_arg7).trans (kept_main_arg7 m c),
      (h c main_arg8).trans (kept_main_arg8 m c),
      (h c main_arg9).trans (kept_main_arg9 m c),
      (h c main_arg10).trans (kept_main_arg10 m c),
      (h c main_arg11).trans (kept_main_arg11 m c),
      (h c main_arg12).trans (kept_main_arg12 m c),
      (h c main_arg13).trans (kept_main_arg13 m c),
      (h c main_arg14).trans (kept_main_arg14 m c),
      (h c main_arg15).trans (kept_main_arg15 m c),
      (h c main_arg16).trans (kept_main_arg16 m c),
      (h c main_arg17).trans (kept_main_arg17 m c)⟩)
    (run_raw (F := Ideal) m ρ)

end Cert.ReferenceIdeal.RefRun

end
-- ==== Proof.Consts.lean ====
/-
  The float literals of the two programs whose VALUES the proof uses, as the extended reals their words denote.
  (A literal that appears as the same word on both sides is never evaluated; these are the ones that are compared
  with another number: zero as a sum's start, one as a degree's self loop, and the two counts a variance is
  divided by, whose positivity selects a branch.)
-/
import Idealize.ShloMosaic.PureOps.Ideal

noncomputable section

namespace Cert.Consts

open Idealize.ShloMosaic

/-- The f32 word of `+0.0` denotes `0`. -/
theorem ofBits_zero : Ideal.ofBits .f32 0x00000000#32 = 0 := by
  simp [Ideal.ofBits, Ideal.ieee]

/-- The f32 word of `1.0` denotes `1`. -/
theorem ofBits_one : Ideal.ofBits .f32 0x3F800000#32 = ((1 : ℝ) : EReal) := by
  simp [Ideal.ofBits, Ideal.ieee, -EReal.coe_mul]; norm_num

/-- The f32 word of `128.0` denotes the real `128`. -/
theorem ofBits_128 : Ideal.ofBits .f32 0x43000000#32 = ((128 : ℝ) : EReal) := by
  simp [Ideal.ofBits, Ideal.ieee, -EReal.coe_mul]; norm_num

/-- The f32 word of `100000.0` denotes the real `100000`. -/
theorem ofBits_100000 : Ideal.ofBits .f32 0x47C35000#32 = ((100000 : ℝ) : EReal) := by
  simp [Ideal.ofBits, Ideal.ieee, -EReal.coe_mul]; norm_num

end Cert.Consts

end
-- ==== Proof.NetIx.lean ====
/-
  The reference network's layout operations, gathers and scatters read at an index, and the degree factor's sign.

  * A vector over the columns repeated on every row reads, at (p, q), the vector at q; a vector over the rows repeated
    on every column reads the vector at p; likewise over the edges.
  * A gather of rows (of a [100000, 128] or a [100000] array) at a column of start indices reads, for edge e, the row
    the start index names, read as a signed number and clamped into 0 … 99999.
  * An update (e, k) of the row scatter lands on (i, k) exactly when edge e's start index, read signed, is the row i
    (so it lies in 0 … 99999); otherwise it is dropped.
  * An index in 0 … 99999 is not shifted by the wrap of negative indices, and the clamp leaves it alone: on an edge
    whose destination lands on row i, the gathers by destination read row i.
  * Every node's degree is one plus a count, a real number at least one, so its inverse square root is a
    non-negative real: never `+∞`.
-/
import proofs.«112374_j17231408792366_2_alg».proof.Proof.Net
import proofs.«112374_j17231408792366_2_alg».proof.Proof.Consts
import Idealize.ShloMosaic.Lib.Pipeline.Value
import Idealize.ShloMosaic.Lib.ValueIdx

noncomputable section

namespace Cert.Net

open Idealize.ShloMosaic Idealize.ShloMosaic.ValueIdx Cert.ReferenceIdeal Cert.ReferenceIdeal.Facts₀

/-! ## Broadcasts at an index -/

theorem overRows_apply (b : AD) (p : Fin 100000) (q : Fin 128) : overRows b (ix2 p q) = b (ix1 q) := by
  unfold overRows
  rw [broadcastInDim_apply _ _ _ (ix2 p q) (ix2 (0 : Fin 1) q) (fun a => by match a with | ⟨0, _⟩ => rfl | ⟨1, _⟩ => rfl)]
  rw [broadcastInDim_apply _ _ _ (ix2 (0 : Fin 1) q) (ix1 q) (fun a => by match a with | ⟨0, _⟩ => rfl)]

theorem overCols_apply (d : AN) (p : Fin 100000) (q : Fin 128) : overCols d (ix2 p q) = d (ix1 p) := by
  unfold overCols
  rw [broadcastInDim_apply _ _ _ (ix2 p q) (ix2 p (0 : Fin 1)) (fun a => by match a with | ⟨0, _⟩ => rfl | ⟨1, _⟩ => rfl)]
  rw [broadcastInDim_apply _ _ _ (ix2 p (0 : Fin 1)) (ix1 p) (fun a => by match a with | ⟨0, _⟩ => rfl)]

theorem overEdgeCols_apply (v : FVec Ideal S1600000 .f32) (e : Fin 1600000) (k : Fin 128) : overEdgeCols v (ix2 e k) = v (ix1 e) := by
  unfold overEdgeCols
  rw [broadcastInDim_apply _ _ _ (ix2 e k) (ix2 e (0 : Fin 1)) (fun a => by match a with | ⟨0, _⟩ => rfl | ⟨1, _⟩ => rfl)]
  rw [broadcastInDim_apply _ _ _ (ix2 e (0 : Fin 1)) (ix1 e) (fun a => by match a with | ⟨0, _⟩ => rfl)]

theorem colIdx_apply (r : IE) (e : Fin 1600000) : colIdx r (ix2 e (0 : Fin 1)) = r (ix1 e) := by
  unfold colIdx
  rw [broadcastInDim_apply _ _ _ (ix2 e (0 : Fin 1)) (ix1 e) (fun a => by match a with | ⟨0, _⟩ => rfl)]

/-- The wrapped index of an edge: shifted up by the row count when negative, else as it is. -/
theorem wrapIdx_apply (r : IE) (e : Fin 1600000) :
    wrapIdx r (ix2 e (0 : Fin 1)) = Scalar.select (IntOp.cmpi .slt (r (ix1 e)) 0#32) (IntOp.addi (r (ix1 e)) 100000#32) (r (ix1 e)) := by
  unfold wrapIdx
  rw [broadcastInDim_apply _ _ _ (ix2 e (0 : Fin 1)) (ix1 e) (fun a => by match a with | ⟨0, _⟩ => rfl)]
  rfl

/-- An index that is not negative is not shifted. -/
theorem wrapIdx_of_nonneg (r : IE) (e : Fin 1600000) (h : 0 ≤ (r (ix1 e)).toInt) : wrapIdx r (ix2 e (0 : Fin 1)) = r (ix1 e) := by
  rw [wrapIdx_apply]
  have hs : IntOp.cmpi .slt (r (ix1 e)) 0#32 = 0#1 := by
    show BitVec.ofBool ((r (ix1 e)).slt 0#32) = 0#1
    have : (r (ix1 e)).slt 0#32 = false := by
      rw [BitVec.slt]
      simp only [decide_eq_false_iff_not, not_lt]
      simpa using h
    rw [this]; rfl
  rw [hs]
  exact select_zero _ _

/-! ## Gathers and the scatter at an index -/

/-- The row a gather reads for a start index: the index read signed, clamped into the rows. -/
def clampRow (b : BitVec 32) : Fin 100000 := ⟨min b.toInt.toNat 99999, by omega⟩

theorem gatherND_siIdx (e : Fin 1600000) (k : Fin 128) (c) :
    gather_S100000x128_S1600000x1_S1600000x128_1_0_n_n_0_1_1128.siIdx (ix2 e k) c = ix2 e (0 : Fin 1) := by
  funext b; refine Fin.ext ?_
  match b with
  | ⟨0, _⟩ => rfl
  | ⟨1, _⟩ =>
    show c.val = 0
    have h : c.val < 1 := c.isLt
    omega

theorem gatherND_apply (x : AND) (idx : IVec S1600000x1 32) (e : Fin 1600000) (k : Fin 128) :
    Host.gather gather_S100000x128_S1600000x1_S1600000x128_1_0_n_n_0_1_1128 x idx (ix2 e k) = x (ix2 (clampRow (idx (ix2 e (0 : Fin 1)))) k) := by
  unfold Host.gather
  refine congrArg x (funext fun a => Fin.ext ?_)
  match a with
  | ⟨0, _⟩ =>
    show gather_S100000x128_S1600000x1_S1600000x128_1_0_n_n_0_1_1128.start (ix2 e k) idx 0
        + gather_S100000x128_S1600000x1_S1600000x128_1_0_n_n_0_1_1128.batchCoord (ix2 e k) 0
        + gather_S100000x128_S1600000x1_S1600000x128_1_0_n_n_0_1_1128.offCoord (ix2 e k) 0 = min (idx (ix2 e (0 : Fin 1))).toInt.toNat 99999
    rw [GatherDims.batchCoord_eq_zero _ _ _ (by decide), GatherDims.offCoord_eq_zero _ _ _ (by decide)]
    unfold GatherDims.start
    rw [dif_pos (by decide), gatherND_siIdx]
    rfl
  | ⟨1, _⟩ =>
    show gather_S100000x128_S1600000x1_S1600000x128_1_0_n_n_0_1_1128.start (ix2 e k) idx 1
        + gather_S100000x128_S1600000x1_S1600000x128_1_0_n_n_0_1_1128.batchCoord (ix2 e k) 1
        + gather_S100000x128_S1600000x1_S1600000x128_1_0_n_n_0_1_1128.offCoord (ix2 e k) 1 = k.val
    rw [GatherDims.batchCoord_eq_zero _ _ _ (by decide)]
    unfold GatherDims.start
    rw [dif_neg (by decide)]
    unfold GatherDims.offCoord
    rw [dif_pos (by decide)]
    have key : ∀ a : Fin 2, a = 1 → (ix2 e k a).val = k.val := by intro a ha; subst ha; rfl
    refine ((by intro n; omega : ∀ n : ℕ, 0 + 0 + n = n) _).trans (key _ ?_)
    decide

theorem gatherN_siIdx (e : Fin 1600000) (c) :
    gather_S100000_S1600000x1_S1600000_n_0_n_n_0_1_1.siIdx (ix1 e) c = ix2 e (0 : Fin 1) := by
  funext b; refine Fin.ext ?_
  match b with
  | ⟨0, _⟩ => rfl
  | ⟨1, _⟩ =>
    show c.val = 0
    have h : c.val < 1 := c.isLt
    omega

theorem gatherN_apply (x : AN) (idx : IVec S1600000x1 32) (e : Fin 1600000) :
    Host.gather gather_S100000_S1600000x1_S1600000_n_0_n_n_0_1_1 x idx (ix1 e) = x (ix1 (clampRow (idx (ix2 e (0 : Fin 1))))) := by
  unfold Host.gather
  refine congrArg x (funext fun a => Fin.ext ?_)
  match a with
  | ⟨0, _⟩ =>
    show gather_S100000_S1600000x1_S1600000_n_0_n_n_0_1_1.start (ix1 e) idx 0
        + gather_S100000_S1600000x1_S1600000_n_0_n_n_0_1_1.batchCoord (ix1 e) 0
        + gather_S100000_S1600000x1_S1600000_n_0_n_n_0_1_1.offCoord (ix1 e) 0 = min (idx (ix2 e (0 : Fin 1))).toInt.toNat 99999
    rw [GatherDims.batchCoord_eq_zero _ _ _ (by decide), GatherDims.offCoord_eq_zero _ _ _ (by decide)]
    unfold GatherDims.start
    rw [dif_pos (by decide), gatherN_siIdx]
    rfl

/-- Where an update lands: its row is the start index read signed (so that is in range), its column the update's. -/
theorem scatterND_lands (idx : IVec S1600000x1 32) (e : Fin 1600000) (k : Fin 128) (i : S100000x128.Idx)
    (h : scatter_S100000x128_S1600000x1_S1600000x128_1_0_0_1.resultIdx? (ix2 e k) idx = some i) :
    (idx (ix2 e (0 : Fin 1))).toInt = ((i 0).val : Int) ∧ (i 1).val = k.val := by
  unfold ScatterDims.resultIdx? at h
  split at h
  · rename_i hc
    injection h with h
    subst h
    have h0 := hc 0
    have s0 : scatter_S100000x128_S1600000x1_S1600000x128_1_0_0_1.start (ix2 e k) idx 0 = (idx (ix2 e (0 : Fin 1))).toInt := by
      unfold ScatterDims.start
      rw [dif_pos (by decide)]
      refine congrArg (fun z => (idx z).toInt) ?_
      funext b; refine Fin.ext ?_
      match b with
      | ⟨0, _⟩ => rfl
      | ⟨1, _⟩ => rfl
    have w0 : scatter_S100000x128_S1600000x1_S1600000x128_1_0_0_1.window (ix2 e k) 0 = 0 := by
      unfold ScatterDims.window
      rw [dif_neg (by decide)]
    have s1 : scatter_S100000x128_S1600000x1_S1600000x128_1_0_0_1.start (ix2 e k) idx 1 = 0 := by
      unfold ScatterDims.start
      rw [dif_neg (by decide)]
    have w1 : scatter_S100000x128_S1600000x1_S1600000x128_1_0_0_1.window (ix2 e k) 1 = k.val := by
      unfold ScatterDims.window
      rw [dif_pos (by decide)]
      have key : ∀ a : Fin 2, a = 1 → (ix2 e k a).val = k.val := by intro a ha; subst ha; rfl
      refine key _ ?_
      decide
    constructor
    · show _ = (((scatter_S100000x128_S1600000x1_S1600000x128_1_0_0_1.start (ix2 e k) idx 0 + (scatter_S100000x128_S1600000x1_S1600000x128_1_0_0_1.window (ix2 e k) 0 : Int)).toNat : Nat) : Int)
      rw [s0, w0] at h0 ⊢
      omega
    · show ((scatter_S100000x128_S1600000x1_S1600000x128_1_0_0_1.start (ix2 e k) idx 1 + (scatter_S100000x128_S1600000x1_S1600000x128_1_0_0_1.window (ix2 e k) 1 : Int)).toNat : Nat) = k.val
      rw [s1, w1]
      omega
  · exact absurd h (by simp)

/-- A start index that is a row read signed is that row after the clamp. -/
theorem clampRow_of_eq (b : BitVec 32) (i : Fin 100000) (h : b.toInt = (i.val : Int)) : clampRow b = i := by
  refine Fin.ext ?_
  show min b.toInt.toNat 99999 = i.val
  have := i.isLt
  omega

end Cert.Net

end
-- ==== Proof.NetDeg.lean ====
/-
  The degree factor is a non-negative real.

  A node's degree is the zero word plus one `1.0` per edge arriving at it, plus `1.0` for the self loop: as an
  extended real, the natural number of arriving edges plus one. The inverse square root of a positive real is a
  positive real; in particular it is non-negative and not `+∞`, which is what lets it be moved across a sum.
-/
import proofs.«112374_j17231408792366_2_alg».proof.Proof.Net
import proofs.«112374_j17231408792366_2_alg».proof.Proof.Consts
import Idealize.ShloMosaic.Lib.Pipeline.Value
import Idealize.ShloMosaic.Lib.ValueIdx

noncomputable section

namespace Cert.Net

open Idealize.ShloMosaic Idealize.ShloMosaic.ValueIdx Cert.ReferenceIdeal Cert.ReferenceIdeal.Facts₀

/-- A sum of ones is the number of summands. -/
theorem sum_one_coe {ι : Type*} (S : Finset ι) : ∑ _j ∈ S, ((1 : ℝ) : EReal) = ((S.card : ℝ) : EReal) := by
  classical
  induction S using Finset.induction_on with
  | empty => simp
  | insert a S ha ih =>
    rw [Finset.sum_insert ha, ih, Finset.card_insert_of_notMem ha, ← EReal.coe_add]
    refine congrArg _ ?_
    push_cast
    ring

/-- A scalar of rank 0 repeated over any shape reads, everywhere, the scalar. -/
theorem bcast0_apply {t : Shape} {α : Type} (h : S_.BroadcastsInDim t (![] : Fin 0 → Fin t.rank)) (x : S_.Idx → α) (j : t.Idx) :
    broadcastInDim t ![] h x j = x ix0 :=
  broadcastInDim_apply _ _ _ j ix0 (fun a => a.elim0)

/-- The inverse square root of a positive real is the real `1 / √r`. -/
theorem rsqrt_coe_of_pos (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- The host's inverse square root reads element by element. -/
theorem hostRsqrt_apply {s : Shape} (x : FVec Ideal s .f32) (i : s.Idx) : Host.rsqrt x i = Ideal.rsqrt (x i) := rfl

/-- The host's accumulating scatter reads, at an index, the operand there plus the sum of the updates landing there. -/
theorem scatterAdd_apply {s si su : Shape} (d : ScatterDims s si su) {w : Nat} (x : FVec Ideal s .f32) (idx : IVec si w)
    (upd : FVec Ideal su .f32) (i : s.Idx) :
    Host.scatterAdd d x idx upd i = Ideal.hostScatterAdd d x idx upd i := rfl

/-- Zero, plus one per element of a finite set, plus one, under the inverse square root. -/
theorem rsqrt_count {ι : Type*} (S : Finset ι) (z o o' : EReal) (f : ι → EReal) (hz : z = 0) (ho : o = ((1 : ℝ) : EReal))
    (ho' : o' = ((1 : ℝ) : EReal)) (hf : ∀ j, f j = o') :
    Ideal.rsqrt ((z + ∑ j ∈ S, f j) + o) = (((Real.sqrt ((S.card : ℝ) + 1))⁻¹ : ℝ) : EReal) := by
  rw [Finset.sum_congr rfl (fun j _ => hf j), hz, ho, ho', zero_add, sum_one_coe, ← EReal.coe_add]
  exact rsqrt_coe_of_pos _ (by positivity)

/-- THE DEGREE FACTOR of node `i`: the inverse square root of a natural number plus one. -/
theorem degInv_eq (col : IE) (i : S100000.Idx) : ∃ n : ℕ, degInv col i = (((Real.sqrt ((n : ℝ) + 1))⁻¹ : ℝ) : EReal) := by
  unfold degInv
  rw [hostRsqrt_apply, addf_apply, scatterAdd_apply]
  unfold Ideal.hostScatterAdd
  exact ⟨_, rsqrt_count _ _ _ _ _
    ((bcast0_apply _ _ _).trans Cert.Consts.ofBits_zero)
    ((bcast0_apply _ _ _).trans Cert.Consts.ofBits_one)
    Cert.Consts.ofBits_one
    (fun j => bcast0_apply _ _ j)⟩

/-- So it is non-negative and not `+∞`. -/
theorem degInv_nonneg (col : IE) (i : S100000.Idx) : 0 ≤ degInv col i := by
  obtain ⟨n, hn⟩ := degInv_eq col i
  rw [hn]
  exact EReal.coe_nonneg.mpr (inv_nonneg.mpr (Real.sqrt_nonneg _))

theorem degInv_ne_top (col : IE) (i : S100000.Idx) : degInv col i ≠ ⊤ := by
  obtain ⟨n, hn⟩ := degInv_eq col i
  rw [hn]
  exact EReal.coe_ne_top _

end Cert.Net

end
-- ==== Proof.LibScatterScale.lean ====
/-
  A general law of the host's accumulating scatter over the extended reals.

  `Ideal.hostScatterAdd d x idx upd` is, at each operand index `i`, the operand's element plus the sum of the update
  elements that land on `i`. Multiplication by a factor that is non-negative and not `+∞` distributes over a sum of
  extended reals (an infinite summand of either sign keeps its sign; opposite infinities add to `-∞` on both sides),
  so scaling the result at `i` by such a factor `c i` is the same as scaling the operand at `i` and every update that
  lands on `i` by `c i`. The updates that land nowhere (an index outside the operand) are never summed, so nothing is
  asked of them.
-/
import Idealize.ShloMosaic.PureOps.Ideal

noncomputable section

namespace Cert.LibScatterScale

open Idealize.ShloMosaic

/-- A factor that is non-negative and not `+∞` distributes over a finite sum of extended reals, from the right. -/
theorem sum_mul_of_nonneg_of_ne_top {ι : Type*} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-- THE SCALING LAW. If the operand `x'` is `x` scaled index by index by `c`, and every update that lands on an index
    `i` is in `upd'` the one in `upd` scaled by `c i`, then the accumulated result of `x'`, `upd'` at `i` is that of
    `x`, `upd` scaled by `c i` — for a factor `c i` that is non-negative and not `+∞`. -/
theorem hostScatterAdd_scale {s si su : Shape} (d : ScatterDims s si su) {w : Nat} (idx : IVec si w)
    (x x' : s.Idx → EReal) (upd upd' : su.Idx → EReal) (c : s.Idx → EReal) (i : s.Idx)
    (h0 : 0 ≤ c i) (ht : c i ≠ ⊤) (hx : x' i = x i * c i)
    (hu : ∀ j, d.resultIdx? j idx = some i → upd' j = upd j * c i) :
    Ideal.hostScatterAdd d x' idx upd' i = Ideal.hostScatterAdd d x idx upd i * c i := by
  unfold Ideal.hostScatterAdd
  rw [EReal.right_distrib_of_nonneg_of_ne_top h0 ht, sum_mul_of_nonneg_of_ne_top _ _ h0 ht, hx]
  congr 1
  exact Finset.sum_congr rfl fun j hj => hu j (Finset.mem_filter.mp hj).2

/-- The same with a zero operand on both sides (a segment sum): nothing is asked of the operand. -/
theorem hostScatterAdd_zero_scale {s si su : Shape} (d : ScatterDims s si su) {w : Nat} (idx : IVec si w)
    (upd upd' : su.Idx → EReal) (c : s.Idx → EReal) (i : s.Idx)
    (h0 : 0 ≤ c i) (ht : c i ≠ ⊤)
    (hu : ∀ j, d.resultIdx? j idx = some i → upd' j = upd j * c i) :
    Ideal.hostScatterAdd d (fun _ => 0) idx upd' i = Ideal.hostScatterAdd d (fun _ => 0) idx upd i * c i :=
  hostScatterAdd_scale d idx _ _ upd upd' c i h0 ht (by simp) hu

end Cert.LibScatterScale

end
-- ==== Proof.ConvBridge.lean ====
/-
  One graph convolution, in the kernel's arrangement and in the reference's, is the same array.

  The reference scales every edge's message by both endpoints' degree factors before summing the messages at the
  destination. The kernel scales every projected row by its own node's factor once (before the edges read it), sums
  the unscaled-by-destination messages at each destination, and multiplies the sum by the destination's factor
  afterwards. The two agree because every message summed at node `i` carries the same factor `d i` — an edge lands
  on `i` exactly when its destination index, read signed, is `i`, and then the reference's gather by destination
  reads `d i` — and a factor that is a non-negative real distributes over the sum. The self-loop term and the bias
  are the same on both sides.
-/
import proofs.«112374_j17231408792366_2_alg».proof.Proof.NetIx
import proofs.«112374_j17231408792366_2_alg».proof.Proof.NetDeg
import proofs.«112374_j17231408792366_2_alg».proof.Proof.NetK
import proofs.«112374_j17231408792366_2_alg».proof.Proof.LibScatterScale

noncomputable section

namespace Cert.Net

open Idealize.ShloMosaic Idealize.ShloMosaic.ValueIdx Cert.ReferenceIdeal Cert.ReferenceIdeal.Facts₀

theorem dvOf_apply (col : IE) (p : Fin 100000) : dvOf col (ix2 p (0 : Fin 1)) = degInv col (ix1 p) := by
  unfold dvOf
  refine shapeCast_apply _ _ (ix2 p (0 : Fin 1)) (ix1 p) ?_
  rw [Shape.rowMajor_val_one, Shape.rowMajor_val_two]
  show p.val = p.val * 1 + 0
  omega

/-- Every message summed at node `p` carries the factor `d p`: the kernel's sum of messages scaled by their sources,
    times `d p`, is the reference's sum of messages scaled by both endpoints. -/
theorem agg_scale (h : AND) (w : ADD) (row col : IE)
    (hdense : ∀ (p : Fin 100000) (q : Fin 128), dense h w (ix2 p q) = Cert.Spec.proj h w p q) (p : Fin 100000) (q : Fin 128) :
    aggOf (ofRC (Cert.Spec.projScaled h w (dvOf col))) row col (ix2 p q) * degInv col (ix1 p)
      = Host.scatterAdd scatter_S100000x128_S1600000x1_S1600000x128_1_0_0_1 (broadcastInDim S100000x128 ![] bcast_S_S100000x128 c0) (colIdx col)
          (mulf (Host.gather gather_S100000x128_S1600000x1_S1600000x128_1_0_n_n_0_1_1128 (dense h w) (wrapIdx row))
            (overEdgeCols (mulf (Host.gather gather_S100000_S1600000x1_S1600000_n_0_n_n_0_1_1 (degInv col) (wrapIdx row))
              (Host.gather gather_S100000_S1600000x1_S1600000_n_0_n_n_0_1_1 (degInv col) (wrapIdx col))))) (ix2 p q) := by
  unfold aggOf
  rw [scatterAdd_apply, scatterAdd_apply]
  symm
  refine Cert.LibScatterScale.hostScatterAdd_scale scatter_S100000x128_S1600000x1_S1600000x128_1_0_0_1 (colIdx col)
    (broadcastInDim S100000x128 ![] bcast_S_S100000x128 c0) (broadcastInDim S100000x128 ![] bcast_S_S100000x128 c0)
    (Host.gather gather_S100000x128_S1600000x1_S1600000x128_1_0_n_n_0_1_1128 (ofRC (Cert.Spec.projScaled h w (dvOf col))) (wrapIdx row))
    _ (fun i => degInv col (ix1 ⟨(i 0).val, idx2_lt0 i⟩)) (ix2 p q) (degInv_nonneg col _) (degInv_ne_top col _) ?_ ?_
  · rw [bcast0_apply]
    show Ideal.ofBits .f32 0x00000000#32 = Ideal.ofBits .f32 0x00000000#32 * _
    rw [Cert.Consts.ofBits_zero, zero_mul]
  · intro j hj
    obtain ⟨e, k, rfl⟩ : ∃ (e : Fin 1600000) (k : Fin 128), j = ix2 e k := ⟨j 0, j 1, eq_ix2 j⟩
    obtain ⟨hrow, hcol⟩ := scatterND_lands (colIdx col) e k (ix2 p q) hj
    have hk : k = q := Fin.ext hcol.symm
    subst hk
    rw [colIdx_apply] at hrow
    have hnn : 0 ≤ (col (ix1 e)).toInt := by rw [hrow]; exact Int.natCast_nonneg _
    have hc : clampRow (wrapIdx col (ix2 e (0 : Fin 1))) = p := by
      rw [wrapIdx_of_nonneg col e hnn]
      exact clampRow_of_eq _ p hrow
    rw [mulf_apply, gatherND_apply, gatherND_apply, overEdgeCols_apply, mulf_apply, gatherN_apply, gatherN_apply, hc, ofRC_apply, hdense]
    unfold Cert.Spec.projScaled
    rw [dvOf_apply]
    exact (mul_assoc _ _ _).symm

/-- THE CONVOLUTION BRIDGE, for any input rows `h` whose dense layer reads as the plain sum (`hdense`). -/
theorem conv_bridge (h : AND) (w : ADD) (b : AD) (row col : IE)
    (hdense : ∀ (p : Fin 100000) (q : Fin 128), dense h w (ix2 p q) = Cert.Spec.proj h w p q) :
    kConv h w b row col = refConv h w b row col := by
  unfold kConv
  funext i
  obtain ⟨p, q, rfl⟩ : ∃ (p : Fin 100000) (q : Fin 128), i = ix2 p q := ⟨i 0, i 1, eq_ix2 i⟩
  rw [ofRC_apply]
  unfold Cert.Spec.convOut refConv
  rw [addf_apply, addf_apply, mulf_apply, overRows_apply, overCols_apply, mulf_apply, dvOf_apply, ofRC_apply, hdense,
    agg_scale h w row col hdense p q]

end Cert.Net

end
-- ==== Proof.NetBn.lean ====
/-
  The reference's batch-normalised layer read at an index: at row `p`, column `q` it is the closed form of the
  specification — the entry minus the column's mean, times the inverse square root of the column's variance plus the
  small constant, times the scale, plus the shift; clamped below at zero; plus the residual's entry.
-/
import proofs.«112374_j17231408792366_2_alg».proof.Proof.NetIx
import proofs.«112374_j17231408792366_2_alg».proof.Proof.Spec
import Idealize.ShloMosaic.Lib.Pipeline.Value
import Idealize.ShloMosaic.Lib.ValueIdx

noncomputable section

namespace Cert.Net

open Idealize.ShloMosaic Idealize.ShloMosaic.ValueIdx Cert.ReferenceIdeal Cert.ReferenceIdeal.Facts₀

/-- A scalar repeated over a shape reads the scalar at every index. -/
private theorem bn_scalar_apply {s : Shape} (dims : Fin S_.rank → Fin s.rank) (h : S_.BroadcastsInDim s dims)
    (z : FVec Ideal S_ .f32) (i : s.Idx) : broadcastInDim s dims h z i = z ix0 :=
  broadcastInDim_apply dims h z i ix0 (fun a => a.elim0)

/-- THE LAYER AT AN INDEX: the specification's closed form. -/
theorem bnAct_apply (x res : AND) (mu var g be : AD) (p : Fin 100000) (q : Fin 128) :
    bnAct x mu var g be res (ix2 p q) = Cert.Spec.bnRelu x mu var g be res p q := by
  unfold bnAct
  rw [addf_apply, maximumf_apply, addf_apply, mulf_apply, mulf_apply, subf_apply, overRows_apply, overRows_apply,
    overRows_apply, overRows_apply, bn_scalar_apply]
  show max ((x (ix2 p q) - mu (ix1 q))
      * Ideal.rsqrt (var (ix1 q) + broadcastInDim S128 ![] bcast_S_S128 cEps (ix1 q)) * g (ix1 q) + be (ix1 q)) (c0 ix0)
      + res (ix2 p q) = _
  rw [bn_scalar_apply]
  rfl

end Cert.Net

end
-- ==== Proof.NetAttn.lean ====
/-
  The reference's dense layers, attention residual and row normalisation read at an entry.

  * A dense layer at (p, q) is row p of the input against column q of the weights: the closed form `Cert.Spec.proj`.
  * The attention residual at (p, q) is the input's entry plus the output projection, with bias, of the value
    projection, with bias, of row p: `Cert.Spec.attnY2`.
  * A row's sum over its 128 columns is the host's reduction from the zero word; its mean is the sum divided by the
    word of 128; its variance is guarded by "the count is positive", which holds (the count is 128 less nothing), so
    it is the sum of squared deviations divided by the same word; the row normalisation is `Cert.Spec.lnorm`.
-/
import proofs.«112374_j17231408792366_2_alg».proof.Proof.Net
import proofs.«112374_j17231408792366_2_alg».proof.Proof.Spec
import proofs.«112374_j17231408792366_2_alg».proof.Proof.Consts
import proofs.«112374_j17231408792366_2_alg».proof.Proof.NetIx
import Idealize.ShloMosaic.Lib.Pipeline.Value
import Idealize.ShloMosaic.Lib.IdealHost
import Idealize.ShloMosaic.PureOps.Ideal.Laws
import Idealize.ShloMosaic.Lib.ValueIdx

noncomputable section

namespace Cert.Net

open Idealize.ShloMosaic Idealize.ShloMosaic.ValueIdx Cert.ReferenceIdeal Cert.ReferenceIdeal.Facts₀

/-! ## A dense layer at an entry

The contraction runs over one axis of extent 128: the left operand's index keeps the output row and takes the
contracted coordinate as its column, the right operand's takes it as its row and keeps the output column. -/

private theorem lhs_row (i : S100000x128.Idx) (k : dot_S100000x128_S128x128_S100000x128_1_0_0_1_n_n.contr.Idx) :
    (dot_S100000x128_S128x128_S100000x128_1_0_0_1_n_n.lhsIdx i k 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

private theorem lhs_col (i : S100000x128.Idx) (k : dot_S100000x128_S128x128_S100000x128_1_0_0_1_n_n.contr.Idx) :
    (dot_S100000x128_S128x128_S100000x128_1_0_0_1_n_n.lhsIdx i k 1).val = (k ⟨0, by decide⟩).val :=
  dot_S100000x128_S128x128_S100000x128_1_0_0_1_n_n.lhsIdx_val_of_single rfl i k

private theorem rhs_row (i : S100000x128.Idx) (k : dot_S100000x128_S128x128_S100000x128_1_0_0_1_n_n.contr.Idx) :
    (dot_S100000x128_S128x128_S100000x128_1_0_0_1_n_n.rhsIdx i k 0).val = (k ⟨0, by decide⟩).val :=
  dot_S100000x128_S128x128_S100000x128_1_0_0_1_n_n.rhsIdx_val_of_single rfl i k

private theorem rhs_col (i : S100000x128.Idx) (k : dot_S100000x128_S128x128_S100000x128_1_0_0_1_n_n.contr.Idx) :
    (dot_S100000x128_S128x128_S100000x128_1_0_0_1_n_n.rhsIdx i k 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- Entry (p, q) of a dense layer is row p of the input against column q of the weights. -/
theorem dense_apply (h : AND) (w : ADD) (p : Fin 100000) (q : Fin 128) :
    dense h w (ix2 p q) = Cert.Spec.proj h w p q := by
  unfold dense Cert.Spec.proj
  show FloatOps.dotGeneral dot_S100000x128_S128x128_S100000x128_1_0_0_1_n_n none .single h w (ix2 p q) = _
  rw [Ideal.dotGeneral_apply,
    ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q)
      ((contrEquiv1 dot_S100000x128_S128x128_S100000x128_1_0_0_1_n_n 128 rfl rfl).symm k) = ix2 p k :=
    funext fun ax => Fin.ext (by
      match ax with
      | ⟨0, _⟩ => exact lhs_row _ _
      | ⟨1, _⟩ => exact (lhs_col _ _).trans hk)
  have er : dot_S100000x128_S128x128_S100000x128_1_0_0_1_n_n.rhsIdx (ix2 p q)
      ((contrEquiv1 dot_S100000x128_S128x128_S100000x128_1_0_0_1_n_n 128 rfl rfl).symm k) = ix2 k q :=
    funext fun ax => Fin.ext (by
      match ax with
      | ⟨0, _⟩ => exact (rhs_row _ _).trans hk
      | ⟨1, _⟩ => exact rhs_col _ _)
  rw [el, er]

/-! ## Broadcasts at an entry -/

/-- A column repeated along every row's length reads, at (p, q), its entry p. -/
theorem attn_overLength_apply (v : AN1) (p : Fin 100000) (q : Fin 128) :
    broadcastInDim S100000x128 ![0, 1] bcast_S100000x1_S100000x128_0_1 v (ix2 p q) = v (ix2 p (0 : Fin 1)) := by
  rw [broadcastInDim_apply _ _ _ (ix2 p q) (ix2 p (0 : Fin 1)) (fun a => by match a with | ⟨0, _⟩ => rfl | ⟨1, _⟩ => rfl)]

/-- A vector over the rows stood up as a column reads, at (p, 0), its entry p. -/
theorem attn_asColumn_apply (v : AN) (p : Fin 100000) :
    broadcastInDim S100000x1 ![0] bcast_S100000_S100000x1_0 v (ix2 p (0 : Fin 1)) = v (ix1 p) := by
  rw [broadcastInDim_apply _ _ _ (ix2 p (0 : Fin 1)) (ix1 p) (fun a => by match a with | ⟨0, _⟩ => rfl)]

/-! ## The attention residual at an entry -/

/-- The rows plus the output projection (with bias) of their value projection (with bias), entry by entry. -/
theorem attnRes_apply (h : AND) (wv : ADD) (bv : AD) (wo : ADD) (bo : AD) (p : Fin 100000) (q : Fin 128) :
    attnRes h wv bv wo bo (ix2 p q) = Cert.Spec.attnY2 (fun p q => h (ix2 p q)) wv bv wo bo p q := by
  unfold attnRes
  rw [addf_apply, addf_apply, dense_apply, overRows_apply]
  unfold Cert.Spec.attnY2 Cert.Spec.rowLin Cert.Spec.proj
  simp only [addf_apply, dense_apply, overRows_apply]
  unfold Cert.Spec.proj
  rfl

/-! ## A row's sum, mean and variance -/

/-- The sum over a row's 128 columns: the host's reduction over the second axis from the zero word. -/
theorem attn_rowSumR_apply (y : AND) (p : Fin 100000) :
    rowSumR y (ix2 p (0 : Fin 1)) = ∑ k : Fin 128, y (ix2 p k) := by
  have hR : S100000x128.Reduces [1] S100000 := by decide
  unfold rowSumR
  rw [attn_asColumn_apply, hostReduceAdd_apply, Ideal.hostReduceAdd_single reducesTo_S100000x128_S100000_d1 hR]
  unfold c0
  rw [constant_apply, Cert.Consts.ofBits_zero, zero_add]
  show ∑ k : Fin 128, y (hR.lift (ix1 p) k) = _
  refine Finset.sum_congr rfl fun k _ => congrArg y (funext fun a => Fin.ext ?_)
  match a with
  | ⟨0, _⟩ => rfl
  | ⟨1, _⟩ => rfl

/-- The row's mean: the sum divided by the word of 128. -/
theorem attn_rowMeanR_apply (y : AND) (p : Fin 100000) :
    rowMeanR y (ix2 p (0 : Fin 1)) = Cert.Spec.rowMean (fun p q => y (ix2 p q)) p := by
  unfold rowMeanR Cert.Spec.rowMean Cert.Spec.c128
  rw [hostDivf_apply, attn_rowSumR_apply, broadcastInDim_scalar_apply]
  unfold cD
  rw [constant_apply]

/-- The count the variance divides by: 128 less nothing is the word of 128 itself. -/
theorem attn_colsLess_apply : colsLess ix0 = Cert.Spec.c128 := by
  unfold colsLess cD Cert.Spec.c128
  rw [subf_apply, constant_apply]
  show Ideal.ofBits .f32 0x43000000#32 - (((0#32 : BitVec 32).toInt : ℝ) : EReal) = _
  rw [show ((0#32 : BitVec 32).toInt) = 0 from rfl]
  simp

/-- That count is positive, so the guard of the variance is the true bit. -/
theorem attn_guard_apply : cmpf .ogt colsLess c0 ix0 = 1#1 := by
  rw [cmpf_apply, attn_colsLess_apply]
  unfold c0 Cert.Spec.c128
  rw [constant_apply, Cert.Consts.ofBits_zero, Cert.Consts.ofBits_128]
  show Ideal.cmp .ogt ((128 : ℝ) : EReal) 0 = 1#1
  have h : (0 : EReal) < ((128 : ℝ) : EReal) := EReal.coe_pos.mpr (by norm_num)
  simp [Ideal.cmp, h]

/-- The row's biased variance: the guard holds, so it is the sum of the squared deviations from the mean divided by
    the word of 128. -/
theorem attn_rowVarR_apply (y : AND) (p : Fin 100000) :
    rowVarR y (ix2 p (0 : Fin 1)) = Cert.Spec.rowVar (fun p q => y (ix2 p q)) p := by
  unfold rowVarR
  rw [select_apply, broadcastInDim_scalar_apply, attn_guard_apply, select_one, hostDivf_apply,
    broadcastInDim_scalar_apply, attn_colsLess_apply, attn_rowSumR_apply]
  unfold Cert.Spec.rowVar
  refine congrArg (fun s => Ideal.div s Cert.Spec.c128) (Finset.sum_congr rfl fun k _ => ?_)
  rw [mulf_apply, subf_apply, attn_overLength_apply, attn_rowMeanR_apply]

/-! ## Row normalisation at an entry -/

/-- The deviation from the row's mean times the inverse square root of the variance plus the small constant, scaled
    and shifted, entry by entry. -/
theorem lnAct_apply (y : AND) (g b : AD) (p : Fin 100000) (q : Fin 128) :
    lnAct y g b (ix2 p q) = Cert.Spec.lnorm (fun p q => y (ix2 p q)) g b p q := by
  unfold lnAct Cert.Spec.lnorm
  rw [addf_apply, mulf_apply, mulf_apply, subf_apply, attn_overLength_apply, attn_overLength_apply, overRows_apply,
    overRows_apply, attn_rowMeanR_apply]
  show (_ - _) * Ideal.rsqrt ((addf (rowVarR y) (broadcastInDim S100000x1 ![] bcast_S_S100000x1 cEps)) (ix2 p (0 : Fin 1))) * _ + _ = _
  rw [addf_apply, attn_rowVarR_apply, broadcastInDim_scalar_apply]
  unfold cEps Cert.Spec.epsv
  rw [constant_apply]

/-- Row normalisation of the attention residual, entry by entry. -/
theorem lnAttn_apply (h : AND) (wv : ADD) (bv : AD) (wo : ADD) (bo g b : AD) (p : Fin 100000) (q : Fin 128) :
    lnAct (attnRes h wv bv wo bo) g b (ix2 p q)
      = Cert.Spec.lnorm (Cert.Spec.attnY2 (fun p q => h (ix2 p q)) wv bv wo bo) g b p q :=
  (lnAct_apply (attnRes h wv bv wo bo) g b p q).trans
    (congrArg (fun Y => Cert.Spec.lnorm Y g b p q)
      (funext fun p' => funext fun q' => attnRes_apply h wv bv wo bo p' q'))

end Cert.Net

end
-- ==== Proof.NetBridge.lean ====
/-
  The network in the kernel's arrangement is the reference network: `kNet = net`.

  Stage by stage. A convolution in the kernel's arrangement is the reference's (the convolution bridge, the dense
  layer read as a plain sum). Column normalisation by the convolution's own statistics, clamp and residual, read
  index by index, is the reference's batch-normalised layer — the statistics are the same host computation applied
  to arrays already shown equal, so they are never opened. The fused stage's first output is, index by index, row
  `p` of the row-normalised attention residual against column `q` of the last weight matrix: the projection of an
  array `h3` that is exactly the reference's row normalisation of its attention block; its second output is that
  projection times the degree factor. So the last convolution is once more a convolution in the kernel's
  arrangement, of `h3`, and the bridge applies a third time.
-/
import proofs.«112374_j17231408792366_2_alg».proof.Proof.ConvBridge
import proofs.«112374_j17231408792366_2_alg».proof.Proof.NetBn
import proofs.«112374_j17231408792366_2_alg».proof.Proof.NetAttn

noncomputable section

namespace Cert.Net

open Idealize.ShloMosaic Idealize.ShloMosaic.ValueIdx Cert.ReferenceIdeal Cert.ReferenceIdeal.Facts₀

/-- A convolution in the kernel's arrangement is the reference's. -/
theorem kConv_eq (h : AND) (w : ADD) (b : AD) (row col : IE) : kConv h w b row col = refConv h w b row col :=
  conv_bridge h w b row col (dense_apply h w)

/-- Column normalisation by the array's own statistics, index by index, is the reference's normalised layer. -/
theorem kBn_eq (cv : AND) (g be : AD) (res : AND) : kBn cv g be res = bnAct cv (colMean cv) (colVar cv) g be res :=
  (eq_ofRC _ _ (fun p q => bnAct_apply cv res (colMean cv) (colVar cv) g be p q)).symm

theorem kH1_eq (x : AND) (e : IVec S2x1600000 32) (w0 : ADD) (b0 g0 be0 : AD) : kH1 x e w0 b0 g0 be0 = layer1 x e w0 b0 g0 be0 := by
  unfold kH1 layer1
  rw [kConv_eq, kBn_eq]

theorem kC1_eq (x : AND) (e : IVec S2x1600000 32) (w0 : ADD) (b0 g0 be0 : AD) (w1 : ADD) (b1 : AD) :
    kC1 x e w0 b0 g0 be0 w1 b1 = refConv (layer1 x e w0 b0 g0 be0) w1 b1 (rowOf e) (colOf e) := by
  unfold kC1
  rw [kH1_eq, kConv_eq]

/-- The fused stage's rows after normalisation, clamp and residual are the reference's second layer, read by (row, column). -/
theorem attnY_eq (c1 : AND) (g1 be1 : AD) (h1 : AND) :
    Cert.Spec.attnY c1 (colMean c1) (colVar c1) g1 be1 h1 = fun p q => bnAct c1 (colMean c1) (colVar c1) g1 be1 h1 (ix2 p q) :=
  funext fun p => funext fun q => (bnAct_apply c1 h1 (colMean c1) (colVar c1) g1 be1 p q).symm

/-- The fused stage's first output is the projection of the row-normalised attention residual. -/
theorem attnHp2_eq (c1 : AND) (g1 be1 : AD) (h1 : AND) (wv : ADD) (bv : AD) (wo : ADD) (bo lng lnb : AD) (w2 : ADD) :
    Cert.Spec.attnHp2 c1 (colMean c1) (colVar c1) g1 be1 h1 wv bv wo bo lng lnb w2
      = Cert.Spec.proj (lnAct (attnRes (bnAct c1 (colMean c1) (colVar c1) g1 be1 h1) wv bv wo bo) lng lnb) w2 := by
  funext p q
  unfold Cert.Spec.attnHp2 Cert.Spec.proj
  rw [attnY_eq]
  exact Finset.sum_congr rfl fun k _ => by rw [lnAttn_apply]

/-- Its second output is that projection times the degree factor. -/
theorem attnHs2_eq (c1 : AND) (g1 be1 : AD) (h1 : AND) (wv : ADD) (bv : AD) (wo : ADD) (bo lng lnb : AD) (w2 : ADD) (dv : AN1) :
    Cert.Spec.attnHs2 c1 (colMean c1) (colVar c1) g1 be1 h1 wv bv wo bo lng lnb w2 dv
      = Cert.Spec.projScaled (lnAct (attnRes (bnAct c1 (colMean c1) (colVar c1) g1 be1 h1) wv bv wo bo) lng lnb) w2 dv := by
  funext p q
  unfold Cert.Spec.attnHs2 Cert.Spec.projScaled
  rw [attnHp2_eq]

/-- THE BRIDGE: the network in the kernel's arrangement is the reference network. -/
theorem kNet_eq_net (x : AND) (e : IVec S2x1600000 32) (w0 : ADD) (b0 : AD) (w1 : ADD) (b1 : AD) (w2 : ADD) (b2 g0 be0 g1 be1 : AD)
    (wv : ADD) (bv : AD) (wo : ADD) (bo lng lnb : AD) :
    kNet x e w0 b0 w1 b1 w2 b2 g0 be0 g1 be1 wv bv wo bo lng lnb = net x e w0 b0 w1 b1 w2 b2 g0 be0 g1 be1 wv bv wo bo lng lnb := by
  unfold kNet kHp2 kHs2
  rw [kC1_eq, kH1_eq, attnHp2_eq, attnHs2_eq]
  exact kConv_eq _ w2 b2 (rowOf e) (colOf e)

end Cert.Net

end
-- ==== Proof.lean ====
/-
  The certificate of the graph network: the kernel program, its idealization and the reference.

  THE CLAIM. Under finite float inputs: each of the three programs runs to the end without a fault and leaves its
  eighteen argument arrays unchanged (the frames); the idealized kernel program is the kernel program's own text read
  over the extended reals (nothing was rewritten, so that conjunct is trivial); and the idealized kernel program
  and the idealized reference, run from memories that agree on the arguments, end with the same result array.

  THE MATHEMATICS. The network is three graph convolutions around two batch-normalised layers and a one-token
  attention block with a row normalisation. A convolution sends, along every edge, the source node's projected row
  scaled by both endpoints' degree factors to the destination node and sums there, then adds the node's own row scaled
  by its factor squared, and a bias. The reference computes it literally. The kernel program scales each projected
  row by its own node's factor before the edges read it and multiplies the sum at each destination by the
  destination's factor afterwards. The two are equal because a degree factor is the inverse square root of one plus
  a count — a non-negative real, never infinite — and such a factor distributes over a sum of extended reals; every
  message summed at a node carries that node's factor, because an edge's message lands on node `i` exactly when its
  destination index is `i`, and then the reference's gather by destination reads node `i`'s factor. Everything else
  is the same arithmetic in another layout: matrix products block by block against whole products, lane sums against
  host sums, the statistics of the normalisations the same host computation on arrays already shown equal.

  THE PARTS. The frames of the two kernel programs are the generated frame proofs; the reference's frame is its run
  (its 315 host operations as one list) with the result dropped. The kernel program's run ends with the result at
  the contents a fold through its fifteen segments gives it; that fold is read, segment by segment, as the network in
  the kernel's arrangement (`kNet`: each region's array as one index-by-index function of its inputs, each host
  stretch as its operations' composed term); the reference's run ends at the reference network `net`; and
  `kNet = net` is the bridge above, applied once per convolution.
-/
import proofs.«112374_j17231408792366_2_alg».proof.Defs
import proofs.«112374_j17231408792366_2_alg».proof.Proof.Gen.Kernel
import proofs.«112374_j17231408792366_2_alg».proof.Proof.Gen.Kernel.Frame
import proofs.«112374_j17231408792366_2_alg».proof.Proof.Gen.KernelIdeal
import proofs.«112374_j17231408792366_2_alg».proof.Proof.Gen.KernelIdeal.Frame
import proofs.«112374_j17231408792366_2_alg».proof.Proof.Gen.ReferenceIdeal
import proofs.«112374_j17231408792366_2_alg».proof.Proof.Gen.Pre_finite_inputs
import proofs.«112374_j17231408792366_2_alg».proof.Proof.KRun
import proofs.«112374_j17231408792366_2_alg».proof.Proof.KVal
import proofs.«112374_j17231408792366_2_alg».proof.Proof.RefRunValue
import proofs.«112374_j17231408792366_2_alg».proof.Proof.NetBridge
import Idealize.ShloMosaic.Adequacy
import Idealize.ShloMosaic.Init

noncomputable section

namespace Cert.Proof

open Idealize.ShloMosaic Idealize.ShloMosaic.TcCoe Idealize.SL.Sem

/-- The three frames. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := Cert.ReferenceIdeal.RefRun.frame_ri

/-- Both idealized programs end at the reference network of the (agreeing) arguments. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run (Cert.KernelIdeal.defs (F := Ideal)) _ _).mono
      (fun r h c => ⟨(h c).1.trans ((Cert.KernelIdeal.KVal.kval m ρ c).trans (Cert.Net.kNet_eq_net _ _ _ _ _ _ _ _ _ _ _ _ _ _ _ _ _ _)), (h c).2⟩)
      (Cert.KernelIdeal.KRun.run (F := Ideal) m ρ)
  · refine (θ_run (Cert.ReferenceIdeal.defs (F := Ideal)) _ _).mono (fun r h c => ⟨(h c).1.trans ?_, (h c).2⟩) (Cert.ReferenceIdeal.RefRun.run m' ρ')
    obtain ⟨a0, a1, a2, a3, a4, a5, a6, a7, a8, a9, a10, a11, a12, a13, a14, a15, a16, a17⟩ := hagree c
    rw [a0, a1, a2, a3, a4, a5, a6, a7, a8, a9, a10, a11, a12, a13, a14, a15, a16, a17]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
